-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_arg1 : IVec S8192x2 32) (main_arg5 : FVec F S8x4096x1024 .f32) (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  let main_v19 : FVec F S8x4096x1024 .f32 := Host.absf main_arg5
  let main_cst_6 : FVec F S_ .f32 := constant S_ .f32 0x7F800000#32
  let main_v20 : FVec F S8x4096x1024 .f32 := broadcastInDim S8x4096x1024 ![] bcast_S_S8x4096x1024 main_cst_6
  let main_v21 : IVec S8x4096x1024 1 := cmpf .olt main_v19 main_v20
  let main_c_7 : IVec S_ 1 := constantI S_ 1 1#1
  let main_v22 : IVec S_ 1 := (fun x v => Host.reduce IntOp.andi x v reducesTo_S8x4096x1024_S_d0_1_2 h_S_) main_v21 main_c_7
  let main_v23 : IVec S_ 1 := andi main_v18 main_v22
  let main_c_8 : IVec S_ 32 := constantI S_ 32 0#32
  let main_v24 : IVec S8192x2 32 := broadcastInDim S8192x2 ![] bcast_S_S8192x2 main_c_8
  let main_v25 : IVec S8192x2 1 := cmpi .sge main_arg1 main_v24
  let main_c_9 : IVec S_ 32 := constantI S_ 32 8#32
  let main_v26 : IVec S8192x2 32 := broadcastInDim S8192x2 ![] bcast_S_S8192x2 main_c_9
  let main_v27 : IVec S8192x2 1 := cmpi .slt main_arg1 main_v26
  let main_v28 : IVec S8192x2 1 := andi main_v25 main_v27
  let main_c_10 : IVec S_ 1 := constantI S_ 1 1#1
  let main_v29 : IVec S_ 1 := (fun x v => Host.reduce IntOp.andi x v reducesTo_S8192x2_S_d0_1 h_S_) main_v28 main_c_10
  let main_v30 : IVec S_ 1 := andi main_v23 main_v29
  main_v30

def fn {F : FTy → Type} [FloatOps F] (main_arg0 : FVec F S8192x1024 .f32) (main_arg1 : IVec S8192x2 32) (main_arg2 : FVec F S8192x2 .f32) (main_arg3 : FVec F S8x1024x4096 .f32) (main_arg4 : FVec F S8x1024x4096 .f32) (main_arg5 : FVec F S8x4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x1024x4096 .f32 := Host.absf main_arg4
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_arg1 main_arg5 main_v13 main_v16
-- ==== Kernel.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S16384 : Shape := ⟨1, ![16384]⟩
abbrev S8192 : Shape := ⟨1, ![8192]⟩
abbrev S_ : Shape := ⟨0, ![]⟩
abbrev S16384x1 : Shape := ⟨2, ![16384, 1]⟩
abbrev S8 : Shape := ⟨1, ![8]⟩
abbrev S1 : Shape := ⟨1, ![1]⟩
abbrev S7 : Shape := ⟨1, ![7]⟩
abbrev S8x4352x1024 : Shape := ⟨3, ![8, 4352, 1024]⟩
abbrev S16384x1024 : Shape := ⟨2, ![16384, 1024]⟩
abbrev S16384x2 : Shape := ⟨2, ![16384, 2]⟩
abbrev S1x256x1024 : Shape := ⟨3, ![1, 256, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S1024x4096 : Shape := ⟨2, ![1024, 4096]⟩
abbrev S256x4096 : Shape := ⟨2, ![256, 4096]⟩
abbrev S4096x1024 : Shape := ⟨2, ![4096, 1024]⟩

abbrev nBuf : Space → Nat
  | .hbm => 155
  | .vmem => 7
  | .smem => 1
  | _ => 0

abbrev hbmTy0_0 (i : Nat) : BufTy := match i % 128 with
  | 0 => ⟨S8192x1024, .f32⟩
  | 1 => ⟨S8192x2, .i32⟩
  | 2 => ⟨S8192x2, .f32⟩
  | 3 => ⟨S8x1024x4096, .f32⟩
  | 4 => ⟨S8x1024x4096, .f32⟩
  | 5 => ⟨S8x4096x1024, .f32⟩
  | 6 => ⟨S16384, .i32⟩
  | 7 => ⟨S16384, .f32⟩
  | 8 => ⟨S8192, .i32⟩
  | 9 => ⟨S8192x2, .i32⟩
  | 10 => ⟨S16384, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384, .f32⟩
  | 41 => ⟨S_, .i32⟩
  | 42 => ⟨S8, .i32⟩
  | 43 => ⟨S_, .i32⟩
  | 44 => ⟨S_, .i32⟩
  | 45 => ⟨S16384, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S_, .i32⟩
  | 56 => ⟨S16384, .i32⟩
  | 57 => ⟨S8, .i32⟩
  | 58 => ⟨S_, .i32⟩
  | 59 => ⟨S1, .i32⟩
  | 60 => ⟨S_, .i32⟩
  | 61 => ⟨S_, .i32⟩
  | 62 => ⟨S8, .i32⟩
  | 63 => ⟨S7, .i32⟩
  | 64 => ⟨S8, .i32⟩
  | 65 => ⟨S16384, .i32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S_, .i32⟩
  | 83 => ⟨S8, .i32⟩
  | 84 => ⟨S_, .bf16⟩
  | 85 => ⟨S8x4352x1024, .bf16⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S16384x1024, .f32⟩
  | 95 => ⟨S16384x1024, .bf16⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S16384x1, .i32⟩
  | 112 => ⟨S16384x2, .i32⟩
  | 113 => ⟨S8x4352x1024, .bf16⟩
  | 114 => ⟨S8x1024x4096, .bf16⟩
  | 115 => ⟨S8x1024x4096, .bf16⟩
  | 116 => ⟨S8x4096x1024, .bf16⟩
  | 117 => ⟨S8x4352x1024, .bf16⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S_, .i32⟩
  | 126 => ⟨S16384, .i32⟩
  | 127 => ⟨S16384, .i1⟩
  | _ => ⟨S8192x1024, .f32⟩

abbrev hbmTy0_1 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S16384x1, .i32⟩
  | 6 => ⟨S16384x2, .i32⟩
  | 7 => ⟨S16384x1024, .bf16⟩
  | 8 => ⟨S_, .f32⟩
  | 9 => ⟨S_, .f32⟩
  | 10 => ⟨S16384, .f32⟩
  | 11 => ⟨S16384, .f32⟩
  | 12 => ⟨S16384x1, .f32⟩
  | 13 => ⟨S16384x1024, .f32⟩
  | 14 => ⟨S16384x1024, .f32⟩
  | 15 => ⟨S16384x1024, .f32⟩
  | 16 => ⟨S_, .f32⟩
  | 17 => ⟨S8192x1024, .f32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1x4096x1024, .bf16⟩
  | .local _ .vmem, ⟨5, _⟩ => ⟨S1x256x1024, .bf16⟩
  | .local _ .vmem, ⟨6, _⟩ => ⟨S1x256x1024, .bf16⟩
  | .local _ .smem, ⟨0, _⟩ => ⟨S8, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_call2_call0_c : Ref sig .tc := ⟨.hbm, 60, rfl⟩
abbrev main_call2_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_c_15 : Ref sig .tc := ⟨.hbm, 82, rfl⟩
abbrev main_v54 : Ref sig .tc := ⟨.hbm, 83, rfl⟩
abbrev main_cst : Ref sig .tc := ⟨.hbm, 84, rfl⟩
abbrev main_v56 : Ref sig .tc := ⟨.hbm, 85, rfl⟩
abbrev main_c_16 : Ref sig .tc := ⟨.hbm, 86, rfl⟩
abbrev main_v57 : Ref sig .tc := ⟨.hbm, 87, rfl⟩
abbrev main_v58 : Ref sig .tc := ⟨.hbm, 88, rfl⟩
abbrev main_c_17 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_18 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_20 : Ref sig .tc := ⟨.hbm, 103, rfl⟩
abbrev main_v70 : Ref sig .tc := ⟨.hbm, 104, rfl⟩
abbrev main_v71 : Ref sig .tc := ⟨.hbm, 105, rfl⟩
abbrev main_c_21 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_22 : Ref sig .tc := ⟨.hbm, 118, rfl⟩
abbrev main_v83 : Ref sig .tc := ⟨.hbm, 119, rfl⟩
abbrev main_v84 : Ref sig .tc := ⟨.hbm, 120, rfl⟩
abbrev main_c_23 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_24 : Ref sig .tc := ⟨.hbm, 125, rfl⟩
abbrev main_v88 : Ref sig .tc := ⟨.hbm, 126, rfl⟩
abbrev main_v89 : Ref sig .tc := ⟨.hbm, 127, rfl⟩
abbrev main_c_25 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_26 : Ref sig .tc := ⟨.hbm, 136, rfl⟩
abbrev main_call3_v0 : Ref sig .tc := ⟨.hbm, 137, rfl⟩
abbrev main_call3_v1 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_27 : Ref sig .tc := ⟨.hbm, 144, rfl⟩
abbrev main_v102 : Ref sig .tc := ⟨.hbm, 145, rfl⟩
abbrev main_c_28 : Ref sig .tc := ⟨.hbm, 146, rfl⟩
abbrev main_v103 : Ref sig .tc := ⟨.hbm, 147, rfl⟩
abbrev main_v104 : Ref sig .tc := ⟨.hbm, 148, rfl⟩
abbrev main_c_29 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v55 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 17], ![false, false]⟩

abbrev pre0 : Pipeline.Prefetch sig := ⟨1, ![main_v55.idx], fun | 0 => main_v55.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_cond1 (i : grid0.Coords) (v2 : BitVec 32) : BitVec 1 :=
  let arg1 : BitVec 32 := BitVec.ofNat 32 (i 1).val
  let c256_i32 : BitVec 32 := 256#32
  let v0 : BitVec 32 := Scalar.muli arg1 c256_i32
  let v3 : BitVec 1 := Scalar.cmpi .slt v0 v2
  let v4 : BitVec 32 := Scalar.extui v3
  let c0_i32 : BitVec 32 := 0#32
  let v5 : BitVec 1 := Scalar.cmpi .ne v4 c0_i32
  v5

def k0_cond2 (i : grid0.Coords) (v2 : BitVec 32) : BitVec 1 :=
  let arg1 : BitVec 32 := BitVec.ofNat 32 (i 1).val
  let c256_i32 : BitVec 32 := 256#32
  let v0 : BitVec 32 := Scalar.muli arg1 c256_i32
  let v3 : BitVec 1 := Scalar.cmpi .slt v0 v2
  let v_true : BitVec 1 := 1#1
  let v6 : BitVec 1 := Scalar.xori v3 v_true
  let v7 : BitVec 32 := Scalar.extui v6
  let c0_i32_0 : BitVec 32 := 0#32
  let v8 : BitVec 1 := Scalar.cmpi .ne v7 c0_i32_0
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192x2_S16384 : S8192x2.ShapeCasts S16384
  bcast_S8192_S8192x2_0 : S8192.BroadcastsInDim S8192x2 (![0] : Fin 1 → Fin S8192x2.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S8x4352x1024 : S_.BroadcastsInDim S8x4352x1024 (![] : Fin 0 → Fin S8x4352x1024.rank)
  bitsLt_bf16_f32 : FTy.bits .bf16 < FTy.bits .f32
  concatenates_S16384x1_S16384x1_S16384x2_d1 : Shape.Concatenates [S16384x1, S16384x1] S16384x2 1
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  bcast_S16384x1_S16384x1024_0_1 : S16384x1.BroadcastsInDim S16384x1024 (![0, 1] : Fin 2 → Fin S16384x1024.rank)
  bcast_S_S8192x1024 : S_.BroadcastsInDim S8192x1024 (![] : Fin 0 → Fin S8192x1024.rank)
  gather_S16384_S16384x1_S16384_n_0_n_n_0_1_1_wf : GatherDims.WF S16384 S16384x1 S16384 [] [0] [] [0] [] 1 ![1]
  scatter_S8_S16384x1_S16384_n_0_0_1_wf : ScatterDims.WF S8 S16384x1 S16384 [] [0] [0] 1
  gather_S8_S16384x1_S16384_n_0_n_n_0_1_1_wf : GatherDims.WF S8 S16384x1 S16384 [] [0] [] [0] [] 1 ![1]
  gather_S8192x1024_S16384x1_S16384x1024_1_0_n_n_0_1_11024_wf : GatherDims.WF S8192x1024 S16384x1 S16384x1024 [1] [0] [] [0] [] 1 ![1, 1024]
  scatter_S8x4352x1024_S16384x2_S16384x1024_1_01_01_1_wf : ScatterDims.WF S8x4352x1024 S16384x2 S16384x1024 [1] [0, 1] [0, 1] 1
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  gather_S8x4352x1024_S16384x2_S16384x1024_1_01_n_n_01_1_111024_wf : GatherDims.WF S8x4352x1024 S16384x2 S16384x1024 [1] [0, 1] [] [0, 1] [] 1 ![1, 1, 1024]
  scatter_S8192x1024_S16384x1_S16384x1024_1_0_0_1_wf : ScatterDims.WF S8192x1024 S16384x1 S16384x1024 [1] [0] [0] 1
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x4352x1024.size a
  hwx0_0 : ∀ i : grid0.Coords, EltTy.bits .bf16 = 32 ∨ (Rect.block (s := S8x4352x1024) S1x256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x4096.size a ≤ S8x1024x4096.size a
  hwx0_2 : ∀ i : grid0.Coords, EltTy.bits .bf16 = 32 ∨ (Rect.block (s := S8x1024x4096) S1x1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096x1024.size a ≤ S8x4096x1024.size a
  hwx0_3 : ∀ i : grid0.Coords, EltTy.bits .bf16 = 32 ∨ (Rect.block (s := S8x4096x1024) S1x4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x4352x1024.size a
  hwx0_4 : ∀ i : grid0.Coords, EltTy.bits .bf16 = 32 ∨ (Rect.block (s := S8x4352x1024) S1x256x1024.size (cc0_transform_4 i) (hinb0_4 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S8192x1024_S16384x1_S16384x1024_1_0_n_n_0_1_11024 : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := gather_S8192x1024_S16384x1_S16384x1024_1_0_n_n_0_1_11024_wf
def scatter_S8x4352x1024_S16384x2_S16384x1024_1_01_01_1 : ScatterDims S8x4352x1024 S16384x2 S16384x1024 where
  updateWindowDims := [1]
  insertedWindowDims := [0, 1]
  scatterDimsToOperandDims := [0, 1]
  indexVectorDim := 1
  wf := scatter_S8x4352x1024_S16384x2_S16384x1024_1_01_01_1_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def gather_S8x4352x1024_S16384x2_S16384x1024_1_01_n_n_01_1_111024 : GatherDims S8x4352x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S8x4352x1024_S16384x2_S16384x1024_1_01_n_n_01_1_111024_wf
def scatter_S8192x1024_S16384x1_S16384x1024_1_0_0_1 : ScatterDims S8192x1024 S16384x1 S16384x1024 where
  updateWindowDims := [1]
  insertedWindowDims := [0]
  scatterDimsToOperandDims := [0]
  indexVectorDim := 1
  wf := scatter_S8192x1024_S16384x1_S16384x1024_1_0_0_1_wf

abbrev spec0_0 : Pipeline.WinSpec sig grid0.rank :=
  Pipeline.WinSpec.ofSpec (Memref.whole main_v78) S1x256x1024.size reads0_0 false false 2 stage0_0 sem0_0 nbuf0_0 hstage0_0

abbrev spec0_1 : Pipeline.WinSpec sig grid0.rank :=
  Pipeline.WinSpec.ofSpec (Memref.whole main_v79) S1x1024x4096.size reads0_1 false true 1 stage0_1 sem0_1 nbuf0_1 hstage0_1

abbrev spec0_2 : Pipeline.WinSpec sig grid0.rank :=
  Pipeline.WinSpec.ofSpec (Memref.whole main_v80) S1x1024x4096.size reads0_2 false true 1 stage0_2 sem0_2 nbuf0_2 hstage0_2

abbrev spec0_3 : Pipeline.WinSpec sig grid0.rank :=
  Pipeline.WinSpec.ofSpec (Memref.whole main_v81) S1x4096x1024.size reads0_3 false true 1 stage0_3 sem0_3 nbuf0_3 hstage0_3

abbrev spec0_4 : Pipeline.WinSpec sig grid0.rank :=
  Pipeline.WinSpec.ofSpec (Memref.whole main_v82) S1x256x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))
abbrev idle0 (pf : pre0.Contents (Elt F)) : Fin 5 → grid0.Coords → Bool := fun | 0 => fun _ => false | 1 => fun _ => false | 2 => fun _ => false | 3 => fun _ => false | 4 => fun i => !(k0_cond1 i (pf.atD 0 (k0_off1 i)) == 1#1) && !(k0_cond2 i (pf.atD 0 (k0_off1 i)) == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S16384 : Shape := ⟨1, ![16384]⟩
abbrev S8192 : Shape := ⟨1, ![8192]⟩
abbrev S_ : Shape := ⟨0, ![]⟩
abbrev S16384x1 : Shape := ⟨2, ![16384, 1]⟩
abbrev S8 : Shape := ⟨1, ![8]⟩
abbrev S1 : Shape := ⟨1, ![1]⟩
abbrev S7 : Shape := ⟨1, ![7]⟩
abbrev S8x4097x1024 : Shape := ⟨3, ![8, 4097, 1024]⟩
abbrev S16384x1024 : Shape := ⟨2, ![16384, 1024]⟩
abbrev S16384x2 : Shape := ⟨2, ![16384, 2]⟩
abbrev S8x4097x4096 : Shape := ⟨3, ![8, 4097, 4096]⟩

abbrev nBuf : Space → Nat
  | .hbm => 160
  | .vmem => 0
  | .smem => 0
  | _ => 0

abbrev hbmTy0_0 (i : Nat) : BufTy := match i % 128 with
  | 0 => ⟨S8192x1024, .f32⟩
  | 1 => ⟨S8192x2, .i32⟩
  | 2 => ⟨S8192x2, .f32⟩
  | 3 => ⟨S8x1024x4096, .f32⟩
  | 4 => ⟨S8x1024x4096, .f32⟩
  | 5 => ⟨S8x4096x1024, .f32⟩
  | 6 => ⟨S16384, .i32⟩
  | 7 => ⟨S16384, .f32⟩
  | 8 => ⟨S8192, .i32⟩
  | 9 => ⟨S8192x2, .i32⟩
  | 10 => ⟨S16384, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384, .i32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384, .f32⟩
  | 41 => ⟨S_, .i32⟩
  | 42 => ⟨S8, .i32⟩
  | 43 => ⟨S_, .i32⟩
  | 44 => ⟨S_, .i32⟩
  | 45 => ⟨S16384, .i32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S_, .i32⟩
  | 56 => ⟨S16384, .i32⟩
  | 57 => ⟨S8, .i32⟩
  | 58 => ⟨S_, .i32⟩
  | 59 => ⟨S1, .i32⟩
  | 60 => ⟨S_, .i32⟩
  | 61 => ⟨S_, .i32⟩
  | 62 => ⟨S8, .i32⟩
  | 63 => ⟨S7, .i32⟩
  | 64 => ⟨S8, .i32⟩
  | 65 => ⟨S16384, .i32⟩
  | 66 => ⟨S_, .i32⟩
  | 67 => ⟨S16384, .i32⟩
  | 68 => ⟨S16384, .i1⟩
  | 69 => ⟨S_, .i32⟩
  | 70 => ⟨S16384, .i32⟩
  | 71 => ⟨S16384, .i32⟩
  | 72 => ⟨S16384, .i32⟩
  | 73 => ⟨S16384x1, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S_, .f32⟩
  | 83 => ⟨S8x4097x1024, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S16384x1024, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S_, .i32⟩
  | 101 => ⟨S16384, .i32⟩
  | 102 => ⟨S16384, .i1⟩
  | 103 => ⟨S_, .i32⟩
  | 104 => ⟨S16384, .i32⟩
  | 105 => ⟨S16384, .i32⟩
  | 106 => ⟨S16384, .i32⟩
  | 107 => ⟨S16384x1, .i32⟩
  | 108 => ⟨S16384x1, .i32⟩
  | 109 => ⟨S16384x2, .i32⟩
  | 110 => ⟨S8x4097x1024, .f32⟩
  | 111 => ⟨S8x4097x4096, .f32⟩
  | 112 => ⟨S8x4097x4096, .f32⟩
  | 113 => ⟨S8x4097x4096, .f32⟩
  | 114 => ⟨S_, .f32⟩
  | 115 => ⟨S8x4097x4096, .f32⟩
  | 116 => ⟨S8x4097x4096, .f32⟩
  | 117 => ⟨S_, .f32⟩
  | 118 => ⟨S8x4097x4096, .f32⟩
  | 119 => ⟨S8x4097x4096, .f32⟩
  | 120 => ⟨S8x4097x4096, .f32⟩
  | 121 => ⟨S8x4097x4096, .f32⟩
  | 122 => ⟨S8x4097x4096, .f32⟩
  | 123 => ⟨S8x4097x1024, .f32⟩
  | 124 => ⟨S_, .i32⟩
  | 125 => ⟨S16384, .i32⟩
  | 126 => ⟨S16384, .i1⟩
  | 127 => ⟨S_, .i32⟩
  | _ => ⟨S8192x1024, .f32⟩

abbrev hbmTy0_1 (i : Nat) : BufTy := match i % 128 with
  | 0 => ⟨S16384, .i32⟩
  | 1 => ⟨S16384, .i32⟩
  | 2 => ⟨S16384, .i32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384x1, .i32⟩
  | 12 => ⟨S16384x2, .i32⟩
  | 13 => ⟨S16384x1024, .f32⟩
  | 14 => ⟨S_, .f32⟩
  | 15 => ⟨S_, .f32⟩
  | 16 => ⟨S16384, .f32⟩
  | 17 => ⟨S16384, .f32⟩
  | 18 => ⟨S16384x1, .f32⟩
  | 19 => ⟨S16384x1024, .f32⟩
  | 20 => ⟨S16384x1024, .f32⟩
  | 21 => ⟨S_, .f32⟩
  | 22 => ⟨S8192x1024, .f32⟩
  | 23 => ⟨S_, .i32⟩
  | 24 => ⟨S16384, .i32⟩
  | 25 => ⟨S16384, .i1⟩
  | 26 => ⟨S_, .i32⟩
  | 27 => ⟨S16384, .i32⟩
  | 28 => ⟨S16384, .i32⟩
  | 29 => ⟨S16384, .i32⟩
  | 30 => ⟨S16384x1, .i32⟩
  | 31 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_call2_call0_c : Ref sig .tc := ⟨.hbm, 60, rfl⟩
abbrev main_call2_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_cst : Ref sig .tc := ⟨.hbm, 82, rfl⟩
abbrev main_v54 : Ref sig .tc := ⟨.hbm, 83, rfl⟩
abbrev main_c_15 : Ref sig .tc := ⟨.hbm, 84, rfl⟩
abbrev main_v55 : Ref sig .tc := ⟨.hbm, 85, rfl⟩
abbrev main_v56 : Ref sig .tc := ⟨.hbm, 86, rfl⟩
abbrev main_c_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_17 : Ref sig .tc := ⟨.hbm, 93, rfl⟩
abbrev main_v62 : Ref sig .tc := ⟨.hbm, 94, rfl⟩
abbrev main_v63 : Ref sig .tc := ⟨.hbm, 95, rfl⟩
abbrev main_c_18 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_19 : Ref sig .tc := ⟨.hbm, 100, rfl⟩
abbrev main_v67 : Ref sig .tc := ⟨.hbm, 101, rfl⟩
abbrev main_v68 : Ref sig .tc := ⟨.hbm, 102, rfl⟩
abbrev main_c_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_21 : Ref sig .tc := ⟨.hbm, 124, rfl⟩
abbrev main_v81 : Ref sig .tc := ⟨.hbm, 125, rfl⟩
abbrev main_v82 : Ref sig .tc := ⟨.hbm, 126, rfl⟩
abbrev main_c_22 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_23 : Ref sig .tc := ⟨.hbm, 131, rfl⟩
abbrev main_v86 : Ref sig .tc := ⟨.hbm, 132, rfl⟩
abbrev main_v87 : Ref sig .tc := ⟨.hbm, 133, rfl⟩
abbrev main_c_24 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_25 : Ref sig .tc := ⟨.hbm, 142, rfl⟩
abbrev main_call4_v0 : Ref sig .tc := ⟨.hbm, 143, rfl⟩
abbrev main_call4_v1 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_26 : Ref sig .tc := ⟨.hbm, 149, rfl⟩
abbrev main_v99 : Ref sig .tc := ⟨.hbm, 150, rfl⟩
abbrev main_c_27 : Ref sig .tc := ⟨.hbm, 151, rfl⟩
abbrev main_v100 : Ref sig .tc := ⟨.hbm, 152, rfl⟩
abbrev main_v101 : Ref sig .tc := ⟨.hbm, 153, rfl⟩
abbrev main_c_28 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩

abbrev nD : Nat := 1
abbrev τ : Topo := Topo.v7x

variable {F : FTy → Type} [FloatOps F]

class Facts₀ : Prop where
  shapeCasts_S8192x2_S16384 : S8192x2.ShapeCasts S16384
  bcast_S8192_S8192x2_0 : S8192.BroadcastsInDim S8192x2 (![0] : Fin 1 → Fin S8192x2.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S8x4097x1024 : S_.BroadcastsInDim S8x4097x1024 (![] : Fin 0 → Fin S8x4097x1024.rank)
  concatenates_S16384x1_S16384x1_S16384x2_d1 : Shape.Concatenates [S16384x1, S16384x1] S16384x2 1
  bcast_S_S8x4097x4096 : S_.BroadcastsInDim S8x4097x4096 (![] : Fin 0 → Fin S8x4097x4096.rank)
  bcast_S16384x1_S16384x1024_0_1 : S16384x1.BroadcastsInDim S16384x1024 (![0, 1] : Fin 2 → Fin S16384x1024.rank)
  bcast_S_S8192x1024 : S_.BroadcastsInDim S8192x1024 (![] : Fin 0 → Fin S8192x1024.rank)
  gather_S16384_S16384x1_S16384_n_0_n_n_0_1_1_wf : GatherDims.WF S16384 S16384x1 S16384 [] [0] [] [0] [] 1 ![1]
  scatter_S8_S16384x1_S16384_n_0_0_1_wf : ScatterDims.WF S8 S16384x1 S16384 [] [0] [0] 1
  gather_S8_S16384x1_S16384_n_0_n_n_0_1_1_wf : GatherDims.WF S8 S16384x1 S16384 [] [0] [] [0] [] 1 ![1]
  gather_S8192x1024_S16384x1_S16384x1024_1_0_n_n_0_1_11024_wf : GatherDims.WF S8192x1024 S16384x1 S16384x1024 [1] [0] [] [0] [] 1 ![1, 1024]
  scatter_S8x4097x1024_S16384x2_S16384x1024_1_01_01_1_wf : ScatterDims.WF S8x4097x1024 S16384x2 S16384x1024 [1] [0, 1] [0, 1] 1
  dot_S8x4097x1024_S8x1024x4096_S8x4097x4096_2_1_1_2_0_0_wf : DotDims.WF S8x4097x1024 S8x1024x4096 S8x4097x4096 [2] [1] [1] [2] [0] [0]
  dot_S8x4097x4096_S8x4096x1024_S8x4097x1024_2_1_1_2_0_0_wf : DotDims.WF S8x4097x4096 S8x4096x1024 S8x4097x1024 [2] [1] [1] [2] [0] [0]
  gather_S8x4097x1024_S16384x2_S16384x1024_1_01_n_n_01_1_111024_wf : GatherDims.WF S8x4097x1024 S16384x2 S16384x1024 [1] [0, 1] [] [0, 1] [] 1 ![1, 1, 1024]
  scatter_S8192x1024_S16384x1_S16384x1024_1_0_0_1_wf : ScatterDims.WF S8192x1024 S16384x1 S16384x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S8192x1024_S16384x1_S16384x1024_1_0_n_n_0_1_11024 : GatherDims S8192x1024 S16384x1 S16384x1024 where
  offsetDims := [1]
  collapsedSliceDims := [0]
  operandBatchingDims := []
  startIndicesBatchingDims := []
  startIndexMap := [0]
  indexVectorDim := 1
  sliceSizes := ![1, 1024]
  wf := gather_S8192x1024_S16384x1_S16384x1024_1_0_n_n_0_1_11024_wf
def scatter_S8x4097x1024_S16384x2_S16384x1024_1_01_01_1 : ScatterDims S8x4097x1024 S16384x2 S16384x1024 where
  updateWindowDims := [1]
  insertedWindowDims := [0, 1]
  scatterDimsToOperandDims := [0, 1]
  indexVectorDim := 1
  wf := scatter_S8x4097x1024_S16384x2_S16384x1024_1_01_01_1_wf
def dot_S8x4097x1024_S8x1024x4096_S8x4097x4096_2_1_1_2_0_0 : DotDims S8x4097x1024 S8x1024x4096 S8x4097x4096 where
  lhsContracting := [2]
  rhsContracting := [1]
  lhsNonContracting := [1]
  rhsNonContracting := [2]
  lhsBatch := [0]
  rhsBatch := [0]
  wf := dot_S8x4097x1024_S8x1024x4096_S8x4097x4096_2_1_1_2_0_0_wf
def dot_S8x4097x4096_S8x4096x1024_S8x4097x1024_2_1_1_2_0_0 : DotDims S8x4097x4096 S8x4096x1024 S8x4097x1024 where
  lhsContracting := [2]
  rhsContracting := [1]
  lhsNonContracting := [1]
  rhsNonContracting := [2]
  lhsBatch := [0]
  rhsBatch := [0]
  wf := dot_S8x4097x4096_S8x4096x1024_S8x4097x1024_2_1_1_2_0_0_wf
def gather_S8x4097x1024_S16384x2_S16384x1024_1_01_n_n_01_1_111024 : GatherDims S8x4097x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S8x4097x1024_S16384x2_S16384x1024_1_01_n_n_01_1_111024_wf
def scatter_S8192x1024_S16384x1_S16384x1024_1_0_0_1 : ScatterDims S8192x1024 S16384x1 S16384x1024 where
  updateWindowDims := [1]
  insertedWindowDims := [0]
  scatterDimsToOperandDims := [0]
  indexVectorDim := 1
  wf := scatter_S8192x1024_S16384x1_S16384x1024_1_0_0_1_wf

class Facts : Prop extends Facts₀ where

variable [Facts]
-- ==== Proof.KBody.lean ====
/-
  The expert network's body at one grid point. The body reads the expert's active-row count from the table it is
  handed, and either applies the gated two-layer network to its 256-row block of the dispatch buffer or, when the
  block starts at or beyond that count, writes zeros: exactly one of the two stores happens at every point, because
  the second condition is the first one's negation. Stated for any float instance.
-/
import proofs.«167530_j18451179504175_2_alg».proof.Proof.Gen.KernelIdeal.Launch
import proofs.«167530_j18451179504175_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second branch's condition is the negation of the first's: one of the two stores happens at every point. -/
theorem cond2_iff (i : grid0.Coords) (v : BitVec 32) : k0_cond2 i v = 1#1 ↔ ¬ k0_cond1 i v = 1#1 := by
  unfold k0_cond2 k0_cond1
  dsimp only
  generalize Scalar.cmpi .slt (Scalar.muli (BitVec.ofNat 32 (i 1).val) 256#32) v = b
  revert b; decide

/-- The table's word the body at coordinates `i` loads: the expert's active-row count. -/
abbrev tword (pf : pre0.Contents (Elt F)) (i : grid0.Coords) : BitVec 32 := pf.atD 0 (k0_off1 i)

/-- What the body leaves in the output window's buffer, from the table's word and the input blocks: the expert
    network of the block's rows where the row tile starts below the count, zeros elsewhere. -/
def outBlk (i : grid0.Coords) (v : BitVec 32) (x0 : Vec F S1x256x1024 .bf16) (x1 x2 : Vec F S1x1024x4096 .bf16) (x3 : Vec F S1x4096x1024 .bf16) :
    Vec F S1x256x1024 .bf16 :=
  if k0_cond1 i v = 1#1 then k0_pay1 x0 x1 x2 x3 else k0_pay2

theorem hz3 : (![0, 0, 0] : Fin 3 → ℕ) = fun _ => 0 := by funext a; fin_cases a <;> rfl

set_option maxHeartbeats 1000000 in
/-- The kernel body on whole staging memrefs, holding the table: the inputs' memrefs and the table end as they were, the
    output's memref at `outBlk` of the table's word and the input blocks. -/
theorem sound_kernel (c : Dev nD) (E : Set ℕ) (i : grid0.Coords) (pf : pre0.Contents (Elt F))
    (arg3 : Memref sig .tc .vmem S1x256x1024 .bf16) (harg3 : arg3.IsWhole) (arg4 : Memref sig .tc .vmem S1x1024x4096 .bf16) (harg4 : arg4.IsWhole)
    (arg5 : Memref sig .tc .vmem S1x1024x4096 .bf16) (harg5 : arg5.IsWhole) (arg6 : Memref sig .tc .vmem S1x4096x1024 .bf16) (harg6 : arg6.IsWhole)
    (arg7 : Memref sig .tc .vmem S1x256x1024 .bf16) (harg7 : arg7.IsWhole)
    (x0 : Vec F S1x256x1024 .bf16) (x1 x2 : Vec F S1x1024x4096 .bf16) (x3 : Vec F S1x4096x1024 .bf16) (K : PUnit → sProp 𝕄) :
    iprop((((c : Thread nD τ).loc main_v55) ↦{fullShare} (pf 0))
        ∗ owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop((((c : Thread nD τ).loc main_v55) ↦{fullShare} (pf 0))
            ∗ owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outBlk i (tword pf i) x0 x1 x2 x3)) -∗ K ⟨⟩))
      ⊢ wp frame (wpE (defs₀ (F := F)) Variants.none c none) E
          (cc0__ffn_kernel i (Memref.whole main_v55) (Memref.isWhole_whole _) arg3 harg3 arg4 harg4 arg5 harg5 arg6 harg6 arg7 harg7) K := by
  simp only [cc0__ffn_kernel_eq_skeleton]; unfold cc0__ffn_kernel_skel
  rw [← owns_whole (c : Thread nD τ) main_v55 fullShare (pf 0)]
  unfold owns
  iintro ⟨⟨%fT, %hfT, HT⟩, ⟨%f0, %hf0, H0⟩, ⟨%f1, %hf1, H1⟩, ⟨%f2, %hf2, H2⟩, ⟨%f3, %hf3, H3⟩, ⟨%d7, %f7, -, H7⟩, Hk⟩
  subst hf0 hf1 hf2 hf3
  sl_exec
  have hr : sound_kernel.sl.r c i fT = tword pf i := by
    unfold sound_kernel.sl.r tword Pipeline.Prefetch.Contents.atD
    rw [dif_pos (fun a => by fin_cases a; exact k0_off1_inb i 0), ← hfT]
    rfl
  rw [hr]
  sl_step
  iapply Hk
  isplitl [HT]
  · iexists fT; isplitr; · ipureintro; exact hfT
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H7
  ipureintro
  unfold outBlk
  by_cases h1 : k0_cond1 i (tword pf i) = 1#1
  · have h2 : ¬ k0_cond2 i (tword pf i) = 1#1 := fun h => (cond2_iff i _).1 h h1
    rw [dif_neg h2, dif_pos h1, if_pos h1]
    rw [View.read_writes_eq_canon _ _ _ (View.cover_of_tiled _ S1x256x1024.size (by rfl)), View.canon_unit_zero hz3]
    simp only [View.readAt_eq_ld, View.ld_unit_zero (S := S1x256x1024) hz3, View.ld_unit_zero (S := S1x1024x4096) hz3, View.ld_unit_zero (S := S1x4096x1024) hz3]
  · have h2 : k0_cond2 i (tword pf i) = 1#1 := (cond2_iff i _).2 h1
    rw [dif_pos h2, if_neg h1]
    rw [View.read_writes_eq_canon _ _ _ (View.cover_of_tiled _ S1x256x1024.size (by rfl)), View.canon_unit_zero hz3]

end Cert.KernelIdeal.Hand
end
-- ==== Proof.KDat.lean ====
/-
  The proof data of the expert network's pipeline and its body obligation. Entered with the arrays at contents `V` and the
  table at contents `a`: each input window's buffer holds its block at every point; the output window's buffer holds,
  after the body at point (e, r), the gated network of rows r·256 … r·256+255 of expert e's dispatch rows when r·256 is
  below the expert's count in the table, and zeros otherwise. The output window is idle at no point.
-/
import proofs.«167530_j18451179504175_2_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered, and the table's contents the pipeline runs at
variable (V : (c : Dev nD) → (b : Ref sig .tc) → Buf (Elt F) ((c : Thread nD τ).loc b))
variable (a : (pcfg0 (F := F)).Adm)

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The proof data: the arrays as the region finds them; after the body at point `t` each input's buffer at its block and
    the output's at `outBlk` of the table's word and the input blocks; the invariant holds the table and the class's rest. -/
def dat0 (c : Dev nD) : Dat τ (Elt F) Unit ℕ (UR sig nD τ) ℕ (cfg0 a) c where
  A w := V c (Pipeline.arrRef spec0 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => outBlk ((cfg0 a).grid.coords t) (tword a.1 ((cfg0 a).grid.coords t)) (iblk V a c 0 t) (iblk V a c 1 t) (iblk V a c 2 t) (iblk V a c 3 t)
  Φ _ := iprop(Pipeline.prefHeld pre0 c (fun _ => fullShare) a.1 ∗ Pipeline.ΦA spec0 c)
  q _ := fullShare
  owed _ := 0

/-- The output window is idle at no point: one of the body's two stores happens whatever the table's word. -/
theorem idle4 (i : grid0.Coords) : idle0 a.1 4 i = false := by
  show (!(k0_cond1 i (tword a.1 i) == 1#1) && !(k0_cond2 i (tword a.1 i) == 1#1)) = false
  by_cases h : k0_cond1 i (tword a.1 i) = 1#1
  · simp [h]
  · have h2 := (cond2_iff i (tword a.1 i)).2 h
    simp [h2]

theorem before_of_0 {c : Dev nD} (dat : Dat τ (Elt F) Unit ℕ (UR sig nD τ) ℕ (cfg0 a) c) (hA : dat.A 0 = V c (Pipeline.arrRef spec0 0))
    (hafter : ∀ t, dat.after 0 t = iblk V a c 0 t) (t : Fin (cfg0 a).N) (d) : dat.before 0 t d = iblk V a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ (cfg0 a) c) (hA : dat.A 1 = V c (Pipeline.arrRef spec0 1))
    (hafter : ∀ t, dat.after 1 t = iblk V a c 1 t) (t : Fin (cfg0 a).N) (d) : dat.before 1 t d = iblk V a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ (cfg0 a) c) (hA : dat.A 2 = V c (Pipeline.arrRef spec0 2))
    (hafter : ∀ t, dat.after 2 t = iblk V a c 2 t) (t : Fin (cfg0 a).N) (d) : dat.before 2 t d = iblk V a c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ (cfg0 a) c) (hA : dat.A 3 = V c (Pipeline.arrRef spec0 3))
    (hafter : ∀ t, dat.after 3 t = iblk V a c 3 t) (t : Fin (cfg0 a).N) (d) : dat.before 3 t d = iblk V a c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem A_eq (c : Dev nD) (w : Fin (cfg0 a).W) : (dat0 V a c).A w = V c (Pipeline.arrRef spec0 w) := by dsimp only [dat0] <;> rfl
theorem after_0 (c : Dev nD) (t : Fin (cfg0 a).N) : (dat0 V a c).after 0 t = iblk V a c 0 t := by dsimp only [dat0] <;> rfl
theorem after_1 (c : Dev nD) (t : Fin (cfg0 a).N) : (dat0 V a c).after 1 t = iblk V a c 1 t := by dsimp only [dat0] <;> rfl
theorem after_2 (c : Dev nD) (t : Fin (cfg0 a).N) : (dat0 V a c).after 2 t = iblk V a c 2 t := by dsimp only [dat0] <;> rfl
theorem after_3 (c : Dev nD) (t : Fin (cfg0 a).N) : (dat0 V a c).after 3 t = iblk V a c 3 t := by dsimp only [dat0] <;> rfl
theorem after_4 (c : Dev nD) (t : Fin (cfg0 a).N) : (dat0 V a c).after 4 t
    = outBlk ((cfg0 a).grid.coords t) (tword a.1 ((cfg0 a).grid.coords t)) (iblk V a c 0 t) (iblk V a c 1 t) (iblk V a c 2 t) (iblk V a c 3 t) := by dsimp only [dat0] <;> rfl
theorem before_0 (c : Dev nD) (t : Fin (cfg0 a).N) (d) : (dat0 V a c).before 0 t d = iblk V a c 0 t := before_of_0 V a (dat0 V a c) (A_eq V a c 0) (after_0 V a c) t d
theorem before_1 (c : Dev nD) (t : Fin (cfg0 a).N) (d) : (dat0 V a c).before 1 t d = iblk V a c 1 t := before_of_1 V a (dat0 V a c) (A_eq V a c 1) (after_1 V a c) t d
theorem before_2 (c : Dev nD) (t : Fin (cfg0 a).N) (d) : (dat0 V a c).before 2 t d = iblk V a c 2 t := before_of_2 V a (dat0 V a c) (A_eq V a c 2) (after_2 V a c) t d
theorem before_3 (c : Dev nD) (t : Fin (cfg0 a).N) (d) : (dat0 V a c).before 3 t d = iblk V a c 3 t := before_of_3 V a (dat0 V a c) (A_eq V a c 3) (after_3 V a c) t d

/-- The current staging memref of window `w` at point `t`. -/
abbrev st (w : Fin (cfg0 a).W) (t : Fin (cfg0 a).N) := ((cfg0 a).win w).stage ((cfg0 a).slots t w)

/-- The kernel body at point `t`, on what the pipeline calls it with: the table, and each window's current staging memref. -/
abbrev bodyAt (t : Fin (cfg0 a).N) : Prog (TpuEff nD τ sig (Elt F) Λ₀ .tc) PUnit :=
  cc0__ffn_kernel ((cfg0 a).grid.coords t) (Memref.whole main_v55) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

theorem idle4' (t : Fin (cfg0 a).N) : (cfg0 a).idle (4 : Fin 5) ((cfg0 a).grid.coords t) = false := idle4 a _

theorem prefHeld_one (c : Dev nD) (q : PosShare TreeShare) (pf : pre0.Contents (Elt F)) :
    (Pipeline.prefHeld pre0 c (fun _ => q) pf : sProp 𝕄) = (((c : Thread nD τ).loc main_v55) ↦{q} (pf 0)) := by
  unfold Pipeline.prefHeld
  rw [show (Finset.univ : Finset (Fin 1)) = {0} from rfl, bigSep_singleton]
  rfl

theorem sound_body (c : Dev nD) (t : Fin (cfg0 a).N) :
    iprop((dat0 V a c).Φ t.castSucc ∗ (dat0 V a c).owesAt () t.castSucc
        ∗ (∃ d, owns (c : Thread nD τ) (st a 0 t) fullShare ((dat0 V a c).before 0 t d))
        ∗ (∃ d, owns (c : Thread nD τ) (st a 1 t) fullShare ((dat0 V a c).before 1 t d))
        ∗ (∃ d, owns (c : Thread nD τ) (st a 2 t) fullShare ((dat0 V a c).before 2 t d))
        ∗ (∃ d, owns (c : Thread nD τ) (st a 3 t) fullShare ((dat0 V a c).before 3 t d))
        ∗ (∃ d, owns (c : Thread nD τ) (st a 4 t) fullShare ((dat0 V a c).before 4 t d)))
      ⊢ wp frame (wpE (defs₀ (F := F)) Variants.none c none) Set.univ (bodyAt a t) (fun _ =>
          iprop((dat0 V a c).Φ t.succ ∗ (dat0 V a c).owesAt () t.succ
            ∗ owns (c : Thread nD τ) (st a 0 t) fullShare ((dat0 V a c).after 0 t)
            ∗ owns (c : Thread nD τ) (st a 1 t) fullShare ((dat0 V a c).after 1 t)
            ∗ owns (c : Thread nD τ) (st a 2 t) fullShare ((dat0 V a c).after 2 t)
            ∗ owns (c : Thread nD τ) (st a 3 t) fullShare ((dat0 V a c).after 3 t)
            ∗ owns (c : Thread nD τ) (st a 4 t) fullShare ((dat0 V a c).after 4 t))) := by
  simp only [before_0, before_1, before_2, before_3]
  rw [show (dat0 V a c).Φ t.succ = (dat0 V a c).Φ t.castSucc from rfl,
    show (dat0 V a c).owesAt () t.succ = (dat0 V a c).owesAt () t.castSucc from rfl,
    after_0, after_1, after_2, after_3, after_4]
  rw [show (dat0 V a c).Φ t.castSucc = iprop(Pipeline.prefHeld pre0 c (fun _ => fullShare) a.1 ∗ Pipeline.ΦA spec0 c) from rfl, prefHeld_one]
  unfold bodyAt
  iintro ⟨⟨HT, HA⟩, Ho, ⟨%d0, H0⟩, ⟨%d1, H1⟩, ⟨%d2, H2⟩, ⟨%d3, H3⟩, ⟨%d4, H4⟩⟩
  iapply (sound_kernel c Set.univ ((cfg0 a).grid.coords t) a.1 _ _ _ _ _ _ _ _ _ _ (iblk V a c 0 t) (iblk V a c 1 t) (iblk V a c 2 t) (iblk V a c 3 t) _)
  isplitl [HT]; · iexact HT
  isplitl [H0]; · iexact H0
  isplitl [H1]; · iexact H1
  isplitl [H2]; · iexact H2
  isplitl [H3]; · iexact H3
  isplitl [H4]; · iexists _; iexact H4
  iintro ⟨HT, H0, H1, H2, H3, H4⟩
  isplitl [HT HA]
  · isplitl [HT]; · iexact HT
    iexact HA
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat0 (F := F) V a c) (defs₀ (F := F)) Variants.none () Set.univ := fun t => by
  rw [bigSep_W0, bigSep_W0]
  rw [idle4' a t]
  exact sound_body V a c t

end Region

end Cert.KernelIdeal.Hand
end
-- ==== Proof.KRunA.lean ====
/-
  The kernel program's run, segment by segment: seven stretches of host operations (the routing: the stable sort by
  expert, the counts and their running sums, each entry's slot, the dispatch buffer), the expert network's region, and
  three more stretches (the combine gather, the weights, the scatter-add into the result). The buffer contents at every
  boundary are a fold from the launch memory; no host operation and no write-back touches an argument array.
-/
import proofs.«167530_j18451179504175_2_alg».proof.Proof.KDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
/-- At the region's entry. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b

/-- The table's contents the pipeline runs at: what the host operations before the region left in the table's buffer
    (the index maps read no table, so every contents is admissible). -/
def adm : (pcfg0 (F := F)).Adm := ⟨fun k => V7 m ρ 0 (pre0.ref k), trivial⟩
abbrev admF : (p : Fin 1) → (pcfgs (F := F) p).Adm := fun _ => adm m ρ

/-- At the region's exit: its arrays at what the pipeline leaves, every other buffer as entered. -/
def W8 (c : Dev nD) : Valuation τ sig (Elt F) :=
  Pipeline.withArrays spec0 c (W7 m ρ c) fun w => (dat0 (V7 m ρ) (adm m ρ) c).arrAt w (cfg0 (adm m ρ)).N
theorem W8_arr (c : Dev nD) (w : Fin (cfg0 (adm m ρ)).W) :
    W8 m ρ c (Proc.devRef .tc (Pipeline.arrRef spec0 w)) = (dat0 (V7 m ρ) (adm m ρ) c).arrAt w (cfg0 (adm m ρ)).N := by
  unfold W8; exact Pipeline.withArrays_arr spec0 winFacts0.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin (cfg0 (adm m ρ)).W) : (dat0 (V7 m ρ) (adm m ρ) c).arrAt w (cfg0 (adm m ρ)).N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps1 (W8 m ρ c)
abbrev W10 : Dev nD → Valuation τ sig (Elt F) := fun c => StableHlo.after hostOps1_1 (W9 m ρ c)
/-- At the return. -/
abbrev W11 : Dev nD → Valuation τ sig (Elt F) := fun c => StableHlo.after hostOps1_2 (W10 m ρ c)

/-- No operation of `hostOps0` writes an argument array, nor allocates a buffer. -/
theorem hostOps0_fresh : (hostOps0 : List (HloOp τ sig (Elt F))).Forall fun op => op.fresh = ∅ := by
  simp only [List.Forall]; repeat' constructor
theorem hostOps0_keep (W : Valuation τ sig (Elt F)) (b : Ref sig .tc) (hb : b = main_arg0 ∨ b = main_arg1 ∨ b = main_arg2 ∨ b = main_arg3 ∨ b = main_arg4 ∨ b = main_arg5) :
    StableHlo.after (hostOps0 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_1` writes an argument array, nor allocates a buffer. -/
theorem hostOps0_1_fresh : (hostOps0_1 : List (HloOp τ sig (Elt F))).Forall fun op => op.fresh = ∅ := by
  simp only [List.Forall]; repeat' constructor
theorem hostOps0_1_keep (W : Valuation τ sig (Elt F)) (b : Ref sig .tc) (hb : b = main_arg0 ∨ b = main_arg1 ∨ b = main_arg2 ∨ b = main_arg3 ∨ b = main_arg4 ∨ b = main_arg5) :
    StableHlo.after (hostOps0_1 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_2` writes an argument array, nor allocates a buffer. -/
theorem hostOps0_2_fresh : (hostOps0_2 : List (HloOp τ sig (Elt F))).Forall fun op => op.fresh = ∅ := by
  simp only [List.Forall]; repeat' constructor
theorem hostOps0_2_keep (W : Valuation τ sig (Elt F)) (b : Ref sig .tc) (hb : b = main_arg0 ∨ b = main_arg1 ∨ b = main_arg2 ∨ b = main_arg3 ∨ b = main_arg4 ∨ b = main_arg5) :
    StableHlo.after (hostOps0_2 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_3` writes an argument array, nor allocates a buffer. -/
theorem hostOps0_3_fresh : (hostOps0_3 : List (HloOp τ sig (Elt F))).Forall fun op => op.fresh = ∅ := by
  simp only [List.Forall]; repeat' constructor
theorem hostOps0_3_keep (W : Valuation τ sig (Elt F)) (b : Ref sig .tc) (hb : b = main_arg0 ∨ b = main_arg1 ∨ b = main_arg2 ∨ b = main_arg3 ∨ b = main_arg4 ∨ b = main_arg5) :
    StableHlo.after (hostOps0_3 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_4` writes an argument array, nor allocates a buffer. -/
theorem hostOps0_4_fresh : (hostOps0_4 : List (HloOp τ sig (Elt F))).Forall fun op => op.fresh = ∅ := by
  simp only [List.Forall]; repeat' constructor
theorem hostOps0_4_keep (W : Valuation τ sig (Elt F)) (b : Ref sig .tc) (hb : b = main_arg0 ∨ b = main_arg1 ∨ b = main_arg2 ∨ b = main_arg3 ∨ b = main_arg4 ∨ b = main_arg5) :
    StableHlo.after (hostOps0_4 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_5` writes an argument array, nor allocates a buffer. -/
theorem hostOps0_5_fresh : (hostOps0_5 : List (HloOp τ sig (Elt F))).Forall fun op => op.fresh = ∅ := by
  simp only [List.Forall]; repeat' constructor
theorem hostOps0_5_keep (W : Valuation τ sig (Elt F)) (b : Ref sig .tc) (hb : b = main_arg0 ∨ b = main_arg1 ∨ b = main_arg2 ∨ b = main_arg3 ∨ b = main_arg4 ∨ b = main_arg5) :
    StableHlo.after (hostOps0_5 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_6` writes an argument array, nor allocates a buffer. -/
theorem hostOps0_6_fresh : (hostOps0_6 : List (HloOp τ sig (Elt F))).Forall fun op => op.fresh = ∅ := by
  simp only [List.Forall]; repeat' constructor
theorem hostOps0_6_keep (W : Valuation τ sig (Elt F)) (b : Ref sig .tc) (hb : b = main_arg0 ∨ b = main_arg1 ∨ b = main_arg2 ∨ b = main_arg3 ∨ b = main_arg4 ∨ b = main_arg5) :
    StableHlo.after (hostOps0_6 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps1` writes an argument array, nor allocates a buffer. -/
theorem hostOps1_fresh : (hostOps1 : List (HloOp τ sig (Elt F))).Forall fun op => op.fresh = ∅ := by
  simp only [List.Forall]; repeat' constructor
theorem hostOps1_keep (W : Valuation τ sig (Elt F)) (b : Ref sig .tc) (hb : b = main_arg0 ∨ b = main_arg1 ∨ b = main_arg2 ∨ b = main_arg3 ∨ b = main_arg4 ∨ b = main_arg5) :
    StableHlo.after (hostOps1 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps1_1` writes an argument array, nor allocates a buffer. -/
theorem hostOps1_1_fresh : (hostOps1_1 : List (HloOp τ sig (Elt F))).Forall fun op => op.fresh = ∅ := by
  simp only [List.Forall]; repeat' constructor
theorem hostOps1_1_keep (W : Valuation τ sig (Elt F)) (b : Ref sig .tc) (hb : b = main_arg0 ∨ b = main_arg1 ∨ b = main_arg2 ∨ b = main_arg3 ∨ b = main_arg4 ∨ b = main_arg5) :
    StableHlo.after (hostOps1_1 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps1_2` writes an argument array, nor allocates a buffer. -/
theorem hostOps1_2_fresh : (hostOps1_2 : List (HloOp τ sig (Elt F))).Forall fun op => op.fresh = ∅ := by
  simp only [List.Forall]; repeat' constructor
theorem hostOps1_2_keep (W : Valuation τ sig (Elt F)) (b : Ref sig .tc) (hb : b = main_arg0 ∨ b = main_arg1 ∨ b = main_arg2 ∨ b = main_arg3 ∨ b = main_arg4 ∨ b = main_arg5) :
    StableHlo.after (hostOps1_2 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- The fold at an argument's buffer walks back to the launch memory. -/
theorem W11_arg (c : Dev nD) (b : Ref sig .tc) (hb : b = main_arg0 ∨ b = main_arg1 ∨ b = main_arg2 ∨ b = main_arg3 ∨ b = main_arg4 ∨ b = main_arg5) :
    W11 m ρ c (Proc.devRef .tc b) = m ((c : Thread nD τ).loc b) :=
  calc W11 m ρ c (Proc.devRef .tc b)
    _ = W10 m ρ c (Proc.devRef .tc b) := hostOps1_2_keep _ b hb
    _ = W9 m ρ c (Proc.devRef .tc b) := hostOps1_1_keep _ b hb
    _ = W8 m ρ c (Proc.devRef .tc b) := hostOps1_keep _ b hb
    _ = W7 m ρ c (Proc.devRef .tc b) := W8_of_ne m ρ c b (by rcases hb with rfl | rfl | rfl | rfl | rfl | rfl <;> decide)
    _ = W6 m ρ c (Proc.devRef .tc b) := hostOps0_6_keep _ b hb
    _ = W5 m ρ c (Proc.devRef .tc b) := hostOps0_5_keep _ b hb
    _ = W4 m ρ c (Proc.devRef .tc b) := hostOps0_4_keep _ b hb
    _ = W3 m ρ c (Proc.devRef .tc b) := hostOps0_3_keep _ b hb
    _ = W2 m ρ c (Proc.devRef .tc b) := hostOps0_2_keep _ b hb
    _ = W1 m ρ c (Proc.devRef .tc b) := hostOps0_1_keep _ b hb
    _ = W0 m ρ c (Proc.devRef .tc b) := hostOps0_keep _ b hb
    _ = m ((c : Thread nD τ).loc b) := rfl

end Cert.KernelIdeal.Hand
end
-- ==== Proof.KRun.lean ====
/-
  The kernel program's run, launched: the routing stretches as host segments, the expert network's region entered holding
  every unscoped buffer at the contents the routing left (its arrays split out, the count table handed to the body's
  invariant and taken back), the combine stretches after it. Every weakly fair execution terminates without a fault; the
  result buffer ends at the fold's value and the argument arrays as launched. Stated for any float instance.
-/
import proofs.«167530_j18451179504175_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data, at the region's entry contents and the table the routing computed. -/
def pdats : (p : Fin 1) → (c : Dev nD) → Dat τ (Elt F) Unit ℕ (UR sig nD τ) ℕ (Pipeline.pin (pcfgs (F := F)) (admF m ρ) p) c
  | ⟨0, _⟩ => fun c => dat0 (V7 m ρ) (adm m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

/-- The table the body's invariant holds is the routing's: there is one device. -/
theorem pre_eq (c : Dev nD) : (fun k => V7 m ρ c (pre0.ref k)) = (adm m ρ).1 := by
  obtain rfl : c = 0 := Subsingleton.elim _ _
  rfl

set_option backward.isDefEq.respectTransparency.types false in
/-- The region over the thread state: entered from every unscoped buffer at `W7`, left at `W8`. -/
def reg0 : Pipeline.RegionSeg (pcfgs (F := F)) (admF m ρ) (pdats m ρ) () defs₀ 𝒱₀ L lv 0 where
  win := winFacts0.to₀
  block_pos := block_pos0
  stage_whole := stage_whole0
  K := PEmpty
  osem k := k.elim
  ho := Pipeline.OwnSemFacts.none _
  hbody c := (body_obligation (V7 m ρ) (adm m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(Pipeline.prefHeld pre0 c (fun _ => fullShare) (adm m ρ).1 ∗ ∃ r, prngReg c r)
  Z c := Pipeline.unscopedRestP (Ix := Unit) (Name := ℕ) (U := UR sig nD τ) (Lvl := ℕ) pre0 spec0 c (V7 m ρ c)
  hentry c := by
    rw [Pipeline.ownSems0_none]
    have hsplit := Pipeline.arrays_of_unscopedBufs (p := 0) (pcfgs (F := F)) (admF m ρ) (pdats m ρ) winFacts0 arr_whole0 c
      ((pdats m ρ 0 c).share_full fun _ => rfl) (V7 m ρ c) fun _ => rfl
    rw [Pipeline.unscopedBufs_held, Pipeline.unscopedRest_split preFacts0 c (V7 m ρ c), pre_eq m ρ c] at hsplit
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop(Pipeline.prefHeld pre0 c (fun _ => fullShare) (adm m ρ).1 ∗ Pipeline.ΦA spec0 c) from rfl]; unfold Pipeline.ΦA
    iintro ⟨Hp, HT, Hr⟩
    isplitl [HT]; · iexact HT
    isplitl [Hr]; · iexact Hr
    iexact Hp
  hout c := by
    rw [Pipeline.ownSems0_none, show (pdats m ρ 0 c).Φ (Fin.last _) = iprop(Pipeline.prefHeld pre0 c (fun _ => fullShare) (adm m ρ).1 ∗ Pipeline.ΦA spec0 c) from rfl]; unfold Pipeline.ΦA
    iintro ⟨HT, Hr, Hp⟩
    isplitl [HT Hp]
    · isplitl [HT]; · iexact HT
      iexact Hp
    isplitr; · iempintro
    iexact Hr
  hexit c := by
    have hjoin := Pipeline.unscopedBufs_of_arrays (p := 0) (pcfgs (F := F)) (admF m ρ) (Ix := Unit) (Name := ℕ) (U := UR sig nD τ) (Lvl := ℕ)
      winFacts0 arr_whole0 c (pdats m ρ) ((pdats m ρ 0 c).share_full fun _ => rfl)
      (V7 m ρ c) (V8 m ρ c) ((pdats m ρ 0 c).arrAt · (cfg0 (adm m ρ)).N) (hF0 m ρ c) (hrest0 m ρ c)
    rw [Pipeline.unscopedBufs_held, Pipeline.unscopedRest_split preFacts0 c (V7 m ρ c), pre_eq m ρ c] at hjoin
    iintro ⟨Ha, HO, ⟨HT, HY⟩, Hrest⟩
    imodintro
    isplitl [Ha Hrest HT]
    · iapply hjoin
      isplitl [Ha]; · iexact Ha
      isplitl [HT]; · iexact HT
      iexact Hrest
    isplitl [HY]; · iexact HY
    unfold Pipeline.Dat.owesAt Pipeline.owesWithin
    icases HO with ⟨%W, -, HO⟩; iexists W; iexact HO

/-- @main's eleven segments in order. -/
abbrev segs : List (Pipeline.Seg (pcfgs (F := F)) (admF m ρ) (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)) ]

theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main terminates,
    nothing faulting; the result buffer ends at the fold's value at it, and every argument array as launched. -/
theorem run : θ_run defs (onTc (τ := τ) (main (F := F))) ⟨m, fun _ => 0, ρ⟩ (fun r => ∀ c : Dev nD,
      r.2.mem ((c.tc : Thread nD τ).loc main_v109) = W11 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) (admF m ρ) (pdats m ρ) () (cellOf_inj (admF m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admF m ρ)) (cellOf_inj (admF m ρ))) (Pipeline.launchToks (Pipeline.pin (pcfgs (F := F)) (admF m ρ)) (cellOf_inj (admF m ρ))))
    (hu₀ := by
      iintro Hu; imodintro
      isplitl [Hu]
      · iapply (show (ownU (initOf (Pipeline.cells (Pipeline.pin (pcfgs (F := F)) (admF m ρ)) (cellOf_inj (admF m ρ))) (Pipeline.launchToks (Pipeline.pin (pcfgs (F := F)) (admF m ρ)) (cellOf_inj (admF m ρ)))) : sProp 𝕄)
            ⊢ BI.own (emb₁ (initOf (Pipeline.cells (Pipeline.pin (pcfgs (F := F)) (admF m ρ)) (cellOf_inj (admF m ρ))) (Pipeline.launchToks (Pipeline.pin (pcfgs (F := F)) (admF m ρ)) (cellOf_inj (admF m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v109 (by decide)),
       (h c _ (mem_uc main_arg0 (by decide))).trans (W11_arg m ρ c main_arg0 (.inl rfl)),
       (h c _ (mem_uc main_arg1 (by decide))).trans (W11_arg m ρ c main_arg1 (.inr (.inl rfl))),
       (h c _ (mem_uc main_arg2 (by decide))).trans (W11_arg m ρ c main_arg2 (.inr (.inr (.inl rfl)))),
       (h c _ (mem_uc main_arg3 (by decide))).trans (W11_arg m ρ c main_arg3 (.inr (.inr (.inr (.inl rfl))))),
       (h c _ (mem_uc main_arg4 (by decide))).trans (W11_arg m ρ c main_arg4 (.inr (.inr (.inr (.inr (.inl rfl)))))),
       (h c _ (mem_uc main_arg5 (by decide))).trans (W11_arg m ρ c main_arg5 (.inr (.inr (.inr (.inr (.inr rfl))))))⟩)

end Cert.KernelIdeal.Hand
end
-- ==== Proof.BBody.lean ====
/-
  The expert network's body at one grid point. The body reads the expert's active-row count from the table it is
  handed, and either applies the gated two-layer network to its 256-row block of the dispatch buffer or, when the
  block starts at or beyond that count, writes zeros: exactly one of the two stores happens at every point, because
  the second condition is the first one's negation. Stated for any float instance.
-/
import proofs.«167530_j18451179504175_2_alg».proof.Proof.Gen.Kernel.Launch
import proofs.«167530_j18451179504175_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second branch's condition is the negation of the first's: one of the two stores happens at every point. -/
theorem cond2_iff (i : grid0.Coords) (v : BitVec 32) : k0_cond2 i v = 1#1 ↔ ¬ k0_cond1 i v = 1#1 := by
  unfold k0_cond2 k0_cond1
  dsimp only
  generalize Scalar.cmpi .slt (Scalar.muli (BitVec.ofNat 32 (i 1).val) 256#32) v = b
  revert b; decide

/-- The table's word the body at coordinates `i` loads: the expert's active-row count. -/
abbrev tword (pf : pre0.Contents (Elt F)) (i : grid0.Coords) : BitVec 32 := pf.atD 0 (k0_off1 i)

/-- What the body leaves in the output window's buffer, from the table's word and the input blocks: the expert
    network of the block's rows where the row tile starts below the count, zeros elsewhere. -/
def outBlk (i : grid0.Coords) (v : BitVec 32) (x0 : Vec F S1x256x1024 .bf16) (x1 x2 : Vec F S1x1024x4096 .bf16) (x3 : Vec F S1x4096x1024 .bf16) :
    Vec F S1x256x1024 .bf16 :=
  if k0_cond1 i v = 1#1 then k0_pay1 x0 x1 x2 x3 else k0_pay2

theorem hz3 : (![0, 0, 0] : Fin 3 → ℕ) = fun _ => 0 := by funext a; fin_cases a <;> rfl

set_option maxHeartbeats 1000000 in
/-- The kernel body on whole staging memrefs, holding the table: the inputs' memrefs and the table end as they were, the
    output's memref at `outBlk` of the table's word and the input blocks. -/
theorem sound_kernel (c : Dev nD) (E : Set ℕ) (i : grid0.Coords) (pf : pre0.Contents (Elt F))
    (arg3 : Memref sig .tc .vmem S1x256x1024 .bf16) (harg3 : arg3.IsWhole) (arg4 : Memref sig .tc .vmem S1x1024x4096 .bf16) (harg4 : arg4.IsWhole)
    (arg5 : Memref sig .tc .vmem S1x1024x4096 .bf16) (harg5 : arg5.IsWhole) (arg6 : Memref sig .tc .vmem S1x4096x1024 .bf16) (harg6 : arg6.IsWhole)
    (arg7 : Memref sig .tc .vmem S1x256x1024 .bf16) (harg7 : arg7.IsWhole)
    (x0 : Vec F S1x256x1024 .bf16) (x1 x2 : Vec F S1x1024x4096 .bf16) (x3 : Vec F S1x4096x1024 .bf16) (K : PUnit → sProp 𝕄) :
    iprop((((c : Thread nD τ).loc main_v55) ↦{fullShare} (pf 0))
        ∗ owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop((((c : Thread nD τ).loc main_v55) ↦{fullShare} (pf 0))
            ∗ owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outBlk i (tword pf i) x0 x1 x2 x3)) -∗ K ⟨⟩))
      ⊢ wp frame (wpE (defs₀ (F := F)) Variants.none c none) E
          (cc0__ffn_kernel i (Memref.whole main_v55) (Memref.isWhole_whole _) arg3 harg3 arg4 harg4 arg5 harg5 arg6 harg6 arg7 harg7) K := by
  simp only [cc0__ffn_kernel_eq_skeleton]; unfold cc0__ffn_kernel_skel
  rw [← owns_whole (c : Thread nD τ) main_v55 fullShare (pf 0)]
  unfold owns
  iintro ⟨⟨%fT, %hfT, HT⟩, ⟨%f0, %hf0, H0⟩, ⟨%f1, %hf1, H1⟩, ⟨%f2, %hf2, H2⟩, ⟨%f3, %hf3, H3⟩, ⟨%d7, %f7, -, H7⟩, Hk⟩
  subst hf0 hf1 hf2 hf3
  sl_exec
  have hr : sound_kernel.sl.r c i fT = tword pf i := by
    unfold sound_kernel.sl.r tword Pipeline.Prefetch.Contents.atD
    rw [dif_pos (fun a => by fin_cases a; exact k0_off1_inb i 0), ← hfT]
    rfl
  rw [hr]
  sl_step
  iapply Hk
  isplitl [HT]
  · iexists fT; isplitr; · ipureintro; exact hfT
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H7
  ipureintro
  unfold outBlk
  by_cases h1 : k0_cond1 i (tword pf i) = 1#1
  · have h2 : ¬ k0_cond2 i (tword pf i) = 1#1 := fun h => (cond2_iff i _).1 h h1
    rw [dif_neg h2, dif_pos h1, if_pos h1]
    rw [View.read_writes_eq_canon _ _ _ (View.cover_of_tiled _ S1x256x1024.size (by rfl)), View.canon_unit_zero hz3]
    simp only [View.readAt_eq_ld, View.ld_unit_zero (S := S1x256x1024) hz3, View.ld_unit_zero (S := S1x1024x4096) hz3, View.ld_unit_zero (S := S1x4096x1024) hz3]
  · have h2 : k0_cond2 i (tword pf i) = 1#1 := (cond2_iff i _).2 h1
    rw [dif_pos h2, if_neg h1]
    rw [View.read_writes_eq_canon _ _ _ (View.cover_of_tiled _ S1x256x1024.size (by rfl)), View.canon_unit_zero hz3]

end Cert.Kernel.Hand
end
-- ==== Proof.BDat.lean ====
/-
  The proof data of the expert network's pipeline and its body obligation. Entered with the arrays at contents `V` and the
  table at contents `a`: each input window's buffer holds its block at every point; the output window's buffer holds,
  after the body at point (e, r), the gated network of rows r·256 … r·256+255 of expert e's dispatch rows when r·256 is
  below the expert's count in the table, and zeros otherwise. The output window is idle at no point.
-/
import proofs.«167530_j18451179504175_2_alg».proof.Proof.BBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered, and the table's contents the pipeline runs at
variable (V : (c : Dev nD) → (b : Ref sig .tc) → Buf (Elt F) ((c : Thread nD τ).loc b))
variable (a : (pcfg0 (F := F)).Adm)

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The proof data: the arrays as the region finds them; after the body at point `t` each input's buffer at its block and
    the output's at `outBlk` of the table's word and the input blocks; the invariant holds the table and the class's rest. -/
def dat0 (c : Dev nD) : Dat τ (Elt F) Unit ℕ (UR sig nD τ) ℕ (cfg0 a) c where
  A w := V c (Pipeline.arrRef spec0 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => outBlk ((cfg0 a).grid.coords t) (tword a.1 ((cfg0 a).grid.coords t)) (iblk V a c 0 t) (iblk V a c 1 t) (iblk V a c 2 t) (iblk V a c 3 t)
  Φ _ := iprop(Pipeline.prefHeld pre0 c (fun _ => fullShare) a.1 ∗ Pipeline.ΦA spec0 c)
  q _ := fullShare
  owed _ := 0

/-- The output window is idle at no point: one of the body's two stores happens whatever the table's word. -/
theorem idle4 (i : grid0.Coords) : idle0 a.1 4 i = false := by
  show (!(k0_cond1 i (tword a.1 i) == 1#1) && !(k0_cond2 i (tword a.1 i) == 1#1)) = false
  by_cases h : k0_cond1 i (tword a.1 i) = 1#1
  · simp [h]
  · have h2 := (cond2_iff i (tword a.1 i)).2 h
    simp [h2]

theorem before_of_0 {c : Dev nD} (dat : Dat τ (Elt F) Unit ℕ (UR sig nD τ) ℕ (cfg0 a) c) (hA : dat.A 0 = V c (Pipeline.arrRef spec0 0))
    (hafter : ∀ t, dat.after 0 t = iblk V a c 0 t) (t : Fin (cfg0 a).N) (d) : dat.before 0 t d = iblk V a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ (cfg0 a) c) (hA : dat.A 1 = V c (Pipeline.arrRef spec0 1))
    (hafter : ∀ t, dat.after 1 t = iblk V a c 1 t) (t : Fin (cfg0 a).N) (d) : dat.before 1 t d = iblk V a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ (cfg0 a) c) (hA : dat.A 2 = V c (Pipeline.arrRef spec0 2))
    (hafter : ∀ t, dat.after 2 t = iblk V a c 2 t) (t : Fin (cfg0 a).N) (d) : dat.before 2 t d = iblk V a c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ (cfg0 a) c) (hA : dat.A 3 = V c (Pipeline.arrRef spec0 3))
    (hafter : ∀ t, dat.after 3 t = iblk V a c 3 t) (t : Fin (cfg0 a).N) (d) : dat.before 3 t d = iblk V a c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem A_eq (c : Dev nD) (w : Fin (cfg0 a).W) : (dat0 V a c).A w = V c (Pipeline.arrRef spec0 w) := by dsimp only [dat0] <;> rfl
theorem after_0 (c : Dev nD) (t : Fin (cfg0 a).N) : (dat0 V a c).after 0 t = iblk V a c 0 t := by dsimp only [dat0] <;> rfl
theorem after_1 (c : Dev nD) (t : Fin (cfg0 a).N) : (dat0 V a c).after 1 t = iblk V a c 1 t := by dsimp only [dat0] <;> rfl
theorem after_2 (c : Dev nD) (t : Fin (cfg0 a).N) : (dat0 V a c).after 2 t = iblk V a c 2 t := by dsimp only [dat0] <;> rfl
theorem after_3 (c : Dev nD) (t : Fin (cfg0 a).N) : (dat0 V a c).after 3 t = iblk V a c 3 t := by dsimp only [dat0] <;> rfl
theorem after_4 (c : Dev nD) (t : Fin (cfg0 a).N) : (dat0 V a c).after 4 t
    = outBlk ((cfg0 a).grid.coords t) (tword a.1 ((cfg0 a).grid.coords t)) (iblk V a c 0 t) (iblk V a c 1 t) (iblk V a c 2 t) (iblk V a c 3 t) := by dsimp only [dat0] <;> rfl
theorem before_0 (c : Dev nD) (t : Fin (cfg0 a).N) (d) : (dat0 V a c).before 0 t d = iblk V a c 0 t := before_of_0 V a (dat0 V a c) (A_eq V a c 0) (after_0 V a c) t d
theorem before_1 (c : Dev nD) (t : Fin (cfg0 a).N) (d) : (dat0 V a c).before 1 t d = iblk V a c 1 t := before_of_1 V a (dat0 V a c) (A_eq V a c 1) (after_1 V a c) t d
theorem before_2 (c : Dev nD) (t : Fin (cfg0 a).N) (d) : (dat0 V a c).before 2 t d = iblk V a c 2 t := before_of_2 V a (dat0 V a c) (A_eq V a c 2) (after_2 V a c) t d
theorem before_3 (c : Dev nD) (t : Fin (cfg0 a).N) (d) : (dat0 V a c).before 3 t d = iblk V a c 3 t := before_of_3 V a (dat0 V a c) (A_eq V a c 3) (after_3 V a c) t d

/-- The current staging memref of window `w` at point `t`. -/
abbrev st (w : Fin (cfg0 a).W) (t : Fin (cfg0 a).N) := ((cfg0 a).win w).stage ((cfg0 a).slots t w)

/-- The kernel body at point `t`, on what the pipeline calls it with: the table, and each window's current staging memref. -/
abbrev bodyAt (t : Fin (cfg0 a).N) : Prog (TpuEff nD τ sig (Elt F) Λ₀ .tc) PUnit :=
  cc0__ffn_kernel ((cfg0 a).grid.coords t) (Memref.whole main_v55) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))

theorem idle4' (t : Fin (cfg0 a).N) : (cfg0 a).idle (4 : Fin 5) ((cfg0 a).grid.coords t) = false := idle4 a _

theorem prefHeld_one (c : Dev nD) (q : PosShare TreeShare) (pf : pre0.Contents (Elt F)) :
    (Pipeline.prefHeld pre0 c (fun _ => q) pf : sProp 𝕄) = (((c : Thread nD τ).loc main_v55) ↦{q} (pf 0)) := by
  unfold Pipeline.prefHeld
  rw [show (Finset.univ : Finset (Fin 1)) = {0} from rfl, bigSep_singleton]
  rfl

theorem sound_body (c : Dev nD) (t : Fin (cfg0 a).N) :
    iprop((dat0 V a c).Φ t.castSucc ∗ (dat0 V a c).owesAt () t.castSucc
        ∗ (∃ d, owns (c : Thread nD τ) (st a 0 t) fullShare ((dat0 V a c).before 0 t d))
        ∗ (∃ d, owns (c : Thread nD τ) (st a 1 t) fullShare ((dat0 V a c).before 1 t d))
        ∗ (∃ d, owns (c : Thread nD τ) (st a 2 t) fullShare ((dat0 V a c).before 2 t d))
        ∗ (∃ d, owns (c : Thread nD τ) (st a 3 t) fullShare ((dat0 V a c).before 3 t d))
        ∗ (∃ d, owns (c : Thread nD τ) (st a 4 t) fullShare ((dat0 V a c).before 4 t d)))
      ⊢ wp frame (wpE (defs₀ (F := F)) Variants.none c none) Set.univ (bodyAt a t) (fun _ =>
          iprop((dat0 V a c).Φ t.succ ∗ (dat0 V a c).owesAt () t.succ
            ∗ owns (c : Thread nD τ) (st a 0 t) fullShare ((dat0 V a c).after 0 t)
            ∗ owns (c : Thread nD τ) (st a 1 t) fullShare ((dat0 V a c).after 1 t)
            ∗ owns (c : Thread nD τ) (st a 2 t) fullShare ((dat0 V a c).after 2 t)
            ∗ owns (c : Thread nD τ) (st a 3 t) fullShare ((dat0 V a c).after 3 t)
            ∗ owns (c : Thread nD τ) (st a 4 t) fullShare ((dat0 V a c).after 4 t))) := by
  simp only [before_0, before_1, before_2, before_3]
  rw [show (dat0 V a c).Φ t.succ = (dat0 V a c).Φ t.castSucc from rfl,
    show (dat0 V a c).owesAt () t.succ = (dat0 V a c).owesAt () t.castSucc from rfl,
    after_0, after_1, after_2, after_3, after_4]
  rw [show (dat0 V a c).Φ t.castSucc = iprop(Pipeline.prefHeld pre0 c (fun _ => fullShare) a.1 ∗ Pipeline.ΦA spec0 c) from rfl, prefHeld_one]
  unfold bodyAt
  iintro ⟨⟨HT, HA⟩, Ho, ⟨%d0, H0⟩, ⟨%d1, H1⟩, ⟨%d2, H2⟩, ⟨%d3, H3⟩, ⟨%d4, H4⟩⟩
  iapply (sound_kernel c Set.univ ((cfg0 a).grid.coords t) a.1 _ _ _ _ _ _ _ _ _ _ (iblk V a c 0 t) (iblk V a c 1 t) (iblk V a c 2 t) (iblk V a c 3 t) _)
  isplitl [HT]; · iexact HT
  isplitl [H0]; · iexact H0
  isplitl [H1]; · iexact H1
  isplitl [H2]; · iexact H2
  isplitl [H3]; · iexact H3
  isplitl [H4]; · iexists _; iexact H4
  iintro ⟨HT, H0, H1, H2, H3, H4⟩
  isplitl [HT HA]
  · isplitl [HT]; · iexact HT
    iexact HA
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat0 (F := F) V a c) (defs₀ (F := F)) Variants.none () Set.univ := fun t => by
  rw [bigSep_W0, bigSep_W0]
  rw [idle4' a t]
  exact sound_body V a c t

end Region

end Cert.Kernel.Hand
end
-- ==== Proof.BRunA.lean ====
/-
  The kernel program's run, segment by segment: seven stretches of host operations (the routing: the stable sort by
  expert, the counts and their running sums, each entry's slot, the dispatch buffer), the expert network's region, and
  three more stretches (the combine gather, the weights, the scatter-add into the result). The buffer contents at every
  boundary are a fold from the launch memory; no host operation and no write-back touches an argument array.
-/
import proofs.«167530_j18451179504175_2_alg».proof.Proof.BDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
/-- At the region's entry. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b

/-- The table's contents the pipeline runs at: what the host operations before the region left in the table's buffer
    (the index maps read no table, so every contents is admissible). -/
def adm : (pcfg0 (F := F)).Adm := ⟨fun k => V7 m ρ 0 (pre0.ref k), trivial⟩
abbrev admF : (p : Fin 1) → (pcfgs (F := F) p).Adm := fun _ => adm m ρ

/-- At the region's exit: its arrays at what the pipeline leaves, every other buffer as entered. -/
def W8 (c : Dev nD) : Valuation τ sig (Elt F) :=
  Pipeline.withArrays spec0 c (W7 m ρ c) fun w => (dat0 (V7 m ρ) (adm m ρ) c).arrAt w (cfg0 (adm m ρ)).N
theorem W8_arr (c : Dev nD) (w : Fin (cfg0 (adm m ρ)).W) :
    W8 m ρ c (Proc.devRef .tc (Pipeline.arrRef spec0 w)) = (dat0 (V7 m ρ) (adm m ρ) c).arrAt w (cfg0 (adm m ρ)).N := by
  unfold W8; exact Pipeline.withArrays_arr spec0 winFacts0.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin (cfg0 (adm m ρ)).W) : (dat0 (V7 m ρ) (adm m ρ) c).arrAt w (cfg0 (adm m ρ)).N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps1 (W8 m ρ c)
abbrev W10 : Dev nD → Valuation τ sig (Elt F) := fun c => StableHlo.after hostOps1_1 (W9 m ρ c)
/-- At the return. -/
abbrev W11 : Dev nD → Valuation τ sig (Elt F) := fun c => StableHlo.after hostOps1_2 (W10 m ρ c)

/-- No operation of `hostOps0` writes an argument array, nor allocates a buffer. -/
theorem hostOps0_fresh : (hostOps0 : List (HloOp τ sig (Elt F))).Forall fun op => op.fresh = ∅ := by
  simp only [List.Forall]; repeat' constructor
theorem hostOps0_keep (W : Valuation τ sig (Elt F)) (b : Ref sig .tc) (hb : b = main_arg0 ∨ b = main_arg1 ∨ b = main_arg2 ∨ b = main_arg3 ∨ b = main_arg4 ∨ b = main_arg5) :
    StableHlo.after (hostOps0 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_1` writes an argument array, nor allocates a buffer. -/
theorem hostOps0_1_fresh : (hostOps0_1 : List (HloOp τ sig (Elt F))).Forall fun op => op.fresh = ∅ := by
  simp only [List.Forall]; repeat' constructor
theorem hostOps0_1_keep (W : Valuation τ sig (Elt F)) (b : Ref sig .tc) (hb : b = main_arg0 ∨ b = main_arg1 ∨ b = main_arg2 ∨ b = main_arg3 ∨ b = main_arg4 ∨ b = main_arg5) :
    StableHlo.after (hostOps0_1 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_2` writes an argument array, nor allocates a buffer. -/
theorem hostOps0_2_fresh : (hostOps0_2 : List (HloOp τ sig (Elt F))).Forall fun op => op.fresh = ∅ := by
  simp only [List.Forall]; repeat' constructor
theorem hostOps0_2_keep (W : Valuation τ sig (Elt F)) (b : Ref sig .tc) (hb : b = main_arg0 ∨ b = main_arg1 ∨ b = main_arg2 ∨ b = main_arg3 ∨ b = main_arg4 ∨ b = main_arg5) :
    StableHlo.after (hostOps0_2 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_3` writes an argument array, nor allocates a buffer. -/
theorem hostOps0_3_fresh : (hostOps0_3 : List (HloOp τ sig (Elt F))).Forall fun op => op.fresh = ∅ := by
  simp only [List.Forall]; repeat' constructor
theorem hostOps0_3_keep (W : Valuation τ sig (Elt F)) (b : Ref sig .tc) (hb : b = main_arg0 ∨ b = main_arg1 ∨ b = main_arg2 ∨ b = main_arg3 ∨ b = main_arg4 ∨ b = main_arg5) :
    StableHlo.after (hostOps0_3 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_4` writes an argument array, nor allocates a buffer. -/
theorem hostOps0_4_fresh : (hostOps0_4 : List (HloOp τ sig (Elt F))).Forall fun op => op.fresh = ∅ := by
  simp only [List.Forall]; repeat' constructor
theorem hostOps0_4_keep (W : Valuation τ sig (Elt F)) (b : Ref sig .tc) (hb : b = main_arg0 ∨ b = main_arg1 ∨ b = main_arg2 ∨ b = main_arg3 ∨ b = main_arg4 ∨ b = main_arg5) :
    StableHlo.after (hostOps0_4 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_5` writes an argument array, nor allocates a buffer. -/
theorem hostOps0_5_fresh : (hostOps0_5 : List (HloOp τ sig (Elt F))).Forall fun op => op.fresh = ∅ := by
  simp only [List.Forall]; repeat' constructor
theorem hostOps0_5_keep (W : Valuation τ sig (Elt F)) (b : Ref sig .tc) (hb : b = main_arg0 ∨ b = main_arg1 ∨ b = main_arg2 ∨ b = main_arg3 ∨ b = main_arg4 ∨ b = main_arg5) :
    StableHlo.after (hostOps0_5 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps0_6` writes an argument array, nor allocates a buffer. -/
theorem hostOps0_6_fresh : (hostOps0_6 : List (HloOp τ sig (Elt F))).Forall fun op => op.fresh = ∅ := by
  simp only [List.Forall]; repeat' constructor
theorem hostOps0_6_keep (W : Valuation τ sig (Elt F)) (b : Ref sig .tc) (hb : b = main_arg0 ∨ b = main_arg1 ∨ b = main_arg2 ∨ b = main_arg3 ∨ b = main_arg4 ∨ b = main_arg5) :
    StableHlo.after (hostOps0_6 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps1` writes an argument array, nor allocates a buffer. -/
theorem hostOps1_fresh : (hostOps1 : List (HloOp τ sig (Elt F))).Forall fun op => op.fresh = ∅ := by
  simp only [List.Forall]; repeat' constructor
theorem hostOps1_keep (W : Valuation τ sig (Elt F)) (b : Ref sig .tc) (hb : b = main_arg0 ∨ b = main_arg1 ∨ b = main_arg2 ∨ b = main_arg3 ∨ b = main_arg4 ∨ b = main_arg5) :
    StableHlo.after (hostOps1 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps1_1` writes an argument array, nor allocates a buffer. -/
theorem hostOps1_1_fresh : (hostOps1_1 : List (HloOp τ sig (Elt F))).Forall fun op => op.fresh = ∅ := by
  simp only [List.Forall]; repeat' constructor
theorem hostOps1_1_keep (W : Valuation τ sig (Elt F)) (b : Ref sig .tc) (hb : b = main_arg0 ∨ b = main_arg1 ∨ b = main_arg2 ∨ b = main_arg3 ∨ b = main_arg4 ∨ b = main_arg5) :
    StableHlo.after (hostOps1_1 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- No operation of `hostOps1_2` writes an argument array, nor allocates a buffer. -/
theorem hostOps1_2_fresh : (hostOps1_2 : List (HloOp τ sig (Elt F))).Forall fun op => op.fresh = ∅ := by
  simp only [List.Forall]; repeat' constructor
theorem hostOps1_2_keep (W : Valuation τ sig (Elt F)) (b : Ref sig .tc) (hb : b = main_arg0 ∨ b = main_arg1 ∨ b = main_arg2 ∨ b = main_arg3 ∨ b = main_arg4 ∨ b = main_arg5) :
    StableHlo.after (hostOps1_2 (F := F)) W (Proc.devRef .tc b) = W (Proc.devRef .tc b) :=
  StableHlo.after_of_forall_not_mem (b := Proc.devRef .tc b) _ _ (List.forall_iff_forall_mem.mp (by
    rcases hb with rfl | rfl | rfl | rfl | rfl | rfl <;>
    · simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
      repeat' apply And.intro
      all_goals exact StableHlo.devRef_ne_of_ne (by decide)))

/-- The fold at an argument's buffer walks back to the launch memory. -/
theorem W11_arg (c : Dev nD) (b : Ref sig .tc) (hb : b = main_arg0 ∨ b = main_arg1 ∨ b = main_arg2 ∨ b = main_arg3 ∨ b = main_arg4 ∨ b = main_arg5) :
    W11 m ρ c (Proc.devRef .tc b) = m ((c : Thread nD τ).loc b) :=
  calc W11 m ρ c (Proc.devRef .tc b)
    _ = W10 m ρ c (Proc.devRef .tc b) := hostOps1_2_keep _ b hb
    _ = W9 m ρ c (Proc.devRef .tc b) := hostOps1_1_keep _ b hb
    _ = W8 m ρ c (Proc.devRef .tc b) := hostOps1_keep _ b hb
    _ = W7 m ρ c (Proc.devRef .tc b) := W8_of_ne m ρ c b (by rcases hb with rfl | rfl | rfl | rfl | rfl | rfl <;> decide)
    _ = W6 m ρ c (Proc.devRef .tc b) := hostOps0_6_keep _ b hb
    _ = W5 m ρ c (Proc.devRef .tc b) := hostOps0_5_keep _ b hb
    _ = W4 m ρ c (Proc.devRef .tc b) := hostOps0_4_keep _ b hb
    _ = W3 m ρ c (Proc.devRef .tc b) := hostOps0_3_keep _ b hb
    _ = W2 m ρ c (Proc.devRef .tc b) := hostOps0_2_keep _ b hb
    _ = W1 m ρ c (Proc.devRef .tc b) := hostOps0_1_keep _ b hb
    _ = W0 m ρ c (Proc.devRef .tc b) := hostOps0_keep _ b hb
    _ = m ((c : Thread nD τ).loc b) := rfl

end Cert.Kernel.Hand
end
-- ==== Proof.BRun.lean ====
/-
  The kernel program's run, launched: the routing stretches as host segments, the expert network's region entered holding
  every unscoped buffer at the contents the routing left (its arrays split out, the count table handed to the body's
  invariant and taken back), the combine stretches after it. Every weakly fair execution terminates without a fault; the
  result buffer ends at the fold's value and the argument arrays as launched. Stated for any float instance.
-/
import proofs.«167530_j18451179504175_2_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data, at the region's entry contents and the table the routing computed. -/
def pdats : (p : Fin 1) → (c : Dev nD) → Dat τ (Elt F) Unit ℕ (UR sig nD τ) ℕ (Pipeline.pin (pcfgs (F := F)) (admF m ρ) p) c
  | ⟨0, _⟩ => fun c => dat0 (V7 m ρ) (adm m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

/-- The table the body's invariant holds is the routing's: there is one device. -/
theorem pre_eq (c : Dev nD) : (fun k => V7 m ρ c (pre0.ref k)) = (adm m ρ).1 := by
  obtain rfl : c = 0 := Subsingleton.elim _ _
  rfl

set_option backward.isDefEq.respectTransparency.types false in
/-- The region over the thread state: entered from every unscoped buffer at `W7`, left at `W8`. -/
def reg0 : Pipeline.RegionSeg (pcfgs (F := F)) (admF m ρ) (pdats m ρ) () defs₀ 𝒱₀ L lv 0 where
  win := winFacts0.to₀
  block_pos := block_pos0
  stage_whole := stage_whole0
  K := PEmpty
  osem k := k.elim
  ho := Pipeline.OwnSemFacts.none _
  hbody c := (body_obligation (V7 m ρ) (adm m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(Pipeline.prefHeld pre0 c (fun _ => fullShare) (adm m ρ).1 ∗ ∃ r, prngReg c r)
  Z c := Pipeline.unscopedRestP (Ix := Unit) (Name := ℕ) (U := UR sig nD τ) (Lvl := ℕ) pre0 spec0 c (V7 m ρ c)
  hentry c := by
    rw [Pipeline.ownSems0_none]
    have hsplit := Pipeline.arrays_of_unscopedBufs (p := 0) (pcfgs (F := F)) (admF m ρ) (pdats m ρ) winFacts0 arr_whole0 c
      ((pdats m ρ 0 c).share_full fun _ => rfl) (V7 m ρ c) fun _ => rfl
    rw [Pipeline.unscopedBufs_held, Pipeline.unscopedRest_split preFacts0 c (V7 m ρ c), pre_eq m ρ c] at hsplit
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop(Pipeline.prefHeld pre0 c (fun _ => fullShare) (adm m ρ).1 ∗ Pipeline.ΦA spec0 c) from rfl]; unfold Pipeline.ΦA
    iintro ⟨Hp, HT, Hr⟩
    isplitl [HT]; · iexact HT
    isplitl [Hr]; · iexact Hr
    iexact Hp
  hout c := by
    rw [Pipeline.ownSems0_none, show (pdats m ρ 0 c).Φ (Fin.last _) = iprop(Pipeline.prefHeld pre0 c (fun _ => fullShare) (adm m ρ).1 ∗ Pipeline.ΦA spec0 c) from rfl]; unfold Pipeline.ΦA
    iintro ⟨HT, Hr, Hp⟩
    isplitl [HT Hp]
    · isplitl [HT]; · iexact HT
      iexact Hp
    isplitr; · iempintro
    iexact Hr
  hexit c := by
    have hjoin := Pipeline.unscopedBufs_of_arrays (p := 0) (pcfgs (F := F)) (admF m ρ) (Ix := Unit) (Name := ℕ) (U := UR sig nD τ) (Lvl := ℕ)
      winFacts0 arr_whole0 c (pdats m ρ) ((pdats m ρ 0 c).share_full fun _ => rfl)
      (V7 m ρ c) (V8 m ρ c) ((pdats m ρ 0 c).arrAt · (cfg0 (adm m ρ)).N) (hF0 m ρ c) (hrest0 m ρ c)
    rw [Pipeline.unscopedBufs_held, Pipeline.unscopedRest_split preFacts0 c (V7 m ρ c), pre_eq m ρ c] at hjoin
    iintro ⟨Ha, HO, ⟨HT, HY⟩, Hrest⟩
    imodintro
    isplitl [Ha Hrest HT]
    · iapply hjoin
      isplitl [Ha]; · iexact Ha
      isplitl [HT]; · iexact HT
      iexact Hrest
    isplitl [HY]; · iexact HY
    unfold Pipeline.Dat.owesAt Pipeline.owesWithin
    icases HO with ⟨%W, -, HO⟩; iexists W; iexact HO

/-- @main's eleven segments in order. -/
abbrev segs : List (Pipeline.Seg (pcfgs (F := F)) (admF m ρ) (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)) ]

theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main terminates,
    nothing faulting; the result buffer ends at the fold's value at it, and every argument array as launched. -/
theorem run : θ_run defs (onTc (τ := τ) (main (F := F))) ⟨m, fun _ => 0, ρ⟩ (fun r => ∀ c : Dev nD,
      r.2.mem ((c.tc : Thread nD τ).loc main_v109) = W11 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) (admF m ρ) (pdats m ρ) () (cellOf_inj (admF m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admF m ρ)) (cellOf_inj (admF m ρ))) (Pipeline.launchToks (Pipeline.pin (pcfgs (F := F)) (admF m ρ)) (cellOf_inj (admF m ρ))))
    (hu₀ := by
      iintro Hu; imodintro
      isplitl [Hu]
      · iapply (show (ownU (initOf (Pipeline.cells (Pipeline.pin (pcfgs (F := F)) (admF m ρ)) (cellOf_inj (admF m ρ))) (Pipeline.launchToks (Pipeline.pin (pcfgs (F := F)) (admF m ρ)) (cellOf_inj (admF m ρ)))) : sProp 𝕄)
            ⊢ BI.own (emb₁ (initOf (Pipeline.cells (Pipeline.pin (pcfgs (F := F)) (admF m ρ)) (cellOf_inj (admF m ρ))) (Pipeline.launchToks (Pipeline.pin (pcfgs (F := F)) (admF m ρ)) (cellOf_inj (admF m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v109 (by decide)),
       (h c _ (mem_uc main_arg0 (by decide))).trans (W11_arg m ρ c main_arg0 (.inl rfl)),
       (h c _ (mem_uc main_arg1 (by decide))).trans (W11_arg m ρ c main_arg1 (.inr (.inl rfl))),
       (h c _ (mem_uc main_arg2 (by decide))).trans (W11_arg m ρ c main_arg2 (.inr (.inr (.inl rfl)))),
       (h c _ (mem_uc main_arg3 (by decide))).trans (W11_arg m ρ c main_arg3 (.inr (.inr (.inr (.inl rfl))))),
       (h c _ (mem_uc main_arg4 (by decide))).trans (W11_arg m ρ c main_arg4 (.inr (.inr (.inr (.inr (.inl rfl)))))),
       (h c _ (mem_uc main_arg5 (by decide))).trans (W11_arg m ρ c main_arg5 (.inr (.inr (.inr (.inr (.inr rfl))))))⟩)

end Cert.Kernel.Hand
end
-- ==== Proof.RefOps.lean ====
/- The reference program's @main as a list of its 154 host operations, in order: the operations of
   the module-local functions (@argsort, @clip, @cumsum → @cumsum_0, @silu, @_where) stand at their calls, over the
   buffers the call's record names, spelt with the plain builders at the buffers' literal types. The list is cut into
   fourteen consecutive windows w1 … w14, the cuts at the values the certificate names (sorted tokens, sorted expert ids,
   sorted weights, counts, segment starts, positions, the padded array, the experts' outputs, the gathered rows, the
   result); windows w1 … w6 are @main's first printed part, w7 … w11 its second, w12 … w14 its third. -/
import proofs.«167530_j18451179504175_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- `stablehlo.concatenate` of a S1 and a S7 array along axis 0 into S8, the two operands as plain arguments (the list of shape–array pairs is built inside). -/
def cat_S1_S7 : (⟨S1, .i32⟩ : BufTy).Contents (Elt F) → (⟨S7, .i32⟩ : BufTy).Contents (Elt F) → (⟨S8, .i32⟩ : BufTy).Contents (Elt F) :=
  fun a b => concatenate S8 0 [⟨S1, a⟩, ⟨S7, b⟩] concatenates_S1_S7_S8_d0

/-- `stablehlo.concatenate` of a S16384x1 and a S16384x1 array along axis 1 into S16384x2, the two operands as plain arguments (the list of shape–array pairs is built inside). -/
def cat_S16384x1_S16384x1 : (⟨S16384x1, .i32⟩ : BufTy).Contents (Elt F) → (⟨S16384x1, .i32⟩ : BufTy).Contents (Elt F) → (⟨S16384x2, .i32⟩ : BufTy).Contents (Elt F) :=
  fun a b => concatenate S16384x2 1 [⟨S16384x1, a⟩, ⟨S16384x1, b⟩] concatenates_S16384x1_S16384x1_S16384x2_d1

/-- Operations 1 … 17 of 154 (part 0 of @main). -/
abbrev w1 : List (HloOp τ sig (Elt F)) :=
  [ reshape main_arg1 main_v0 rfl shapeCasts_S8192x2_S16384,
    reshape main_arg2 main_v1 rfl shapeCasts_S8192x2_S16384,
    nullary main_v2 (iotaInDim S8192 32 0),
    unary main_v2 main_v3 (broadcastInDim S8192x2 ![0] bcast_S8192_S8192x2_0 : (⟨S8192, .i32⟩ : BufTy).Contents (Elt F) → (⟨S8192x2, .i32⟩ : BufTy).Contents (Elt F)),
    reshape main_v3 main_v4 rfl shapeCasts_S8192x2_S16384,
    nullary main_call0_v0 (iotaInDim S16384 32 0),
    binary main_v0 main_call0_v0 main_call0_v1_0 ((fun x y => (Host.sort2 S16384 0 comparator_i32_i32_d0 x y).1) : (⟨S16384, .i32⟩ : BufTy).Contents (Elt F) → (⟨S16384, .i32⟩ : BufTy).Contents (Elt F) → (⟨S16384, .i32⟩ : BufTy).Contents (Elt F)),
    binary main_v0 main_call0_v0 main_v5 ((fun x y => (Host.sort2 S16384 0 comparator_i32_i32_d0 x y).2) : (⟨S16384, .i32⟩ : BufTy).Contents (Elt F) → (⟨S16384, .i32⟩ : BufTy).Contents (Elt F) → (⟨S16384, .i32⟩ : BufTy).Contents (Elt F)),
    nullary main_c (constantI S_ 32 0#32),
    unary main_c main_v6 (broadcastInDim S16384 ![] bcast_S_S16384 : (⟨S_, .i32⟩ : BufTy).Contents (Elt F) → (⟨S16384, .i32⟩ : BufTy).Contents (Elt F)),
    binary main_v5 main_v6 main_v7 (cmpi .slt : (⟨S16384, .i32⟩ : BufTy).Contents (Elt F) → (⟨S16384, .i32⟩ : BufTy).Contents (Elt F) → (⟨S16384, .i1⟩ : BufTy).Contents (Elt F)),
    nullary main_c_0 (constantI S_ 32 16384#32),
    unary main_c_0 main_v8 (broadcastInDim S16384 ![] bcast_S_S16384 : (⟨S_, .i32⟩ : BufTy).Contents (Elt F) → (⟨S16384, .i32⟩ : BufTy).Contents (Elt F)),
    binary main_v5 main_v8 main_v9 (addi : (⟨S16384, .i32⟩ : BufTy).Contents (Elt F) → (⟨S16384, .i32⟩ : BufTy).Contents (Elt F) → (⟨S16384, .i32⟩ : BufTy).Contents (Elt F)),
    ternary main_v7 main_v9 main_v5 main_v10 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v10 main_v11 (broadcastInDim S16384x1 ![0] bcast_S16384_S16384x1_0 : (⟨S16384, .i32⟩ : BufTy).Contents (Elt F) → (⟨S16384x1, .i32⟩ : BufTy).Contents (Elt F)),
    binary main_v4 main_v11 main_v12 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)) ]
theorem w1_sub : (w1 : List (HloOp τ sig (Elt F))).Forall fun op => op.bufs ⊆ tcRefs τ sig :=
  ⟨reshape_bufs_sub .., reshape_bufs_sub .., nullary_bufs_sub .., unary_bufs_sub .., reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Operations 18 … 26 of 154 (part 0 of @main). -/
abbrev w2 : List (HloOp τ sig (Elt F)) :=
  [ nullary main_c_1 (constantI S_ 32 0#32),
    unary main_c_1 main_v13 (broadcastInDim S16384 ![] bcast_S_S16384 : (⟨S_, .i32⟩ : BufTy).Contents (Elt F) → (⟨S16384, .i32⟩ : BufTy).Contents (Elt F)),
    binary main_v5 main_v13 main_v14 (cmpi .slt : (⟨S16384, .i32⟩ : BufTy).Contents (Elt F) → (⟨S16384, .i32⟩ : BufTy).Contents (Elt F) → (⟨S16384, .i1⟩ : BufTy).Contents (Elt F)),
    nullary main_c_2 (constantI S_ 32 16384#32),
    unary main_c_2 main_v15 (broadcastInDim S16384 ![] bcast_S_S16384 : (⟨S_, .i32⟩ : BufTy).Contents (Elt F) → (⟨S16384, .i32⟩ : BufTy).Contents (Elt F)),
    binary main_v5 main_v15 main_v16 (addi : (⟨S16384, .i32⟩ : BufTy).Contents (Elt F) → (⟨S16384, .i32⟩ : BufTy).Contents (Elt F) → (⟨S16384, .i32⟩ : BufTy).Contents (Elt F)),
    ternary main_v14 main_v16 main_v5 main_v17 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v17 main_v18 (broadcastInDim S16384x1 ![0] bcast_S16384_S16384x1_0 : (⟨S16384, .i32⟩ : BufTy).Contents (Elt F) → (⟨S16384x1, .i32⟩ : BufTy).Contents (Elt F)),
    binary main_v0 main_v18 main_v19 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)) ]
theorem w2_sub : (w2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

/-- Operations 27 … 35 of 154 (part 0 of @main). -/
abbrev w3 : List (HloOp τ sig (Elt F)) :=
  [ nullary main_c_3 (constantI S_ 32 0#32),
    unary main_c_3 main_v20 (broadcastInDim S16384 ![] bcast_S_S16384 : (⟨S_, .i32⟩ : BufTy).Contents (Elt F) → (⟨S16384, .i32⟩ : BufTy).Contents (Elt F)),
    binary main_v5 main_v20 main_v21 (cmpi .slt : (⟨S16384, .i32⟩ : BufTy).Contents (Elt F) → (⟨S16384, .i32⟩ : BufTy).Contents (Elt F) → (⟨S16384, .i1⟩ : BufTy).Contents (Elt F)),
    nullary main_c_4 (constantI S_ 32 16384#32),
    unary main_c_4 main_v22 (broadcastInDim S16384 ![] bcast_S_S16384 : (⟨S_, .i32⟩ : BufTy).Contents (Elt F) → (⟨S16384, .i32⟩ : BufTy).Contents (Elt F)),
    binary main_v5 main_v22 main_v23 (addi : (⟨S16384, .i32⟩ : BufTy).Contents (Elt F) → (⟨S16384, .i32⟩ : BufTy).Contents (Elt F) → (⟨S16384, .i32⟩ : BufTy).Contents (Elt F)),
    ternary main_v21 main_v23 main_v5 main_v24 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v24 main_v25 (broadcastInDim S16384x1 ![0] bcast_S16384_S16384x1_0 : (⟨S16384, .i32⟩ : BufTy).Contents (Elt F) → (⟨S16384x1, .i32⟩ : BufTy).Contents (Elt F)),
    binary main_v1 main_v25 main_v26 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)) ]
theorem w3_sub : (w3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

/-- Operations 36 … 52 of 154 (part 0 of @main). -/
abbrev w4 : List (HloOp τ sig (Elt F)) :=
  [ nullary main_c_5 (constantI S_ 32 0#32),
    unary main_c_5 main_v27 (broadcastInDim S8 ![] bcast_S_S8 : (⟨S_, .i32⟩ : BufTy).Contents (Elt F) → (⟨S8, .i32⟩ : BufTy).Contents (Elt F)),
    nullary main_c_6 (constantI S_ 32 0#32),
    unary main_c_6 main_call1_v0 ((id) : (⟨S_, .i32⟩ : BufTy).Contents (Elt F) → (⟨S_, .i32⟩ : BufTy).Contents (Elt F)),
    unary main_call1_v0 main_call1_v1 ((broadcastInDim S16384 ![] bcast_S_S16384) : (⟨S_, .i32⟩ : BufTy).Contents (Elt F) → (⟨S16384, .i32⟩ : BufTy).Contents (Elt F)),
    binary main_call1_v1 main_v0 main_v28 ((maxsi) : (⟨S16384, .i32⟩ : BufTy).Contents (Elt F) → (⟨S16384, .i32⟩ : BufTy).Contents (Elt F) → (⟨S16384, .i32⟩ : BufTy).Contents (Elt F)),
    nullary main_c_7 (constantI S_ 32 0#32),
    unary main_c_7 main_v29 (broadcastInDim S16384 ![] bcast_S_S16384 : (⟨S_, .i32⟩ : BufTy).Contents (Elt F) → (⟨S16384, .i32⟩ : BufTy).Contents (Elt F)),
    binary main_v28 main_v29 main_v30 (cmpi .slt : (⟨S16384, .i32⟩ : BufTy).Contents (Elt F) → (⟨S16384, .i32⟩ : BufTy).Contents (Elt F) → (⟨S16384, .i1⟩ : BufTy).Contents (Elt F)),
    nullary main_c_8 (constantI S_ 32 8#32),
    unary main_c_8 main_v31 (broadcastInDim S16384 ![] bcast_S_S16384 : (⟨S_, .i32⟩ : BufTy).Contents (Elt F) → (⟨S16384, .i32⟩ : BufTy).Contents (Elt F)),
    binary main_v28 main_v31 main_v32 (addi : (⟨S16384, .i32⟩ : BufTy).Contents (Elt F) → (⟨S16384, .i32⟩ : BufTy).Contents (Elt F) → (⟨S16384, .i32⟩ : BufTy).Contents (Elt F)),
    ternary main_v30 main_v32 main_v28 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v33 main_v34 (broadcastInDim S16384x1 ![0] bcast_S16384_S16384x1_0 : (⟨S16384, .i32⟩ : BufTy).Contents (Elt F) → (⟨S16384x1, .i32⟩ : BufTy).Contents (Elt F)),
    nullary main_c_9 (constantI S_ 32 1#32),
    unary main_c_9 main_v35 (broadcastInDim S16384 ![] bcast_S_S16384 : (⟨S_, .i32⟩ : BufTy).Contents (Elt F) → (⟨S16384, .i32⟩ : BufTy).Contents (Elt F)),
    ternary main_v27 main_v34 main_v35 main_v36 ((fun x i u => Host.scatter scatter_S8_S16384x1_S16384_n_0_0_1 IntOp.addi x i u) : (⟨S8, .i32⟩ : BufTy).Contents (Elt F) → (⟨S16384x1, .i32⟩ : BufTy).Contents (Elt F) → (⟨S16384, .i32⟩ : BufTy).Contents (Elt F) → (⟨S8, .i32⟩ : BufTy).Contents (Elt F)) ]
theorem w4_sub : (w4 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

/-- Operations 53 … 59 of 154 (part 0 of @main). -/
abbrev w5 : List (HloOp τ sig (Elt F)) :=
  [ nullary main_c_10 (constantI S_ 32 0#32),
    unary main_c_10 main_v37 (broadcastInDim S1 ![] bcast_S_S1 : (⟨S_, .i32⟩ : BufTy).Contents (Elt F) → (⟨S1, .i32⟩ : BufTy).Contents (Elt F)),
    nullary main_call2_call0_c (constantI S_ 32 0#32),
    unary main_call2_call0_c main_call2_call0_v0 ((broadcastInDim S_ ![] bcast_S_S_) : (⟨S_, .i32⟩ : BufTy).Contents (Elt F) → (⟨S_, .i32⟩ : BufTy).Contents (Elt F)),
    binary main_v36 main_call2_call0_v0 main_v38 ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)),
    unary main_v38 main_v39 ((extractStridedSlice S7 ![0] · slices_S8_S7_0) : (⟨S8, .i32⟩ : BufTy).Contents (Elt F) → (⟨S7, .i32⟩ : BufTy).Contents (Elt F)),
    binary main_v37 main_v39 main_v40 (cat_S1_S7 (F := F)) ]
theorem w5_sub : (w5 : List (HloOp τ sig (Elt F))).Forall fun op => op.bufs ⊆ tcRefs τ sig :=
  ⟨nullary_bufs_sub .., unary_bufs_sub .., nullary_bufs_sub .., unary_bufs_sub .., binary_bufs_sub .., unary_bufs_sub .., binary_bufs_sub ..⟩

/-- Operations 60 … 66 of 154 (part 0 of @main). -/
abbrev w6 : List (HloOp τ sig (Elt F)) :=
  [ nullary main_v41 (iotaInDim S16384 32 0),
    nullary main_c_11 (constantI S_ 32 0#32),
    unary main_c_11 main_v42 (broadcastInDim S16384 ![] bcast_S_S16384 : (⟨S_, .i32⟩ : BufTy).Contents (Elt F) → (⟨S16384, .i32⟩ : BufTy).Contents (Elt F)),
    binary main_v19 main_v42 main_v43 (cmpi .slt : (⟨S16384, .i32⟩ : BufTy).Contents (Elt F) → (⟨S16384, .i32⟩ : BufTy).Contents (Elt F) → (⟨S16384, .i1⟩ : BufTy).Contents (Elt F)),
    nullary main_c_12 (constantI S_ 32 8#32),
    unary main_c_12 main_v44 (broadcastInDim S16384 ![] bcast_S_S16384 : (⟨S_, .i32⟩ : BufTy).Contents (Elt F) → (⟨S16384, .i32⟩ : BufTy).Contents (Elt F)),
    binary main_v19 main_v44 main_v45 (addi : (⟨S16384, .i32⟩ : BufTy).Contents (Elt F) → (⟨S16384, .i32⟩ : BufTy).Contents (Elt F) → (⟨S16384, .i32⟩ : BufTy).Contents (Elt F)) ]
theorem w6_sub : (w6 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub ..⟩

/-- Operations 67 … 76 of 154 (part 1 of @main). -/
abbrev w7 : List (HloOp τ sig (Elt F)) :=
  [ ternary main_v43 main_v45 main_v19 main_v46 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v46 main_v47 (broadcastInDim S16384x1 ![0] bcast_S16384_S16384x1_0 : (⟨S16384, .i32⟩ : BufTy).Contents (Elt F) → (⟨S16384x1, .i32⟩ : BufTy).Contents (Elt F)),
    binary main_v40 main_v47 main_v48 ((fun x i => Host.gather gather_S8_S16384x1_S16384_n_0_n_n_0_1_1 x i) : (⟨S8, .i32⟩ : BufTy).Contents (Elt F) → (⟨S16384x1, .i32⟩ : BufTy).Contents (Elt F) → (⟨S16384, .i32⟩ : BufTy).Contents (Elt F)),
    binary main_v41 main_v48 main_v49 (subi : (⟨S16384, .i32⟩ : BufTy).Contents (Elt F) → (⟨S16384, .i32⟩ : BufTy).Contents (Elt F) → (⟨S16384, .i32⟩ : BufTy).Contents (Elt F)),
    nullary main_c_13 (constantI S_ 32 4096#32),
    unary main_c_13 main_v50 (broadcastInDim S16384 ![] bcast_S_S16384 : (⟨S_, .i32⟩ : BufTy).Contents (Elt F) → (⟨S16384, .i32⟩ : BufTy).Contents (Elt F)),
    binary main_v49 main_v50 main_v51 (cmpi .slt : (⟨S16384, .i32⟩ : BufTy).Contents (Elt F) → (⟨S16384, .i32⟩ : BufTy).Contents (Elt F) → (⟨S16384, .i1⟩ : BufTy).Contents (Elt F)),
    nullary main_c_14 (constantI S_ 32 4096#32),
    unary main_c_14 main_v52 (broadcastInDim S16384 ![] bcast_S_S16384 : (⟨S_, .i32⟩ : BufTy).Contents (Elt F) → (⟨S16384, .i32⟩ : BufTy).Contents (Elt F)),
    binary main_v49 main_v52 main_v53 (minsi : (⟨S16384, .i32⟩ : BufTy).Contents (Elt F) → (⟨S16384, .i32⟩ : BufTy).Contents (Elt F) → (⟨S16384, .i32⟩ : BufTy).Contents (Elt F)) ]
theorem w7_sub : (w7 : List (HloOp τ sig (Elt F))).Forall fun op => op.bufs ⊆ tcRefs τ sig :=
  ⟨ternary_bufs_sub .., unary_bufs_sub .., binary_bufs_sub .., binary_bufs_sub .., nullary_bufs_sub .., unary_bufs_sub .., binary_bufs_sub .., nullary_bufs_sub .., unary_bufs_sub .., binary_bufs_sub ..⟩

/-- Operations 77 … 87 of 154 (part 1 of @main). -/
abbrev w8 : List (HloOp τ sig (Elt F)) :=
  [ nullary main_cst (constant S_ .f32 0x00000000#32),
    unary main_cst main_v54 (broadcastInDim S8x4097x1024 ![] bcast_S_S8x4097x1024 : (⟨S_, .f32⟩ : BufTy).Contents (Elt F) → (⟨S8x4097x1024, .f32⟩ : BufTy).Contents (Elt F)),
    nullary main_c_15 (constantI S_ 32 0#32),
    unary main_c_15 main_v55 (broadcastInDim S16384 ![] bcast_S_S16384 : (⟨S_, .i32⟩ : BufTy).Contents (Elt F) → (⟨S16384, .i32⟩ : BufTy).Contents (Elt F)),
    binary main_v12 main_v55 main_v56 (cmpi .slt : (⟨S16384, .i32⟩ : BufTy).Contents (Elt F) → (⟨S16384, .i32⟩ : BufTy).Contents (Elt F) → (⟨S16384, .i1⟩ : BufTy).Contents (Elt F)),
    nullary main_c_16 (constantI S_ 32 8192#32),
    unary main_c_16 main_v57 (broadcastInDim S16384 ![] bcast_S_S16384 : (⟨S_, .i32⟩ : BufTy).Contents (Elt F) → (⟨S16384, .i32⟩ : BufTy).Contents (Elt F)),
    binary main_v12 main_v57 main_v58 (addi : (⟨S16384, .i32⟩ : BufTy).Contents (Elt F) → (⟨S16384, .i32⟩ : BufTy).Contents (Elt F) → (⟨S16384, .i32⟩ : BufTy).Contents (Elt F)),
    ternary main_v56 main_v58 main_v12 main_v59 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v59 main_v60 (broadcastInDim S16384x1 ![0] bcast_S16384_S16384x1_0 : (⟨S16384, .i32⟩ : BufTy).Contents (Elt F) → (⟨S16384x1, .i32⟩ : BufTy).Contents (Elt F)),
    binary main_arg0 main_v60 main_v61 ((fun x i => Host.gather gather_S8192x1024_S16384x1_S16384x1024_1_0_n_n_0_1_11024 x i) : (⟨S8192x1024, .f32⟩ : BufTy).Contents (Elt F) → (⟨S16384x1, .i32⟩ : BufTy).Contents (Elt F) → (⟨S16384x1024, .f32⟩ : BufTy).Contents (Elt F)) ]
theorem w8_sub : (w8 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

/-- Operations 88 … 105 of 154 (part 1 of @main). -/
abbrev w9 : List (HloOp τ sig (Elt F)) :=
  [ nullary main_c_17 (constantI S_ 32 0#32),
    unary main_c_17 main_v62 (broadcastInDim S16384 ![] bcast_S_S16384 : (⟨S_, .i32⟩ : BufTy).Contents (Elt F) → (⟨S16384, .i32⟩ : BufTy).Contents (Elt F)),
    binary main_v19 main_v62 main_v63 (cmpi .slt : (⟨S16384, .i32⟩ : BufTy).Contents (Elt F) → (⟨S16384, .i32⟩ : BufTy).Contents (Elt F) → (⟨S16384, .i1⟩ : BufTy).Contents (Elt F)),
    nullary main_c_18 (constantI S_ 32 8#32),
    unary main_c_18 main_v64 (broadcastInDim S16384 ![] bcast_S_S16384 : (⟨S_, .i32⟩ : BufTy).Contents (Elt F) → (⟨S16384, .i32⟩ : BufTy).Contents (Elt F)),
    binary main_v19 main_v64 main_v65 (addi : (⟨S16384, .i32⟩ : BufTy).Contents (Elt F) → (⟨S16384, .i32⟩ : BufTy).Contents (Elt F) → (⟨S16384, .i32⟩ : BufTy).Contents (Elt F)),
    ternary main_v63 main_v65 main_v19 main_v66 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_19 (constantI S_ 32 0#32),
    unary main_c_19 main_v67 (broadcastInDim S16384 ![] bcast_S_S16384 : (⟨S_, .i32⟩ : BufTy).Contents (Elt F) → (⟨S16384, .i32⟩ : BufTy).Contents (Elt F)),
    binary main_v53 main_v67 main_v68 (cmpi .slt : (⟨S16384, .i32⟩ : BufTy).Contents (Elt F) → (⟨S16384, .i32⟩ : BufTy).Contents (Elt F) → (⟨S16384, .i1⟩ : BufTy).Contents (Elt F)),
    nullary main_c_20 (constantI S_ 32 4097#32),
    unary main_c_20 main_v69 (broadcastInDim S16384 ![] bcast_S_S16384 : (⟨S_, .i32⟩ : BufTy).Contents (Elt F) → (⟨S16384, .i32⟩ : BufTy).Contents (Elt F)),
    binary main_v53 main_v69 main_v70 (addi : (⟨S16384, .i32⟩ : BufTy).Contents (Elt F) → (⟨S16384, .i32⟩ : BufTy).Contents (Elt F) → (⟨S16384, .i32⟩ : BufTy).Contents (Elt F)),
    ternary main_v68 main_v70 main_v53 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v66 main_v72 (broadcastInDim S16384x1 ![0] bcast_S16384_S16384x1_0 : (⟨S16384, .i32⟩ : BufTy).Contents (Elt F) → (⟨S16384x1, .i32⟩ : BufTy).Contents (Elt F)),
    unary main_v71 main_v73 (broadcastInDim S16384x1 ![0] bcast_S16384_S16384x1_0 : (⟨S16384, .i32⟩ : BufTy).Contents (Elt F) → (⟨S16384x1, .i32⟩ : BufTy).Contents (Elt F)),
    binary main_v72 main_v73 main_v74 (cat_S16384x1_S16384x1 (F := F)),
    ternary main_v54 main_v74 main_v61 main_v75 ((fun x i u => Host.scatter scatter_S8x4097x1024_S16384x2_S16384x1024_1_01_01_1 (fun _ b => b) x i u) : (⟨S8x4097x1024, .f32⟩ : BufTy).Contents (Elt F) → (⟨S16384x2, .i32⟩ : BufTy).Contents (Elt F) → (⟨S16384x1024, .f32⟩ : BufTy).Contents (Elt F) → (⟨S8x4097x1024, .f32⟩ : BufTy).Contents (Elt F)) ]
theorem w9_sub : (w9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- Operations 106 … 118 of 154 (part 1 of @main). -/
abbrev w10 : List (HloOp τ sig (Elt F)) :=
  [ binary main_v75 main_arg3 main_v76 ((fun l r => Host.dotGeneral dot_S8x4097x1024_S8x1024x4096_S8x4097x4096_2_1_1_2_0_0 none l r) : (⟨S8x4097x1024, .f32⟩ : BufTy).Contents (Elt F) → (⟨S8x1024x4096, .f32⟩ : BufTy).Contents (Elt F) → (⟨S8x4097x4096, .f32⟩ : BufTy).Contents (Elt F)),
    unary main_v76 main_call3_v0 ((Host.negf) : (⟨S8x4097x4096, .f32⟩ : BufTy).Contents (Elt F) → (⟨S8x4097x4096, .f32⟩ : BufTy).Contents (Elt F)),
    unary main_call3_v0 main_call3_v1 ((Host.exp) : (⟨S8x4097x4096, .f32⟩ : BufTy).Contents (Elt F) → (⟨S8x4097x4096, .f32⟩ : BufTy).Contents (Elt F)),
    nullary main_call3_cst (constant S_ .f32 0x3F800000#32),
    unary main_call3_cst main_call3_v2 ((broadcastInDim S8x4097x4096 ![] bcast_S_S8x4097x4096) : (⟨S_, .f32⟩ : BufTy).Contents (Elt F) → (⟨S8x4097x4096, .f32⟩ : BufTy).Contents (Elt F)),
    binary main_call3_v2 main_call3_v1 main_call3_v3 ((addf) : (⟨S8x4097x4096, .f32⟩ : BufTy).Contents (Elt F) → (⟨S8x4097x4096, .f32⟩ : BufTy).Contents (Elt F) → (⟨S8x4097x4096, .f32⟩ : BufTy).Contents (Elt F)),
    nullary main_call3_cst_0 (constant S_ .f32 0x3F800000#32),
    unary main_call3_cst_0 main_call3_v4 ((broadcastInDim S8x4097x4096 ![] bcast_S_S8x4097x4096) : (⟨S_, .f32⟩ : BufTy).Contents (Elt F) → (⟨S8x4097x4096, .f32⟩ : BufTy).Contents (Elt F)),
    binary main_call3_v4 main_call3_v3 main_call3_v5 ((Host.divf) : (⟨S8x4097x4096, .f32⟩ : BufTy).Contents (Elt F) → (⟨S8x4097x4096, .f32⟩ : BufTy).Contents (Elt F) → (⟨S8x4097x4096, .f32⟩ : BufTy).Contents (Elt F)),
    binary main_v76 main_call3_v5 main_v77 ((mulf) : (⟨S8x4097x4096, .f32⟩ : BufTy).Contents (Elt F) → (⟨S8x4097x4096, .f32⟩ : BufTy).Contents (Elt F) → (⟨S8x4097x4096, .f32⟩ : BufTy).Contents (Elt F)),
    binary main_v75 main_arg4 main_v78 ((fun l r => Host.dotGeneral dot_S8x4097x1024_S8x1024x4096_S8x4097x4096_2_1_1_2_0_0 none l r) : (⟨S8x4097x1024, .f32⟩ : BufTy).Contents (Elt F) → (⟨S8x1024x4096, .f32⟩ : BufTy).Contents (Elt F) → (⟨S8x4097x4096, .f32⟩ : BufTy).Contents (Elt F)),
    binary main_v77 main_v78 main_v79 (mulf : (⟨S8x4097x4096, .f32⟩ : BufTy).Contents (Elt F) → (⟨S8x4097x4096, .f32⟩ : BufTy).Contents (Elt F) → (⟨S8x4097x4096, .f32⟩ : BufTy).Contents (Elt F)),
    binary main_v79 main_arg5 main_v80 ((fun l r => Host.dotGeneral dot_S8x4097x4096_S8x4096x1024_S8x4097x1024_2_1_1_2_0_0 none l r) : (⟨S8x4097x4096, .f32⟩ : BufTy).Contents (Elt F) → (⟨S8x4096x1024, .f32⟩ : BufTy).Contents (Elt F) → (⟨S8x4097x1024, .f32⟩ : BufTy).Contents (Elt F)) ]
theorem w10_sub : (w10 : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub ..⟩

/-- Operations 119 … 134 of 154 (part 1 of @main). -/
abbrev w11 : List (HloOp τ sig (Elt F)) :=
  [ nullary main_c_21 (constantI S_ 32 0#32),
    unary main_c_21 main_v81 (broadcastInDim S16384 ![] bcast_S_S16384 : (⟨S_, .i32⟩ : BufTy).Contents (Elt F) → (⟨S16384, .i32⟩ : BufTy).Contents (Elt F)),
    binary main_v19 main_v81 main_v82 (cmpi .slt : (⟨S16384, .i32⟩ : BufTy).Contents (Elt F) → (⟨S16384, .i32⟩ : BufTy).Contents (Elt F) → (⟨S16384, .i1⟩ : BufTy).Contents (Elt F)),
    nullary main_c_22 (constantI S_ 32 8#32),
    unary main_c_22 main_v83 (broadcastInDim S16384 ![] bcast_S_S16384 : (⟨S_, .i32⟩ : BufTy).Contents (Elt F) → (⟨S16384, .i32⟩ : BufTy).Contents (Elt F)),
    binary main_v19 main_v83 main_v84 (addi : (⟨S16384, .i32⟩ : BufTy).Contents (Elt F) → (⟨S16384, .i32⟩ : BufTy).Contents (Elt F) → (⟨S16384, .i32⟩ : BufTy).Contents (Elt F)),
    ternary main_v82 main_v84 main_v19 main_v85 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_23 (constantI S_ 32 0#32),
    unary main_c_23 main_v86 (broadcastInDim S16384 ![] bcast_S_S16384 : (⟨S_, .i32⟩ : BufTy).Contents (Elt F) → (⟨S16384, .i32⟩ : BufTy).Contents (Elt F)),
    binary main_v53 main_v86 main_v87 (cmpi .slt : (⟨S16384, .i32⟩ : BufTy).Contents (Elt F) → (⟨S16384, .i32⟩ : BufTy).Contents (Elt F) → (⟨S16384, .i1⟩ : BufTy).Contents (Elt F)),
    nullary main_c_24 (constantI S_ 32 4097#32),
    unary main_c_24 main_v88 (broadcastInDim S16384 ![] bcast_S_S16384 : (⟨S_, .i32⟩ : BufTy).Contents (Elt F) → (⟨S16384, .i32⟩ : BufTy).Contents (Elt F)),
    binary main_v53 main_v88 main_v89 (addi : (⟨S16384, .i32⟩ : BufTy).Contents (Elt F) → (⟨S16384, .i32⟩ : BufTy).Contents (Elt F) → (⟨S16384, .i32⟩ : BufTy).Contents (Elt F)),
    ternary main_v87 main_v89 main_v53 main_v90 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v85 main_v91 (broadcastInDim S16384x1 ![0] bcast_S16384_S16384x1_0 : (⟨S16384, .i32⟩ : BufTy).Contents (Elt F) → (⟨S16384x1, .i32⟩ : BufTy).Contents (Elt F)),
    unary main_v90 main_v92 (broadcastInDim S16384x1 ![0] bcast_S16384_S16384x1_0 : (⟨S16384, .i32⟩ : BufTy).Contents (Elt F) → (⟨S16384x1, .i32⟩ : BufTy).Contents (Elt F)) ]
theorem w11_sub : (w11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

/-- Operations 135 … 136 of 154 (part 2 of @main). -/
abbrev w12 : List (HloOp τ sig (Elt F)) :=
  [ binary main_v91 main_v92 main_v93 (cat_S16384x1_S16384x1 (F := F)),
    binary main_v80 main_v93 main_v94 ((fun x i => Host.gather gather_S8x4097x1024_S16384x2_S16384x1024_1_01_n_n_01_1_111024 x i) : (⟨S8x4097x1024, .f32⟩ : BufTy).Contents (Elt F) → (⟨S16384x2, .i32⟩ : BufTy).Contents (Elt F) → (⟨S16384x1024, .f32⟩ : BufTy).Contents (Elt F)) ]
theorem w12_sub : (w12 : List (HloOp τ sig (Elt F))).Forall fun op => op.bufs ⊆ tcRefs τ sig :=
  ⟨binary_bufs_sub .., binary_bufs_sub ..⟩

/-- Operations 137 … 143 of 154 (part 2 of @main). -/
abbrev w13 : List (HloOp τ sig (Elt F)) :=
  [ nullary main_cst_25 (constant S_ .f32 0x00000000#32),
    unary main_cst_25 main_call4_v0 ((id) : (⟨S_, .f32⟩ : BufTy).Contents (Elt F) → (⟨S_, .f32⟩ : BufTy).Contents (Elt F)),
    unary main_call4_v0 main_call4_v1 ((broadcastInDim S16384 ![] bcast_S_S16384) : (⟨S_, .f32⟩ : BufTy).Contents (Elt F) → (⟨S16384, .f32⟩ : BufTy).Contents (Elt F)),
    ternary main_v51 main_v26 main_call4_v1 main_v95 ((select) : (⟨S16384, .i1⟩ : BufTy).Contents (Elt F) → (⟨S16384, .f32⟩ : BufTy).Contents (Elt F) → (⟨S16384, .f32⟩ : BufTy).Contents (Elt F) → (⟨S16384, .f32⟩ : BufTy).Contents (Elt F)),
    unary main_v95 main_v96 (broadcastInDim S16384x1 ![0] bcast_S16384_S16384x1_0 : (⟨S16384, .f32⟩ : BufTy).Contents (Elt F) → (⟨S16384x1, .f32⟩ : BufTy).Contents (Elt F)),
    unary main_v96 main_v97 (broadcastInDim S16384x1024 ![0, 1] bcast_S16384x1_S16384x1024_0_1 : (⟨S16384x1, .f32⟩ : BufTy).Contents (Elt F) → (⟨S16384x1024, .f32⟩ : BufTy).Contents (Elt F)),
    binary main_v94 main_v97 main_v98 (mulf : (⟨S16384x1024, .f32⟩ : BufTy).Contents (Elt F) → (⟨S16384x1024, .f32⟩ : BufTy).Contents (Elt F) → (⟨S16384x1024, .f32⟩ : BufTy).Contents (Elt F)) ]
theorem w13_sub : (w13 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub ..⟩

/-- Operations 144 … 154 of 154 (part 2 of @main). -/
abbrev w14 : List (HloOp τ sig (Elt F)) :=
  [ nullary main_cst_26 (constant S_ .f32 0x00000000#32),
    unary main_cst_26 main_v99 (broadcastInDim S8192x1024 ![] bcast_S_S8192x1024 : (⟨S_, .f32⟩ : BufTy).Contents (Elt F) → (⟨S8192x1024, .f32⟩ : BufTy).Contents (Elt F)),
    nullary main_c_27 (constantI S_ 32 0#32),
    unary main_c_27 main_v100 (broadcastInDim S16384 ![] bcast_S_S16384 : (⟨S_, .i32⟩ : BufTy).Contents (Elt F) → (⟨S16384, .i32⟩ : BufTy).Contents (Elt F)),
    binary main_v12 main_v100 main_v101 (cmpi .slt : (⟨S16384, .i32⟩ : BufTy).Contents (Elt F) → (⟨S16384, .i32⟩ : BufTy).Contents (Elt F) → (⟨S16384, .i1⟩ : BufTy).Contents (Elt F)),
    nullary main_c_28 (constantI S_ 32 8192#32),
    unary main_c_28 main_v102 (broadcastInDim S16384 ![] bcast_S_S16384 : (⟨S_, .i32⟩ : BufTy).Contents (Elt F) → (⟨S16384, .i32⟩ : BufTy).Contents (Elt F)),
    binary main_v12 main_v102 main_v103 (addi : (⟨S16384, .i32⟩ : BufTy).Contents (Elt F) → (⟨S16384, .i32⟩ : BufTy).Contents (Elt F) → (⟨S16384, .i32⟩ : BufTy).Contents (Elt F)),
    ternary main_v101 main_v103 main_v12 main_v104 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v104 main_v105 (broadcastInDim S16384x1 ![0] bcast_S16384_S16384x1_0 : (⟨S16384, .i32⟩ : BufTy).Contents (Elt F) → (⟨S16384x1, .i32⟩ : BufTy).Contents (Elt F)),
    ternary main_v99 main_v105 main_v98 main_v106 ((fun x i u => Host.scatterAdd scatter_S8192x1024_S16384x1_S16384x1024_1_0_0_1 x i u) : (⟨S8192x1024, .f32⟩ : BufTy).Contents (Elt F) → (⟨S16384x1, .i32⟩ : BufTy).Contents (Elt F) → (⟨S16384x1024, .f32⟩ : BufTy).Contents (Elt F) → (⟨S8192x1024, .f32⟩ : BufTy).Contents (Elt F)) ]
theorem w14_sub : (w14 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

/-- The operations of @main's part 0. -/
abbrev part0Ops : List (HloOp τ sig (Elt F)) := w1 ++ (w2 ++ (w3 ++ (w4 ++ (w5 ++ (w6)))))

/-- The operations of @main's part 1. -/
abbrev part1Ops : List (HloOp τ sig (Elt F)) := w7 ++ (w8 ++ (w9 ++ (w10 ++ (w11))))

/-- The operations of @main's part 2. -/
abbrev part2Ops : List (HloOp τ sig (Elt F)) := w12 ++ (w13 ++ (w14))

/-- @main's 154 operations, in order. -/
abbrev ops : List (HloOp τ sig (Elt F)) := w1 ++ (w2 ++ (w3 ++ (w4 ++ (w5 ++ (w6 ++ (w7 ++ (w8 ++ (w9 ++ (w10 ++ (w11 ++ (w12 ++ (w13 ++ (w14)))))))))))))

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h, List.forall_iff_forall_mem.mp w13_sub op h, List.forall_iff_forall_mem.mp w14_sub op h]

end Cert.ReferenceIdeal.Hand

end
-- ==== Proof.RefParts.lean ====
/- Each printed part of the reference's @main is the sequence of its windows of RefOps: the module-local functions
   unfold at their calls, a typed reference's conversions are the identity at a literal buffer, and sequencing
   reassociates by computation. -/
import proofs.«167530_j18451179504175_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem main_part0_eq (c : Dev nD) : main_part0 (F := F) c = seq part0Ops := rfl

set_option maxRecDepth 16384 in
set_option maxHeartbeats 4000000 in
theorem main_part1_eq (c : Dev nD) : main_part1 (F := F) c = seq part1Ops := rfl

set_option maxRecDepth 16384 in
theorem main_part2_eq (c : Dev nD) : main_part2 (F := F) c = seq part2Ops := rfl

end Cert.ReferenceIdeal.Hand

end
-- ==== Proof.RefMain.lean ====
/- @main of the reference program is the straight line of the 154 operations of RefOps: it runs its three printed
   parts in order, each the sequence of its windows. -/
import proofs.«167530_j18451179504175_2_alg».proof.Proof.RefParts

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops_eq_parts : (ops : List (HloOp τ sig (Elt F))) = part0Ops ++ (part1Ops ++ part2Ops) := by
  simp only [ops, part0Ops, part1Ops, part2Ops, List.append_assoc]

/-- @main is the 154 operations in order. -/
theorem main_eq (c : Dev nD) : main (F := F) c = seq ops := by
  rw [ops_eq_parts, seq_append part0Ops (part1Ops ++ part2Ops), seq_append part1Ops part2Ops,
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefStages.lean ====
/- The reference program's values, stage by stage: each named stage is the composed pure term of the operations that
   compute it (in the printed operations' own spelling) over the earlier stages and the arguments; and, window by
   window, the buffer contents after the first k windows of RefOps read at each buffer still needed later: a stage's
   buffer holds the stage's term of the arguments' contents, a buffer the window does not write keeps what it held. -/
import proofs.«167530_j18451179504175_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other are the second's after the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The stages -/

/-- %0: the expert indices, flattened to one vector of 16384 slots (slot 2t+j is token t's j-th choice). -/
def flat (a1 : IVec S8192x2 32) : IVec S16384 32 :=
  shapeCast S16384 (a1) shapeCasts_S8192x2_S16384

/-- %5: the stable argsort of the flattened expert indices (the second result of the sort of (indices, iota)). -/
def order (a1 : IVec S8192x2 32) : IVec S16384 32 :=
  (Host.sort2 S16384 0 comparator_i32_i32_d0 (flat a1) (iotaInDim S16384 32 0)).2

/-- %12: each sorted slot's token (slot / 2), gathered at the sort order. -/
def stok (a1 : IVec S8192x2 32) : IVec S16384 32 :=
  Host.gather gather_S16384_S16384x1_S16384_n_0_n_n_0_1_1 (shapeCast S16384 (broadcastInDim S8192x2 ![0] bcast_S8192_S8192x2_0 (iotaInDim S8192 32 0)) shapeCasts_S8192x2_S16384) (broadcastInDim S16384x1 ![0] bcast_S16384_S16384x1_0 (select (cmpi .slt (order a1) (broadcastInDim S16384 ![] bcast_S_S16384 (constantI S_ 32 0#32))) (addi (order a1) (broadcastInDim S16384 ![] bcast_S_S16384 (constantI S_ 32 16384#32))) (order a1)))

/-- %19: each sorted slot's expert id. -/
def seid (a1 : IVec S8192x2 32) : IVec S16384 32 :=
  Host.gather gather_S16384_S16384x1_S16384_n_0_n_n_0_1_1 (flat a1) (broadcastInDim S16384x1 ![0] bcast_S16384_S16384x1_0 (select (cmpi .slt (order a1) (broadcastInDim S16384 ![] bcast_S_S16384 (constantI S_ 32 0#32))) (addi (order a1) (broadcastInDim S16384 ![] bcast_S_S16384 (constantI S_ 32 16384#32))) (order a1)))

/-- %26: each sorted slot's routing weight. -/
def swts (a1 : IVec S8192x2 32) (a2 : FVec F S8192x2 .f32) : FVec F S16384 .f32 :=
  Host.gather gather_S16384_S16384x1_S16384_n_0_n_n_0_1_1 (shapeCast S16384 (a2) shapeCasts_S8192x2_S16384) (broadcastInDim S16384x1 ![0] bcast_S16384_S16384x1_0 (select (cmpi .slt (order a1) (broadcastInDim S16384 ![] bcast_S_S16384 (constantI S_ 32 0#32))) (addi (order a1) (broadcastInDim S16384 ![] bcast_S_S16384 (constantI S_ 32 16384#32))) (order a1)))

/-- %36: the number of slots per expert (ones scatter-added into eight zeros at the clipped, wrapped expert ids). -/
def counts (a1 : IVec S8192x2 32) : IVec S8 32 :=
  Host.scatter scatter_S8_S16384x1_S16384_n_0_0_1 IntOp.addi (broadcastInDim S8 ![] bcast_S_S8 (constantI S_ 32 0#32)) (broadcastInDim S16384x1 ![0] bcast_S16384_S16384x1_0 (select (cmpi .slt (maxsi (broadcastInDim S16384 ![] bcast_S_S16384 (id (constantI S_ 32 0#32))) (flat a1)) (broadcastInDim S16384 ![] bcast_S_S16384 (constantI S_ 32 0#32))) (addi (maxsi (broadcastInDim S16384 ![] bcast_S_S16384 (id (constantI S_ 32 0#32))) (flat a1)) (broadcastInDim S16384 ![] bcast_S_S16384 (constantI S_ 32 8#32))) (maxsi (broadcastInDim S16384 ![] bcast_S_S16384 (id (constantI S_ 32 0#32))) (flat a1)))) (broadcastInDim S16384 ![] bcast_S_S16384 (constantI S_ 32 1#32))

/-- %40: each expert's first sorted slot: zero, then the running sums of the first seven counts. -/
def segst (a1 : IVec S8192x2 32) : IVec S8 32 :=
  concatenate S8 0 [⟨S1, (broadcastInDim S1 ![] bcast_S_S1 (constantI S_ 32 0#32))⟩, ⟨S7, (extractStridedSlice S7 ![0] (Host.reduceWindow IntOp.addi ![8] ![1] ![7] ![0] (counts a1) (broadcastInDim S_ ![] bcast_S_S_ (constantI S_ 32 0#32)) reduceWindows_S8_S8_w8s1p7_0 h_S_) slices_S8_S7_0)⟩] concatenates_S1_S7_S8_d0

/-- %49: each sorted slot's position within its expert's segment. -/
def pos (a1 : IVec S8192x2 32) : IVec S16384 32 :=
  subi (iotaInDim S16384 32 0) (Host.gather gather_S8_S16384x1_S16384_n_0_n_n_0_1_1 (segst a1) (broadcastInDim S16384x1 ![0] bcast_S16384_S16384x1_0 (select (cmpi .slt (seid a1) (broadcastInDim S16384 ![] bcast_S_S16384 (constantI S_ 32 0#32))) (addi (seid a1) (broadcastInDim S16384 ![] bcast_S_S16384 (constantI S_ 32 8#32))) (seid a1))))

/-- %51: whether the position is below the capacity 4096. -/
def valid (a1 : IVec S8192x2 32) : IVec S16384 1 :=
  cmpi .slt (pos a1) (broadcastInDim S16384 ![] bcast_S_S16384 (constantI S_ 32 4096#32))

/-- %53: the position clamped to 4096 (the overflow row). -/
def posc (a1 : IVec S8192x2 32) : IVec S16384 32 :=
  minsi (pos a1) (broadcastInDim S16384 ![] bcast_S_S16384 (constantI S_ 32 4096#32))

/-- %61: the token rows of x in sorted order. -/
def xg (a0 : FVec F S8192x1024 .f32) (a1 : IVec S8192x2 32) : FVec F S16384x1024 .f32 :=
  Host.gather gather_S8192x1024_S16384x1_S16384x1024_1_0_n_n_0_1_11024 (a0) (broadcastInDim S16384x1 ![0] bcast_S16384_S16384x1_0 (select (cmpi .slt (stok a1) (broadcastInDim S16384 ![] bcast_S_S16384 (constantI S_ 32 0#32))) (addi (stok a1) (broadcastInDim S16384 ![] bcast_S_S16384 (constantI S_ 32 8192#32))) (stok a1)))

/-- %75: the [8, 4097, 1024] array holding, at (expert, clamped position), the slot's token row (overwriting scatter into zeros). -/
def padded (a0 : FVec F S8192x1024 .f32) (a1 : IVec S8192x2 32) : FVec F S8x4097x1024 .f32 :=
  Host.scatter scatter_S8x4097x1024_S16384x2_S16384x1024_1_01_01_1 (fun _ b => b) (broadcastInDim S8x4097x1024 ![] bcast_S_S8x4097x1024 (constant S_ .f32 0x00000000#32)) (concatenate S16384x2 1 [⟨S16384x1, (broadcastInDim S16384x1 ![0] bcast_S16384_S16384x1_0 (select (cmpi .slt (seid a1) (broadcastInDim S16384 ![] bcast_S_S16384 (constantI S_ 32 0#32))) (addi (seid a1) (broadcastInDim S16384 ![] bcast_S_S16384 (constantI S_ 32 8#32))) (seid a1)))⟩, ⟨S16384x1, (broadcastInDim S16384x1 ![0] bcast_S16384_S16384x1_0 (select (cmpi .slt (posc a1) (broadcastInDim S16384 ![] bcast_S_S16384 (constantI S_ 32 0#32))) (addi (posc a1) (broadcastInDim S16384 ![] bcast_S_S16384 (constantI S_ 32 4097#32))) (posc a1)))⟩] concatenates_S16384x1_S16384x1_S16384x2_d1) (xg a0 a1)

/-- %80: per expert, (silu(padded · w1) * (padded · w2)) · w3. -/
def eout (a0 : FVec F S8192x1024 .f32) (a1 : IVec S8192x2 32) (a3 : FVec F S8x1024x4096 .f32) (a4 : FVec F S8x1024x4096 .f32) (a5 : FVec F S8x4096x1024 .f32) : FVec F S8x4097x1024 .f32 :=
  Host.dotGeneral dot_S8x4097x4096_S8x4096x1024_S8x4097x1024_2_1_1_2_0_0 none (mulf (mulf (Host.dotGeneral dot_S8x4097x1024_S8x1024x4096_S8x4097x4096_2_1_1_2_0_0 none (padded a0 a1) (a3)) (Host.divf (broadcastInDim S8x4097x4096 ![] bcast_S_S8x4097x4096 (constant S_ .f32 0x3F800000#32)) (addf (broadcastInDim S8x4097x4096 ![] bcast_S_S8x4097x4096 (constant S_ .f32 0x3F800000#32)) (Host.exp (Host.negf (Host.dotGeneral dot_S8x4097x1024_S8x1024x4096_S8x4097x4096_2_1_1_2_0_0 none (padded a0 a1) (a3))))))) (Host.dotGeneral dot_S8x4097x1024_S8x1024x4096_S8x4097x4096_2_1_1_2_0_0 none (padded a0 a1) (a4))) (a5)

/-- %94: each sorted slot's output row, gathered at (expert, clamped position). -/
def gath (a0 : FVec F S8192x1024 .f32) (a1 : IVec S8192x2 32) (a3 : FVec F S8x1024x4096 .f32) (a4 : FVec F S8x1024x4096 .f32) (a5 : FVec F S8x4096x1024 .f32) : FVec F S16384x1024 .f32 :=
  Host.gather gather_S8x4097x1024_S16384x2_S16384x1024_1_01_n_n_01_1_111024 (eout a0 a1 a3 a4 a5) (concatenate S16384x2 1 [⟨S16384x1, (broadcastInDim S16384x1 ![0] bcast_S16384_S16384x1_0 (select (cmpi .slt (seid a1) (broadcastInDim S16384 ![] bcast_S_S16384 (constantI S_ 32 0#32))) (addi (seid a1) (broadcastInDim S16384 ![] bcast_S_S16384 (constantI S_ 32 8#32))) (seid a1)))⟩, ⟨S16384x1, (broadcastInDim S16384x1 ![0] bcast_S16384_S16384x1_0 (select (cmpi .slt (posc a1) (broadcastInDim S16384 ![] bcast_S_S16384 (constantI S_ 32 0#32))) (addi (posc a1) (broadcastInDim S16384 ![] bcast_S_S16384 (constantI S_ 32 4097#32))) (posc a1)))⟩] concatenates_S16384x1_S16384x1_S16384x2_d1)

/-- %95: the slot's weight where the position is valid, else zero. -/
def wsel (a1 : IVec S8192x2 32) (a2 : FVec F S8192x2 .f32) : FVec F S16384 .f32 :=
  select (valid a1) (swts a1 a2) (broadcastInDim S16384 ![] bcast_S_S16384 (id (constant S_ .f32 0x00000000#32)))

/-- %106: the weighted rows scatter-added into zeros at the slots' tokens. -/
def result (a0 : FVec F S8192x1024 .f32) (a1 : IVec S8192x2 32) (a2 : FVec F S8192x2 .f32) (a3 : FVec F S8x1024x4096 .f32) (a4 : FVec F S8x1024x4096 .f32) (a5 : FVec F S8x4096x1024 .f32) : FVec F S8192x1024 .f32 :=
  Host.scatterAdd scatter_S8192x1024_S16384x1_S16384x1024_1_0_0_1 (broadcastInDim S8192x1024 ![] bcast_S_S8192x1024 (constant S_ .f32 0x00000000#32)) (broadcastInDim S16384x1 ![0] bcast_S16384_S16384x1_0 (select (cmpi .slt (stok a1) (broadcastInDim S16384 ![] bcast_S_S16384 (constantI S_ 32 0#32))) (addi (stok a1) (broadcastInDim S16384 ![] bcast_S_S16384 (constantI S_ 32 8192#32))) (stok a1))) (mulf (gath a0 a1 a3 a4 a5) (broadcastInDim S16384x1024 ![0, 1] bcast_S16384x1_S16384x1024_0_1 (broadcastInDim S16384x1 ![0] bcast_S16384_S16384x1_0 (wsel a1 a2))))

/-! ## The contents window by window -/

/-- The device's buffer contents before the first window. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl
theorem val0_main_arg2 (V0 : Valuation τ sig (Elt F)) : val0 V0 (no_index (Proc.devRef .tc main_arg2)) = (V0 (Proc.devRef .tc main_arg2)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl

/-- The device's buffer contents after windows w1 … w1. -/
def val1 (V0 : Valuation τ sig (Elt F)) : Valuation τ sig (Elt F) := after w1 (val0 V0)
/-- The buffers that window w1 writes. -/
abbrev w1_W : List (Ref sig .tc) := [main_v0, main_v1, main_v2, main_v3, main_v4, main_call0_v0, main_call0_v1_0, main_v5, main_c, main_v6, main_v7, main_c_0, main_v8, main_v9, main_v10, main_v11, main_v12]
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w1 does not write keeps its contents through it. -/
theorem val1_keep (V0 : Valuation τ sig (Elt F)) (r : Ref sig .tc) (h : r ∉ w1_W) :
    val1 V0 (Proc.devRef .tc r) = val0 V0 (Proc.devRef .tc r) :=
  after_of_writes_sub w1 _ w1_writes h
theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
theorem val1_main_arg1 (V0 : Valuation τ sig (Elt F)) : val1 V0 (no_index (Proc.devRef .tc main_arg1)) = (V0 (Proc.devRef .tc main_arg1)) :=
  (val1_keep V0 main_arg1 (by decide)).trans (val0_main_arg1 V0)
theorem val1_main_arg2 (V0 : Valuation τ sig (Elt F)) : val1 V0 (no_index (Proc.devRef .tc main_arg2)) = (V0 (Proc.devRef .tc main_arg2)) :=
  (val1_keep V0 main_arg2 (by decide)).trans (val0_main_arg2 V0)
theorem val1_main_arg3 (V0 : Valuation τ sig (Elt F)) : val1 V0 (no_index (Proc.devRef .tc main_arg3)) = (V0 (Proc.devRef .tc main_arg3)) :=
  (val1_keep V0 main_arg3 (by decide)).trans (val0_main_arg3 V0)
theorem val1_main_arg4 (V0 : Valuation τ sig (Elt F)) : val1 V0 (no_index (Proc.devRef .tc main_arg4)) = (V0 (Proc.devRef .tc main_arg4)) :=
  (val1_keep V0 main_arg4 (by decide)).trans (val0_main_arg4 V0)
theorem val1_main_arg5 (V0 : Valuation τ sig (Elt F)) : val1 V0 (no_index (Proc.devRef .tc main_arg5)) = (V0 (Proc.devRef .tc main_arg5)) :=
  (val1_keep V0 main_arg5 (by decide)).trans (val0_main_arg5 V0)
set_option maxRecDepth 8192 in
theorem val1_main_v0 (V0 : Valuation τ sig (Elt F)) : val1 V0 (no_index (Proc.devRef .tc main_v0)) = flat (V0 (Proc.devRef .tc main_arg1)) := by
  unfold val1
  simp only [w1]
  after_results_simp
  simp only [val0_main_arg1] <;> rfl
set_option maxRecDepth 8192 in
theorem val1_main_v1 (V0 : Valuation τ sig (Elt F)) : val1 V0 (no_index (Proc.devRef .tc main_v1)) = shapeCast S16384 ((V0 (Proc.devRef .tc main_arg2))) shapeCasts_S8192x2_S16384 := by
  unfold val1
  simp only [w1]
  after_results_simp
  simp only [val0_main_arg2] <;> rfl
set_option maxRecDepth 8192 in
theorem val1_main_v5 (V0 : Valuation τ sig (Elt F)) : val1 V0 (no_index (Proc.devRef .tc main_v5)) = order (V0 (Proc.devRef .tc main_arg1)) := by
  unfold val1
  simp only [w1]
  after_results_simp
  simp only [val0_main_arg1] <;> rfl
set_option maxRecDepth 8192 in
theorem val1_main_v12 (V0 : Valuation τ sig (Elt F)) : val1 V0 (no_index (Proc.devRef .tc main_v12)) = stok (V0 (Proc.devRef .tc main_arg1)) := by
  unfold val1
  simp only [w1]
  after_results_simp
  simp only [val0_main_arg1] <;> rfl

/-- The device's buffer contents after windows w1 … w2. -/
def val2 (V0 : Valuation τ sig (Elt F)) : Valuation τ sig (Elt F) := after w2 (val1 V0)
/-- The buffers that window w2 writes. -/
abbrev w2_W : List (Ref sig .tc) := [main_c_1, main_v13, main_v14, main_c_2, main_v15, main_v16, main_v17, main_v18, main_v19]
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w2 does not write keeps its contents through it. -/
theorem val2_keep (V0 : Valuation τ sig (Elt F)) (r : Ref sig .tc) (h : r ∉ w2_W) :
    val2 V0 (Proc.devRef .tc r) = val1 V0 (Proc.devRef .tc r) :=
  after_of_writes_sub w2 _ w2_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_arg1 (V0 : Valuation τ sig (Elt F)) : val2 V0 (no_index (Proc.devRef .tc main_arg1)) = (V0 (Proc.devRef .tc main_arg1)) :=
  (val2_keep V0 main_arg1 (by decide)).trans (val1_main_arg1 V0)
theorem val2_main_arg2 (V0 : Valuation τ sig (Elt F)) : val2 V0 (no_index (Proc.devRef .tc main_arg2)) = (V0 (Proc.devRef .tc main_arg2)) :=
  (val2_keep V0 main_arg2 (by decide)).trans (val1_main_arg2 V0)
theorem val2_main_arg3 (V0 : Valuation τ sig (Elt F)) : val2 V0 (no_index (Proc.devRef .tc main_arg3)) = (V0 (Proc.devRef .tc main_arg3)) :=
  (val2_keep V0 main_arg3 (by decide)).trans (val1_main_arg3 V0)
theorem val2_main_arg4 (V0 : Valuation τ sig (Elt F)) : val2 V0 (no_index (Proc.devRef .tc main_arg4)) = (V0 (Proc.devRef .tc main_arg4)) :=
  (val2_keep V0 main_arg4 (by decide)).trans (val1_main_arg4 V0)
theorem val2_main_arg5 (V0 : Valuation τ sig (Elt F)) : val2 V0 (no_index (Proc.devRef .tc main_arg5)) = (V0 (Proc.devRef .tc main_arg5)) :=
  (val2_keep V0 main_arg5 (by decide)).trans (val1_main_arg5 V0)
theorem val2_main_v0 (V0 : Valuation τ sig (Elt F)) : val2 V0 (no_index (Proc.devRef .tc main_v0)) = flat (V0 (Proc.devRef .tc main_arg1)) :=
  (val2_keep V0 main_v0 (by decide)).trans (val1_main_v0 V0)
theorem val2_main_v1 (V0 : Valuation τ sig (Elt F)) : val2 V0 (no_index (Proc.devRef .tc main_v1)) = shapeCast S16384 ((V0 (Proc.devRef .tc main_arg2))) shapeCasts_S8192x2_S16384 :=
  (val2_keep V0 main_v1 (by decide)).trans (val1_main_v1 V0)
theorem val2_main_v5 (V0 : Valuation τ sig (Elt F)) : val2 V0 (no_index (Proc.devRef .tc main_v5)) = order (V0 (Proc.devRef .tc main_arg1)) :=
  (val2_keep V0 main_v5 (by decide)).trans (val1_main_v5 V0)
theorem val2_main_v12 (V0 : Valuation τ sig (Elt F)) : val2 V0 (no_index (Proc.devRef .tc main_v12)) = stok (V0 (Proc.devRef .tc main_arg1)) :=
  (val2_keep V0 main_v12 (by decide)).trans (val1_main_v12 V0)
set_option maxRecDepth 8192 in
theorem val2_main_v19 (V0 : Valuation τ sig (Elt F)) : val2 V0 (no_index (Proc.devRef .tc main_v19)) = seid (V0 (Proc.devRef .tc main_arg1)) := by
  unfold val2
  simp only [w2]
  after_results_simp
  simp only [val1_main_v5, val1_main_v0] <;> rfl

/-- The device's buffer contents after windows w1 … w3. -/
def val3 (V0 : Valuation τ sig (Elt F)) : Valuation τ sig (Elt F) := after w3 (val2 V0)
/-- The buffers that window w3 writes. -/
abbrev w3_W : List (Ref sig .tc) := [main_c_3, main_v20, main_v21, main_c_4, main_v22, main_v23, main_v24, main_v25, main_v26]
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w3 does not write keeps its contents through it. -/
theorem val3_keep (V0 : Valuation τ sig (Elt F)) (r : Ref sig .tc) (h : r ∉ w3_W) :
    val3 V0 (Proc.devRef .tc r) = val2 V0 (Proc.devRef .tc r) :=
  after_of_writes_sub w3 _ w3_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_arg1 (V0 : Valuation τ sig (Elt F)) : val3 V0 (no_index (Proc.devRef .tc main_arg1)) = (V0 (Proc.devRef .tc main_arg1)) :=
  (val3_keep V0 main_arg1 (by decide)).trans (val2_main_arg1 V0)
theorem val3_main_arg2 (V0 : Valuation τ sig (Elt F)) : val3 V0 (no_index (Proc.devRef .tc main_arg2)) = (V0 (Proc.devRef .tc main_arg2)) :=
  (val3_keep V0 main_arg2 (by decide)).trans (val2_main_arg2 V0)
theorem val3_main_arg3 (V0 : Valuation τ sig (Elt F)) : val3 V0 (no_index (Proc.devRef .tc main_arg3)) = (V0 (Proc.devRef .tc main_arg3)) :=
  (val3_keep V0 main_arg3 (by decide)).trans (val2_main_arg3 V0)
theorem val3_main_arg4 (V0 : Valuation τ sig (Elt F)) : val3 V0 (no_index (Proc.devRef .tc main_arg4)) = (V0 (Proc.devRef .tc main_arg4)) :=
  (val3_keep V0 main_arg4 (by decide)).trans (val2_main_arg4 V0)
theorem val3_main_arg5 (V0 : Valuation τ sig (Elt F)) : val3 V0 (no_index (Proc.devRef .tc main_arg5)) = (V0 (Proc.devRef .tc main_arg5)) :=
  (val3_keep V0 main_arg5 (by decide)).trans (val2_main_arg5 V0)
theorem val3_main_v0 (V0 : Valuation τ sig (Elt F)) : val3 V0 (no_index (Proc.devRef .tc main_v0)) = flat (V0 (Proc.devRef .tc main_arg1)) :=
  (val3_keep V0 main_v0 (by decide)).trans (val2_main_v0 V0)
theorem val3_main_v12 (V0 : Valuation τ sig (Elt F)) : val3 V0 (no_index (Proc.devRef .tc main_v12)) = stok (V0 (Proc.devRef .tc main_arg1)) :=
  (val3_keep V0 main_v12 (by decide)).trans (val2_main_v12 V0)
theorem val3_main_v19 (V0 : Valuation τ sig (Elt F)) : val3 V0 (no_index (Proc.devRef .tc main_v19)) = seid (V0 (Proc.devRef .tc main_arg1)) :=
  (val3_keep V0 main_v19 (by decide)).trans (val2_main_v19 V0)
set_option maxRecDepth 8192 in
theorem val3_main_v26 (V0 : Valuation τ sig (Elt F)) : val3 V0 (no_index (Proc.devRef .tc main_v26)) = swts (V0 (Proc.devRef .tc main_arg1)) (V0 (Proc.devRef .tc main_arg2)) := by
  unfold val3
  simp only [w3]
  after_results_simp
  simp only [val2_main_v5, val2_main_v1] <;> rfl

/-- The device's buffer contents after windows w1 … w4. -/
def val4 (V0 : Valuation τ sig (Elt F)) : Valuation τ sig (Elt F) := after w4 (val3 V0)
/-- The buffers that window w4 writes. -/
abbrev w4_W : List (Ref sig .tc) := [main_c_5, main_v27, main_c_6, main_call1_v0, main_call1_v1, main_v28, main_c_7, main_v29, main_v30, main_c_8, main_v31, main_v32, main_v33, main_v34, main_c_9, main_v35, main_v36]
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w4 does not write keeps its contents through it. -/
theorem val4_keep (V0 : Valuation τ sig (Elt F)) (r : Ref sig .tc) (h : r ∉ w4_W) :
    val4 V0 (Proc.devRef .tc r) = val3 V0 (Proc.devRef .tc r) :=
  after_of_writes_sub w4 _ w4_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_arg1 (V0 : Valuation τ sig (Elt F)) : val4 V0 (no_index (Proc.devRef .tc main_arg1)) = (V0 (Proc.devRef .tc main_arg1)) :=
  (val4_keep V0 main_arg1 (by decide)).trans (val3_main_arg1 V0)
theorem val4_main_arg2 (V0 : Valuation τ sig (Elt F)) : val4 V0 (no_index (Proc.devRef .tc main_arg2)) = (V0 (Proc.devRef .tc main_arg2)) :=
  (val4_keep V0 main_arg2 (by decide)).trans (val3_main_arg2 V0)
theorem val4_main_arg3 (V0 : Valuation τ sig (Elt F)) : val4 V0 (no_index (Proc.devRef .tc main_arg3)) = (V0 (Proc.devRef .tc main_arg3)) :=
  (val4_keep V0 main_arg3 (by decide)).trans (val3_main_arg3 V0)
theorem val4_main_arg4 (V0 : Valuation τ sig (Elt F)) : val4 V0 (no_index (Proc.devRef .tc main_arg4)) = (V0 (Proc.devRef .tc main_arg4)) :=
  (val4_keep V0 main_arg4 (by decide)).trans (val3_main_arg4 V0)
theorem val4_main_arg5 (V0 : Valuation τ sig (Elt F)) : val4 V0 (no_index (Proc.devRef .tc main_arg5)) = (V0 (Proc.devRef .tc main_arg5)) :=
  (val4_keep V0 main_arg5 (by decide)).trans (val3_main_arg5 V0)
theorem val4_main_v12 (V0 : Valuation τ sig (Elt F)) : val4 V0 (no_index (Proc.devRef .tc main_v12)) = stok (V0 (Proc.devRef .tc main_arg1)) :=
  (val4_keep V0 main_v12 (by decide)).trans (val3_main_v12 V0)
theorem val4_main_v19 (V0 : Valuation τ sig (Elt F)) : val4 V0 (no_index (Proc.devRef .tc main_v19)) = seid (V0 (Proc.devRef .tc main_arg1)) :=
  (val4_keep V0 main_v19 (by decide)).trans (val3_main_v19 V0)
theorem val4_main_v26 (V0 : Valuation τ sig (Elt F)) : val4 V0 (no_index (Proc.devRef .tc main_v26)) = swts (V0 (Proc.devRef .tc main_arg1)) (V0 (Proc.devRef .tc main_arg2)) :=
  (val4_keep V0 main_v26 (by decide)).trans (val3_main_v26 V0)
set_option maxRecDepth 8192 in
theorem val4_main_v36 (V0 : Valuation τ sig (Elt F)) : val4 V0 (no_index (Proc.devRef .tc main_v36)) = counts (V0 (Proc.devRef .tc main_arg1)) := by
  unfold val4
  simp only [w4]
  after_results_simp
  simp only [val3_main_v0] <;> rfl

/-- The device's buffer contents after windows w1 … w5. -/
def val5 (V0 : Valuation τ sig (Elt F)) : Valuation τ sig (Elt F) := after w5 (val4 V0)
/-- The buffers that window w5 writes. -/
abbrev w5_W : List (Ref sig .tc) := [main_c_10, main_v37, main_call2_call0_c, main_call2_call0_v0, main_v38, main_v39, main_v40]
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w5 does not write keeps its contents through it. -/
theorem val5_keep (V0 : Valuation τ sig (Elt F)) (r : Ref sig .tc) (h : r ∉ w5_W) :
    val5 V0 (Proc.devRef .tc r) = val4 V0 (Proc.devRef .tc r) :=
  after_of_writes_sub w5 _ w5_writes h
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_arg1 (V0 : Valuation τ sig (Elt F)) : val5 V0 (no_index (Proc.devRef .tc main_arg1)) = (V0 (Proc.devRef .tc main_arg1)) :=
  (val5_keep V0 main_arg1 (by decide)).trans (val4_main_arg1 V0)
theorem val5_main_arg2 (V0 : Valuation τ sig (Elt F)) : val5 V0 (no_index (Proc.devRef .tc main_arg2)) = (V0 (Proc.devRef .tc main_arg2)) :=
  (val5_keep V0 main_arg2 (by decide)).trans (val4_main_arg2 V0)
theorem val5_main_arg3 (V0 : Valuation τ sig (Elt F)) : val5 V0 (no_index (Proc.devRef .tc main_arg3)) = (V0 (Proc.devRef .tc main_arg3)) :=
  (val5_keep V0 main_arg3 (by decide)).trans (val4_main_arg3 V0)
theorem val5_main_arg4 (V0 : Valuation τ sig (Elt F)) : val5 V0 (no_index (Proc.devRef .tc main_arg4)) = (V0 (Proc.devRef .tc main_arg4)) :=
  (val5_keep V0 main_arg4 (by decide)).trans (val4_main_arg4 V0)
theorem val5_main_arg5 (V0 : Valuation τ sig (Elt F)) : val5 V0 (no_index (Proc.devRef .tc main_arg5)) = (V0 (Proc.devRef .tc main_arg5)) :=
  (val5_keep V0 main_arg5 (by decide)).trans (val4_main_arg5 V0)
theorem val5_main_v12 (V0 : Valuation τ sig (Elt F)) : val5 V0 (no_index (Proc.devRef .tc main_v12)) = stok (V0 (Proc.devRef .tc main_arg1)) :=
  (val5_keep V0 main_v12 (by decide)).trans (val4_main_v12 V0)
theorem val5_main_v19 (V0 : Valuation τ sig (Elt F)) : val5 V0 (no_index (Proc.devRef .tc main_v19)) = seid (V0 (Proc.devRef .tc main_arg1)) :=
  (val5_keep V0 main_v19 (by decide)).trans (val4_main_v19 V0)
theorem val5_main_v26 (V0 : Valuation τ sig (Elt F)) : val5 V0 (no_index (Proc.devRef .tc main_v26)) = swts (V0 (Proc.devRef .tc main_arg1)) (V0 (Proc.devRef .tc main_arg2)) :=
  (val5_keep V0 main_v26 (by decide)).trans (val4_main_v26 V0)
set_option maxRecDepth 8192 in
theorem val5_main_v40 (V0 : Valuation τ sig (Elt F)) : val5 V0 (no_index (Proc.devRef .tc main_v40)) = segst (V0 (Proc.devRef .tc main_arg1)) := by
  unfold val5
  simp only [w5]
  after_results_simp
  simp only [val4_main_v36] <;> rfl

/-- The device's buffer contents after windows w1 … w6. -/
def val6 (V0 : Valuation τ sig (Elt F)) : Valuation τ sig (Elt F) := after w6 (val5 V0)
/-- The buffers that window w6 writes. -/
abbrev w6_W : List (Ref sig .tc) := [main_v41, main_c_11, main_v42, main_v43, main_c_12, main_v44, main_v45]
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w6 does not write keeps its contents through it. -/
theorem val6_keep (V0 : Valuation τ sig (Elt F)) (r : Ref sig .tc) (h : r ∉ w6_W) :
    val6 V0 (Proc.devRef .tc r) = val5 V0 (Proc.devRef .tc r) :=
  after_of_writes_sub w6 _ w6_writes h
theorem val6_main_arg0 (V0 : Valuation τ sig (Elt F)) : val6 V0 (no_index (Proc.devRef .tc main_arg0)) = (V0 (Proc.devRef .tc main_arg0)) :=
  (val6_keep V0 main_arg0 (by decide)).trans (val5_main_arg0 V0)
theorem val6_main_arg1 (V0 : Valuation τ sig (Elt F)) : val6 V0 (no_index (Proc.devRef .tc main_arg1)) = (V0 (Proc.devRef .tc main_arg1)) :=
  (val6_keep V0 main_arg1 (by decide)).trans (val5_main_arg1 V0)
theorem val6_main_arg2 (V0 : Valuation τ sig (Elt F)) : val6 V0 (no_index (Proc.devRef .tc main_arg2)) = (V0 (Proc.devRef .tc main_arg2)) :=
  (val6_keep V0 main_arg2 (by decide)).trans (val5_main_arg2 V0)
theorem val6_main_arg3 (V0 : Valuation τ sig (Elt F)) : val6 V0 (no_index (Proc.devRef .tc main_arg3)) = (V0 (Proc.devRef .tc main_arg3)) :=
  (val6_keep V0 main_arg3 (by decide)).trans (val5_main_arg3 V0)
theorem val6_main_arg4 (V0 : Valuation τ sig (Elt F)) : val6 V0 (no_index (Proc.devRef .tc main_arg4)) = (V0 (Proc.devRef .tc main_arg4)) :=
  (val6_keep V0 main_arg4 (by decide)).trans (val5_main_arg4 V0)
theorem val6_main_arg5 (V0 : Valuation τ sig (Elt F)) : val6 V0 (no_index (Proc.devRef .tc main_arg5)) = (V0 (Proc.devRef .tc main_arg5)) :=
  (val6_keep V0 main_arg5 (by decide)).trans (val5_main_arg5 V0)
theorem val6_main_v12 (V0 : Valuation τ sig (Elt F)) : val6 V0 (no_index (Proc.devRef .tc main_v12)) = stok (V0 (Proc.devRef .tc main_arg1)) :=
  (val6_keep V0 main_v12 (by decide)).trans (val5_main_v12 V0)
theorem val6_main_v19 (V0 : Valuation τ sig (Elt F)) : val6 V0 (no_index (Proc.devRef .tc main_v19)) = seid (V0 (Proc.devRef .tc main_arg1)) :=
  (val6_keep V0 main_v19 (by decide)).trans (val5_main_v19 V0)
theorem val6_main_v26 (V0 : Valuation τ sig (Elt F)) : val6 V0 (no_index (Proc.devRef .tc main_v26)) = swts (V0 (Proc.devRef .tc main_arg1)) (V0 (Proc.devRef .tc main_arg2)) :=
  (val6_keep V0 main_v26 (by decide)).trans (val5_main_v26 V0)
theorem val6_main_v40 (V0 : Valuation τ sig (Elt F)) : val6 V0 (no_index (Proc.devRef .tc main_v40)) = segst (V0 (Proc.devRef .tc main_arg1)) :=
  (val6_keep V0 main_v40 (by decide)).trans (val5_main_v40 V0)
set_option maxRecDepth 8192 in
theorem val6_main_v41 (V0 : Valuation τ sig (Elt F)) : val6 V0 (no_index (Proc.devRef .tc main_v41)) = iotaInDim S16384 32 0 := by
  unfold val6
  simp only [w6]
  after_results_simp
  all_goals rfl
set_option maxRecDepth 8192 in
theorem val6_main_v43 (V0 : Valuation τ sig (Elt F)) : val6 V0 (no_index (Proc.devRef .tc main_v43)) = cmpi .slt (seid (V0 (Proc.devRef .tc main_arg1))) (broadcastInDim S16384 ![] bcast_S_S16384 (constantI S_ 32 0#32)) := by
  unfold val6
  simp only [w6]
  after_results_simp
  simp only [val5_main_v19] <;> rfl
set_option maxRecDepth 8192 in
theorem val6_main_v45 (V0 : Valuation τ sig (Elt F)) : val6 V0 (no_index (Proc.devRef .tc main_v45)) = addi (seid (V0 (Proc.devRef .tc main_arg1))) (broadcastInDim S16384 ![] bcast_S_S16384 (constantI S_ 32 8#32)) := by
  unfold val6
  simp only [w6]
  after_results_simp
  simp only [val5_main_v19] <;> rfl

/-- The device's buffer contents after windows w1 … w7. -/
def val7 (V0 : Valuation τ sig (Elt F)) : Valuation τ sig (Elt F) := after w7 (val6 V0)
/-- The buffers that window w7 writes. -/
abbrev w7_W : List (Ref sig .tc) := [main_v46, main_v47, main_v48, main_v49, main_c_13, main_v50, main_v51, main_c_14, main_v52, main_v53]
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w7 does not write keeps its contents through it. -/
theorem val7_keep (V0 : Valuation τ sig (Elt F)) (r : Ref sig .tc) (h : r ∉ w7_W) :
    val7 V0 (Proc.devRef .tc r) = val6 V0 (Proc.devRef .tc r) :=
  after_of_writes_sub w7 _ w7_writes h
theorem val7_main_arg0 (V0 : Valuation τ sig (Elt F)) : val7 V0 (no_index (Proc.devRef .tc main_arg0)) = (V0 (Proc.devRef .tc main_arg0)) :=
  (val7_keep V0 main_arg0 (by decide)).trans (val6_main_arg0 V0)
theorem val7_main_arg1 (V0 : Valuation τ sig (Elt F)) : val7 V0 (no_index (Proc.devRef .tc main_arg1)) = (V0 (Proc.devRef .tc main_arg1)) :=
  (val7_keep V0 main_arg1 (by decide)).trans (val6_main_arg1 V0)
theorem val7_main_arg2 (V0 : Valuation τ sig (Elt F)) : val7 V0 (no_index (Proc.devRef .tc main_arg2)) = (V0 (Proc.devRef .tc main_arg2)) :=
  (val7_keep V0 main_arg2 (by decide)).trans (val6_main_arg2 V0)
theorem val7_main_arg3 (V0 : Valuation τ sig (Elt F)) : val7 V0 (no_index (Proc.devRef .tc main_arg3)) = (V0 (Proc.devRef .tc main_arg3)) :=
  (val7_keep V0 main_arg3 (by decide)).trans (val6_main_arg3 V0)
theorem val7_main_arg4 (V0 : Valuation τ sig (Elt F)) : val7 V0 (no_index (Proc.devRef .tc main_arg4)) = (V0 (Proc.devRef .tc main_arg4)) :=
  (val7_keep V0 main_arg4 (by decide)).trans (val6_main_arg4 V0)
theorem val7_main_arg5 (V0 : Valuation τ sig (Elt F)) : val7 V0 (no_index (Proc.devRef .tc main_arg5)) = (V0 (Proc.devRef .tc main_arg5)) :=
  (val7_keep V0 main_arg5 (by decide)).trans (val6_main_arg5 V0)
theorem val7_main_v12 (V0 : Valuation τ sig (Elt F)) : val7 V0 (no_index (Proc.devRef .tc main_v12)) = stok (V0 (Proc.devRef .tc main_arg1)) :=
  (val7_keep V0 main_v12 (by decide)).trans (val6_main_v12 V0)
theorem val7_main_v19 (V0 : Valuation τ sig (Elt F)) : val7 V0 (no_index (Proc.devRef .tc main_v19)) = seid (V0 (Proc.devRef .tc main_arg1)) :=
  (val7_keep V0 main_v19 (by decide)).trans (val6_main_v19 V0)
theorem val7_main_v26 (V0 : Valuation τ sig (Elt F)) : val7 V0 (no_index (Proc.devRef .tc main_v26)) = swts (V0 (Proc.devRef .tc main_arg1)) (V0 (Proc.devRef .tc main_arg2)) :=
  (val7_keep V0 main_v26 (by decide)).trans (val6_main_v26 V0)
set_option maxRecDepth 8192 in
theorem val7_main_v51 (V0 : Valuation τ sig (Elt F)) : val7 V0 (no_index (Proc.devRef .tc main_v51)) = valid (V0 (Proc.devRef .tc main_arg1)) := by
  unfold val7
  simp only [w7]
  after_results_simp
  simp only [val6_main_v19, val6_main_v45, val6_main_v43, val6_main_v40, val6_main_v41] <;> rfl
set_option maxRecDepth 8192 in
theorem val7_main_v53 (V0 : Valuation τ sig (Elt F)) : val7 V0 (no_index (Proc.devRef .tc main_v53)) = posc (V0 (Proc.devRef .tc main_arg1)) := by
  unfold val7
  simp only [w7]
  after_results_simp
  simp only [val6_main_v19, val6_main_v45, val6_main_v43, val6_main_v40, val6_main_v41] <;> rfl

/-- The device's buffer contents after windows w1 … w8. -/
def val8 (V0 : Valuation τ sig (Elt F)) : Valuation τ sig (Elt F) := after w8 (val7 V0)
/-- The buffers that window w8 writes. -/
abbrev w8_W : List (Ref sig .tc) := [main_cst, main_v54, main_c_15, main_v55, main_v56, main_c_16, main_v57, main_v58, main_v59, main_v60, main_v61]
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w8 does not write keeps its contents through it. -/
theorem val8_keep (V0 : Valuation τ sig (Elt F)) (r : Ref sig .tc) (h : r ∉ w8_W) :
    val8 V0 (Proc.devRef .tc r) = val7 V0 (Proc.devRef .tc r) :=
  after_of_writes_sub w8 _ w8_writes h
theorem val8_main_arg0 (V0 : Valuation τ sig (Elt F)) : val8 V0 (no_index (Proc.devRef .tc main_arg0)) = (V0 (Proc.devRef .tc main_arg0)) :=
  (val8_keep V0 main_arg0 (by decide)).trans (val7_main_arg0 V0)
theorem val8_main_arg1 (V0 : Valuation τ sig (Elt F)) : val8 V0 (no_index (Proc.devRef .tc main_arg1)) = (V0 (Proc.devRef .tc main_arg1)) :=
  (val8_keep V0 main_arg1 (by decide)).trans (val7_main_arg1 V0)
theorem val8_main_arg2 (V0 : Valuation τ sig (Elt F)) : val8 V0 (no_index (Proc.devRef .tc main_arg2)) = (V0 (Proc.devRef .tc main_arg2)) :=
  (val8_keep V0 main_arg2 (by decide)).trans (val7_main_arg2 V0)
theorem val8_main_arg3 (V0 : Valuation τ sig (Elt F)) : val8 V0 (no_index (Proc.devRef .tc main_arg3)) = (V0 (Proc.devRef .tc main_arg3)) :=
  (val8_keep V0 main_arg3 (by decide)).trans (val7_main_arg3 V0)
theorem val8_main_arg4 (V0 : Valuation τ sig (Elt F)) : val8 V0 (no_index (Proc.devRef .tc main_arg4)) = (V0 (Proc.devRef .tc main_arg4)) :=
  (val8_keep V0 main_arg4 (by decide)).trans (val7_main_arg4 V0)
theorem val8_main_arg5 (V0 : Valuation τ sig (Elt F)) : val8 V0 (no_index (Proc.devRef .tc main_arg5)) = (V0 (Proc.devRef .tc main_arg5)) :=
  (val8_keep V0 main_arg5 (by decide)).trans (val7_main_arg5 V0)
theorem val8_main_v12 (V0 : Valuation τ sig (Elt F)) : val8 V0 (no_index (Proc.devRef .tc main_v12)) = stok (V0 (Proc.devRef .tc main_arg1)) :=
  (val8_keep V0 main_v12 (by decide)).trans (val7_main_v12 V0)
theorem val8_main_v19 (V0 : Valuation τ sig (Elt F)) : val8 V0 (no_index (Proc.devRef .tc main_v19)) = seid (V0 (Proc.devRef .tc main_arg1)) :=
  (val8_keep V0 main_v19 (by decide)).trans (val7_main_v19 V0)
theorem val8_main_v26 (V0 : Valuation τ sig (Elt F)) : val8 V0 (no_index (Proc.devRef .tc main_v26)) = swts (V0 (Proc.devRef .tc main_arg1)) (V0 (Proc.devRef .tc main_arg2)) :=
  (val8_keep V0 main_v26 (by decide)).trans (val7_main_v26 V0)
theorem val8_main_v51 (V0 : Valuation τ sig (Elt F)) : val8 V0 (no_index (Proc.devRef .tc main_v51)) = valid (V0 (Proc.devRef .tc main_arg1)) :=
  (val8_keep V0 main_v51 (by decide)).trans (val7_main_v51 V0)
theorem val8_main_v53 (V0 : Valuation τ sig (Elt F)) : val8 V0 (no_index (Proc.devRef .tc main_v53)) = posc (V0 (Proc.devRef .tc main_arg1)) :=
  (val8_keep V0 main_v53 (by decide)).trans (val7_main_v53 V0)
set_option maxRecDepth 8192 in
theorem val8_main_v54 (V0 : Valuation τ sig (Elt F)) : val8 V0 (no_index (Proc.devRef .tc main_v54)) = broadcastInDim S8x4097x1024 ![] bcast_S_S8x4097x1024 (constant S_ .f32 0x00000000#32) := by
  unfold val8
  simp only [w8]
  after_results_simp
  all_goals rfl
set_option maxRecDepth 8192 in
theorem val8_main_v61 (V0 : Valuation τ sig (Elt F)) : val8 V0 (no_index (Proc.devRef .tc main_v61)) = xg (V0 (Proc.devRef .tc main_arg0)) (V0 (Proc.devRef .tc main_arg1)) := by
  unfold val8
  simp only [w8]
  after_results_simp
  simp only [val7_main_v12, val7_main_arg0] <;> rfl

/-- The device's buffer contents after windows w1 … w9. -/
def val9 (V0 : Valuation τ sig (Elt F)) : Valuation τ sig (Elt F) := after w9 (val8 V0)
/-- The buffers that window w9 writes. -/
abbrev w9_W : List (Ref sig .tc) := [main_c_17, main_v62, main_v63, main_c_18, main_v64, main_v65, main_v66, main_c_19, main_v67, main_v68, main_c_20, main_v69, main_v70, main_v71, main_v72, main_v73, main_v74, main_v75]
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w9 does not write keeps its contents through it. -/
theorem val9_keep (V0 : Valuation τ sig (Elt F)) (r : Ref sig .tc) (h : r ∉ w9_W) :
    val9 V0 (Proc.devRef .tc r) = val8 V0 (Proc.devRef .tc r) :=
  after_of_writes_sub w9 _ w9_writes h
theorem val9_main_arg0 (V0 : Valuation τ sig (Elt F)) : val9 V0 (no_index (Proc.devRef .tc main_arg0)) = (V0 (Proc.devRef .tc main_arg0)) :=
  (val9_keep V0 main_arg0 (by decide)).trans (val8_main_arg0 V0)
theorem val9_main_arg1 (V0 : Valuation τ sig (Elt F)) : val9 V0 (no_index (Proc.devRef .tc main_arg1)) = (V0 (Proc.devRef .tc main_arg1)) :=
  (val9_keep V0 main_arg1 (by decide)).trans (val8_main_arg1 V0)
theorem val9_main_arg2 (V0 : Valuation τ sig (Elt F)) : val9 V0 (no_index (Proc.devRef .tc main_arg2)) = (V0 (Proc.devRef .tc main_arg2)) :=
  (val9_keep V0 main_arg2 (by decide)).trans (val8_main_arg2 V0)
theorem val9_main_arg3 (V0 : Valuation τ sig (Elt F)) : val9 V0 (no_index (Proc.devRef .tc main_arg3)) = (V0 (Proc.devRef .tc main_arg3)) :=
  (val9_keep V0 main_arg3 (by decide)).trans (val8_main_arg3 V0)
theorem val9_main_arg4 (V0 : Valuation τ sig (Elt F)) : val9 V0 (no_index (Proc.devRef .tc main_arg4)) = (V0 (Proc.devRef .tc main_arg4)) :=
  (val9_keep V0 main_arg4 (by decide)).trans (val8_main_arg4 V0)
theorem val9_main_arg5 (V0 : Valuation τ sig (Elt F)) : val9 V0 (no_index (Proc.devRef .tc main_arg5)) = (V0 (Proc.devRef .tc main_arg5)) :=
  (val9_keep V0 main_arg5 (by decide)).trans (val8_main_arg5 V0)
theorem val9_main_v12 (V0 : Valuation τ sig (Elt F)) : val9 V0 (no_index (Proc.devRef .tc main_v12)) = stok (V0 (Proc.devRef .tc main_arg1)) :=
  (val9_keep V0 main_v12 (by decide)).trans (val8_main_v12 V0)
theorem val9_main_v19 (V0 : Valuation τ sig (Elt F)) : val9 V0 (no_index (Proc.devRef .tc main_v19)) = seid (V0 (Proc.devRef .tc main_arg1)) :=
  (val9_keep V0 main_v19 (by decide)).trans (val8_main_v19 V0)
theorem val9_main_v26 (V0 : Valuation τ sig (Elt F)) : val9 V0 (no_index (Proc.devRef .tc main_v26)) = swts (V0 (Proc.devRef .tc main_arg1)) (V0 (Proc.devRef .tc main_arg2)) :=
  (val9_keep V0 main_v26 (by decide)).trans (val8_main_v26 V0)
theorem val9_main_v51 (V0 : Valuation τ sig (Elt F)) : val9 V0 (no_index (Proc.devRef .tc main_v51)) = valid (V0 (Proc.devRef .tc main_arg1)) :=
  (val9_keep V0 main_v51 (by decide)).trans (val8_main_v51 V0)
theorem val9_main_v53 (V0 : Valuation τ sig (Elt F)) : val9 V0 (no_index (Proc.devRef .tc main_v53)) = posc (V0 (Proc.devRef .tc main_arg1)) :=
  (val9_keep V0 main_v53 (by decide)).trans (val8_main_v53 V0)
set_option maxRecDepth 8192 in
theorem val9_main_v75 (V0 : Valuation τ sig (Elt F)) : val9 V0 (no_index (Proc.devRef .tc main_v75)) = padded (V0 (Proc.devRef .tc main_arg0)) (V0 (Proc.devRef .tc main_arg1)) := by
  unfold val9
  simp only [w9]
  after_results_simp
  simp only [val8_main_v61, val8_main_v53, val8_main_v19, val8_main_v54] <;> rfl

/-- The device's buffer contents after windows w1 … w10. -/
def val10 (V0 : Valuation τ sig (Elt F)) : Valuation τ sig (Elt F) := after w10 (val9 V0)
/-- The buffers that window w10 writes. -/
abbrev w10_W : List (Ref sig .tc) := [main_v76, main_call3_v0, main_call3_v1, main_call3_cst, main_call3_v2, main_call3_v3, main_call3_cst_0, main_call3_v4, main_call3_v5, main_v77, main_v78, main_v79, main_v80]
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w10 does not write keeps its contents through it. -/
theorem val10_keep (V0 : Valuation τ sig (Elt F)) (r : Ref sig .tc) (h : r ∉ w10_W) :
    val10 V0 (Proc.devRef .tc r) = val9 V0 (Proc.devRef .tc r) :=
  after_of_writes_sub w10 _ w10_writes h
theorem val10_main_arg0 (V0 : Valuation τ sig (Elt F)) : val10 V0 (no_index (Proc.devRef .tc main_arg0)) = (V0 (Proc.devRef .tc main_arg0)) :=
  (val10_keep V0 main_arg0 (by decide)).trans (val9_main_arg0 V0)
theorem val10_main_arg1 (V0 : Valuation τ sig (Elt F)) : val10 V0 (no_index (Proc.devRef .tc main_arg1)) = (V0 (Proc.devRef .tc main_arg1)) :=
  (val10_keep V0 main_arg1 (by decide)).trans (val9_main_arg1 V0)
theorem val10_main_arg2 (V0 : Valuation τ sig (Elt F)) : val10 V0 (no_index (Proc.devRef .tc main_arg2)) = (V0 (Proc.devRef .tc main_arg2)) :=
  (val10_keep V0 main_arg2 (by decide)).trans (val9_main_arg2 V0)
theorem val10_main_arg3 (V0 : Valuation τ sig (Elt F)) : val10 V0 (no_index (Proc.devRef .tc main_arg3)) = (V0 (Proc.devRef .tc main_arg3)) :=
  (val10_keep V0 main_arg3 (by decide)).trans (val9_main_arg3 V0)
theorem val10_main_arg4 (V0 : Valuation τ sig (Elt F)) : val10 V0 (no_index (Proc.devRef .tc main_arg4)) = (V0 (Proc.devRef .tc main_arg4)) :=
  (val10_keep V0 main_arg4 (by decide)).trans (val9_main_arg4 V0)
theorem val10_main_arg5 (V0 : Valuation τ sig (Elt F)) : val10 V0 (no_index (Proc.devRef .tc main_arg5)) = (V0 (Proc.devRef .tc main_arg5)) :=
  (val10_keep V0 main_arg5 (by decide)).trans (val9_main_arg5 V0)
theorem val10_main_v12 (V0 : Valuation τ sig (Elt F)) : val10 V0 (no_index (Proc.devRef .tc main_v12)) = stok (V0 (Proc.devRef .tc main_arg1)) :=
  (val10_keep V0 main_v12 (by decide)).trans (val9_main_v12 V0)
theorem val10_main_v19 (V0 : Valuation τ sig (Elt F)) : val10 V0 (no_index (Proc.devRef .tc main_v19)) = seid (V0 (Proc.devRef .tc main_arg1)) :=
  (val10_keep V0 main_v19 (by decide)).trans (val9_main_v19 V0)
theorem val10_main_v26 (V0 : Valuation τ sig (Elt F)) : val10 V0 (no_index (Proc.devRef .tc main_v26)) = swts (V0 (Proc.devRef .tc main_arg1)) (V0 (Proc.devRef .tc main_arg2)) :=
  (val10_keep V0 main_v26 (by decide)).trans (val9_main_v26 V0)
theorem val10_main_v51 (V0 : Valuation τ sig (Elt F)) : val10 V0 (no_index (Proc.devRef .tc main_v51)) = valid (V0 (Proc.devRef .tc main_arg1)) :=
  (val10_keep V0 main_v51 (by decide)).trans (val9_main_v51 V0)
theorem val10_main_v53 (V0 : Valuation τ sig (Elt F)) : val10 V0 (no_index (Proc.devRef .tc main_v53)) = posc (V0 (Proc.devRef .tc main_arg1)) :=
  (val10_keep V0 main_v53 (by decide)).trans (val9_main_v53 V0)
set_option maxRecDepth 8192 in
theorem val10_main_v80 (V0 : Valuation τ sig (Elt F)) : val10 V0 (no_index (Proc.devRef .tc main_v80)) = eout (V0 (Proc.devRef .tc main_arg0)) (V0 (Proc.devRef .tc main_arg1)) (V0 (Proc.devRef .tc main_arg3)) (V0 (Proc.devRef .tc main_arg4)) (V0 (Proc.devRef .tc main_arg5)) := by
  unfold val10
  simp only [w10]
  after_results_simp
  simp only [val9_main_arg5, val9_main_arg4, val9_main_v75, val9_main_arg3] <;> rfl

/-- The device's buffer contents after windows w1 … w11. -/
def val11 (V0 : Valuation τ sig (Elt F)) : Valuation τ sig (Elt F) := after w11 (val10 V0)
/-- The buffers that window w11 writes. -/
abbrev w11_W : List (Ref sig .tc) := [main_c_21, main_v81, main_v82, main_c_22, main_v83, main_v84, main_v85, main_c_23, main_v86, main_v87, main_c_24, main_v88, main_v89, main_v90, main_v91, main_v92]
theorem w11_writes : (w11 : List (HloOp τ sig (Elt F))).Forall fun op => op.writes ⊆ (w11_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w11 does not write keeps its contents through it. -/
theorem val11_keep (V0 : Valuation τ sig (Elt F)) (r : Ref sig .tc) (h : r ∉ w11_W) :
    val11 V0 (Proc.devRef .tc r) = val10 V0 (Proc.devRef .tc r) :=
  after_of_writes_sub w11 _ w11_writes h
theorem val11_main_arg0 (V0 : Valuation τ sig (Elt F)) : val11 V0 (no_index (Proc.devRef .tc main_arg0)) = (V0 (Proc.devRef .tc main_arg0)) :=
  (val11_keep V0 main_arg0 (by decide)).trans (val10_main_arg0 V0)
theorem val11_main_arg1 (V0 : Valuation τ sig (Elt F)) : val11 V0 (no_index (Proc.devRef .tc main_arg1)) = (V0 (Proc.devRef .tc main_arg1)) :=
  (val11_keep V0 main_arg1 (by decide)).trans (val10_main_arg1 V0)
theorem val11_main_arg2 (V0 : Valuation τ sig (Elt F)) : val11 V0 (no_index (Proc.devRef .tc main_arg2)) = (V0 (Proc.devRef .tc main_arg2)) :=
  (val11_keep V0 main_arg2 (by decide)).trans (val10_main_arg2 V0)
theorem val11_main_arg3 (V0 : Valuation τ sig (Elt F)) : val11 V0 (no_index (Proc.devRef .tc main_arg3)) = (V0 (Proc.devRef .tc main_arg3)) :=
  (val11_keep V0 main_arg3 (by decide)).trans (val10_main_arg3 V0)
theorem val11_main_arg4 (V0 : Valuation τ sig (Elt F)) : val11 V0 (no_index (Proc.devRef .tc main_arg4)) = (V0 (Proc.devRef .tc main_arg4)) :=
  (val11_keep V0 main_arg4 (by decide)).trans (val10_main_arg4 V0)
theorem val11_main_arg5 (V0 : Valuation τ sig (Elt F)) : val11 V0 (no_index (Proc.devRef .tc main_arg5)) = (V0 (Proc.devRef .tc main_arg5)) :=
  (val11_keep V0 main_arg5 (by decide)).trans (val10_main_arg5 V0)
theorem val11_main_v12 (V0 : Valuation τ sig (Elt F)) : val11 V0 (no_index (Proc.devRef .tc main_v12)) = stok (V0 (Proc.devRef .tc main_arg1)) :=
  (val11_keep V0 main_v12 (by decide)).trans (val10_main_v12 V0)
theorem val11_main_v26 (V0 : Valuation τ sig (Elt F)) : val11 V0 (no_index (Proc.devRef .tc main_v26)) = swts (V0 (Proc.devRef .tc main_arg1)) (V0 (Proc.devRef .tc main_arg2)) :=
  (val11_keep V0 main_v26 (by decide)).trans (val10_main_v26 V0)
theorem val11_main_v51 (V0 : Valuation τ sig (Elt F)) : val11 V0 (no_index (Proc.devRef .tc main_v51)) = valid (V0 (Proc.devRef .tc main_arg1)) :=
  (val11_keep V0 main_v51 (by decide)).trans (val10_main_v51 V0)
theorem val11_main_v80 (V0 : Valuation τ sig (Elt F)) : val11 V0 (no_index (Proc.devRef .tc main_v80)) = eout (V0 (Proc.devRef .tc main_arg0)) (V0 (Proc.devRef .tc main_arg1)) (V0 (Proc.devRef .tc main_arg3)) (V0 (Proc.devRef .tc main_arg4)) (V0 (Proc.devRef .tc main_arg5)) :=
  (val11_keep V0 main_v80 (by decide)).trans (val10_main_v80 V0)
set_option maxRecDepth 8192 in
theorem val11_main_v91 (V0 : Valuation τ sig (Elt F)) : val11 V0 (no_index (Proc.devRef .tc main_v91)) = broadcastInDim S16384x1 ![0] bcast_S16384_S16384x1_0 (select (cmpi .slt (seid (V0 (Proc.devRef .tc main_arg1))) (broadcastInDim S16384 ![] bcast_S_S16384 (constantI S_ 32 0#32))) (addi (seid (V0 (Proc.devRef .tc main_arg1))) (broadcastInDim S16384 ![] bcast_S_S16384 (constantI S_ 32 8#32))) (seid (V0 (Proc.devRef .tc main_arg1)))) := by
  unfold val11
  simp only [w11]
  after_results_simp
  simp only [val10_main_v19] <;> rfl
set_option maxRecDepth 8192 in
theorem val11_main_v92 (V0 : Valuation τ sig (Elt F)) : val11 V0 (no_index (Proc.devRef .tc main_v92)) = broadcastInDim S16384x1 ![0] bcast_S16384_S16384x1_0 (select (cmpi .slt (posc (V0 (Proc.devRef .tc main_arg1))) (broadcastInDim S16384 ![] bcast_S_S16384 (constantI S_ 32 0#32))) (addi (posc (V0 (Proc.devRef .tc main_arg1))) (broadcastInDim S16384 ![] bcast_S_S16384 (constantI S_ 32 4097#32))) (posc (V0 (Proc.devRef .tc main_arg1)))) := by
  unfold val11
  simp only [w11]
  after_results_simp
  simp only [val10_main_v53] <;> rfl

/-- The device's buffer contents after windows w1 … w12. -/
def val12 (V0 : Valuation τ sig (Elt F)) : Valuation τ sig (Elt F) := after w12 (val11 V0)
/-- The buffers that window w12 writes. -/
abbrev w12_W : List (Ref sig .tc) := [main_v93, main_v94]
theorem w12_writes : (w12 : List (HloOp τ sig (Elt F))).Forall fun op => op.writes ⊆ (w12_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w12 does not write keeps its contents through it. -/
theorem val12_keep (V0 : Valuation τ sig (Elt F)) (r : Ref sig .tc) (h : r ∉ w12_W) :
    val12 V0 (Proc.devRef .tc r) = val11 V0 (Proc.devRef .tc r) :=
  after_of_writes_sub w12 _ w12_writes h
theorem val12_main_arg0 (V0 : Valuation τ sig (Elt F)) : val12 V0 (no_index (Proc.devRef .tc main_arg0)) = (V0 (Proc.devRef .tc main_arg0)) :=
  (val12_keep V0 main_arg0 (by decide)).trans (val11_main_arg0 V0)
theorem val12_main_arg1 (V0 : Valuation τ sig (Elt F)) : val12 V0 (no_index (Proc.devRef .tc main_arg1)) = (V0 (Proc.devRef .tc main_arg1)) :=
  (val12_keep V0 main_arg1 (by decide)).trans (val11_main_arg1 V0)
theorem val12_main_arg2 (V0 : Valuation τ sig (Elt F)) : val12 V0 (no_index (Proc.devRef .tc main_arg2)) = (V0 (Proc.devRef .tc main_arg2)) :=
  (val12_keep V0 main_arg2 (by decide)).trans (val11_main_arg2 V0)
theorem val12_main_arg3 (V0 : Valuation τ sig (Elt F)) : val12 V0 (no_index (Proc.devRef .tc main_arg3)) = (V0 (Proc.devRef .tc main_arg3)) :=
  (val12_keep V0 main_arg3 (by decide)).trans (val11_main_arg3 V0)
theorem val12_main_arg4 (V0 : Valuation τ sig (Elt F)) : val12 V0 (no_index (Proc.devRef .tc main_arg4)) = (V0 (Proc.devRef .tc main_arg4)) :=
  (val12_keep V0 main_arg4 (by decide)).trans (val11_main_arg4 V0)
theorem val12_main_arg5 (V0 : Valuation τ sig (Elt F)) : val12 V0 (no_index (Proc.devRef .tc main_arg5)) = (V0 (Proc.devRef .tc main_arg5)) :=
  (val12_keep V0 main_arg5 (by decide)).trans (val11_main_arg5 V0)
theorem val12_main_v12 (V0 : Valuation τ sig (Elt F)) : val12 V0 (no_index (Proc.devRef .tc main_v12)) = stok (V0 (Proc.devRef .tc main_arg1)) :=
  (val12_keep V0 main_v12 (by decide)).trans (val11_main_v12 V0)
theorem val12_main_v26 (V0 : Valuation τ sig (Elt F)) : val12 V0 (no_index (Proc.devRef .tc main_v26)) = swts (V0 (Proc.devRef .tc main_arg1)) (V0 (Proc.devRef .tc main_arg2)) :=
  (val12_keep V0 main_v26 (by decide)).trans (val11_main_v26 V0)
theorem val12_main_v51 (V0 : Valuation τ sig (Elt F)) : val12 V0 (no_index (Proc.devRef .tc main_v51)) = valid (V0 (Proc.devRef .tc main_arg1)) :=
  (val12_keep V0 main_v51 (by decide)).trans (val11_main_v51 V0)
set_option maxRecDepth 8192 in
theorem val12_main_v94 (V0 : Valuation τ sig (Elt F)) : val12 V0 (no_index (Proc.devRef .tc main_v94)) = gath (V0 (Proc.devRef .tc main_arg0)) (V0 (Proc.devRef .tc main_arg1)) (V0 (Proc.devRef .tc main_arg3)) (V0 (Proc.devRef .tc main_arg4)) (V0 (Proc.devRef .tc main_arg5)) := by
  unfold val12
  simp only [w12]
  after_results_simp
  simp only [val11_main_v92, val11_main_v91, val11_main_v80] <;> rfl

/-- The device's buffer contents after windows w1 … w13. -/
def val13 (V0 : Valuation τ sig (Elt F)) : Valuation τ sig (Elt F) := after w13 (val12 V0)
/-- The buffers that window w13 writes. -/
abbrev w13_W : List (Ref sig .tc) := [main_cst_25, main_call4_v0, main_call4_v1, main_v95, main_v96, main_v97, main_v98]
theorem w13_writes : (w13 : List (HloOp τ sig (Elt F))).Forall fun op => op.writes ⊆ (w13_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w13 does not write keeps its contents through it. -/
theorem val13_keep (V0 : Valuation τ sig (Elt F)) (r : Ref sig .tc) (h : r ∉ w13_W) :
    val13 V0 (Proc.devRef .tc r) = val12 V0 (Proc.devRef .tc r) :=
  after_of_writes_sub w13 _ w13_writes h
theorem val13_main_arg0 (V0 : Valuation τ sig (Elt F)) : val13 V0 (no_index (Proc.devRef .tc main_arg0)) = (V0 (Proc.devRef .tc main_arg0)) :=
  (val13_keep V0 main_arg0 (by decide)).trans (val12_main_arg0 V0)
theorem val13_main_arg1 (V0 : Valuation τ sig (Elt F)) : val13 V0 (no_index (Proc.devRef .tc main_arg1)) = (V0 (Proc.devRef .tc main_arg1)) :=
  (val13_keep V0 main_arg1 (by decide)).trans (val12_main_arg1 V0)
theorem val13_main_arg2 (V0 : Valuation τ sig (Elt F)) : val13 V0 (no_index (Proc.devRef .tc main_arg2)) = (V0 (Proc.devRef .tc main_arg2)) :=
  (val13_keep V0 main_arg2 (by decide)).trans (val12_main_arg2 V0)
theorem val13_main_arg3 (V0 : Valuation τ sig (Elt F)) : val13 V0 (no_index (Proc.devRef .tc main_arg3)) = (V0 (Proc.devRef .tc main_arg3)) :=
  (val13_keep V0 main_arg3 (by decide)).trans (val12_main_arg3 V0)
theorem val13_main_arg4 (V0 : Valuation τ sig (Elt F)) : val13 V0 (no_index (Proc.devRef .tc main_arg4)) = (V0 (Proc.devRef .tc main_arg4)) :=
  (val13_keep V0 main_arg4 (by decide)).trans (val12_main_arg4 V0)
theorem val13_main_arg5 (V0 : Valuation τ sig (Elt F)) : val13 V0 (no_index (Proc.devRef .tc main_arg5)) = (V0 (Proc.devRef .tc main_arg5)) :=
  (val13_keep V0 main_arg5 (by decide)).trans (val12_main_arg5 V0)
theorem val13_main_v12 (V0 : Valuation τ sig (Elt F)) : val13 V0 (no_index (Proc.devRef .tc main_v12)) = stok (V0 (Proc.devRef .tc main_arg1)) :=
  (val13_keep V0 main_v12 (by decide)).trans (val12_main_v12 V0)
set_option maxRecDepth 8192 in
theorem val13_main_v98 (V0 : Valuation τ sig (Elt F)) : val13 V0 (no_index (Proc.devRef .tc main_v98)) = mulf (gath (V0 (Proc.devRef .tc main_arg0)) (V0 (Proc.devRef .tc main_arg1)) (V0 (Proc.devRef .tc main_arg3)) (V0 (Proc.devRef .tc main_arg4)) (V0 (Proc.devRef .tc main_arg5))) (broadcastInDim S16384x1024 ![0, 1] bcast_S16384x1_S16384x1024_0_1 (broadcastInDim S16384x1 ![0] bcast_S16384_S16384x1_0 (wsel (V0 (Proc.devRef .tc main_arg1)) (V0 (Proc.devRef .tc main_arg2))))) := by
  unfold val13
  simp only [w13]
  after_results_simp
  simp only [val12_main_v26, val12_main_v51, val12_main_v94] <;> rfl

/-- The device's buffer contents after windows w1 … w14. -/
def val14 (V0 : Valuation τ sig (Elt F)) : Valuation τ sig (Elt F) := after w14 (val13 V0)
/-- The buffers that window w14 writes. -/
abbrev w14_W : List (Ref sig .tc) := [main_cst_26, main_v99, main_c_27, main_v100, main_v101, main_c_28, main_v102, main_v103, main_v104, main_v105, main_v106]
theorem w14_writes : (w14 : List (HloOp τ sig (Elt F))).Forall fun op => op.writes ⊆ (w14_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window w14 does not write keeps its contents through it. -/
theorem val14_keep (V0 : Valuation τ sig (Elt F)) (r : Ref sig .tc) (h : r ∉ w14_W) :
    val14 V0 (Proc.devRef .tc r) = val13 V0 (Proc.devRef .tc r) :=
  after_of_writes_sub w14 _ w14_writes h
theorem val14_main_arg0 (V0 : Valuation τ sig (Elt F)) : val14 V0 (no_index (Proc.devRef .tc main_arg0)) = (V0 (Proc.devRef .tc main_arg0)) :=
  (val14_keep V0 main_arg0 (by decide)).trans (val13_main_arg0 V0)
theorem val14_main_arg1 (V0 : Valuation τ sig (Elt F)) : val14 V0 (no_index (Proc.devRef .tc main_arg1)) = (V0 (Proc.devRef .tc main_arg1)) :=
  (val14_keep V0 main_arg1 (by decide)).trans (val13_main_arg1 V0)
theorem val14_main_arg2 (V0 : Valuation τ sig (Elt F)) : val14 V0 (no_index (Proc.devRef .tc main_arg2)) = (V0 (Proc.devRef .tc main_arg2)) :=
  (val14_keep V0 main_arg2 (by decide)).trans (val13_main_arg2 V0)
theorem val14_main_arg3 (V0 : Valuation τ sig (Elt F)) : val14 V0 (no_index (Proc.devRef .tc main_arg3)) = (V0 (Proc.devRef .tc main_arg3)) :=
  (val14_keep V0 main_arg3 (by decide)).trans (val13_main_arg3 V0)
theorem val14_main_arg4 (V0 : Valuation τ sig (Elt F)) : val14 V0 (no_index (Proc.devRef .tc main_arg4)) = (V0 (Proc.devRef .tc main_arg4)) :=
  (val14_keep V0 main_arg4 (by decide)).trans (val13_main_arg4 V0)
theorem val14_main_arg5 (V0 : Valuation τ sig (Elt F)) : val14 V0 (no_index (Proc.devRef .tc main_arg5)) = (V0 (Proc.devRef .tc main_arg5)) :=
  (val14_keep V0 main_arg5 (by decide)).trans (val13_main_arg5 V0)
set_option maxRecDepth 8192 in
theorem val14_main_v106 (V0 : Valuation τ sig (Elt F)) : val14 V0 (no_index (Proc.devRef .tc main_v106)) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val14
  simp only [w14]
  after_results_simp
  simp only [val13_main_v98, val13_main_v12] <;> rfl

/-- The contents after all 154 operations are those after the fourteen windows. -/
theorem after_ops (V0 : Valuation τ sig (Elt F)) : after ops V0 = val14 V0 := by
  simp only [ops, after_app]
  rfl

end Cert.ReferenceIdeal.Hand

end
-- ==== Proof.RefRun.lean ====
/- The reference program's run: on every device, from any memory with zero counters, every weakly fair execution of
   @main terminates with the result buffer at `result` of the arguments' launch contents and the arguments unchanged. -/
import proofs.«167530_j18451179504175_2_alg».proof.Proof.RefMain
import proofs.«167530_j18451179504175_2_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- For any float values: every weakly fair execution of @main terminates; the result is the stages' composed term
    `result` of the arguments' contents at launch, and the six arguments are unchanged. The straight line's run
    gives every buffer the fold of the 154 operations over the launch contents; the fold is the fourteenth window's
    contents, read at the result by `val14_main_v106` and at an argument, which no window writes, by `val14_main_argK`. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v106)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v106).trans (by simp only [after_ops]; exact val14_main_v106 (launchContents m c)),
       (h c main_arg0).trans (by simp only [after_ops]; exact val14_main_arg0 (launchContents m c)),
       (h c main_arg1).trans (by simp only [after_ops]; exact val14_main_arg1 (launchContents m c)),
       (h c main_arg2).trans (by simp only [after_ops]; exact val14_main_arg2 (launchContents m c)),
       (h c main_arg3).trans (by simp only [after_ops]; exact val14_main_arg3 (launchContents m c)),
       (h c main_arg4).trans (by simp only [after_ops]; exact val14_main_arg4 (launchContents m c)),
       (h c main_arg5).trans (by simp only [after_ops]; exact val14_main_arg5 (launchContents m c))⟩)
    (run_seq scopedRefs_eq scopedSems_eq defs main (fun _ => ops) main_eq (fun _ => ops_sub) m ρ)

end Cert.ReferenceIdeal.Hand

end
-- ==== Proof.RefFrame.lean ====
/- The reference program leaves its arguments unchanged: the frame claim, read off its run at the ideal instance. -/
import proofs.«167530_j18451179504175_2_alg».proof.Defs
import proofs.«167530_j18451179504175_2_alg».proof.Proof.Gen.Pre_finite_inputs
import proofs.«167530_j18451179504175_2_alg».proof.Proof.RefRun

noncomputable section

namespace Cert.ReferenceIdeal.Hand

open Cert.ReferenceIdeal Cert.ReferenceIdeal.Gen Idealize.ShloMosaic Idealize.SL.Sem

/-- Every weakly fair execution of the reference terminates with its six arguments as at launch. -/
theorem frame : Cert.frame_ReferenceIdeal (hReferenceIdeal := Cert.ReferenceIdeal.Gen.facts)
    (hPre_finite_inputs := Cert.Pre_finite_inputs.Gen.facts) :=
  fun m ρ _ => (θ_run _ _ _).mono (fun _ h c => (h c).2) (run (F := Ideal) m ρ)

end Cert.ReferenceIdeal.Hand

end
-- ==== Proof.PreRange.lean ====
/-
  The index range the precondition carries.

  The precondition is a conjunction of six one-bit words: five say that every entry of a float input is below
  +∞ in absolute value, the sixth is the conjunction over all entries w of the index array of (0 ≤ w) ∧ (w < 8),
  both comparisons signed. A conjunction of bits is 1 exactly when each bit is, and a conjunction over an array
  that is 1 makes every entry's bit 1; a signed comparison bit that is 1 says the inequality of the words read as
  integers. Hence every index lies in [0, 8).
-/
import proofs.«167530_j18451179504175_2_alg».proof.Pre_finite_inputs
import proofs.«167530_j18451179504175_2_alg».proof.Proof.Gen.Pre_finite_inputs
import Idealize.ShloMosaic.Lib.ReduceAll
import Idealize.ShloMosaic.Lib.ValueIdx
import Idealize.ShloMosaic.Lib.IdealHost
import Idealize.ShloMosaic.Lib.Affine

noncomputable section

namespace Cert.PreRange

open Idealize.ShloMosaic Idealize.ShloMosaic.ValueIdx Cert.Pre_finite_inputs Cert.Pre_finite_inputs.Gen

/-- The rank-0 shape has one index. -/
instance : Subsingleton S_.Idx := ⟨fun a b => funext fun d => d.elim0⟩

variable {F : FTy → Type} [FloatOps F]

/-- The tail of the conjunction: when it is 1, the conjunction over the index array is. -/
theorem part1_idx (a1 : IVec S8192x2 32) (a5 : FVec F S8x4096x1024 .f32) (v13 : IVec S_ 1) (v16 : IVec S8x1024x4096 1)
    (i : S_.Idx) (h : fn_part1 (F := F) a1 a5 v13 v16 i = 1#1) :
    Host.reduce IntOp.andi
        (andi (cmpi .sge a1 (broadcastInDim S8192x2 ![] bcast_S_S8192x2 (constantI S_ 32 0#32)))
          (cmpi .slt a1 (broadcastInDim S8192x2 ![] bcast_S_S8192x2 (constantI S_ 32 8#32))))
        (constantI S_ 1 1#1) reducesTo_S8192x2_S_d0_1 h_S_ i = 1#1 :=
  (IntOp.andi_eq_one.1 h).2

/-- A word whose signed comparisons with 0 and 8 both give 1 lies in [0, 8) as an integer. -/
theorem word_range (w : BitVec 32) (h0 : IntOp.cmpi .sge w 0#32 = 1#1) (h8 : IntOp.cmpi .slt w 8#32 = 1#1) :
    0 ≤ w.toInt ∧ w.toInt < 8 :=
  ⟨IntOp.cmpi_sge.1 h0, IntOp.cmpi_slt.1 h8⟩

/-- Every expert index lies in [0, 8). -/
theorem idx_range (a0 : FVec F S8192x1024 .f32) (a1 : IVec S8192x2 32) (a2 : FVec F S8192x2 .f32)
    (a3 a4 : FVec F S8x1024x4096 .f32) (a5 : FVec F S8x4096x1024 .f32)
    (h : Cert.Pre_finite_inputs.fn (F := F) a0 a1 a2 a3 a4 a5 = fun _ => 1#1) :
    ∀ j : S8192x2.Idx, 0 ≤ (a1 j).toInt ∧ (a1 j).toInt < 8 := by
  intro j
  have e := part1_idx a1 a5 _ _ ix0 (congrFun h ix0)
  have ej := Host.reduce_andi_all _ _ _ _ _ e j
  obtain ⟨h0, h8⟩ := IntOp.andi_eq_one.1 ej
  exact word_range (a1 j) h0 h8

end Cert.PreRange
end
-- ==== Proof.KOps.lean ====
/- The kernel program's 112 host operations before the expert network's region, in order, cut into sixteen consecutive
   windows k1 … k16 at the values the routing names (the flattened indices, the sort order, the sorted tokens, expert ids
   and weights, the clipped indices, the counts, their running sums, the segment starts, the positions, the table, the
   zero buffer, the sorted token rows, the dispatch buffer, the three weight arrays). The operations are the generated
   lists' own, spelt with the plain builders at the buffers' literal types; each generated list is a whole number of windows. -/
import proofs.«167530_j18451179504175_2_alg».proof.Proof.Gen.KernelIdeal.Launch
import Idealize.ShloMosaic.Lib.StableHlo.Run

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- `stablehlo.concatenate` of a S1 and a S7 array along axis 0 into S8, the two operands as plain arguments (the list of shape–array pairs is built inside). -/
def cat_S1_S7 : (⟨S1, .i32⟩ : BufTy).Contents (Elt F) → (⟨S7, .i32⟩ : BufTy).Contents (Elt F) → (⟨S8, .i32⟩ : BufTy).Contents (Elt F) :=
  fun a b => concatenate S8 0 [⟨S1, a⟩, ⟨S7, b⟩] concatenates_S1_S7_S8_d0

/-- `stablehlo.concatenate` of a S16384x1 and a S16384x1 array along axis 1 into S16384x2, the two operands as plain arguments (the list of shape–array pairs is built inside). -/
def cat_S16384x1_S16384x1 : (⟨S16384x1, .i32⟩ : BufTy).Contents (Elt F) → (⟨S16384x1, .i32⟩ : BufTy).Contents (Elt F) → (⟨S16384x2, .i32⟩ : BufTy).Contents (Elt F) :=
  fun a b => concatenate S16384x2 1 [⟨S16384x1, a⟩, ⟨S16384x1, b⟩] concatenates_S16384x1_S16384x1_S16384x2_d1

/-- Operations 1 … 5 of 112 (of the generated list hostOps0). -/
abbrev k1 : List (HloOp τ sig (Elt F)) :=
  [ reshape main_arg1 main_v0 rfl shapeCasts_S8192x2_S16384,
    reshape main_arg2 main_v1 rfl shapeCasts_S8192x2_S16384,
    nullary main_v2 (iotaInDim S8192 32 0),
    unary main_v2 main_v3 (broadcastInDim S8192x2 ![0] bcast_S8192_S8192x2_0 : (⟨S8192, .i32⟩ : BufTy).Contents (Elt F) → (⟨S8192x2, .i32⟩ : BufTy).Contents (Elt F)),
    reshape main_v3 main_v4 rfl shapeCasts_S8192x2_S16384 ]

/-- Operations 6 … 8 of 112 (of the generated list hostOps0_1). -/
abbrev k2 : List (HloOp τ sig (Elt F)) :=
  [ nullary main_call0_v0 (iotaInDim S16384 32 0),
    binary main_v0 main_call0_v0 main_call0_v1_0 ((fun x y => (Host.sort2 S16384 0 comparator_i32_i32_d0 x y).1) : (⟨S16384, .i32⟩ : BufTy).Contents (Elt F) → (⟨S16384, .i32⟩ : BufTy).Contents (Elt F) → (⟨S16384, .i32⟩ : BufTy).Contents (Elt F)),
    binary main_v0 main_call0_v0 main_v5 ((fun x y => (Host.sort2 S16384 0 comparator_i32_i32_d0 x y).2) : (⟨S16384, .i32⟩ : BufTy).Contents (Elt F) → (⟨S16384, .i32⟩ : BufTy).Contents (Elt F) → (⟨S16384, .i32⟩ : BufTy).Contents (Elt F)) ]

/-- Operations 9 … 17 of 112 (of the generated list hostOps0_2). -/
abbrev k3 : List (HloOp τ sig (Elt F)) :=
  [ nullary main_c (constantI S_ 32 0#32),
    unary main_c main_v6 (broadcastInDim S16384 ![] bcast_S_S16384 : (⟨S_, .i32⟩ : BufTy).Contents (Elt F) → (⟨S16384, .i32⟩ : BufTy).Contents (Elt F)),
    binary main_v5 main_v6 main_v7 (cmpi .slt : (⟨S16384, .i32⟩ : BufTy).Contents (Elt F) → (⟨S16384, .i32⟩ : BufTy).Contents (Elt F) → (⟨S16384, .i1⟩ : BufTy).Contents (Elt F)),
    nullary main_c_0 (constantI S_ 32 16384#32),
    unary main_c_0 main_v8 (broadcastInDim S16384 ![] bcast_S_S16384 : (⟨S_, .i32⟩ : BufTy).Contents (Elt F) → (⟨S16384, .i32⟩ : BufTy).Contents (Elt F)),
    binary main_v5 main_v8 main_v9 (addi : (⟨S16384, .i32⟩ : BufTy).Contents (Elt F) → (⟨S16384, .i32⟩ : BufTy).Contents (Elt F) → (⟨S16384, .i32⟩ : BufTy).Contents (Elt F)),
    ternary main_v7 main_v9 main_v5 main_v10 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v10 main_v11 (broadcastInDim S16384x1 ![0] bcast_S16384_S16384x1_0 : (⟨S16384, .i32⟩ : BufTy).Contents (Elt F) → (⟨S16384x1, .i32⟩ : BufTy).Contents (Elt F)),
    binary main_v4 main_v11 main_v12 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)) ]

/-- Operations 18 … 26 of 112 (of the generated list hostOps0_2). -/
abbrev k4 : List (HloOp τ sig (Elt F)) :=
  [ nullary main_c_1 (constantI S_ 32 0#32),
    unary main_c_1 main_v13 (broadcastInDim S16384 ![] bcast_S_S16384 : (⟨S_, .i32⟩ : BufTy).Contents (Elt F) → (⟨S16384, .i32⟩ : BufTy).Contents (Elt F)),
    binary main_v5 main_v13 main_v14 (cmpi .slt : (⟨S16384, .i32⟩ : BufTy).Contents (Elt F) → (⟨S16384, .i32⟩ : BufTy).Contents (Elt F) → (⟨S16384, .i1⟩ : BufTy).Contents (Elt F)),
    nullary main_c_2 (constantI S_ 32 16384#32),
    unary main_c_2 main_v15 (broadcastInDim S16384 ![] bcast_S_S16384 : (⟨S_, .i32⟩ : BufTy).Contents (Elt F) → (⟨S16384, .i32⟩ : BufTy).Contents (Elt F)),
    binary main_v5 main_v15 main_v16 (addi : (⟨S16384, .i32⟩ : BufTy).Contents (Elt F) → (⟨S16384, .i32⟩ : BufTy).Contents (Elt F) → (⟨S16384, .i32⟩ : BufTy).Contents (Elt F)),
    ternary main_v14 main_v16 main_v5 main_v17 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v17 main_v18 (broadcastInDim S16384x1 ![0] bcast_S16384_S16384x1_0 : (⟨S16384, .i32⟩ : BufTy).Contents (Elt F) → (⟨S16384x1, .i32⟩ : BufTy).Contents (Elt F)),
    binary main_v0 main_v18 main_v19 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)) ]

/-- Operations 27 … 35 of 112 (of the generated list hostOps0_2). -/
abbrev k5 : List (HloOp τ sig (Elt F)) :=
  [ nullary main_c_3 (constantI S_ 32 0#32),
    unary main_c_3 main_v20 (broadcastInDim S16384 ![] bcast_S_S16384 : (⟨S_, .i32⟩ : BufTy).Contents (Elt F) → (⟨S16384, .i32⟩ : BufTy).Contents (Elt F)),
    binary main_v5 main_v20 main_v21 (cmpi .slt : (⟨S16384, .i32⟩ : BufTy).Contents (Elt F) → (⟨S16384, .i32⟩ : BufTy).Contents (Elt F) → (⟨S16384, .i1⟩ : BufTy).Contents (Elt F)),
    nullary main_c_4 (constantI S_ 32 16384#32),
    unary main_c_4 main_v22 (broadcastInDim S16384 ![] bcast_S_S16384 : (⟨S_, .i32⟩ : BufTy).Contents (Elt F) → (⟨S16384, .i32⟩ : BufTy).Contents (Elt F)),
    binary main_v5 main_v22 main_v23 (addi : (⟨S16384, .i32⟩ : BufTy).Contents (Elt F) → (⟨S16384, .i32⟩ : BufTy).Contents (Elt F) → (⟨S16384, .i32⟩ : BufTy).Contents (Elt F)),
    ternary main_v21 main_v23 main_v5 main_v24 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v24 main_v25 (broadcastInDim S16384x1 ![0] bcast_S16384_S16384x1_0 : (⟨S16384, .i32⟩ : BufTy).Contents (Elt F) → (⟨S16384x1, .i32⟩ : BufTy).Contents (Elt F)),
    binary main_v1 main_v25 main_v26 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)) ]

/-- Operations 36 … 38 of 112 (of the generated list hostOps0_2). -/
abbrev k6 : List (HloOp τ sig (Elt F)) :=
  [ nullary main_c_5 (constantI S_ 32 0#32),
    unary main_c_5 main_v27 (broadcastInDim S8 ![] bcast_S_S8 : (⟨S_, .i32⟩ : BufTy).Contents (Elt F) → (⟨S8, .i32⟩ : BufTy).Contents (Elt F)),
    nullary main_c_6 (constantI S_ 32 0#32) ]

/-- Operations 39 … 41 of 112 (of the generated list hostOps0_3). -/
abbrev k7 : List (HloOp τ sig (Elt F)) :=
  [ unary main_c_6 main_call1_v0 ((id) : (⟨S_, .i32⟩ : BufTy).Contents (Elt F) → (⟨S_, .i32⟩ : BufTy).Contents (Elt F)),
    unary main_call1_v0 main_call1_v1 ((broadcastInDim S16384 ![] bcast_S_S16384) : (⟨S_, .i32⟩ : BufTy).Contents (Elt F) → (⟨S16384, .i32⟩ : BufTy).Contents (Elt F)),
    binary main_call1_v1 main_v0 main_v28 ((maxsi) : (⟨S16384, .i32⟩ : BufTy).Contents (Elt F) → (⟨S16384, .i32⟩ : BufTy).Contents (Elt F) → (⟨S16384, .i32⟩ : BufTy).Contents (Elt F)) ]

/-- Operations 42 … 54 of 112 (of the generated list hostOps0_4). -/
abbrev k8 : List (HloOp τ sig (Elt F)) :=
  [ nullary main_c_7 (constantI S_ 32 0#32),
    unary main_c_7 main_v29 (broadcastInDim S16384 ![] bcast_S_S16384 : (⟨S_, .i32⟩ : BufTy).Contents (Elt F) → (⟨S16384, .i32⟩ : BufTy).Contents (Elt F)),
    binary main_v28 main_v29 main_v30 (cmpi .slt : (⟨S16384, .i32⟩ : BufTy).Contents (Elt F) → (⟨S16384, .i32⟩ : BufTy).Contents (Elt F) → (⟨S16384, .i1⟩ : BufTy).Contents (Elt F)),
    nullary main_c_8 (constantI S_ 32 8#32),
    unary main_c_8 main_v31 (broadcastInDim S16384 ![] bcast_S_S16384 : (⟨S_, .i32⟩ : BufTy).Contents (Elt F) → (⟨S16384, .i32⟩ : BufTy).Contents (Elt F)),
    binary main_v28 main_v31 main_v32 (addi : (⟨S16384, .i32⟩ : BufTy).Contents (Elt F) → (⟨S16384, .i32⟩ : BufTy).Contents (Elt F) → (⟨S16384, .i32⟩ : BufTy).Contents (Elt F)),
    ternary main_v30 main_v32 main_v28 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v33 main_v34 (broadcastInDim S16384x1 ![0] bcast_S16384_S16384x1_0 : (⟨S16384, .i32⟩ : BufTy).Contents (Elt F) → (⟨S16384x1, .i32⟩ : BufTy).Contents (Elt F)),
    nullary main_c_9 (constantI S_ 32 1#32),
    unary main_c_9 main_v35 (broadcastInDim S16384 ![] bcast_S_S16384 : (⟨S_, .i32⟩ : BufTy).Contents (Elt F) → (⟨S16384, .i32⟩ : BufTy).Contents (Elt F)),
    ternary main_v27 main_v34 main_v35 main_v36 ((fun x i u => Host.scatter scatter_S8_S16384x1_S16384_n_0_0_1 IntOp.addi x i u) : (⟨S8, .i32⟩ : BufTy).Contents (Elt F) → (⟨S16384x1, .i32⟩ : BufTy).Contents (Elt F) → (⟨S16384, .i32⟩ : BufTy).Contents (Elt F) → (⟨S8, .i32⟩ : BufTy).Contents (Elt F)),
    nullary main_c_10 (constantI S_ 32 0#32),
    unary main_c_10 main_v37 (broadcastInDim S1 ![] bcast_S_S1 : (⟨S_, .i32⟩ : BufTy).Contents (Elt F) → (⟨S1, .i32⟩ : BufTy).Contents (Elt F)) ]

/-- Operations 55 … 57 of 112 (of the generated list hostOps0_5). -/
abbrev k9 : List (HloOp τ sig (Elt F)) :=
  [ nullary main_call2_call0_c (constantI S_ 32 0#32),
    unary main_call2_call0_c main_call2_call0_v0 ((broadcastInDim S_ ![] bcast_S_S_) : (⟨S_, .i32⟩ : BufTy).Contents (Elt F) → (⟨S_, .i32⟩ : BufTy).Contents (Elt F)),
    binary main_v36 main_call2_call0_v0 main_v38 ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)) ]

/-- Operations 58 … 59 of 112 (of the generated list hostOps0_6). -/
abbrev k10 : List (HloOp τ sig (Elt F)) :=
  [ unary main_v38 main_v39 ((extractStridedSlice S7 ![0] · slices_S8_S7_0) : (⟨S8, .i32⟩ : BufTy).Contents (Elt F) → (⟨S7, .i32⟩ : BufTy).Contents (Elt F)),
    binary main_v37 main_v39 main_v40 (cat_S1_S7 (F := F)) ]

/-- Operations 60 … 76 of 112 (of the generated list hostOps0_6). -/
abbrev k11 : List (HloOp τ sig (Elt F)) :=
  [ nullary main_v41 (iotaInDim S16384 32 0),
    nullary main_c_11 (constantI S_ 32 0#32),
    unary main_c_11 main_v42 (broadcastInDim S16384 ![] bcast_S_S16384 : (⟨S_, .i32⟩ : BufTy).Contents (Elt F) → (⟨S16384, .i32⟩ : BufTy).Contents (Elt F)),
    binary main_v19 main_v42 main_v43 (cmpi .slt : (⟨S16384, .i32⟩ : BufTy).Contents (Elt F) → (⟨S16384, .i32⟩ : BufTy).Contents (Elt F) → (⟨S16384, .i1⟩ : BufTy).Contents (Elt F)),
    nullary main_c_12 (constantI S_ 32 8#32),
    unary main_c_12 main_v44 (broadcastInDim S16384 ![] bcast_S_S16384 : (⟨S_, .i32⟩ : BufTy).Contents (Elt F) → (⟨S16384, .i32⟩ : BufTy).Contents (Elt F)),
    binary main_v19 main_v44 main_v45 (addi : (⟨S16384, .i32⟩ : BufTy).Contents (Elt F) → (⟨S16384, .i32⟩ : BufTy).Contents (Elt F) → (⟨S16384, .i32⟩ : BufTy).Contents (Elt F)),
    ternary main_v43 main_v45 main_v19 main_v46 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v46 main_v47 (broadcastInDim S16384x1 ![0] bcast_S16384_S16384x1_0 : (⟨S16384, .i32⟩ : BufTy).Contents (Elt F) → (⟨S16384x1, .i32⟩ : BufTy).Contents (Elt F)),
    binary main_v40 main_v47 main_v48 ((fun x i => Host.gather gather_S8_S16384x1_S16384_n_0_n_n_0_1_1 x i) : (⟨S8, .i32⟩ : BufTy).Contents (Elt F) → (⟨S16384x1, .i32⟩ : BufTy).Contents (Elt F) → (⟨S16384, .i32⟩ : BufTy).Contents (Elt F)),
    binary main_v41 main_v48 main_v49 (subi : (⟨S16384, .i32⟩ : BufTy).Contents (Elt F) → (⟨S16384, .i32⟩ : BufTy).Contents (Elt F) → (⟨S16384, .i32⟩ : BufTy).Contents (Elt F)),
    nullary main_c_13 (constantI S_ 32 4096#32),
    unary main_c_13 main_v50 (broadcastInDim S16384 ![] bcast_S_S16384 : (⟨S_, .i32⟩ : BufTy).Contents (Elt F) → (⟨S16384, .i32⟩ : BufTy).Contents (Elt F)),
    binary main_v49 main_v50 main_v51 (cmpi .slt : (⟨S16384, .i32⟩ : BufTy).Contents (Elt F) → (⟨S16384, .i32⟩ : BufTy).Contents (Elt F) → (⟨S16384, .i1⟩ : BufTy).Contents (Elt F)),
    nullary main_c_14 (constantI S_ 32 4096#32),
    unary main_c_14 main_v52 (broadcastInDim S16384 ![] bcast_S_S16384 : (⟨S_, .i32⟩ : BufTy).Contents (Elt F) → (⟨S16384, .i32⟩ : BufTy).Contents (Elt F)),
    binary main_v49 main_v52 main_v53 (minsi : (⟨S16384, .i32⟩ : BufTy).Contents (Elt F) → (⟨S16384, .i32⟩ : BufTy).Contents (Elt F) → (⟨S16384, .i32⟩ : BufTy).Contents (Elt F)) ]

/-- Operations 77 … 79 of 112 (of the generated list hostOps0_6). -/
abbrev k12 : List (HloOp τ sig (Elt F)) :=
  [ nullary main_c_15 (constantI S_ 32 4097#32),
    unary main_c_15 main_v54 (broadcastInDim S8 ![] bcast_S_S8 : (⟨S_, .i32⟩ : BufTy).Contents (Elt F) → (⟨S8, .i32⟩ : BufTy).Contents (Elt F)),
    binary main_v36 main_v54 main_v55 (minsi : (⟨S8, .i32⟩ : BufTy).Contents (Elt F) → (⟨S8, .i32⟩ : BufTy).Contents (Elt F) → (⟨S8, .i32⟩ : BufTy).Contents (Elt F)) ]

/-- Operations 80 … 81 of 112 (of the generated list hostOps0_6). -/
abbrev k13 : List (HloOp τ sig (Elt F)) :=
  [ nullary main_cst (constant S_ .bf16 0x0000#16),
    unary main_cst main_v56 (broadcastInDim S8x4352x1024 ![] bcast_S_S8x4352x1024 : (⟨S_, .bf16⟩ : BufTy).Contents (Elt F) → (⟨S8x4352x1024, .bf16⟩ : BufTy).Contents (Elt F)) ]

/-- Operations 82 … 91 of 112 (of the generated list hostOps0_6). -/
abbrev k14 : List (HloOp τ sig (Elt F)) :=
  [ nullary main_c_16 (constantI S_ 32 0#32),
    unary main_c_16 main_v57 (broadcastInDim S16384 ![] bcast_S_S16384 : (⟨S_, .i32⟩ : BufTy).Contents (Elt F) → (⟨S16384, .i32⟩ : BufTy).Contents (Elt F)),
    binary main_v12 main_v57 main_v58 (cmpi .slt : (⟨S16384, .i32⟩ : BufTy).Contents (Elt F) → (⟨S16384, .i32⟩ : BufTy).Contents (Elt F) → (⟨S16384, .i1⟩ : BufTy).Contents (Elt F)),
    nullary main_c_17 (constantI S_ 32 8192#32),
    unary main_c_17 main_v59 (broadcastInDim S16384 ![] bcast_S_S16384 : (⟨S_, .i32⟩ : BufTy).Contents (Elt F) → (⟨S16384, .i32⟩ : BufTy).Contents (Elt F)),
    binary main_v12 main_v59 main_v60 (addi : (⟨S16384, .i32⟩ : BufTy).Contents (Elt F) → (⟨S16384, .i32⟩ : BufTy).Contents (Elt F) → (⟨S16384, .i32⟩ : BufTy).Contents (Elt F)),
    ternary main_v58 main_v60 main_v12 main_v61 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v61 main_v62 (broadcastInDim S16384x1 ![0] bcast_S16384_S16384x1_0 : (⟨S16384, .i32⟩ : BufTy).Contents (Elt F) → (⟨S16384x1, .i32⟩ : BufTy).Contents (Elt F)),
    binary main_arg0 main_v62 main_v63 ((fun x i => Host.gather gather_S8192x1024_S16384x1_S16384x1024_1_0_n_n_0_1_11024 x i) : (⟨S8192x1024, .f32⟩ : BufTy).Contents (Elt F) → (⟨S16384x1, .i32⟩ : BufTy).Contents (Elt F) → (⟨S16384x1024, .f32⟩ : BufTy).Contents (Elt F)),
    unary main_v63 main_v64 ((truncf .bf16 · bitsLt_bf16_f32) : (⟨S16384x1024, .f32⟩ : BufTy).Contents (Elt F) → (⟨S16384x1024, .bf16⟩ : BufTy).Contents (Elt F)) ]

/-- Operations 92 … 109 of 112 (of the generated list hostOps0_6). -/
abbrev k15 : List (HloOp τ sig (Elt F)) :=
  [ nullary main_c_18 (constantI S_ 32 0#32),
    unary main_c_18 main_v65 (broadcastInDim S16384 ![] bcast_S_S16384 : (⟨S_, .i32⟩ : BufTy).Contents (Elt F) → (⟨S16384, .i32⟩ : BufTy).Contents (Elt F)),
    binary main_v19 main_v65 main_v66 (cmpi .slt : (⟨S16384, .i32⟩ : BufTy).Contents (Elt F) → (⟨S16384, .i32⟩ : BufTy).Contents (Elt F) → (⟨S16384, .i1⟩ : BufTy).Contents (Elt F)),
    nullary main_c_19 (constantI S_ 32 8#32),
    unary main_c_19 main_v67 (broadcastInDim S16384 ![] bcast_S_S16384 : (⟨S_, .i32⟩ : BufTy).Contents (Elt F) → (⟨S16384, .i32⟩ : BufTy).Contents (Elt F)),
    binary main_v19 main_v67 main_v68 (addi : (⟨S16384, .i32⟩ : BufTy).Contents (Elt F) → (⟨S16384, .i32⟩ : BufTy).Contents (Elt F) → (⟨S16384, .i32⟩ : BufTy).Contents (Elt F)),
    ternary main_v66 main_v68 main_v19 main_v69 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_20 (constantI S_ 32 0#32),
    unary main_c_20 main_v70 (broadcastInDim S16384 ![] bcast_S_S16384 : (⟨S_, .i32⟩ : BufTy).Contents (Elt F) → (⟨S16384, .i32⟩ : BufTy).Contents (Elt F)),
    binary main_v53 main_v70 main_v71 (cmpi .slt : (⟨S16384, .i32⟩ : BufTy).Contents (Elt F) → (⟨S16384, .i32⟩ : BufTy).Contents (Elt F) → (⟨S16384, .i1⟩ : BufTy).Contents (Elt F)),
    nullary main_c_21 (constantI S_ 32 4352#32),
    unary main_c_21 main_v72 (broadcastInDim S16384 ![] bcast_S_S16384 : (⟨S_, .i32⟩ : BufTy).Contents (Elt F) → (⟨S16384, .i32⟩ : BufTy).Contents (Elt F)),
    binary main_v53 main_v72 main_v73 (addi : (⟨S16384, .i32⟩ : BufTy).Contents (Elt F) → (⟨S16384, .i32⟩ : BufTy).Contents (Elt F) → (⟨S16384, .i32⟩ : BufTy).Contents (Elt F)),
    ternary main_v71 main_v73 main_v53 main_v74 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v69 main_v75 (broadcastInDim S16384x1 ![0] bcast_S16384_S16384x1_0 : (⟨S16384, .i32⟩ : BufTy).Contents (Elt F) → (⟨S16384x1, .i32⟩ : BufTy).Contents (Elt F)),
    unary main_v74 main_v76 (broadcastInDim S16384x1 ![0] bcast_S16384_S16384x1_0 : (⟨S16384, .i32⟩ : BufTy).Contents (Elt F) → (⟨S16384x1, .i32⟩ : BufTy).Contents (Elt F)),
    binary main_v75 main_v76 main_v77 (cat_S16384x1_S16384x1 (F := F)),
    ternary main_v56 main_v77 main_v64 main_v78 ((fun x i u => Host.scatter scatter_S8x4352x1024_S16384x2_S16384x1024_1_01_01_1 (fun _ b => b) x i u) : (⟨S8x4352x1024, .bf16⟩ : BufTy).Contents (Elt F) → (⟨S16384x2, .i32⟩ : BufTy).Contents (Elt F) → (⟨S16384x1024, .bf16⟩ : BufTy).Contents (Elt F) → (⟨S8x4352x1024, .bf16⟩ : BufTy).Contents (Elt F)) ]

/-- Operations 110 … 112 of 112 (of the generated list hostOps0_6). -/
abbrev k16 : List (HloOp τ sig (Elt F)) :=
  [ unary main_arg3 main_v79 ((truncf .bf16 · bitsLt_bf16_f32) : (⟨S8x1024x4096, .f32⟩ : BufTy).Contents (Elt F) → (⟨S8x1024x4096, .bf16⟩ : BufTy).Contents (Elt F)),
    unary main_arg4 main_v80 ((truncf .bf16 · bitsLt_bf16_f32) : (⟨S8x1024x4096, .f32⟩ : BufTy).Contents (Elt F) → (⟨S8x1024x4096, .bf16⟩ : BufTy).Contents (Elt F)),
    unary main_arg5 main_v81 ((truncf .bf16 · bitsLt_bf16_f32) : (⟨S8x4096x1024, .f32⟩ : BufTy).Contents (Elt F) → (⟨S8x4096x1024, .bf16⟩ : BufTy).Contents (Elt F)) ]

/-- The windows of the generated list hostOps0, in order. -/
abbrev hostOps0_windows : List (HloOp τ sig (Elt F)) := k1

/-- The windows of the generated list hostOps0_1, in order. -/
abbrev hostOps0_1_windows : List (HloOp τ sig (Elt F)) := k2

/-- The windows of the generated list hostOps0_2, in order. -/
abbrev hostOps0_2_windows : List (HloOp τ sig (Elt F)) := k3 ++ (k4 ++ (k5 ++ (k6)))

/-- The windows of the generated list hostOps0_3, in order. -/
abbrev hostOps0_3_windows : List (HloOp τ sig (Elt F)) := k7

/-- The windows of the generated list hostOps0_4, in order. -/
abbrev hostOps0_4_windows : List (HloOp τ sig (Elt F)) := k8

/-- The windows of the generated list hostOps0_5, in order. -/
abbrev hostOps0_5_windows : List (HloOp τ sig (Elt F)) := k9

/-- The windows of the generated list hostOps0_6, in order. -/
abbrev hostOps0_6_windows : List (HloOp τ sig (Elt F)) := k10 ++ (k11 ++ (k12 ++ (k13 ++ (k14 ++ (k15 ++ (k16))))))

end Cert.KernelIdeal.Stages

end
-- ==== Proof.LibSegments.lean ====
/-
  Positions in a non-decreasing rearrangement of keys, and counting keys.

  Let k assign a natural-number key to each of n positions and let σ be a bijection of the positions such that the keys
  read through σ never decrease. Then the positions p whose key k (σ p) is below a value e form an initial segment, of
  size the number of keys below e; likewise for "at most e". Hence position i, whose key is e = k (σ i), satisfies
      #{j | k j < e} ≤ i < #{j | k j ≤ e} = #{j | k j < e} + #{j | k j = e}:
  the offset of i inside the block of positions holding key e is non-negative and below the number of keys equal to e.
  The number of keys below e is the sum, over e' < e, of the number of keys equal to e' (prefix sums of the histogram).

  Also: folding wrapping 32-bit addition over a list of words of natural numbers gives the word of the sum.
-/
import Mathlib.Order.Interval.Finset.Fin
import Mathlib.Algebra.BigOperators.Group.Finset.Basic
import Mathlib.Algebra.BigOperators.Fin
import Idealize.ShloMosaic.PureOps

open scoped BigOperators

namespace Cert.LibSegments

open Idealize.ShloMosaic

variable {n : ℕ}

/-- Pulling a predicate back along a bijection of the positions does not change how many positions satisfy it. -/
theorem card_filter_comp (σ : Fin n → Fin n) (hσ : Function.Bijective σ) (P : Fin n → Prop) [DecidablePred P] :
    (Finset.univ.filter fun p => P (σ p)).card = (Finset.univ.filter P).card := by
  refine Finset.card_bij (fun p _ => σ p) ?_ ?_ ?_
  · intro p hp
    simpa using hp
  · intro a _ b _ h
    exact hσ.1 h
  · intro b hb
    obtain ⟨a, rfl⟩ := hσ.2 b
    exact ⟨a, by simpa using hb, rfl⟩

/-- The positions whose key is below that of position i all come before i. -/
theorem card_lt_le_pos (k : Fin n → ℕ) (σ : Fin n → Fin n) (hσ : Function.Bijective σ)
    (hmono : ∀ i j : Fin n, i < j → k (σ i) ≤ k (σ j)) (i : Fin n) :
    (Finset.univ.filter fun j => k j < k (σ i)).card ≤ i.val := by
  rw [← card_filter_comp σ hσ (fun j => k j < k (σ i))]
  refine le_of_le_of_eq (Finset.card_le_card fun p hp => ?_) (Fin.card_Iio i)
  simp only [Finset.mem_filter, Finset.mem_univ, true_and] at hp
  rw [Finset.mem_Iio]
  by_contra hnp
  rcases lt_or_eq_of_le (not_lt.mp hnp) with h | h
  · exact absurd (hmono i p h) (not_le.mpr hp)
  · rw [h] at hp
    exact lt_irrefl _ hp

/-- The positions up to and including i all hold a key at most that of position i. -/
theorem pos_lt_card_le (k : Fin n → ℕ) (σ : Fin n → Fin n) (hσ : Function.Bijective σ)
    (hmono : ∀ i j : Fin n, i < j → k (σ i) ≤ k (σ j)) (i : Fin n) :
    i.val < (Finset.univ.filter fun j => k j ≤ k (σ i)).card := by
  rw [← card_filter_comp σ hσ (fun j => k j ≤ k (σ i))]
  have h : (Finset.Iic i).card ≤ (Finset.univ.filter fun p => k (σ p) ≤ k (σ i)).card := by
    refine Finset.card_le_card fun p hp => ?_
    rw [Finset.mem_Iic] at hp
    simp only [Finset.mem_filter, Finset.mem_univ, true_and]
    rcases lt_or_eq_of_le hp with h | h
    · exact hmono p i h
    · rw [h]
  rw [Fin.card_Iic] at h
  omega

/-- The number of keys below e is the sum over e' < e of the number of keys equal to e'. -/
theorem card_lt_eq_sum (k : Fin n → ℕ) (e : ℕ) :
    (Finset.univ.filter fun j => k j < e).card
      = ∑ e' ∈ Finset.range e, (Finset.univ.filter fun j => k j = e').card := by
  rw [Finset.card_eq_sum_card_fiberwise (f := k) (t := Finset.range e)]
  · refine Finset.sum_congr rfl fun e' he' => ?_
    congr 1
    ext j
    simp only [Finset.mem_filter, Finset.mem_univ, true_and, Finset.mem_range] at he' ⊢
    constructor
    · rintro ⟨_, h⟩
      exact h
    · intro h
      exact ⟨by omega, h⟩
  · intro j hj
    simpa using hj

/-- Keys at most e: those below e and those equal to e. -/
theorem card_le_eq_add (k : Fin n → ℕ) (e : ℕ) :
    (Finset.univ.filter fun j => k j ≤ e).card
      = (Finset.univ.filter fun j => k j < e).card + (Finset.univ.filter fun j => k j = e).card := by
  have h : (Finset.univ.filter fun j => k j ≤ e) = Finset.univ.filter fun j => k j < e + 1 := by
    ext j
    simp only [Finset.mem_filter, Finset.mem_univ, true_and]
    omega
  rw [h, card_lt_eq_sum, card_lt_eq_sum, Finset.sum_range_succ]

/-- The offset of position i inside the block of its key: non-negative, below the number of keys equal to it. -/
theorem offset_in_block (k : Fin n → ℕ) (σ : Fin n → Fin n) (hσ : Function.Bijective σ)
    (hmono : ∀ i j : Fin n, i < j → k (σ i) ≤ k (σ j)) (i : Fin n) :
    (Finset.univ.filter fun j => k j < k (σ i)).card ≤ i.val ∧
      i.val < (Finset.univ.filter fun j => k j < k (σ i)).card + (Finset.univ.filter fun j => k j = k (σ i)).card := by
  refine ⟨card_lt_le_pos k σ hσ hmono i, ?_⟩
  rw [← card_le_eq_add]
  exact pos_lt_card_le k σ hσ hmono i

/-! ## Folds of wrapping addition -/

/-- Folding wrapping addition of the words of natural numbers, from the word of a number, gives the word of the sum. -/
theorem foldl_addi_ofNat {ι : Type} (L : List ι) (g : ι → BitVec 32) (d : ι → ℕ)
    (hg : ∀ m, g m = BitVec.ofNat 32 (d m)) (a : ℕ) :
    L.foldl (fun r m => IntOp.addi r (g m)) (BitVec.ofNat 32 a) = BitVec.ofNat 32 (a + (L.map d).sum) := by
  induction L generalizing a with
  | nil => simp
  | cons b L ih =>
    rw [List.foldl_cons, hg b]
    have e : IntOp.addi (BitVec.ofNat 32 a) (BitVec.ofNat 32 (d b)) = BitVec.ofNat 32 (a + d b) :=
      (BitVec.ofNat_add _ _).symm
    rw [e, ih (a + d b), List.map_cons, List.sum_cons, Nat.add_assoc]

/-- A list sum over all of Fin m is the sum over Fin m. -/
theorem sum_map_finRange {m : ℕ} (d : Fin m → ℕ) : ((List.finRange m).map d).sum = ∑ i : Fin m, d i :=
  (Fin.sum_univ_def d).symm

/-- A scatter step that adds val m at the position tgt m (or nowhere), folded over a list from a table x: read at
    position r it is x r plus the word of the sum of the values sent to r. -/
theorem foldl_scatter_addi {ι κ : Type} [DecidableEq κ] (L : List ι) (tgt : ι → Option κ) (val : ι → BitVec 32)
    (d : ι → ℕ) (hval : ∀ m, val m = BitVec.ofNat 32 (d m)) (x : κ → BitVec 32) (r : κ) (a : ℕ)
    (hx : x r = BitVec.ofNat 32 a) :
    (L.foldl (fun (t : κ → BitVec 32) m =>
        match tgt m with
        | some i => fun i' => if i' = i then IntOp.addi (t i) (val m) else t i'
        | none => t) x) r
      = BitVec.ofNat 32 (a + (L.map fun m => if tgt m = some r then d m else 0).sum) := by
  induction L generalizing x a with
  | nil => simpa using hx
  | cons b L ih =>
    rw [List.foldl_cons, List.map_cons, List.sum_cons, ← Nat.add_assoc]
    refine ih _ _ ?_
    cases hb : tgt b with
    | none => simpa using hx
    | some i =>
      by_cases hri : r = i
      · subst hri
        simp only [if_true]
        rw [hx, hval b]
        exact (BitVec.ofNat_add _ _).symm
      · have hne : ¬ (some i = some r) := fun h => hri (Option.some.inj h).symm
        simp only [if_neg hri, if_neg hne, Nat.add_zero]
        exact hx

end Cert.LibSegments
-- ==== Proof.LibRowIndex.lean ====
/-
  Where a row gather reads and where a row scatter lands, for index arrays of shape [E, 1].

  Taking rows of an [N, C] table (or entries of a length-N vector) at start indices laid out as an [E, 1] array reads,
  for result row e, the operand's row  min(toNat(idx[e, 0] read signed), N - 1): the start index is clamped into the
  operand. A scatter of [E, C] updates into an [N, C] operand at scatter indices laid out the same way sends update
  (e, c) to row idx[e, 0] read signed and NOT clamped, so an update lands on row r only when idx[e, 0] is exactly r.
  Consequently an index that lands somewhere is non-negative and below N, is left alone by the usual wrap-around of
  negative indices (add N when negative), and a gather at it reads the row it lands on.
-/
import Idealize.ShloMosaic.PureOps.ShapeOps
import Idealize.ShloMosaic.Lib.ValueIdx

noncomputable section

namespace Cert.GcnIndex

open Idealize.ShloMosaic Idealize.ShloMosaic.ValueIdx

variable {N E C w : Nat}

/-- Dimension numbers of taking whole rows of an [N, C] table at [E, 1] start indices. -/
abbrev rowGather (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of taking entries of a length-N vector at [E, 1] start indices. -/
abbrev vecGather (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of scattering [E, C] update rows into an [N, C] table at [E, 1] scatter indices. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a row gather reads for result position j: the start index of j's row, read signed and clamped. -/
theorem rowGather_row (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowGather wf).operandIdx j idx 0).val = min (idx (ix2 (j 0) (0 : Fin 1))).toInt.toNat (N - 1) := by
  show (rowGather wf).start j idx 0 + (rowGather wf).batchCoord j 0 + (rowGather wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather wf).startIndexMap from List.mem_singleton.mpr rfl)]
  have hsi : (rowGather wf).siIdx j ⟨List.idxOf (0 : Fin 2) (rowGather wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The entry a vector gather reads for result position j: the same clamped start index. -/
theorem vecGather_row (wf : GatherDims.WF ⟨1, ![N]⟩ ⟨2, ![E, 1]⟩ ⟨1, ![E]⟩ [] [0] [] [0] [] 1 ![1])
    (idx : IVec ⟨2, ![E, 1]⟩ w) (j : (⟨1, ![E]⟩ : Shape).Idx) :
    ((vecGather wf).operandIdx j idx 0).val = min (idx (ix2 (j 0) (0 : Fin 1))).toInt.toNat (N - 1) := by
  show (vecGather wf).start j idx 0 + (vecGather wf).batchCoord j 0 + (vecGather wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather wf).startIndexMap from List.mem_singleton.mpr rfl)]
  have hsi : (vecGather wf).siIdx j ⟨List.idxOf (0 : Fin 1) (vecGather wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- An update that lands on operand position i has, as its row's scatter index read signed, exactly i's row. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatter wf).resultIdx? j idx = some i) :
    (idx (ix2 (j 0) (0 : Fin 1))).toInt = ((i 0).val : Int) := by
  have s0 : (rowScatter wf).start j idx 0 = (idx (ix2 (j 0) (0 : Fin 1))).toInt := by
    unfold ScatterDims.start
    rw [dif_pos (show (0 : Fin 2) ∈ (rowScatter wf).scatterDimsToOperandDims from List.mem_singleton.mpr rfl)]
    have hsi : (rowScatter wf).siIdx j ⟨List.idxOf (0 : Fin 2) (rowScatter wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have w0 : (rowScatter wf).window j 0 = 0 := rfl
  unfold ScatterDims.resultIdx? at h
  split at h
  · rename_i hb
    have e := Option.some.inj h
    have e0 : ((rowScatter wf).start j idx 0 + ((rowScatter wf).window j 0 : Int)).toNat = (i 0).val :=
      congrArg (fun f : (⟨2, ![N, C]⟩ : Shape).Idx => (f 0).val) e
    have hb0 := (hb 0).1
    rw [s0, w0] at e0 hb0
    omega
  · exact absurd h (by simp)

/-- A 32-bit index that, read signed, is a row number below N (N itself below 2^31) is not negative, so the
    wrap-around of negative indices leaves it alone. -/
theorem wrap_of_lands (x n : BitVec 32) (r : Nat) (hx : x.toInt = (r : Int)) :
    Scalar.select (IntOp.cmpi .slt x 0#32) (IntOp.addi x n) x = x := by
  have hs : x.slt 0#32 = false := by
    rw [BitVec.slt_eq_decide]
    simp only [BitVec.toInt_zero, decide_eq_false_iff_not, not_lt]
    omega
  unfold Scalar.select IntOp.cmpi
  simp only [hs]
  rfl

/-- At such an index the clamp of a gather is the identity. -/
theorem clamp_of_lands (x : BitVec 32) (r : Nat) (hr : r < N) (hx : x.toInt = (r : Int)) :
    min x.toInt.toNat (N - 1) = r := by
  rw [hx]; simp only [Int.toNat_natCast]; omega

end Cert.GcnIndex

end
-- ==== Proof.LibSegSum.lean ====
/-
  The accumulating scatter of rows (or of vector entries) at scatter indices laid out as an [E, 1] array, written as a
  sum over the E edges.

  Scattering [E, C] update rows into an [N, C] table with addition sends update (e, c) to position (idx[e, 0], c), the
  scatter index read signed and not clamped; an update whose row index is negative or at least N is dropped. Hence the
  result at (r, c) is the operand's entry plus the sum, over the edges e whose index idx[e, 0] is exactly r, of the
  update entry (e, c). The same holds for scattering a length-E vector of updates into a length-N vector: the result at
  r is the operand's entry plus the sum of the updates e with idx[e, 0] = r. At the ideal instance both sums are exact
  sums of extended reals.
-/
import Idealize.ShloMosaic.PureOps.Contract
import Idealize.ShloMosaic.Lib.ValueIdx
import Mathlib.Algebra.BigOperators.Group.Finset.Basic

noncomputable section

open scoped BigOperators

namespace Cert.LibSegSum

open Idealize.ShloMosaic Idealize.ShloMosaic.ValueIdx

variable {N E C w : Nat}

/-- Dimension numbers of scattering [E, C] update rows into an [N, C] table at [E, 1] scatter indices. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Dimension numbers of scattering a length-E vector of updates into a length-N vector at [E, 1] scatter indices. -/
abbrev vecScatter (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The row form -/

/-- On the row axis the window of update (e, c) starts at the scatter index of edge e, read signed. -/
theorem rowScatter_start0 (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatter wf).start j idx 0 = (idx (ix2 (j 0) (0 : Fin 1))).toInt := by
  unfold ScatterDims.start
  rw [dif_pos (show (0 : Fin 2) ∈ (rowScatter wf).scatterDimsToOperandDims from List.mem_singleton.mpr rfl)]
  have hsi : (rowScatter wf).siIdx j ⟨List.idxOf (0 : Fin 2) (rowScatter wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0: the scatter indices name rows only. -/
theorem rowScatter_start1 (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatter wf).start j idx 1 = 0 := by
  unfold ScatterDims.start
  rw [dif_neg (show ¬ (1 : Fin 2) ∈ (rowScatter wf).scatterDimsToOperandDims from
    fun h => Nat.one_ne_zero (congrArg Fin.val (List.mem_singleton.mp h)))]

/-- The window coordinate on the row axis is 0 (the row axis is inserted) … -/
theorem rowScatter_window0 (wf : ScatterDims.WF ⟨2, ![N, C]⟩ ⟨2, ![E, 1]⟩ ⟨2, ![E, C]⟩ [1] [0] [0] 1)
    (j : (⟨2, ![E, C]⟩ : Shape).Idx) : (rowScatter wf).window j 0 = 0 := rfl

/-- … and on the column axis it is the update's column. -/
theorem rowScatter_window1 (wf : ScatterDims.WF ⟨2, ![N, C]⟩ ⟨2, ![E, 1]⟩ ⟨2, ![E, C]⟩ [1] [0] [0] 1)
    (j : (⟨2, ![E, C]⟩ : Shape).Idx) : (rowScatter wf).window j 1 = (j 1).val := rfl

/-- Update (e, c') lands on operand position (r, c) exactly when the scatter index of edge e, read signed, is r and
    c' = c. -/
theorem rowScatter_resultIdx_iff (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatter wf).resultIdx? j idx = some i ↔
      (idx (ix2 (j 0) (0 : Fin 1))).toInt = ((i 0).val : Int) ∧ (j 1).val = (i 1).val := by
  have s0 := rowScatter_start0 wf idx j
  have s1 := rowScatter_start1 wf idx j
  have w0 := rowScatter_window0 wf j
  have w1 := rowScatter_window1 wf j
  have hi0 : (i 0).val < N := (i 0).isLt
  have hi1 : (i 1).val < C := (i 1).isLt
  have hj1 : (j 1).val < C := (j 1).isLt
  unfold ScatterDims.resultIdx?
  constructor
  · intro h
    split at h
    · rename_i hb
      have e := Option.some.inj h
      have e0 : ((rowScatter wf).start j idx 0 + ((rowScatter wf).window j 0 : Int)).toNat = (i 0).val :=
        congrArg (fun f : (⟨2, ![N, C]⟩ : Shape).Idx => (f 0).val) e
      have e1 : ((rowScatter wf).start j idx 1 + ((rowScatter wf).window j 1 : Int)).toNat = (i 1).val :=
        congrArg (fun f : (⟨2, ![N, C]⟩ : Shape).Idx => (f 1).val) e
      have hb0 := (hb 0).1
      rw [s0, w0] at e0 hb0
      rw [s1, w1] at e1
      constructor <;> omega
    · exact absurd h (by simp)
  · rintro ⟨h0, h1⟩
    have hb : ∀ a : Fin 2, 0 ≤ (rowScatter wf).start j idx a + ((rowScatter wf).window j a : Int) ∧
        (rowScatter wf).start j idx a + ((rowScatter wf).window j a : Int) < ((⟨2, ![N, C]⟩ : Shape).size a : Int) := by
      intro a
      match a with
      | ⟨0, _⟩ =>
        show 0 ≤ (rowScatter wf).start j idx 0 + ((rowScatter wf).window j 0 : Int) ∧
          (rowScatter wf).start j idx 0 + ((rowScatter wf).window j 0 : Int) < (N : Int)
        rw [s0, w0, h0]; omega
      | ⟨1, _⟩ =>
        show 0 ≤ (rowScatter wf).start j idx 1 + ((rowScatter wf).window j 1 : Int) ∧
          (rowScatter wf).start j idx 1 + ((rowScatter wf).window j 1 : Int) < (C : Int)
        rw [s1, w1]; omega
    rw [dif_pos hb]
    congr 1
    funext a
    refine Fin.ext ?_
    match a with
    | ⟨0, _⟩ =>
      show ((rowScatter wf).start j idx 0 + ((rowScatter wf).window j 0 : Int)).toNat = (i 0).val
      rw [s0, w0, h0]; omega
    | ⟨1, _⟩ =>
      show ((rowScatter wf).start j idx 1 + ((rowScatter wf).window j 1 : Int)).toNat = (i 1).val
      rw [s1, w1]; omega

/-- The accumulating row scatter at (r, c): the operand's entry plus the sum, over the edges whose scatter index is r,
    of the update entry in column c. -/
theorem rowScatterAdd_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (r : Fin N) (c : Fin C) :
    Host.scatterAdd (rowScatter wf) x idx upd (ix2 r c)
      = x (ix2 r c) + ∑ e : Fin E, if (idx (ix2 e (0 : Fin 1))).toInt = (r.val : Int) then upd (ix2 e c) else 0 := by
  show x (ix2 r c) + ∑ j ∈ Finset.univ.filter
      (fun j => (rowScatter wf).resultIdx? j idx = some (ix2 r c)), upd j = _
  congr 1
  rw [Finset.sum_filter, sum_idx2]
  refine Finset.sum_congr rfl fun e _ => ?_
  by_cases he : (idx (ix2 e (0 : Fin 1))).toInt = (r.val : Int)
  · rw [if_pos he]
    rw [Finset.sum_eq_single c]
    · rw [if_pos ((rowScatter_resultIdx_iff wf idx (ix2 e c) (ix2 r c)).mpr ⟨he, rfl⟩)]
    · intro b _ hbc
      rw [if_neg]
      intro h
      exact hbc (Fin.ext ((rowScatter_resultIdx_iff wf idx (ix2 e b) (ix2 r c)).mp h).2)
    · intro h; exact absurd (Finset.mem_univ c) h
  · rw [if_neg he]
    refine Finset.sum_eq_zero fun b _ => ?_
    rw [if_neg]
    intro h
    exact he ((rowScatter_resultIdx_iff wf idx (ix2 e b) (ix2 r c)).mp h).1

/-! ## The vector form -/

/-- The window of update e starts at the scatter index of edge e, read signed. -/
theorem vecScatter_start0 (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatter wf).start j idx 0 = (idx (ix2 (j 0) (0 : Fin 1))).toInt := by
  unfold ScatterDims.start
  rw [dif_pos (show (0 : Fin 1) ∈ (vecScatter wf).scatterDimsToOperandDims from List.mem_singleton.mpr rfl)]
  have hsi : (vecScatter wf).siIdx j ⟨List.idxOf (0 : Fin 1) (vecScatter wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The window coordinate on the one operand axis is 0: that axis is inserted. -/
theorem vecScatter_window0 (wf : ScatterDims.WF ⟨1, ![N]⟩ ⟨2, ![E, 1]⟩ ⟨1, ![E]⟩ [] [0] [0] 1)
    (j : (⟨1, ![E]⟩ : Shape).Idx) : (vecScatter wf).window j 0 = 0 := rfl

/-- Update e lands on operand position r exactly when the scatter index of edge e, read signed, is r. -/
theorem vecScatter_resultIdx_iff (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatter wf).resultIdx? j idx = some i ↔ (idx (ix2 (j 0) (0 : Fin 1))).toInt = ((i 0).val : Int) := by
  have s0 := vecScatter_start0 wf idx j
  have w0 := vecScatter_window0 wf j
  have hi0 : (i 0).val < N := (i 0).isLt
  unfold ScatterDims.resultIdx?
  constructor
  · intro h
    split at h
    · rename_i hb
      have e := Option.some.inj h
      have e0 : ((vecScatter wf).start j idx 0 + ((vecScatter wf).window j 0 : Int)).toNat = (i 0).val :=
        congrArg (fun f : (⟨1, ![N]⟩ : Shape).Idx => (f 0).val) e
      have hb0 := (hb 0).1
      rw [s0, w0] at e0 hb0
      omega
    · exact absurd h (by simp)
  · intro h0
    have hb : ∀ a : Fin 1, 0 ≤ (vecScatter wf).start j idx a + ((vecScatter wf).window j a : Int) ∧
        (vecScatter wf).start j idx a + ((vecScatter wf).window j a : Int) < ((⟨1, ![N]⟩ : Shape).size a : Int) := by
      intro a
      match a with
      | ⟨0, _⟩ =>
        show 0 ≤ (vecScatter wf).start j idx 0 + ((vecScatter wf).window j 0 : Int) ∧
          (vecScatter wf).start j idx 0 + ((vecScatter wf).window j 0 : Int) < (N : Int)
        rw [s0, w0, h0]; omega
    rw [dif_pos hb]
    congr 1
    funext a
    refine Fin.ext ?_
    match a with
    | ⟨0, _⟩ =>
      show ((vecScatter wf).start j idx 0 + ((vecScatter wf).window j 0 : Int)).toNat = (i 0).val
      rw [s0, w0, h0]; omega

/-- A sum over the indices of a length-n vector is the sum over its one coordinate. -/
theorem sum_idx1 {M : Type*} [AddCommMonoid M] {n : Nat} (f : (⟨1, ![n]⟩ : Shape).Idx → M) :
    ∑ i, f i = ∑ a : Fin n, f (ix1 a) := by
  let eqv : Fin n ≃ (⟨1, ![n]⟩ : Shape).Idx :=
    { toFun := fun a => ix1 a, invFun := fun i => i 0, left_inv := fun _ => rfl, right_inv := fun i => (eq_ix1 i).symm }
  exact (Equiv.sum_comp eqv f).symm

/-- The accumulating vector scatter at r: the operand's entry plus the sum of the updates whose scatter index is r. -/
theorem vecScatterAdd_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (r : Fin N) :
    Host.scatterAdd (vecScatter wf) x idx upd (ix1 r)
      = x (ix1 r) + ∑ e : Fin E, if (idx (ix2 e (0 : Fin 1))).toInt = (r.val : Int) then upd (ix1 e) else 0 := by
  show x (ix1 r) + ∑ j ∈ Finset.univ.filter
      (fun j => (vecScatter wf).resultIdx? j idx = some (ix1 r)), upd j = _
  congr 1
  rw [Finset.sum_filter, sum_idx1]
  refine Finset.sum_congr rfl fun e _ => ?_
  by_cases he : (idx (ix2 e (0 : Fin 1))).toInt = (r.val : Int)
  · rw [if_pos he, if_pos ((vecScatter_resultIdx_iff wf idx (ix1 e) (ix1 r)).mpr he)]
  · rw [if_neg he, if_neg fun h => he ((vecScatter_resultIdx_iff wf idx (ix1 e) (ix1 r)).mp h)]

end Cert.LibSegSum

end
-- ==== Proof.Route.lean ====
/-
  The integer routing of the mixture-of-experts layer, on 32-bit words.

  The 16384 (token, slot) entries carry an expert index each (the keys, all in [0, 8)). A stable sort by key gives the
  order; counts e is the number of entries with key e (a scatter-add of ones); segs e is the number of entries with a key
  below e (the exclusive prefix sums of the counts, via a sliding-window sum). For the entry at sorted position i with
  key e, pos i = i - segs e is its slot inside the block of expert e: non-negative and below counts e. Hence the row tile
  that contains row min(pos i, 4096) starts below min(counts e, 4097).
-/
import proofs.«167530_j18451179504175_2_alg».proof.KernelIdeal
import proofs.«167530_j18451179504175_2_alg».proof.Proof.Gen.KernelIdeal
import proofs.«167530_j18451179504175_2_alg».proof.Proof.LibSegments
import proofs.«167530_j18451179504175_2_alg».proof.Proof.LibRowIndex
import proofs.«167530_j18451179504175_2_alg».proof.Proof.LibSegSum
import Idealize.ShloMosaic.Lib.ValueIdx
import Idealize.ShloMosaic.Lib.Pipeline.Value
import Idealize.ShloMosaic.Lib.SortFacts

noncomputable section

open scoped BigOperators

namespace Cert.KernelIdeal.Route

open Idealize.ShloMosaic Idealize.ShloMosaic.ValueIdx
open Cert.KernelIdeal Cert.KernelIdeal.Facts₀

/-! ## The operations, composed -/

/-- The expert indices as one vector of 16384 entries. -/
def flat (a1 : IVec S8192x2 32) : IVec S16384 32 := shapeCast S16384 a1 shapeCasts_S8192x2_S16384

/-- The token of each entry: the row number, repeated for the two slots. -/
def tokflat : IVec S16384 32 :=
  shapeCast S16384 (broadcastInDim S8192x2 ![0] bcast_S8192_S8192x2_0 (iotaInDim S8192 32 0)) shapeCasts_S8192x2_S16384

/-- The stable sorting order of the entries by expert index. -/
def order (a1 : IVec S8192x2 32) : IVec S16384 32 :=
  (Host.sort2 S16384 0 comparator_i32_i32_d0 (flat a1) (iotaInDim S16384 32 0)).2

/-- Add n to the negative entries of v (the wrap-around of negative indices). -/
def wrapS16384 (v : IVec S16384 32) (n : BitVec 32) : IVec S16384 32 :=
  select (cmpi .slt v (broadcastInDim S16384 ![] bcast_S_S16384 (constantI S_ 32 0#32)))
    (addi v (broadcastInDim S16384 ![] bcast_S_S16384 (constantI S_ 32 n))) v

/-- A vector of indices as a one-column array. -/
def col (v : IVec S16384 32) : IVec S16384x1 32 := broadcastInDim S16384x1 ![0] bcast_S16384_S16384x1_0 v

/-- The token of the entry at each sorted position. -/
def stok (a1 : IVec S8192x2 32) : IVec S16384 32 :=
  Host.gather gather_S16384_S16384x1_S16384_n_0_n_n_0_1_1 tokflat (col (wrapS16384 (order a1) 16384#32))

/-- The expert index of the entry at each sorted position. -/
def seid (a1 : IVec S8192x2 32) : IVec S16384 32 :=
  Host.gather gather_S16384_S16384x1_S16384_n_0_n_n_0_1_1 (flat a1) (col (wrapS16384 (order a1) 16384#32))

/-- The expert indices with the negative ones raised to zero. -/
def clipped (a1 : IVec S8192x2 32) : IVec S16384 32 :=
  maxsi (broadcastInDim S16384 ![] bcast_S_S16384 (id (constantI S_ 32 0#32))) (flat a1)

/-- The number of entries of each expert. -/
def counts (a1 : IVec S8192x2 32) : IVec S8 32 :=
  Host.scatter scatter_S8_S16384x1_S16384_n_0_0_1 IntOp.addi (broadcastInDim S8 ![] bcast_S_S8 (constantI S_ 32 0#32))
    (col (wrapS16384 (clipped a1) 8#32)) (broadcastInDim S16384 ![] bcast_S_S16384 (constantI S_ 32 1#32))

/-- The inclusive prefix sums of the counts. -/
def cums (a1 : IVec S8192x2 32) : IVec S8 32 :=
  Host.reduceWindow IntOp.addi ![8] ![1] ![7] ![0] (counts a1)
    (broadcastInDim S_ ![] bcast_S_S_ (constantI S_ 32 0#32)) reduceWindows_S8_S8_w8s1p7_0 h_S_

/-- The exclusive prefix sums: where each expert's block of sorted positions starts. -/
def segs (a1 : IVec S8192x2 32) : IVec S8 32 :=
  concatenate S8 0 [⟨S1, broadcastInDim S1 ![] bcast_S_S1 (constantI S_ 32 0#32)⟩,
    ⟨S7, extractStridedSlice S7 ![0] (cums a1) slices_S8_S7_0⟩] concatenates_S1_S7_S8_d0

/-- The slot of each sorted position inside its expert's block. -/
def pos (a1 : IVec S8192x2 32) : IVec S16384 32 :=
  subi (iotaInDim S16384 32 0)
    (Host.gather gather_S8_S16384x1_S16384_n_0_n_n_0_1_1 (segs a1) (col (wrapS16384 (seid a1) 8#32)))

/-- Whether the slot is below the capacity 4096. -/
def valid (a1 : IVec S8192x2 32) : IVec S16384 1 :=
  cmpi .slt (pos a1) (broadcastInDim S16384 ![] bcast_S_S16384 (constantI S_ 32 4096#32))

/-- The slot, capped at 4096. -/
def posc (a1 : IVec S8192x2 32) : IVec S16384 32 :=
  minsi (pos a1) (broadcastInDim S16384 ![] bcast_S_S16384 (constantI S_ 32 4096#32))

/-- The counts, capped at 4097: the table of rows to compute per expert. -/
def table (a1 : IVec S8192x2 32) : IVec S8 32 :=
  minsi (counts a1) (broadcastInDim S8 ![] bcast_S_S8 (constantI S_ 32 4097#32))

/-! ## Words -/

/-- The 32-bit word of a number below 2³¹, read signed, is the number. -/
theorem toInt_ofNat_lt (n : ℕ) (h : n < 2 ^ 31) : (BitVec.ofNat 32 n).toInt = (n : ℤ) := by
  rw [BitVec.toInt_eq_toNat_cond, BitVec.toNat_ofNat]
  have h32 : n % 2 ^ 32 = n := Nat.mod_eq_of_lt (by omega)
  rw [h32, if_pos (by omega)]

/-- A word that is not negative is left alone by the wrap-around of negative indices. -/
theorem wrap_id (v n : BitVec 32) (h : 0 ≤ v.toInt) :
    Scalar.select (IntOp.cmpi .slt v 0#32) (IntOp.addi v n) v = v :=
  Cert.GcnIndex.wrap_of_lands v n v.toInt.toNat (Int.toNat_of_nonneg h).symm

/-- The signed maximum of zero and a word that is not negative is that word. -/
theorem maxsi_zero_of_nonneg (v : BitVec 32) (h : 0 ≤ v.toInt) : IntOp.maxsi 0#32 v = v := by
  have hs : v.slt 0#32 = false := by
    rw [BitVec.slt_eq_decide]
    simp only [BitVec.toInt_zero, decide_eq_false_iff_not, not_lt]
    exact h
  unfold IntOp.maxsi
  rw [hs]
  rfl

/-- The signed minimum, read signed, is the minimum of the readings. -/
theorem toInt_minsi (x y : BitVec 32) : (IntOp.minsi x y).toInt = min x.toInt y.toInt := by
  unfold IntOp.minsi
  simp only [BitVec.slt_eq_decide, decide_eq_true_eq]
  split <;> omega

/-- The difference of the words of b ≤ a, read signed, is a - b. -/
theorem toInt_subi_ofNat (a b : ℕ) (hba : b ≤ a) (ha : a < 2 ^ 31) :
    (IntOp.subi (BitVec.ofNat 32 a) (BitVec.ofNat 32 b)).toInt = (a : ℤ) - (b : ℤ) := by
  have e : IntOp.subi (BitVec.ofNat 32 a) (BitVec.ofNat 32 b) = BitVec.ofNat 32 (a - b) := by
    unfold IntOp.subi
    apply BitVec.eq_of_toNat_eq
    rw [BitVec.toNat_sub, BitVec.toNat_ofNat, BitVec.toNat_ofNat, BitVec.toNat_ofNat]
    omega
  rw [e, toInt_ofNat_lt _ (by omega)]
  omega

/-! ## Reads of the composed operations -/

theorem ofFin_eq_ix1 {n : ℕ} (k : Fin n) : Shape.Idx.ofFin k = ix1 k := by
  funext a
  match a with
  | ⟨0, _⟩ => rfl

theorem wrapS16384_apply (v : IVec S16384 32) (n : BitVec 32) (j : S16384.Idx) :
    wrapS16384 v n j = Scalar.select (IntOp.cmpi .slt (v j) 0#32) (IntOp.addi (v j) n) (v j) := rfl

theorem wrapS16384_id (v : IVec S16384 32) (n : BitVec 32) (j : S16384.Idx) (h : 0 ≤ (v j).toInt) :
    wrapS16384 v n j = v j := (wrapS16384_apply v n j).trans (wrap_id _ _ h)

theorem col_apply (v : IVec S16384 32) (i : Fin 16384) : col v (ix2 i (0 : Fin 1)) = v (ix1 i) := by
  show v _ = v _
  congr 1
  funext a
  match a with
  | ⟨0, _⟩ => rfl

/-- Reading a gather of vector entries at one-column indices, the clamped index known. -/
theorem gather_vec_apply {α : Type} {N E w : ℕ}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (i : Fin E) (m : Fin N)
    (hm : min (idx (ix2 i (0 : Fin 1))).toInt.toNat (N - 1) = m.val) :
    Host.gather (Cert.GcnIndex.vecGather wf) x idx (ix1 i) = x (ix1 m) := by
  show x _ = x _
  congr 1
  refine (eq_ix1 _).trans ?_
  congr 1
  exact Fin.ext ((Cert.GcnIndex.vecGather_row wf idx (ix1 i)).trans hm)

/-! ## The sort -/

/-- Entry k sorts strictly before entry k': its expert index is the smaller, read signed. -/
def before (a1 : IVec S8192x2 32) (k k' : Fin 16384) : Bool :=
  comparator_i32_i32_d0 (flat a1 (Shape.Idx.ofFin k), iotaInDim S16384 32 0 (Shape.Idx.ofFin k))
    (flat a1 (Shape.Idx.ofFin k'), iotaInDim S16384 32 0 (Shape.Idx.ofFin k')) == 1#1

/-- The entry that the stable sort puts at each sorted position. -/
def σ (a1 : IVec S8192x2 32) : Fin 16384 → Fin 16384 := sortedFrom (before a1)

theorem before_eq (a1 : IVec S8192x2 32) (k k' : Fin 16384) :
    before a1 k k' = (flat a1 (ix1 k)).slt (flat a1 (ix1 k')) := by
  show (BitVec.ofBool ((flat a1 (Shape.Idx.ofFin k)).slt (flat a1 (Shape.Idx.ofFin k'))) == 1#1) = _
  rw [ofFin_eq_ix1, ofFin_eq_ix1]
  cases (flat a1 (ix1 k)).slt (flat a1 (ix1 k')) <;> rfl

theorem σ_bijective (a1 : IVec S8192x2 32) : Function.Bijective (σ a1) :=
  ⟨sortedFrom_injective _, sortedFrom_surjective _⟩

/-- The expert indices read in sorted order never decrease. -/
theorem σ_mono (a1 : IVec S8192x2 32) (i j : Fin 16384) (hij : i < j) :
    (flat a1 (ix1 (σ a1 i))).toInt ≤ (flat a1 (ix1 (σ a1 j))).toInt := by
  have h := sortedFrom_noInversion (before a1) (before a1) ?_ (fun _ _ h => h) ?_ i j hij
  · rw [before_eq, BitVec.slt_eq_decide, decide_eq_false_iff_not, not_lt] at h
    exact h
  · intro a b hab
    rw [before_eq, BitVec.slt_eq_decide] at hab ⊢
    simp only [decide_eq_true_eq, decide_eq_false_iff_not, not_lt] at hab ⊢
    omega
  · intro a b c hab hbc
    rw [before_eq, BitVec.slt_eq_decide] at hab hbc ⊢
    simp only [decide_eq_false_iff_not, not_lt] at hab hbc ⊢
    omega

/-- In a vector, the entry at k along the one axis is the index k, whatever the index one starts from. -/
theorem along_mk0 {n : ℕ} (j : (⟨1, ![n]⟩ : Shape).Idx) (h : 0 < 1) (k : Fin n) :
    j.along (⟨0, h⟩ : Fin 1) k = Shape.Idx.ofFin k := Shape.Idx.along_rank1 j k

theorem iota_ofFin (t : Fin 16384) : iotaInDim S16384 32 0 (Shape.Idx.ofFin t) = BitVec.ofNat 32 t.val := rfl

/-- The order, as words: sorted position i holds the number of the entry put there. -/
theorem order_apply (a1 : IVec S8192x2 32) (i : Fin 16384) :
    order a1 (ix1 i) = BitVec.ofNat 32 (σ a1 i).val := by
  unfold σ
  have hb : (fun k k' : Fin 16384 =>
      comparator_i32_i32_d0
        (flat a1 ((ix1 i : S16384.Idx).along (0 : Fin 1) k), iotaInDim S16384 32 0 ((ix1 i : S16384.Idx).along (0 : Fin 1) k))
        (flat a1 ((ix1 i : S16384.Idx).along (0 : Fin 1) k'), iotaInDim S16384 32 0 ((ix1 i : S16384.Idx).along (0 : Fin 1) k'))
        == 1#1) = before a1 := by
    funext k k'
    rw [Shape.Idx.along_rank1, Shape.Idx.along_rank1]
    rfl
  have h1 : order a1 (ix1 i) = iotaInDim S16384 32 0 ((ix1 i : S16384.Idx).along (0 : Fin 1)
      (sortedFrom (fun k k' : Fin 16384 =>
        comparator_i32_i32_d0
          (flat a1 ((ix1 i : S16384.Idx).along (0 : Fin 1) k), iotaInDim S16384 32 0 ((ix1 i : S16384.Idx).along (0 : Fin 1) k))
          (flat a1 ((ix1 i : S16384.Idx).along (0 : Fin 1) k'), iotaInDim S16384 32 0 ((ix1 i : S16384.Idx).along (0 : Fin 1) k'))
          == 1#1) i)) := by
    unfold order Host.sort2
    rw [dif_pos (show 0 < S16384.rank by decide)]
    rfl
  rw [h1, hb]
  exact (congrArg (iotaInDim S16384 32 0)
    (Shape.Idx.along_rank1 (ix1 i : (⟨1, ![16384]⟩ : Shape).Idx) (sortedFrom (before a1) i))).trans
      (iota_ofFin (sortedFrom (before a1) i))

theorem order_toInt (a1 : IVec S8192x2 32) (i : Fin 16384) : (order a1 (ix1 i)).toInt = ((σ a1 i).val : ℤ) := by
  rw [order_apply]
  exact toInt_ofNat_lt _ (by have := (σ a1 i).isLt; omega)

/-- A gather at the (wrapped) order reads the operand at the entry put at that sorted position. -/
theorem sorted_gather {α : Type} (x : S16384.Idx → α) (a1 : IVec S8192x2 32) (i : Fin 16384) :
    Host.gather gather_S16384_S16384x1_S16384_n_0_n_n_0_1_1 x (col (wrapS16384 (order a1) 16384#32)) (ix1 i)
      = x (ix1 (σ a1 i)) := by
  have hd : gather_S16384_S16384x1_S16384_n_0_n_n_0_1_1
      = Cert.GcnIndex.vecGather gather_S16384_S16384x1_S16384_n_0_n_n_0_1_1_wf := rfl
  rw [hd]
  refine gather_vec_apply _ x _ i (σ a1 i) ?_
  have h0 : 0 ≤ (order a1 (ix1 i)).toInt := by rw [order_toInt]; omega
  rw [col_apply, wrapS16384_id _ _ _ h0, order_toInt]
  have := (σ a1 i).isLt
  omega

theorem seid_eq (a1 : IVec S8192x2 32) (i : Fin 16384) : seid a1 (ix1 i) = flat a1 (ix1 (σ a1 i)) :=
  sorted_gather (flat a1) a1 i

theorem stok_eq (a1 : IVec S8192x2 32) (i : Fin 16384) : stok a1 (ix1 i) = tokflat (ix1 (σ a1 i)) :=
  sorted_gather tokflat a1 i

/-- A scatter that adds words of natural numbers, read at a position r: the operand's word there plus the word of the sum
    of the updates that land on r. -/
theorem scatter_addi_apply {s si u : Shape} {w : ℕ} (d : ScatterDims s si u) (x : IVec s 32) (idx : IVec si w)
    (upd : IVec u 32) (dn : u.Idx → ℕ) (hupd : ∀ j, upd j = BitVec.ofNat 32 (dn j)) (r : s.Idx) (a : ℕ)
    (hx : x r = BitVec.ofNat 32 a) :
    Host.scatter d IntOp.addi x idx upd r
      = BitVec.ofNat 32 (a + ((List.finRange u.numel).map fun m =>
          if d.resultIdx? (u.rowMajor.symm m) idx = some r then dn (u.rowMajor.symm m) else 0).sum) := by
  unfold Host.scatter
  generalize List.finRange u.numel = L
  induction L generalizing x a with
  | nil => simpa using hx
  | cons b L ih =>
    rw [List.foldl_cons, List.map_cons, List.sum_cons, ← Nat.add_assoc]
    refine ih _ _ ?_
    cases hb : d.resultIdx? (u.rowMajor.symm b) idx with
    | none => simpa using hx
    | some i =>
      by_cases hri : r = i
      · subst hri
        simp only [if_true]
        rw [hx, hupd]
        exact (BitVec.ofNat_add _ _).symm
      · have hne : ¬ (some i = some r) := fun h => hri (Option.some.inj h).symm
        simp only [if_neg hri, if_neg hne, Nat.add_zero]
        exact hx

/-! ## Counts and their prefix sums -/

/-- The key of entry j: its expert index as a natural number. -/
def key (a1 : IVec S8192x2 32) (j : Fin 16384) : ℕ := (flat a1 (ix1 j)).toInt.toNat

theorem flat_range (a1 : IVec S8192x2 32) (hr : ∀ j, 0 ≤ (a1 j).toInt ∧ (a1 j).toInt < 8) (j : S16384.Idx) :
    0 ≤ (flat a1 j).toInt ∧ (flat a1 j).toInt < 8 := hr _

/-- The scatter index of entry a is its expert index: neither the clip nor the wrap changes it. -/
theorem scatIdx_apply (a1 : IVec S8192x2 32) (hr : ∀ j, 0 ≤ (a1 j).toInt ∧ (a1 j).toInt < 8) (a : Fin 16384) :
    col (wrapS16384 (clipped a1) 8#32) (ix2 a (0 : Fin 1)) = flat a1 (ix1 a) := by
  have hc : clipped a1 (ix1 a) = flat a1 (ix1 a) :=
    maxsi_zero_of_nonneg _ (flat_range a1 hr _).1
  rw [col_apply, wrapS16384_id _ _ _ (by rw [hc]; exact (flat_range a1 hr _).1), hc]

/-- The count of expert e is the word of the number of entries with key e. -/
theorem counts_apply (a1 : IVec S8192x2 32) (hr : ∀ j, 0 ≤ (a1 j).toInt ∧ (a1 j).toInt < 8) (e : Fin 8) :
    counts a1 (ix1 e) = BitVec.ofNat 32 (Finset.univ.filter fun j => key a1 j = e.val).card := by
  have hd : scatter_S8_S16384x1_S16384_n_0_0_1
      = Cert.LibSegSum.vecScatter scatter_S8_S16384x1_S16384_n_0_0_1_wf := rfl
  have hiff := fun a : Fin 16384 => Cert.LibSegSum.vecScatter_resultIdx_iff scatter_S8_S16384x1_S16384_n_0_0_1_wf
    (col (wrapS16384 (clipped a1) 8#32)) (ix1 a) (ix1 e)
  have hsum : ((List.finRange S16384.numel).map fun m =>
        if scatter_S8_S16384x1_S16384_n_0_0_1.resultIdx? (S16384.rowMajor.symm m) (col (wrapS16384 (clipped a1) 8#32))
            = some (ix1 e) then 1 else 0).sum
      = (Finset.univ.filter fun j => key a1 j = e.val).card := by
    rw [Cert.LibSegments.sum_map_finRange, Finset.card_filter]
    refine ((Equiv.sum_comp S16384.rowMajor.symm (fun j =>
      if scatter_S8_S16384x1_S16384_n_0_0_1.resultIdx? j (col (wrapS16384 (clipped a1) 8#32)) = some (ix1 e)
        then 1 else 0)).trans (Cert.LibSegSum.sum_idx1 _)).trans ?_
    refine Finset.sum_congr rfl fun a _ => ?_
    have hk : key a1 a = e.val ↔ (flat a1 (ix1 a)).toInt = (e.val : ℤ) := by
      have := flat_range a1 hr (ix1 a)
      unfold key
      omega
    have hi := hiff a
    rw [← hd] at hi
    have hs : (col (wrapS16384 (clipped a1) 8#32) (ix2 ((ix1 a : S16384.Idx) 0) (0 : Fin 1))).toInt
        = (flat a1 (ix1 a)).toInt := congrArg BitVec.toInt (scatIdx_apply a1 hr a)
    by_cases h : key a1 a = e.val
    · rw [if_pos h, if_pos (hi.mpr (hs.trans (hk.mp h)))]
    · rw [if_neg h, if_neg fun h' => h (hk.mpr (hs.symm.trans (hi.mp h')))]
  unfold counts
  refine (scatter_addi_apply scatter_S8_S16384x1_S16384_n_0_0_1 _ _ _ (fun _ => 1) (fun _ => rfl) (ix1 e) 0 rfl).trans ?_
  rw [Nat.zero_add, hsum]

theorem card_key_lt (a1 : IVec S8192x2 32) (p : Fin 16384 → Prop) [DecidablePred p] :
    (Finset.univ.filter p).card < 2 ^ 31 := by
  have h := Finset.card_le_univ (Finset.univ.filter p)
  rw [Fintype.card_fin] at h
  omega

/-- A sliding-window sum of width 8 with 7 padding positions in front, over 8 words of numbers: position k holds the
    word of the sum of the first k + 1 numbers. -/
theorem cumsum8_apply (x : IVec S8 32) (v : IVec S_ 32) (c : ℕ → ℕ)
    (hx : ∀ m : Fin 8, x (ix1 m) = BitVec.ofNat 32 (c m.val)) (hv : v (Shape.Idx.first h_S_) = BitVec.ofNat 32 0)
    (k : Fin 8) :
    Host.reduceWindow IntOp.addi ![8] ![1] ![7] ![0] x v reduceWindows_S8_S8_w8s1p7_0 h_S_ (ix1 k)
      = BitVec.ofNat 32 (∑ m ∈ Finset.range (k.val + 1), c m) := by
  unfold Host.reduceWindow
  rw [hv]
  refine (Cert.LibSegments.foldl_addi_ofNat _ _
    (fun n : Fin (⟨1, ![8]⟩ : Shape).numel =>
      if 7 ≤ k.val + ((⟨1, ![8]⟩ : Shape).rowMajor.symm n 0).val
        then c (k.val + ((⟨1, ![8]⟩ : Shape).rowMajor.symm n 0).val - 7) else 0) ?_ 0).trans ?_
  · intro n
    have hn : ((⟨1, ![8]⟩ : Shape).rowMajor.symm n 0).val < 8 := ((⟨1, ![8]⟩ : Shape).rowMajor.symm n 0).isLt
    have hk : k.val < 8 := k.isLt
    by_cases h7 : 7 ≤ k.val + ((⟨1, ![8]⟩ : Shape).rowMajor.symm n 0).val
    · simp only [if_pos h7]
      split
      · rw [← hx ⟨k.val + ((⟨1, ![8]⟩ : Shape).rowMajor.symm n 0).val - 7, by omega⟩]
        congr 1
        funext a
        match a with
        | ⟨0, _⟩ =>
          refine Fin.ext ?_
          show k.val * 1 + ((⟨1, ![8]⟩ : Shape).rowMajor.symm n 0).val - 7 = _
          show _ = k.val + ((⟨1, ![8]⟩ : Shape).rowMajor.symm n 0).val - 7
          omega
      · rename_i hnin
        refine absurd (fun a => ?_) hnin
        match a with
        | ⟨0, _⟩ =>
          exact ⟨(by omega : 7 ≤ k.val * 1 + ((⟨1, ![8]⟩ : Shape).rowMajor.symm n 0).val),
            (by omega : k.val * 1 + ((⟨1, ![8]⟩ : Shape).rowMajor.symm n 0).val - 7 < 8)⟩
    · simp only [if_neg h7]
      split
      · rename_i hin
        have h0 : 7 ≤ k.val * 1 + ((⟨1, ![8]⟩ : Shape).rowMajor.symm n 0).val := (hin 0).1
        omega
      · rfl
  · congr 1
    rw [Nat.zero_add, Cert.LibSegments.sum_map_finRange]
    refine ((Equiv.sum_comp (⟨1, ![8]⟩ : Shape).rowMajor.symm (fun i : (⟨1, ![8]⟩ : Shape).Idx =>
      if 7 ≤ k.val + (i 0).val then c (k.val + (i 0).val - 7) else 0)).trans (Cert.LibSegSum.sum_idx1 _)).trans ?_
    refine (Fin.sum_univ_eq_sum_range (fun t => if 7 ≤ k.val + t then c (k.val + t - 7) else 0) 8).trans ?_
    obtain ⟨kv, hkv⟩ := k
    interval_cases kv <;> simp [Finset.sum_range_succ]

/-- The inclusive prefix sum at e is the word of the number of entries with key at most e. -/
theorem cums_apply (a1 : IVec S8192x2 32) (hr : ∀ j, 0 ≤ (a1 j).toInt ∧ (a1 j).toInt < 8) (k : Fin 8) :
    cums a1 (ix1 k) = BitVec.ofNat 32 (Finset.univ.filter fun j => key a1 j < k.val + 1).card := by
  rw [Cert.LibSegments.card_lt_eq_sum]
  exact cumsum8_apply (counts a1) _ (fun m => (Finset.univ.filter fun j => key a1 j = m).card)
    (fun m => counts_apply a1 hr m) rfl k

theorem segs_zero (a1 : IVec S8192x2 32) : segs a1 (ix1 (0 : Fin 8)) = 0#32 := by
  unfold segs
  exact concatenate_pair_apply_left (0 : Fin S8.rank) _ _ concatenates_S1_S7_S8_d0 (ix1 (0 : Fin 8)) rfl
    (ix1 (0 : Fin 1)) (fun b => by match b with | ⟨0, _⟩ => rfl)

theorem segs_succ (a1 : IVec S8192x2 32) (m : Fin 7) :
    segs a1 (ix1 (⟨m.val + 1, by omega⟩ : Fin 8)) = cums a1 (ix1 (⟨m.val, by omega⟩ : Fin 8)) := by
  unfold segs
  refine (concatenate_pair_apply_right (0 : Fin S8.rank) _ _ concatenates_S1_S7_S8_d0
    (ix1 (⟨m.val + 1, by omega⟩ : Fin 8)) rfl rfl (ix1 m)
    (fun b hb => absurd (Subsingleton.elim _ _) hb) rfl).trans ?_
  show cums a1 _ = cums a1 _
  congr 1
  funext a
  match a with
  | ⟨0, _⟩ => exact Fin.ext (Nat.zero_add _)

/-- The block of expert e starts at the number of entries with a smaller key. -/
theorem segs_apply (a1 : IVec S8192x2 32) (hr : ∀ j, 0 ≤ (a1 j).toInt ∧ (a1 j).toInt < 8) (e : Fin 8) :
    segs a1 (ix1 e) = BitVec.ofNat 32 (Finset.univ.filter fun j => key a1 j < e.val).card := by
  obtain ⟨ev, hev⟩ := e
  cases ev with
  | zero =>
    refine (segs_zero a1).trans ?_
    simp
  | succ m =>
    exact (segs_succ a1 ⟨m, by omega⟩).trans (cums_apply a1 hr ⟨m, by omega⟩)

/-! ## The slot inside the block -/

theorem key_σ (a1 : IVec S8192x2 32) (hr : ∀ j, 0 ≤ (a1 j).toInt ∧ (a1 j).toInt < 8) (i : Fin 16384) (e : Fin 8)
    (he : (seid a1 (ix1 i)).toInt = (e.val : ℤ)) : key a1 (σ a1 i) = e.val := by
  unfold key
  rw [← seid_eq, he]
  rfl

theorem key_mono (a1 : IVec S8192x2 32) (hr : ∀ j, 0 ≤ (a1 j).toInt ∧ (a1 j).toInt < 8) (i j : Fin 16384) (hij : i < j) :
    key a1 (σ a1 i) ≤ key a1 (σ a1 j) := by
  have := σ_mono a1 i j hij
  unfold key
  omega

/-- The slot, as a word: the sorted position less the start of the block of its expert. -/
theorem pos_apply (a1 : IVec S8192x2 32) (hr : ∀ j, 0 ≤ (a1 j).toInt ∧ (a1 j).toInt < 8) (i : Fin 16384) (e : Fin 8)
    (he : (seid a1 (ix1 i)).toInt = (e.val : ℤ)) :
    pos a1 (ix1 i) = IntOp.subi (BitVec.ofNat 32 i.val)
      (BitVec.ofNat 32 (Finset.univ.filter fun j => key a1 j < e.val).card) := by
  have hd : gather_S8_S16384x1_S16384_n_0_n_n_0_1_1
      = Cert.GcnIndex.vecGather gather_S8_S16384x1_S16384_n_0_n_n_0_1_1_wf := rfl
  have hg : Host.gather gather_S8_S16384x1_S16384_n_0_n_n_0_1_1 (segs a1) (col (wrapS16384 (seid a1) 8#32)) (ix1 i)
      = segs a1 (ix1 e) := by
    rw [hd]
    refine gather_vec_apply _ (segs a1) _ i e ?_
    rw [col_apply, wrapS16384_id _ _ _ (by rw [he]; omega), he]
    have := e.isLt
    omega
  show IntOp.subi (BitVec.ofNat 32 i.val) (Host.gather gather_S8_S16384x1_S16384_n_0_n_n_0_1_1 (segs a1)
    (col (wrapS16384 (seid a1) 8#32)) (ix1 i)) = _
  rw [hg, segs_apply a1 hr e]

theorem seid_range (a1 : IVec S8192x2 32) (hr : ∀ j, 0 ≤ (a1 j).toInt ∧ (a1 j).toInt < 8) (i : Fin 16384) :
    0 ≤ (seid a1 (ix1 i)).toInt ∧ (seid a1 (ix1 i)).toInt < 8 := by
  rw [seid_eq]
  exact flat_range a1 hr _

theorem seid_fin (a1 : IVec S8192x2 32) (hr : ∀ j, 0 ≤ (a1 j).toInt ∧ (a1 j).toInt < 8) (i : Fin 16384) :
    ∃ e : Fin 8, (seid a1 (ix1 i)).toInt = (e.val : ℤ) := by
  have h := seid_range a1 hr i
  exact ⟨⟨(seid a1 (ix1 i)).toInt.toNat, by omega⟩, by simp only; omega⟩

theorem stok_range (a1 : IVec S8192x2 32) (i : Fin 16384) :
    0 ≤ (stok a1 (ix1 i)).toInt ∧ (stok a1 (ix1 i)).toInt < 8192 := by
  obtain ⟨t, ht⟩ : ∃ t : Fin 8192, stok a1 (ix1 i) = BitVec.ofNat 32 t.val := ⟨_, rfl⟩
  rw [ht, toInt_ofNat_lt _ (by have := t.isLt; omega)]
  have := t.isLt
  omega

/-- The slot of sorted position i, read signed, is i less the number of entries with a smaller key; it is not
    negative and below the count of its expert. -/
theorem pos_toInt (a1 : IVec S8192x2 32) (hr : ∀ j, 0 ≤ (a1 j).toInt ∧ (a1 j).toInt < 8) (i : Fin 16384) (e : Fin 8)
    (he : (seid a1 (ix1 i)).toInt = (e.val : ℤ)) :
    (pos a1 (ix1 i)).toInt = (i.val : ℤ) - ((Finset.univ.filter fun j => key a1 j < e.val).card : ℤ)
      ∧ (Finset.univ.filter fun j => key a1 j < e.val).card ≤ i.val
      ∧ i.val < (Finset.univ.filter fun j => key a1 j < e.val).card
          + (Finset.univ.filter fun j => key a1 j = e.val).card := by
  have hb := Cert.LibSegments.offset_in_block (key a1) (σ a1) (σ_bijective a1) (key_mono a1 hr) i
  rw [key_σ a1 hr i e he] at hb
  refine ⟨?_, hb.1, hb.2⟩
  rw [pos_apply a1 hr i e he]
  exact toInt_subi_ofNat _ _ hb.1 (by have := i.isLt; omega)

theorem counts_toInt (a1 : IVec S8192x2 32) (hr : ∀ j, 0 ≤ (a1 j).toInt ∧ (a1 j).toInt < 8) (e : Fin 8) :
    (counts a1 (ix1 e)).toInt = ((Finset.univ.filter fun j => key a1 j = e.val).card : ℤ) := by
  rw [counts_apply a1 hr e]
  exact toInt_ofNat_lt _ (card_key_lt a1 _)

theorem pos_range (a1 : IVec S8192x2 32) (hr : ∀ j, 0 ≤ (a1 j).toInt ∧ (a1 j).toInt < 8) (i : Fin 16384) (e : Fin 8)
    (he : (seid a1 (ix1 i)).toInt = (e.val : ℤ)) :
    0 ≤ (pos a1 (ix1 i)).toInt ∧ (pos a1 (ix1 i)).toInt < (counts a1 (ix1 e)).toInt := by
  obtain ⟨h1, h2, h3⟩ := pos_toInt a1 hr i e he
  rw [h1, counts_toInt a1 hr e]
  omega

theorem posc_toInt (a1 : IVec S8192x2 32) (j : S16384.Idx) : (posc a1 j).toInt = min (pos a1 j).toInt 4096 :=
  toInt_minsi _ _

theorem posc_range (a1 : IVec S8192x2 32) (hr : ∀ j, 0 ≤ (a1 j).toInt ∧ (a1 j).toInt < 8) (i : Fin 16384) :
    0 ≤ (posc a1 (ix1 i)).toInt ∧ (posc a1 (ix1 i)).toInt ≤ 4096 := by
  obtain ⟨e, he⟩ := seid_fin a1 hr i
  have := (pos_range a1 hr i e he).1
  rw [posc_toInt]
  omega

theorem table_apply (a1 : IVec S8192x2 32) (j : S8.Idx) : table a1 j = IntOp.minsi (counts a1 j) 4097#32 := rfl

theorem table_toInt (a1 : IVec S8192x2 32) (j : S8.Idx) : (table a1 j).toInt = min (counts a1 j).toInt 4097 := by
  rw [table_apply, toInt_minsi]
  rfl

/-- The row tile that holds the (capped) slot of a sorted position is one whose first row is below the capped count of
    its expert. -/
theorem tile_active (a1 : IVec S8192x2 32) (hr : ∀ j, 0 ≤ (a1 j).toInt ∧ (a1 j).toInt < 8) (i : Fin 16384) (e : Fin 8)
    (r : Fin 17) (he : (seid a1 (ix1 i)).toInt = (e.val : ℤ))
    (hrow : ((r.val * 256 : ℕ) : ℤ) ≤ (posc a1 (ix1 i)).toInt) :
    (BitVec.ofNat 32 (r.val * 256)).toInt < (table a1 (ix1 e)).toInt := by
  have hp := pos_range a1 hr i e he
  have hr17 := r.isLt
  rw [posc_toInt] at hrow
  rw [table_toInt, toInt_ofNat_lt _ (by omega)]
  omega

/-! ## The wrap-around of negative indices changes none of the index vectors -/

theorem wrap_seid (a1 : IVec S8192x2 32) (hr : ∀ j, 0 ≤ (a1 j).toInt ∧ (a1 j).toInt < 8) (n : BitVec 32) :
    wrapS16384 (seid a1) n = seid a1 := by
  funext j
  obtain ⟨i, rfl⟩ : ∃ i : Fin 16384, j = ix1 i := ⟨j 0, eq_ix1 j⟩
  exact wrapS16384_id _ _ _ (seid_range a1 hr _).1

theorem wrap_posc (a1 : IVec S8192x2 32) (hr : ∀ j, 0 ≤ (a1 j).toInt ∧ (a1 j).toInt < 8) (n : BitVec 32) :
    wrapS16384 (posc a1) n = posc a1 := by
  funext j
  obtain ⟨i, rfl⟩ : ∃ i : Fin 16384, j = ix1 i := ⟨j 0, eq_ix1 j⟩
  exact wrapS16384_id _ _ _ (posc_range a1 hr _).1

theorem wrap_stok (a1 : IVec S8192x2 32) (n : BitVec 32) : wrapS16384 (stok a1) n = stok a1 := by
  funext j
  obtain ⟨i, rfl⟩ : ∃ i : Fin 16384, j = ix1 i := ⟨j 0, eq_ix1 j⟩
  exact wrapS16384_id _ _ _ (stok_range a1 _).1

theorem wrap_order (a1 : IVec S8192x2 32) (n : BitVec 32) : wrapS16384 (order a1) n = order a1 := by
  funext j
  obtain ⟨i, rfl⟩ : ∃ i : Fin 16384, j = ix1 i := ⟨j 0, eq_ix1 j⟩
  exact wrapS16384_id _ _ _ (by rw [order_toInt]; omega)

/-- Two sorted positions of one expert with one slot are one position. -/
theorem pos_injective (a1 : IVec S8192x2 32) (hr : ∀ j, 0 ≤ (a1 j).toInt ∧ (a1 j).toInt < 8) (i i' : Fin 16384)
    (hs : seid a1 (ix1 i) = seid a1 (ix1 i')) (hp : pos a1 (ix1 i) = pos a1 (ix1 i')) : i = i' := by
  obtain ⟨e, he⟩ := seid_fin a1 hr i
  have he' : (seid a1 (ix1 i')).toInt = (e.val : ℤ) := by rw [← hs]; exact he
  have h1 := (pos_toInt a1 hr i e he).1
  have h2 := (pos_toInt a1 hr i' e he').1
  rw [hp] at h1
  exact Fin.ext (by omega)

/-! ## Validity, the capped slot by cases, and distinct targets -/

theorem valid_apply (a1 : IVec S8192x2 32) (j : S16384.Idx) : valid a1 j = IntOp.cmpi .slt (pos a1 j) 4096#32 := rfl

theorem posc_apply (a1 : IVec S8192x2 32) (j : S16384.Idx) : posc a1 j = IntOp.minsi (pos a1 j) 4096#32 := rfl

theorem toInt_4096 : (4096#32 : BitVec 32).toInt = 4096 := by decide

/-- The slot is marked valid exactly when it is below the capacity. -/
theorem valid_eq_one_iff (a1 : IVec S8192x2 32) (j : S16384.Idx) :
    valid a1 j = 1#1 ↔ (pos a1 j).toInt < 4096 := by
  rw [valid_apply]
  show BitVec.ofBool ((pos a1 j).slt 4096#32) = 1#1 ↔ _
  rw [BitVec.slt_eq_decide, toInt_4096]
  constructor
  · intro hv
    by_contra hn
    rw [decide_eq_false hn] at hv
    exact absurd hv (by decide)
  · intro hp
    rw [decide_eq_true hp]
    rfl

/-- Below the capacity the capped slot is the slot. -/
theorem posc_of_lt (a1 : IVec S8192x2 32) (j : S16384.Idx) (h : (pos a1 j).toInt < 4096) : posc a1 j = pos a1 j := by
  rw [posc_apply]
  unfold IntOp.minsi
  rw [BitVec.slt_eq_decide, toInt_4096, decide_eq_true h]
  rfl

/-- At or above the capacity the capped slot is the capacity. -/
theorem posc_of_ge (a1 : IVec S8192x2 32) (j : S16384.Idx) (h : ¬ (pos a1 j).toInt < 4096) : posc a1 j = 4096#32 := by
  rw [posc_apply]
  unfold IntOp.minsi
  rw [BitVec.slt_eq_decide, toInt_4096, decide_eq_false h]
  rfl

/-- Two valid sorted positions with the same expert and the same capped slot are one position: the rows written for
    valid entries are pairwise distinct. -/
theorem target_injective (a1 : IVec S8192x2 32) (hr : ∀ j, 0 ≤ (a1 j).toInt ∧ (a1 j).toInt < 8) (i i' : Fin 16384)
    (hv : (pos a1 (ix1 i)).toInt < 4096) (hv' : (pos a1 (ix1 i')).toInt < 4096)
    (hs : seid a1 (ix1 i) = seid a1 (ix1 i')) (hp : posc a1 (ix1 i) = posc a1 (ix1 i')) : i = i' :=
  pos_injective a1 hr i i' hs (by rw [← posc_of_lt a1 _ hv, ← posc_of_lt a1 _ hv', hp])

/-- The table entry of each expert lies between 0 and 4097. -/
theorem table_range (a1 : IVec S8192x2 32) (hr : ∀ j, 0 ≤ (a1 j).toInt ∧ (a1 j).toInt < 8) (e : Fin 8) :
    0 ≤ (table a1 (ix1 e)).toInt ∧ (table a1 (ix1 e)).toInt ≤ 4097 := by
  rw [table_toInt, counts_toInt a1 hr e]
  omega

/-- The token of entry j is the row j / 2 of the 8192 × 2 array of entries. -/
theorem tokflat_toInt (j : Fin 16384) : (tokflat (ix1 j)).toInt = ((j.val / 2 : ℕ) : ℤ) := by
  obtain ⟨t, ht, hj⟩ : ∃ t : S8192x2.Idx, tokflat (ix1 j) = BitVec.ofNat 32 (t 0).val
      ∧ (S8192x2.rowMajor t).val = (S16384.rowMajor (ix1 j : S16384.Idx)).val :=
    ⟨Shape.reshapeEquiv shapeCasts_S8192x2_S16384 (ix1 j), rfl,
      Shape.rowMajor_reshapeEquiv shapeCasts_S8192x2_S16384 (ix1 j)⟩
  rw [Shape.rowMajor_val_two, Shape.rowMajor_val_one] at hj
  have h0 : (t 0).val < 8192 := (t 0).isLt
  have h1 : (t 1).val < 2 := (t 1).isLt
  have hj' : (t 0).val * 2 + (t 1).val = j.val := hj
  rw [ht, toInt_ofNat_lt _ (by omega)]
  congr 1
  omega

/-! ## The row tile of an entry -/

/-- A word that is not negative read signed: its unsigned reading is the same number. -/
theorem toNat_of_toInt_nonneg (v : BitVec 32) (h : 0 ≤ v.toInt) : (v.toNat : ℤ) = v.toInt := by
  have hlt := v.isLt
  rw [BitVec.toInt_eq_toNat_cond] at h ⊢
  split at h <;> split <;> omega

/-- Every sorted position has an expert e and a capped slot p ≤ 4096, and the row tile of 256 rows that holds row p
    starts below the capped count of e. -/
theorem tile_of_entry (a1 : IVec S8192x2 32) (hr : ∀ j, 0 ≤ (a1 j).toInt ∧ (a1 j).toInt < 8) (i : Fin 16384) :
    ∃ (e : Fin 8) (p : Fin 4097), (seid a1 (ix1 i)).toInt = (e.val : ℤ) ∧ (posc a1 (ix1 i)).toInt = (p.val : ℤ)
      ∧ (BitVec.ofNat 32 (p.val / 256 * 256)).toInt < (table a1 (ix1 e)).toInt
      ∧ (seid a1 (ix1 i)).toNat = e.val ∧ (posc a1 (ix1 i)).toNat = p.val := by
  obtain ⟨e, he⟩ := seid_fin a1 hr i
  have hp := posc_range a1 hr i
  have hpe : (posc a1 (ix1 i)).toInt = (((posc a1 (ix1 i)).toInt.toNat : ℕ) : ℤ) := (Int.toNat_of_nonneg hp.1).symm
  refine ⟨e, ⟨(posc a1 (ix1 i)).toInt.toNat, by omega⟩, he, hpe, ?_, ?_, ?_⟩
  · have hr17 : (posc a1 (ix1 i)).toInt.toNat / 256 < 17 := by omega
    refine tile_active a1 hr i e ⟨(posc a1 (ix1 i)).toInt.toNat / 256, hr17⟩ he ?_
    show (((posc a1 (ix1 i)).toInt.toNat / 256 * 256 : ℕ) : ℤ) ≤ _
    omega
  · have := toNat_of_toInt_nonneg _ (seid_range a1 hr i).1
    omega
  · have := toNat_of_toInt_nonneg _ hp.1
    show _ = (posc a1 (ix1 i)).toInt.toNat
    omega

end Cert.KernelIdeal.Route

end
-- ==== Proof.KWindows.lean ====
/- The kernel program's buffer contents after the first k windows of KOps, read at each buffer still needed later: a
   routing stage's buffer holds the Route definition of that stage at the expert indices' contents, another buffer the
   composed term of the operations that compute it, and a buffer the window does not write keeps what it held. -/
import proofs.«167530_j18451179504175_2_alg».proof.Proof.KOps
import proofs.«167530_j18451179504175_2_alg».proof.Proof.Route

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

/-- The contents after two lines run one after the other are the second's after the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The device's buffer contents before the first window. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl
theorem val0_main_arg1 (V0 : Valuation τ sig (Elt F)) : val0 V0 (no_index (Proc.devRef .tc main_arg1)) = (V0 (Proc.devRef .tc main_arg1)) := rfl
theorem val0_main_arg2 (V0 : Valuation τ sig (Elt F)) : val0 V0 (no_index (Proc.devRef .tc main_arg2)) = (V0 (Proc.devRef .tc main_arg2)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl

/-- The device's buffer contents after windows k1 … k1. -/
def val1 (V0 : Valuation τ sig (Elt F)) : Valuation τ sig (Elt F) := after k1 (val0 V0)
/-- The buffers that window k1 writes. -/
abbrev k1_W : List (Ref sig .tc) := [main_v0, main_v1, main_v2, main_v3, main_v4]
theorem k1_writes : (k1 : List (HloOp τ sig (Elt F))).Forall fun op => op.writes ⊆ (k1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k1 does not write keeps its contents through it. -/
theorem val1_keep (V0 : Valuation τ sig (Elt F)) (r : Ref sig .tc) (h : r ∉ k1_W) :
    val1 V0 (Proc.devRef .tc r) = val0 V0 (Proc.devRef .tc r) :=
  after_of_writes_sub k1 _ k1_writes h
theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
theorem val1_main_arg1 (V0 : Valuation τ sig (Elt F)) : val1 V0 (no_index (Proc.devRef .tc main_arg1)) = (V0 (Proc.devRef .tc main_arg1)) :=
  (val1_keep V0 main_arg1 (by decide)).trans (val0_main_arg1 V0)
theorem val1_main_arg2 (V0 : Valuation τ sig (Elt F)) : val1 V0 (no_index (Proc.devRef .tc main_arg2)) = (V0 (Proc.devRef .tc main_arg2)) :=
  (val1_keep V0 main_arg2 (by decide)).trans (val0_main_arg2 V0)
theorem val1_main_arg3 (V0 : Valuation τ sig (Elt F)) : val1 V0 (no_index (Proc.devRef .tc main_arg3)) = (V0 (Proc.devRef .tc main_arg3)) :=
  (val1_keep V0 main_arg3 (by decide)).trans (val0_main_arg3 V0)
theorem val1_main_arg4 (V0 : Valuation τ sig (Elt F)) : val1 V0 (no_index (Proc.devRef .tc main_arg4)) = (V0 (Proc.devRef .tc main_arg4)) :=
  (val1_keep V0 main_arg4 (by decide)).trans (val0_main_arg4 V0)
theorem val1_main_arg5 (V0 : Valuation τ sig (Elt F)) : val1 V0 (no_index (Proc.devRef .tc main_arg5)) = (V0 (Proc.devRef .tc main_arg5)) :=
  (val1_keep V0 main_arg5 (by decide)).trans (val0_main_arg5 V0)
set_option maxRecDepth 8192 in
theorem val1_main_v0 (V0 : Valuation τ sig (Elt F)) : val1 V0 (no_index (Proc.devRef .tc main_v0)) = Route.flat (V0 (Proc.devRef .tc main_arg1)) := by
  unfold val1
  simp only [k1]
  after_results_simp
  simp only [val0_main_arg1] <;> rfl
set_option maxRecDepth 8192 in
theorem val1_main_v1 (V0 : Valuation τ sig (Elt F)) : val1 V0 (no_index (Proc.devRef .tc main_v1)) = shapeCast S16384 ((V0 (Proc.devRef .tc main_arg2))) shapeCasts_S8192x2_S16384 := by
  unfold val1
  simp only [k1]
  after_results_simp
  simp only [val0_main_arg2] <;> rfl
set_option maxRecDepth 8192 in
theorem val1_main_v4 (V0 : Valuation τ sig (Elt F)) : val1 V0 (no_index (Proc.devRef .tc main_v4)) = Route.tokflat := by
  unfold val1
  simp only [k1]
  after_results_simp
  all_goals rfl

/-- The device's buffer contents after windows k1 … k2. -/
def val2 (V0 : Valuation τ sig (Elt F)) : Valuation τ sig (Elt F) := after k2 (val1 V0)
/-- The buffers that window k2 writes. -/
abbrev k2_W : List (Ref sig .tc) := [main_call0_v0, main_call0_v1_0, main_v5]
theorem k2_writes : (k2 : List (HloOp τ sig (Elt F))).Forall fun op => op.writes ⊆ (k2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k2 does not write keeps its contents through it. -/
theorem val2_keep (V0 : Valuation τ sig (Elt F)) (r : Ref sig .tc) (h : r ∉ k2_W) :
    val2 V0 (Proc.devRef .tc r) = val1 V0 (Proc.devRef .tc r) :=
  after_of_writes_sub k2 _ k2_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_arg1 (V0 : Valuation τ sig (Elt F)) : val2 V0 (no_index (Proc.devRef .tc main_arg1)) = (V0 (Proc.devRef .tc main_arg1)) :=
  (val2_keep V0 main_arg1 (by decide)).trans (val1_main_arg1 V0)
theorem val2_main_arg2 (V0 : Valuation τ sig (Elt F)) : val2 V0 (no_index (Proc.devRef .tc main_arg2)) = (V0 (Proc.devRef .tc main_arg2)) :=
  (val2_keep V0 main_arg2 (by decide)).trans (val1_main_arg2 V0)
theorem val2_main_arg3 (V0 : Valuation τ sig (Elt F)) : val2 V0 (no_index (Proc.devRef .tc main_arg3)) = (V0 (Proc.devRef .tc main_arg3)) :=
  (val2_keep V0 main_arg3 (by decide)).trans (val1_main_arg3 V0)
theorem val2_main_arg4 (V0 : Valuation τ sig (Elt F)) : val2 V0 (no_index (Proc.devRef .tc main_arg4)) = (V0 (Proc.devRef .tc main_arg4)) :=
  (val2_keep V0 main_arg4 (by decide)).trans (val1_main_arg4 V0)
theorem val2_main_arg5 (V0 : Valuation τ sig (Elt F)) : val2 V0 (no_index (Proc.devRef .tc main_arg5)) = (V0 (Proc.devRef .tc main_arg5)) :=
  (val2_keep V0 main_arg5 (by decide)).trans (val1_main_arg5 V0)
theorem val2_main_v0 (V0 : Valuation τ sig (Elt F)) : val2 V0 (no_index (Proc.devRef .tc main_v0)) = Route.flat (V0 (Proc.devRef .tc main_arg1)) :=
  (val2_keep V0 main_v0 (by decide)).trans (val1_main_v0 V0)
theorem val2_main_v1 (V0 : Valuation τ sig (Elt F)) : val2 V0 (no_index (Proc.devRef .tc main_v1)) = shapeCast S16384 ((V0 (Proc.devRef .tc main_arg2))) shapeCasts_S8192x2_S16384 :=
  (val2_keep V0 main_v1 (by decide)).trans (val1_main_v1 V0)
theorem val2_main_v4 (V0 : Valuation τ sig (Elt F)) : val2 V0 (no_index (Proc.devRef .tc main_v4)) = Route.tokflat :=
  (val2_keep V0 main_v4 (by decide)).trans (val1_main_v4 V0)
set_option maxRecDepth 8192 in
theorem val2_main_v5 (V0 : Valuation τ sig (Elt F)) : val2 V0 (no_index (Proc.devRef .tc main_v5)) = Route.order (V0 (Proc.devRef .tc main_arg1)) := by
  unfold val2
  simp only [k2]
  after_results_simp
  simp only [val1_main_v0] <;> rfl

/-- The device's buffer contents after windows k1 … k3. -/
def val3 (V0 : Valuation τ sig (Elt F)) : Valuation τ sig (Elt F) := after k3 (val2 V0)
/-- The buffers that window k3 writes. -/
abbrev k3_W : List (Ref sig .tc) := [main_c, main_v6, main_v7, main_c_0, main_v8, main_v9, main_v10, main_v11, main_v12]
theorem k3_writes : (k3 : List (HloOp τ sig (Elt F))).Forall fun op => op.writes ⊆ (k3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k3 does not write keeps its contents through it. -/
theorem val3_keep (V0 : Valuation τ sig (Elt F)) (r : Ref sig .tc) (h : r ∉ k3_W) :
    val3 V0 (Proc.devRef .tc r) = val2 V0 (Proc.devRef .tc r) :=
  after_of_writes_sub k3 _ k3_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_arg1 (V0 : Valuation τ sig (Elt F)) : val3 V0 (no_index (Proc.devRef .tc main_arg1)) = (V0 (Proc.devRef .tc main_arg1)) :=
  (val3_keep V0 main_arg1 (by decide)).trans (val2_main_arg1 V0)
theorem val3_main_arg2 (V0 : Valuation τ sig (Elt F)) : val3 V0 (no_index (Proc.devRef .tc main_arg2)) = (V0 (Proc.devRef .tc main_arg2)) :=
  (val3_keep V0 main_arg2 (by decide)).trans (val2_main_arg2 V0)
theorem val3_main_arg3 (V0 : Valuation τ sig (Elt F)) : val3 V0 (no_index (Proc.devRef .tc main_arg3)) = (V0 (Proc.devRef .tc main_arg3)) :=
  (val3_keep V0 main_arg3 (by decide)).trans (val2_main_arg3 V0)
theorem val3_main_arg4 (V0 : Valuation τ sig (Elt F)) : val3 V0 (no_index (Proc.devRef .tc main_arg4)) = (V0 (Proc.devRef .tc main_arg4)) :=
  (val3_keep V0 main_arg4 (by decide)).trans (val2_main_arg4 V0)
theorem val3_main_arg5 (V0 : Valuation τ sig (Elt F)) : val3 V0 (no_index (Proc.devRef .tc main_arg5)) = (V0 (Proc.devRef .tc main_arg5)) :=
  (val3_keep V0 main_arg5 (by decide)).trans (val2_main_arg5 V0)
theorem val3_main_v0 (V0 : Valuation τ sig (Elt F)) : val3 V0 (no_index (Proc.devRef .tc main_v0)) = Route.flat (V0 (Proc.devRef .tc main_arg1)) :=
  (val3_keep V0 main_v0 (by decide)).trans (val2_main_v0 V0)
theorem val3_main_v1 (V0 : Valuation τ sig (Elt F)) : val3 V0 (no_index (Proc.devRef .tc main_v1)) = shapeCast S16384 ((V0 (Proc.devRef .tc main_arg2))) shapeCasts_S8192x2_S16384 :=
  (val3_keep V0 main_v1 (by decide)).trans (val2_main_v1 V0)
theorem val3_main_v5 (V0 : Valuation τ sig (Elt F)) : val3 V0 (no_index (Proc.devRef .tc main_v5)) = Route.order (V0 (Proc.devRef .tc main_arg1)) :=
  (val3_keep V0 main_v5 (by decide)).trans (val2_main_v5 V0)
set_option maxRecDepth 8192 in
theorem val3_main_v12 (V0 : Valuation τ sig (Elt F)) : val3 V0 (no_index (Proc.devRef .tc main_v12)) = Route.stok (V0 (Proc.devRef .tc main_arg1)) := by
  unfold val3
  simp only [k3]
  after_results_simp
  simp only [val2_main_v5, val2_main_v4] <;> rfl

/-- The device's buffer contents after windows k1 … k4. -/
def val4 (V0 : Valuation τ sig (Elt F)) : Valuation τ sig (Elt F) := after k4 (val3 V0)
/-- The buffers that window k4 writes. -/
abbrev k4_W : List (Ref sig .tc) := [main_c_1, main_v13, main_v14, main_c_2, main_v15, main_v16, main_v17, main_v18, main_v19]
theorem k4_writes : (k4 : List (HloOp τ sig (Elt F))).Forall fun op => op.writes ⊆ (k4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k4 does not write keeps its contents through it. -/
theorem val4_keep (V0 : Valuation τ sig (Elt F)) (r : Ref sig .tc) (h : r ∉ k4_W) :
    val4 V0 (Proc.devRef .tc r) = val3 V0 (Proc.devRef .tc r) :=
  after_of_writes_sub k4 _ k4_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_arg1 (V0 : Valuation τ sig (Elt F)) : val4 V0 (no_index (Proc.devRef .tc main_arg1)) = (V0 (Proc.devRef .tc main_arg1)) :=
  (val4_keep V0 main_arg1 (by decide)).trans (val3_main_arg1 V0)
theorem val4_main_arg2 (V0 : Valuation τ sig (Elt F)) : val4 V0 (no_index (Proc.devRef .tc main_arg2)) = (V0 (Proc.devRef .tc main_arg2)) :=
  (val4_keep V0 main_arg2 (by decide)).trans (val3_main_arg2 V0)
theorem val4_main_arg3 (V0 : Valuation τ sig (Elt F)) : val4 V0 (no_index (Proc.devRef .tc main_arg3)) = (V0 (Proc.devRef .tc main_arg3)) :=
  (val4_keep V0 main_arg3 (by decide)).trans (val3_main_arg3 V0)
theorem val4_main_arg4 (V0 : Valuation τ sig (Elt F)) : val4 V0 (no_index (Proc.devRef .tc main_arg4)) = (V0 (Proc.devRef .tc main_arg4)) :=
  (val4_keep V0 main_arg4 (by decide)).trans (val3_main_arg4 V0)
theorem val4_main_arg5 (V0 : Valuation τ sig (Elt F)) : val4 V0 (no_index (Proc.devRef .tc main_arg5)) = (V0 (Proc.devRef .tc main_arg5)) :=
  (val4_keep V0 main_arg5 (by decide)).trans (val3_main_arg5 V0)
theorem val4_main_v0 (V0 : Valuation τ sig (Elt F)) : val4 V0 (no_index (Proc.devRef .tc main_v0)) = Route.flat (V0 (Proc.devRef .tc main_arg1)) :=
  (val4_keep V0 main_v0 (by decide)).trans (val3_main_v0 V0)
theorem val4_main_v1 (V0 : Valuation τ sig (Elt F)) : val4 V0 (no_index (Proc.devRef .tc main_v1)) = shapeCast S16384 ((V0 (Proc.devRef .tc main_arg2))) shapeCasts_S8192x2_S16384 :=
  (val4_keep V0 main_v1 (by decide)).trans (val3_main_v1 V0)
theorem val4_main_v5 (V0 : Valuation τ sig (Elt F)) : val4 V0 (no_index (Proc.devRef .tc main_v5)) = Route.order (V0 (Proc.devRef .tc main_arg1)) :=
  (val4_keep V0 main_v5 (by decide)).trans (val3_main_v5 V0)
theorem val4_main_v12 (V0 : Valuation τ sig (Elt F)) : val4 V0 (no_index (Proc.devRef .tc main_v12)) = Route.stok (V0 (Proc.devRef .tc main_arg1)) :=
  (val4_keep V0 main_v12 (by decide)).trans (val3_main_v12 V0)
set_option maxRecDepth 8192 in
theorem val4_main_v19 (V0 : Valuation τ sig (Elt F)) : val4 V0 (no_index (Proc.devRef .tc main_v19)) = Route.seid (V0 (Proc.devRef .tc main_arg1)) := by
  unfold val4
  simp only [k4]
  after_results_simp
  simp only [val3_main_v5, val3_main_v0] <;> rfl

/-- The device's buffer contents after windows k1 … k5. -/
def val5 (V0 : Valuation τ sig (Elt F)) : Valuation τ sig (Elt F) := after k5 (val4 V0)
/-- The buffers that window k5 writes. -/
abbrev k5_W : List (Ref sig .tc) := [main_c_3, main_v20, main_v21, main_c_4, main_v22, main_v23, main_v24, main_v25, main_v26]
theorem k5_writes : (k5 : List (HloOp τ sig (Elt F))).Forall fun op => op.writes ⊆ (k5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k5 does not write keeps its contents through it. -/
theorem val5_keep (V0 : Valuation τ sig (Elt F)) (r : Ref sig .tc) (h : r ∉ k5_W) :
    val5 V0 (Proc.devRef .tc r) = val4 V0 (Proc.devRef .tc r) :=
  after_of_writes_sub k5 _ k5_writes h
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_arg1 (V0 : Valuation τ sig (Elt F)) : val5 V0 (no_index (Proc.devRef .tc main_arg1)) = (V0 (Proc.devRef .tc main_arg1)) :=
  (val5_keep V0 main_arg1 (by decide)).trans (val4_main_arg1 V0)
theorem val5_main_arg2 (V0 : Valuation τ sig (Elt F)) : val5 V0 (no_index (Proc.devRef .tc main_arg2)) = (V0 (Proc.devRef .tc main_arg2)) :=
  (val5_keep V0 main_arg2 (by decide)).trans (val4_main_arg2 V0)
theorem val5_main_arg3 (V0 : Valuation τ sig (Elt F)) : val5 V0 (no_index (Proc.devRef .tc main_arg3)) = (V0 (Proc.devRef .tc main_arg3)) :=
  (val5_keep V0 main_arg3 (by decide)).trans (val4_main_arg3 V0)
theorem val5_main_arg4 (V0 : Valuation τ sig (Elt F)) : val5 V0 (no_index (Proc.devRef .tc main_arg4)) = (V0 (Proc.devRef .tc main_arg4)) :=
  (val5_keep V0 main_arg4 (by decide)).trans (val4_main_arg4 V0)
theorem val5_main_arg5 (V0 : Valuation τ sig (Elt F)) : val5 V0 (no_index (Proc.devRef .tc main_arg5)) = (V0 (Proc.devRef .tc main_arg5)) :=
  (val5_keep V0 main_arg5 (by decide)).trans (val4_main_arg5 V0)
theorem val5_main_v0 (V0 : Valuation τ sig (Elt F)) : val5 V0 (no_index (Proc.devRef .tc main_v0)) = Route.flat (V0 (Proc.devRef .tc main_arg1)) :=
  (val5_keep V0 main_v0 (by decide)).trans (val4_main_v0 V0)
theorem val5_main_v12 (V0 : Valuation τ sig (Elt F)) : val5 V0 (no_index (Proc.devRef .tc main_v12)) = Route.stok (V0 (Proc.devRef .tc main_arg1)) :=
  (val5_keep V0 main_v12 (by decide)).trans (val4_main_v12 V0)
theorem val5_main_v19 (V0 : Valuation τ sig (Elt F)) : val5 V0 (no_index (Proc.devRef .tc main_v19)) = Route.seid (V0 (Proc.devRef .tc main_arg1)) :=
  (val5_keep V0 main_v19 (by decide)).trans (val4_main_v19 V0)
set_option maxRecDepth 8192 in
theorem val5_main_v26 (V0 : Valuation τ sig (Elt F)) : val5 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) := by
  unfold val5
  simp only [k5]
  after_results_simp
  simp only [val4_main_v5, val4_main_v1] <;> rfl

/-- The device's buffer contents after windows k1 … k6. -/
def val6 (V0 : Valuation τ sig (Elt F)) : Valuation τ sig (Elt F) := after k6 (val5 V0)
/-- The buffers that window k6 writes. -/
abbrev k6_W : List (Ref sig .tc) := [main_c_5, main_v27, main_c_6]
theorem k6_writes : (k6 : List (HloOp τ sig (Elt F))).Forall fun op => op.writes ⊆ (k6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k6 does not write keeps its contents through it. -/
theorem val6_keep (V0 : Valuation τ sig (Elt F)) (r : Ref sig .tc) (h : r ∉ k6_W) :
    val6 V0 (Proc.devRef .tc r) = val5 V0 (Proc.devRef .tc r) :=
  after_of_writes_sub k6 _ k6_writes h
theorem val6_main_arg0 (V0 : Valuation τ sig (Elt F)) : val6 V0 (no_index (Proc.devRef .tc main_arg0)) = (V0 (Proc.devRef .tc main_arg0)) :=
  (val6_keep V0 main_arg0 (by decide)).trans (val5_main_arg0 V0)
theorem val6_main_arg1 (V0 : Valuation τ sig (Elt F)) : val6 V0 (no_index (Proc.devRef .tc main_arg1)) = (V0 (Proc.devRef .tc main_arg1)) :=
  (val6_keep V0 main_arg1 (by decide)).trans (val5_main_arg1 V0)
theorem val6_main_arg2 (V0 : Valuation τ sig (Elt F)) : val6 V0 (no_index (Proc.devRef .tc main_arg2)) = (V0 (Proc.devRef .tc main_arg2)) :=
  (val6_keep V0 main_arg2 (by decide)).trans (val5_main_arg2 V0)
theorem val6_main_arg3 (V0 : Valuation τ sig (Elt F)) : val6 V0 (no_index (Proc.devRef .tc main_arg3)) = (V0 (Proc.devRef .tc main_arg3)) :=
  (val6_keep V0 main_arg3 (by decide)).trans (val5_main_arg3 V0)
theorem val6_main_arg4 (V0 : Valuation τ sig (Elt F)) : val6 V0 (no_index (Proc.devRef .tc main_arg4)) = (V0 (Proc.devRef .tc main_arg4)) :=
  (val6_keep V0 main_arg4 (by decide)).trans (val5_main_arg4 V0)
theorem val6_main_arg5 (V0 : Valuation τ sig (Elt F)) : val6 V0 (no_index (Proc.devRef .tc main_arg5)) = (V0 (Proc.devRef .tc main_arg5)) :=
  (val6_keep V0 main_arg5 (by decide)).trans (val5_main_arg5 V0)
theorem val6_main_v0 (V0 : Valuation τ sig (Elt F)) : val6 V0 (no_index (Proc.devRef .tc main_v0)) = Route.flat (V0 (Proc.devRef .tc main_arg1)) :=
  (val6_keep V0 main_v0 (by decide)).trans (val5_main_v0 V0)
theorem val6_main_v12 (V0 : Valuation τ sig (Elt F)) : val6 V0 (no_index (Proc.devRef .tc main_v12)) = Route.stok (V0 (Proc.devRef .tc main_arg1)) :=
  (val6_keep V0 main_v12 (by decide)).trans (val5_main_v12 V0)
theorem val6_main_v19 (V0 : Valuation τ sig (Elt F)) : val6 V0 (no_index (Proc.devRef .tc main_v19)) = Route.seid (V0 (Proc.devRef .tc main_arg1)) :=
  (val6_keep V0 main_v19 (by decide)).trans (val5_main_v19 V0)
theorem val6_main_v26 (V0 : Valuation τ sig (Elt F)) : val6 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val6_keep V0 main_v26 (by decide)).trans (val5_main_v26 V0)
set_option maxRecDepth 8192 in
theorem val6_main_v27 (V0 : Valuation τ sig (Elt F)) : val6 V0 (no_index (Proc.devRef .tc main_v27)) = broadcastInDim S8 ![] bcast_S_S8 (constantI S_ 32 0#32) := by
  unfold val6
  simp only [k6]
  after_results_simp
  all_goals rfl
set_option maxRecDepth 8192 in
theorem val6_main_c_6 (V0 : Valuation τ sig (Elt F)) : val6 V0 (no_index (Proc.devRef .tc main_c_6)) = constantI S_ 32 0#32 := by
  unfold val6
  simp only [k6]
  after_results_simp
  all_goals rfl

/-- The device's buffer contents after windows k1 … k7. -/
def val7 (V0 : Valuation τ sig (Elt F)) : Valuation τ sig (Elt F) := after k7 (val6 V0)
/-- The buffers that window k7 writes. -/
abbrev k7_W : List (Ref sig .tc) := [main_call1_v0, main_call1_v1, main_v28]
theorem k7_writes : (k7 : List (HloOp τ sig (Elt F))).Forall fun op => op.writes ⊆ (k7_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k7 does not write keeps its contents through it. -/
theorem val7_keep (V0 : Valuation τ sig (Elt F)) (r : Ref sig .tc) (h : r ∉ k7_W) :
    val7 V0 (Proc.devRef .tc r) = val6 V0 (Proc.devRef .tc r) :=
  after_of_writes_sub k7 _ k7_writes h
theorem val7_main_arg0 (V0 : Valuation τ sig (Elt F)) : val7 V0 (no_index (Proc.devRef .tc main_arg0)) = (V0 (Proc.devRef .tc main_arg0)) :=
  (val7_keep V0 main_arg0 (by decide)).trans (val6_main_arg0 V0)
theorem val7_main_arg1 (V0 : Valuation τ sig (Elt F)) : val7 V0 (no_index (Proc.devRef .tc main_arg1)) = (V0 (Proc.devRef .tc main_arg1)) :=
  (val7_keep V0 main_arg1 (by decide)).trans (val6_main_arg1 V0)
theorem val7_main_arg2 (V0 : Valuation τ sig (Elt F)) : val7 V0 (no_index (Proc.devRef .tc main_arg2)) = (V0 (Proc.devRef .tc main_arg2)) :=
  (val7_keep V0 main_arg2 (by decide)).trans (val6_main_arg2 V0)
theorem val7_main_arg3 (V0 : Valuation τ sig (Elt F)) : val7 V0 (no_index (Proc.devRef .tc main_arg3)) = (V0 (Proc.devRef .tc main_arg3)) :=
  (val7_keep V0 main_arg3 (by decide)).trans (val6_main_arg3 V0)
theorem val7_main_arg4 (V0 : Valuation τ sig (Elt F)) : val7 V0 (no_index (Proc.devRef .tc main_arg4)) = (V0 (Proc.devRef .tc main_arg4)) :=
  (val7_keep V0 main_arg4 (by decide)).trans (val6_main_arg4 V0)
theorem val7_main_arg5 (V0 : Valuation τ sig (Elt F)) : val7 V0 (no_index (Proc.devRef .tc main_arg5)) = (V0 (Proc.devRef .tc main_arg5)) :=
  (val7_keep V0 main_arg5 (by decide)).trans (val6_main_arg5 V0)
theorem val7_main_v12 (V0 : Valuation τ sig (Elt F)) : val7 V0 (no_index (Proc.devRef .tc main_v12)) = Route.stok (V0 (Proc.devRef .tc main_arg1)) :=
  (val7_keep V0 main_v12 (by decide)).trans (val6_main_v12 V0)
theorem val7_main_v19 (V0 : Valuation τ sig (Elt F)) : val7 V0 (no_index (Proc.devRef .tc main_v19)) = Route.seid (V0 (Proc.devRef .tc main_arg1)) :=
  (val7_keep V0 main_v19 (by decide)).trans (val6_main_v19 V0)
theorem val7_main_v26 (V0 : Valuation τ sig (Elt F)) : val7 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val7_keep V0 main_v26 (by decide)).trans (val6_main_v26 V0)
theorem val7_main_v27 (V0 : Valuation τ sig (Elt F)) : val7 V0 (no_index (Proc.devRef .tc main_v27)) = broadcastInDim S8 ![] bcast_S_S8 (constantI S_ 32 0#32) :=
  (val7_keep V0 main_v27 (by decide)).trans (val6_main_v27 V0)
set_option maxRecDepth 8192 in
theorem val7_main_v28 (V0 : Valuation τ sig (Elt F)) : val7 V0 (no_index (Proc.devRef .tc main_v28)) = Route.clipped (V0 (Proc.devRef .tc main_arg1)) := by
  unfold val7
  simp only [k7]
  after_results_simp
  simp only [val6_main_v0, val6_main_c_6] <;> rfl

/-- The device's buffer contents after windows k1 … k8. -/
def val8 (V0 : Valuation τ sig (Elt F)) : Valuation τ sig (Elt F) := after k8 (val7 V0)
/-- The buffers that window k8 writes. -/
abbrev k8_W : List (Ref sig .tc) := [main_c_7, main_v29, main_v30, main_c_8, main_v31, main_v32, main_v33, main_v34, main_c_9, main_v35, main_v36, main_c_10, main_v37]
theorem k8_writes : (k8 : List (HloOp τ sig (Elt F))).Forall fun op => op.writes ⊆ (k8_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k8 does not write keeps its contents through it. -/
theorem val8_keep (V0 : Valuation τ sig (Elt F)) (r : Ref sig .tc) (h : r ∉ k8_W) :
    val8 V0 (Proc.devRef .tc r) = val7 V0 (Proc.devRef .tc r) :=
  after_of_writes_sub k8 _ k8_writes h
theorem val8_main_arg0 (V0 : Valuation τ sig (Elt F)) : val8 V0 (no_index (Proc.devRef .tc main_arg0)) = (V0 (Proc.devRef .tc main_arg0)) :=
  (val8_keep V0 main_arg0 (by decide)).trans (val7_main_arg0 V0)
theorem val8_main_arg1 (V0 : Valuation τ sig (Elt F)) : val8 V0 (no_index (Proc.devRef .tc main_arg1)) = (V0 (Proc.devRef .tc main_arg1)) :=
  (val8_keep V0 main_arg1 (by decide)).trans (val7_main_arg1 V0)
theorem val8_main_arg2 (V0 : Valuation τ sig (Elt F)) : val8 V0 (no_index (Proc.devRef .tc main_arg2)) = (V0 (Proc.devRef .tc main_arg2)) :=
  (val8_keep V0 main_arg2 (by decide)).trans (val7_main_arg2 V0)
theorem val8_main_arg3 (V0 : Valuation τ sig (Elt F)) : val8 V0 (no_index (Proc.devRef .tc main_arg3)) = (V0 (Proc.devRef .tc main_arg3)) :=
  (val8_keep V0 main_arg3 (by decide)).trans (val7_main_arg3 V0)
theorem val8_main_arg4 (V0 : Valuation τ sig (Elt F)) : val8 V0 (no_index (Proc.devRef .tc main_arg4)) = (V0 (Proc.devRef .tc main_arg4)) :=
  (val8_keep V0 main_arg4 (by decide)).trans (val7_main_arg4 V0)
theorem val8_main_arg5 (V0 : Valuation τ sig (Elt F)) : val8 V0 (no_index (Proc.devRef .tc main_arg5)) = (V0 (Proc.devRef .tc main_arg5)) :=
  (val8_keep V0 main_arg5 (by decide)).trans (val7_main_arg5 V0)
theorem val8_main_v12 (V0 : Valuation τ sig (Elt F)) : val8 V0 (no_index (Proc.devRef .tc main_v12)) = Route.stok (V0 (Proc.devRef .tc main_arg1)) :=
  (val8_keep V0 main_v12 (by decide)).trans (val7_main_v12 V0)
theorem val8_main_v19 (V0 : Valuation τ sig (Elt F)) : val8 V0 (no_index (Proc.devRef .tc main_v19)) = Route.seid (V0 (Proc.devRef .tc main_arg1)) :=
  (val8_keep V0 main_v19 (by decide)).trans (val7_main_v19 V0)
theorem val8_main_v26 (V0 : Valuation τ sig (Elt F)) : val8 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val8_keep V0 main_v26 (by decide)).trans (val7_main_v26 V0)
set_option maxRecDepth 8192 in
theorem val8_main_v36 (V0 : Valuation τ sig (Elt F)) : val8 V0 (no_index (Proc.devRef .tc main_v36)) = Route.counts (V0 (Proc.devRef .tc main_arg1)) := by
  unfold val8
  simp only [k8]
  after_results_simp
  simp only [val7_main_v28, val7_main_v27] <;> rfl
set_option maxRecDepth 8192 in
theorem val8_main_v37 (V0 : Valuation τ sig (Elt F)) : val8 V0 (no_index (Proc.devRef .tc main_v37)) = broadcastInDim S1 ![] bcast_S_S1 (constantI S_ 32 0#32) := by
  unfold val8
  simp only [k8]
  after_results_simp
  all_goals rfl

/-- The device's buffer contents after windows k1 … k9. -/
def val9 (V0 : Valuation τ sig (Elt F)) : Valuation τ sig (Elt F) := after k9 (val8 V0)
/-- The buffers that window k9 writes. -/
abbrev k9_W : List (Ref sig .tc) := [main_call2_call0_c, main_call2_call0_v0, main_v38]
theorem k9_writes : (k9 : List (HloOp τ sig (Elt F))).Forall fun op => op.writes ⊆ (k9_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k9 does not write keeps its contents through it. -/
theorem val9_keep (V0 : Valuation τ sig (Elt F)) (r : Ref sig .tc) (h : r ∉ k9_W) :
    val9 V0 (Proc.devRef .tc r) = val8 V0 (Proc.devRef .tc r) :=
  after_of_writes_sub k9 _ k9_writes h
theorem val9_main_arg0 (V0 : Valuation τ sig (Elt F)) : val9 V0 (no_index (Proc.devRef .tc main_arg0)) = (V0 (Proc.devRef .tc main_arg0)) :=
  (val9_keep V0 main_arg0 (by decide)).trans (val8_main_arg0 V0)
theorem val9_main_arg1 (V0 : Valuation τ sig (Elt F)) : val9 V0 (no_index (Proc.devRef .tc main_arg1)) = (V0 (Proc.devRef .tc main_arg1)) :=
  (val9_keep V0 main_arg1 (by decide)).trans (val8_main_arg1 V0)
theorem val9_main_arg2 (V0 : Valuation τ sig (Elt F)) : val9 V0 (no_index (Proc.devRef .tc main_arg2)) = (V0 (Proc.devRef .tc main_arg2)) :=
  (val9_keep V0 main_arg2 (by decide)).trans (val8_main_arg2 V0)
theorem val9_main_arg3 (V0 : Valuation τ sig (Elt F)) : val9 V0 (no_index (Proc.devRef .tc main_arg3)) = (V0 (Proc.devRef .tc main_arg3)) :=
  (val9_keep V0 main_arg3 (by decide)).trans (val8_main_arg3 V0)
theorem val9_main_arg4 (V0 : Valuation τ sig (Elt F)) : val9 V0 (no_index (Proc.devRef .tc main_arg4)) = (V0 (Proc.devRef .tc main_arg4)) :=
  (val9_keep V0 main_arg4 (by decide)).trans (val8_main_arg4 V0)
theorem val9_main_arg5 (V0 : Valuation τ sig (Elt F)) : val9 V0 (no_index (Proc.devRef .tc main_arg5)) = (V0 (Proc.devRef .tc main_arg5)) :=
  (val9_keep V0 main_arg5 (by decide)).trans (val8_main_arg5 V0)
theorem val9_main_v12 (V0 : Valuation τ sig (Elt F)) : val9 V0 (no_index (Proc.devRef .tc main_v12)) = Route.stok (V0 (Proc.devRef .tc main_arg1)) :=
  (val9_keep V0 main_v12 (by decide)).trans (val8_main_v12 V0)
theorem val9_main_v19 (V0 : Valuation τ sig (Elt F)) : val9 V0 (no_index (Proc.devRef .tc main_v19)) = Route.seid (V0 (Proc.devRef .tc main_arg1)) :=
  (val9_keep V0 main_v19 (by decide)).trans (val8_main_v19 V0)
theorem val9_main_v26 (V0 : Valuation τ sig (Elt F)) : val9 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val9_keep V0 main_v26 (by decide)).trans (val8_main_v26 V0)
theorem val9_main_v36 (V0 : Valuation τ sig (Elt F)) : val9 V0 (no_index (Proc.devRef .tc main_v36)) = Route.counts (V0 (Proc.devRef .tc main_arg1)) :=
  (val9_keep V0 main_v36 (by decide)).trans (val8_main_v36 V0)
theorem val9_main_v37 (V0 : Valuation τ sig (Elt F)) : val9 V0 (no_index (Proc.devRef .tc main_v37)) = broadcastInDim S1 ![] bcast_S_S1 (constantI S_ 32 0#32) :=
  (val9_keep V0 main_v37 (by decide)).trans (val8_main_v37 V0)
set_option maxRecDepth 8192 in
theorem val9_main_v38 (V0 : Valuation τ sig (Elt F)) : val9 V0 (no_index (Proc.devRef .tc main_v38)) = Route.cums (V0 (Proc.devRef .tc main_arg1)) := by
  unfold val9
  simp only [k9]
  after_results_simp
  simp only [val8_main_v36] <;> rfl

/-- The device's buffer contents after windows k1 … k10. -/
def val10 (V0 : Valuation τ sig (Elt F)) : Valuation τ sig (Elt F) := after k10 (val9 V0)
/-- The buffers that window k10 writes. -/
abbrev k10_W : List (Ref sig .tc) := [main_v39, main_v40]
theorem k10_writes : (k10 : List (HloOp τ sig (Elt F))).Forall fun op => op.writes ⊆ (k10_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k10 does not write keeps its contents through it. -/
theorem val10_keep (V0 : Valuation τ sig (Elt F)) (r : Ref sig .tc) (h : r ∉ k10_W) :
    val10 V0 (Proc.devRef .tc r) = val9 V0 (Proc.devRef .tc r) :=
  after_of_writes_sub k10 _ k10_writes h
theorem val10_main_arg0 (V0 : Valuation τ sig (Elt F)) : val10 V0 (no_index (Proc.devRef .tc main_arg0)) = (V0 (Proc.devRef .tc main_arg0)) :=
  (val10_keep V0 main_arg0 (by decide)).trans (val9_main_arg0 V0)
theorem val10_main_arg1 (V0 : Valuation τ sig (Elt F)) : val10 V0 (no_index (Proc.devRef .tc main_arg1)) = (V0 (Proc.devRef .tc main_arg1)) :=
  (val10_keep V0 main_arg1 (by decide)).trans (val9_main_arg1 V0)
theorem val10_main_arg2 (V0 : Valuation τ sig (Elt F)) : val10 V0 (no_index (Proc.devRef .tc main_arg2)) = (V0 (Proc.devRef .tc main_arg2)) :=
  (val10_keep V0 main_arg2 (by decide)).trans (val9_main_arg2 V0)
theorem val10_main_arg3 (V0 : Valuation τ sig (Elt F)) : val10 V0 (no_index (Proc.devRef .tc main_arg3)) = (V0 (Proc.devRef .tc main_arg3)) :=
  (val10_keep V0 main_arg3 (by decide)).trans (val9_main_arg3 V0)
theorem val10_main_arg4 (V0 : Valuation τ sig (Elt F)) : val10 V0 (no_index (Proc.devRef .tc main_arg4)) = (V0 (Proc.devRef .tc main_arg4)) :=
  (val10_keep V0 main_arg4 (by decide)).trans (val9_main_arg4 V0)
theorem val10_main_arg5 (V0 : Valuation τ sig (Elt F)) : val10 V0 (no_index (Proc.devRef .tc main_arg5)) = (V0 (Proc.devRef .tc main_arg5)) :=
  (val10_keep V0 main_arg5 (by decide)).trans (val9_main_arg5 V0)
theorem val10_main_v12 (V0 : Valuation τ sig (Elt F)) : val10 V0 (no_index (Proc.devRef .tc main_v12)) = Route.stok (V0 (Proc.devRef .tc main_arg1)) :=
  (val10_keep V0 main_v12 (by decide)).trans (val9_main_v12 V0)
theorem val10_main_v19 (V0 : Valuation τ sig (Elt F)) : val10 V0 (no_index (Proc.devRef .tc main_v19)) = Route.seid (V0 (Proc.devRef .tc main_arg1)) :=
  (val10_keep V0 main_v19 (by decide)).trans (val9_main_v19 V0)
theorem val10_main_v26 (V0 : Valuation τ sig (Elt F)) : val10 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val10_keep V0 main_v26 (by decide)).trans (val9_main_v26 V0)
theorem val10_main_v36 (V0 : Valuation τ sig (Elt F)) : val10 V0 (no_index (Proc.devRef .tc main_v36)) = Route.counts (V0 (Proc.devRef .tc main_arg1)) :=
  (val10_keep V0 main_v36 (by decide)).trans (val9_main_v36 V0)
set_option maxRecDepth 8192 in
theorem val10_main_v40 (V0 : Valuation τ sig (Elt F)) : val10 V0 (no_index (Proc.devRef .tc main_v40)) = Route.segs (V0 (Proc.devRef .tc main_arg1)) := by
  unfold val10
  simp only [k10]
  after_results_simp
  simp only [val9_main_v38, val9_main_v37] <;> rfl

/-- The device's buffer contents after windows k1 … k11. -/
def val11 (V0 : Valuation τ sig (Elt F)) : Valuation τ sig (Elt F) := after k11 (val10 V0)
/-- The buffers that window k11 writes. -/
abbrev k11_W : List (Ref sig .tc) := [main_v41, main_c_11, main_v42, main_v43, main_c_12, main_v44, main_v45, main_v46, main_v47, main_v48, main_v49, main_c_13, main_v50, main_v51, main_c_14, main_v52, main_v53]
theorem k11_writes : (k11 : List (HloOp τ sig (Elt F))).Forall fun op => op.writes ⊆ (k11_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k11 does not write keeps its contents through it. -/
theorem val11_keep (V0 : Valuation τ sig (Elt F)) (r : Ref sig .tc) (h : r ∉ k11_W) :
    val11 V0 (Proc.devRef .tc r) = val10 V0 (Proc.devRef .tc r) :=
  after_of_writes_sub k11 _ k11_writes h
theorem val11_main_arg0 (V0 : Valuation τ sig (Elt F)) : val11 V0 (no_index (Proc.devRef .tc main_arg0)) = (V0 (Proc.devRef .tc main_arg0)) :=
  (val11_keep V0 main_arg0 (by decide)).trans (val10_main_arg0 V0)
theorem val11_main_arg1 (V0 : Valuation τ sig (Elt F)) : val11 V0 (no_index (Proc.devRef .tc main_arg1)) = (V0 (Proc.devRef .tc main_arg1)) :=
  (val11_keep V0 main_arg1 (by decide)).trans (val10_main_arg1 V0)
theorem val11_main_arg2 (V0 : Valuation τ sig (Elt F)) : val11 V0 (no_index (Proc.devRef .tc main_arg2)) = (V0 (Proc.devRef .tc main_arg2)) :=
  (val11_keep V0 main_arg2 (by decide)).trans (val10_main_arg2 V0)
theorem val11_main_arg3 (V0 : Valuation τ sig (Elt F)) : val11 V0 (no_index (Proc.devRef .tc main_arg3)) = (V0 (Proc.devRef .tc main_arg3)) :=
  (val11_keep V0 main_arg3 (by decide)).trans (val10_main_arg3 V0)
theorem val11_main_arg4 (V0 : Valuation τ sig (Elt F)) : val11 V0 (no_index (Proc.devRef .tc main_arg4)) = (V0 (Proc.devRef .tc main_arg4)) :=
  (val11_keep V0 main_arg4 (by decide)).trans (val10_main_arg4 V0)
theorem val11_main_arg5 (V0 : Valuation τ sig (Elt F)) : val11 V0 (no_index (Proc.devRef .tc main_arg5)) = (V0 (Proc.devRef .tc main_arg5)) :=
  (val11_keep V0 main_arg5 (by decide)).trans (val10_main_arg5 V0)
theorem val11_main_v12 (V0 : Valuation τ sig (Elt F)) : val11 V0 (no_index (Proc.devRef .tc main_v12)) = Route.stok (V0 (Proc.devRef .tc main_arg1)) :=
  (val11_keep V0 main_v12 (by decide)).trans (val10_main_v12 V0)
theorem val11_main_v19 (V0 : Valuation τ sig (Elt F)) : val11 V0 (no_index (Proc.devRef .tc main_v19)) = Route.seid (V0 (Proc.devRef .tc main_arg1)) :=
  (val11_keep V0 main_v19 (by decide)).trans (val10_main_v19 V0)
theorem val11_main_v26 (V0 : Valuation τ sig (Elt F)) : val11 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val11_keep V0 main_v26 (by decide)).trans (val10_main_v26 V0)
theorem val11_main_v36 (V0 : Valuation τ sig (Elt F)) : val11 V0 (no_index (Proc.devRef .tc main_v36)) = Route.counts (V0 (Proc.devRef .tc main_arg1)) :=
  (val11_keep V0 main_v36 (by decide)).trans (val10_main_v36 V0)
set_option maxRecDepth 8192 in
theorem val11_main_v51 (V0 : Valuation τ sig (Elt F)) : val11 V0 (no_index (Proc.devRef .tc main_v51)) = Route.valid (V0 (Proc.devRef .tc main_arg1)) := by
  unfold val11
  simp only [k11]
  after_results_simp
  simp only [val10_main_v19, val10_main_v40] <;> rfl
set_option maxRecDepth 8192 in
theorem val11_main_v53 (V0 : Valuation τ sig (Elt F)) : val11 V0 (no_index (Proc.devRef .tc main_v53)) = Route.posc (V0 (Proc.devRef .tc main_arg1)) := by
  unfold val11
  simp only [k11]
  after_results_simp
  simp only [val10_main_v19, val10_main_v40] <;> rfl

/-- The device's buffer contents after windows k1 … k12. -/
def val12 (V0 : Valuation τ sig (Elt F)) : Valuation τ sig (Elt F) := after k12 (val11 V0)
/-- The buffers that window k12 writes. -/
abbrev k12_W : List (Ref sig .tc) := [main_c_15, main_v54, main_v55]
theorem k12_writes : (k12 : List (HloOp τ sig (Elt F))).Forall fun op => op.writes ⊆ (k12_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k12 does not write keeps its contents through it. -/
theorem val12_keep (V0 : Valuation τ sig (Elt F)) (r : Ref sig .tc) (h : r ∉ k12_W) :
    val12 V0 (Proc.devRef .tc r) = val11 V0 (Proc.devRef .tc r) :=
  after_of_writes_sub k12 _ k12_writes h
theorem val12_main_arg0 (V0 : Valuation τ sig (Elt F)) : val12 V0 (no_index (Proc.devRef .tc main_arg0)) = (V0 (Proc.devRef .tc main_arg0)) :=
  (val12_keep V0 main_arg0 (by decide)).trans (val11_main_arg0 V0)
theorem val12_main_arg1 (V0 : Valuation τ sig (Elt F)) : val12 V0 (no_index (Proc.devRef .tc main_arg1)) = (V0 (Proc.devRef .tc main_arg1)) :=
  (val12_keep V0 main_arg1 (by decide)).trans (val11_main_arg1 V0)
theorem val12_main_arg2 (V0 : Valuation τ sig (Elt F)) : val12 V0 (no_index (Proc.devRef .tc main_arg2)) = (V0 (Proc.devRef .tc main_arg2)) :=
  (val12_keep V0 main_arg2 (by decide)).trans (val11_main_arg2 V0)
theorem val12_main_arg3 (V0 : Valuation τ sig (Elt F)) : val12 V0 (no_index (Proc.devRef .tc main_arg3)) = (V0 (Proc.devRef .tc main_arg3)) :=
  (val12_keep V0 main_arg3 (by decide)).trans (val11_main_arg3 V0)
theorem val12_main_arg4 (V0 : Valuation τ sig (Elt F)) : val12 V0 (no_index (Proc.devRef .tc main_arg4)) = (V0 (Proc.devRef .tc main_arg4)) :=
  (val12_keep V0 main_arg4 (by decide)).trans (val11_main_arg4 V0)
theorem val12_main_arg5 (V0 : Valuation τ sig (Elt F)) : val12 V0 (no_index (Proc.devRef .tc main_arg5)) = (V0 (Proc.devRef .tc main_arg5)) :=
  (val12_keep V0 main_arg5 (by decide)).trans (val11_main_arg5 V0)
theorem val12_main_v12 (V0 : Valuation τ sig (Elt F)) : val12 V0 (no_index (Proc.devRef .tc main_v12)) = Route.stok (V0 (Proc.devRef .tc main_arg1)) :=
  (val12_keep V0 main_v12 (by decide)).trans (val11_main_v12 V0)
theorem val12_main_v19 (V0 : Valuation τ sig (Elt F)) : val12 V0 (no_index (Proc.devRef .tc main_v19)) = Route.seid (V0 (Proc.devRef .tc main_arg1)) :=
  (val12_keep V0 main_v19 (by decide)).trans (val11_main_v19 V0)
theorem val12_main_v26 (V0 : Valuation τ sig (Elt F)) : val12 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val12_keep V0 main_v26 (by decide)).trans (val11_main_v26 V0)
theorem val12_main_v51 (V0 : Valuation τ sig (Elt F)) : val12 V0 (no_index (Proc.devRef .tc main_v51)) = Route.valid (V0 (Proc.devRef .tc main_arg1)) :=
  (val12_keep V0 main_v51 (by decide)).trans (val11_main_v51 V0)
theorem val12_main_v53 (V0 : Valuation τ sig (Elt F)) : val12 V0 (no_index (Proc.devRef .tc main_v53)) = Route.posc (V0 (Proc.devRef .tc main_arg1)) :=
  (val12_keep V0 main_v53 (by decide)).trans (val11_main_v53 V0)
set_option maxRecDepth 8192 in
theorem val12_main_v55 (V0 : Valuation τ sig (Elt F)) : val12 V0 (no_index (Proc.devRef .tc main_v55)) = Route.table (V0 (Proc.devRef .tc main_arg1)) := by
  unfold val12
  simp only [k12]
  after_results_simp
  simp only [val11_main_v36] <;> rfl

/-- The device's buffer contents after windows k1 … k13. -/
def val13 (V0 : Valuation τ sig (Elt F)) : Valuation τ sig (Elt F) := after k13 (val12 V0)
/-- The buffers that window k13 writes. -/
abbrev k13_W : List (Ref sig .tc) := [main_cst, main_v56]
theorem k13_writes : (k13 : List (HloOp τ sig (Elt F))).Forall fun op => op.writes ⊆ (k13_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k13 does not write keeps its contents through it. -/
theorem val13_keep (V0 : Valuation τ sig (Elt F)) (r : Ref sig .tc) (h : r ∉ k13_W) :
    val13 V0 (Proc.devRef .tc r) = val12 V0 (Proc.devRef .tc r) :=
  after_of_writes_sub k13 _ k13_writes h
theorem val13_main_arg0 (V0 : Valuation τ sig (Elt F)) : val13 V0 (no_index (Proc.devRef .tc main_arg0)) = (V0 (Proc.devRef .tc main_arg0)) :=
  (val13_keep V0 main_arg0 (by decide)).trans (val12_main_arg0 V0)
theorem val13_main_arg1 (V0 : Valuation τ sig (Elt F)) : val13 V0 (no_index (Proc.devRef .tc main_arg1)) = (V0 (Proc.devRef .tc main_arg1)) :=
  (val13_keep V0 main_arg1 (by decide)).trans (val12_main_arg1 V0)
theorem val13_main_arg2 (V0 : Valuation τ sig (Elt F)) : val13 V0 (no_index (Proc.devRef .tc main_arg2)) = (V0 (Proc.devRef .tc main_arg2)) :=
  (val13_keep V0 main_arg2 (by decide)).trans (val12_main_arg2 V0)
theorem val13_main_arg3 (V0 : Valuation τ sig (Elt F)) : val13 V0 (no_index (Proc.devRef .tc main_arg3)) = (V0 (Proc.devRef .tc main_arg3)) :=
  (val13_keep V0 main_arg3 (by decide)).trans (val12_main_arg3 V0)
theorem val13_main_arg4 (V0 : Valuation τ sig (Elt F)) : val13 V0 (no_index (Proc.devRef .tc main_arg4)) = (V0 (Proc.devRef .tc main_arg4)) :=
  (val13_keep V0 main_arg4 (by decide)).trans (val12_main_arg4 V0)
theorem val13_main_arg5 (V0 : Valuation τ sig (Elt F)) : val13 V0 (no_index (Proc.devRef .tc main_arg5)) = (V0 (Proc.devRef .tc main_arg5)) :=
  (val13_keep V0 main_arg5 (by decide)).trans (val12_main_arg5 V0)
theorem val13_main_v12 (V0 : Valuation τ sig (Elt F)) : val13 V0 (no_index (Proc.devRef .tc main_v12)) = Route.stok (V0 (Proc.devRef .tc main_arg1)) :=
  (val13_keep V0 main_v12 (by decide)).trans (val12_main_v12 V0)
theorem val13_main_v19 (V0 : Valuation τ sig (Elt F)) : val13 V0 (no_index (Proc.devRef .tc main_v19)) = Route.seid (V0 (Proc.devRef .tc main_arg1)) :=
  (val13_keep V0 main_v19 (by decide)).trans (val12_main_v19 V0)
theorem val13_main_v26 (V0 : Valuation τ sig (Elt F)) : val13 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val13_keep V0 main_v26 (by decide)).trans (val12_main_v26 V0)
theorem val13_main_v51 (V0 : Valuation τ sig (Elt F)) : val13 V0 (no_index (Proc.devRef .tc main_v51)) = Route.valid (V0 (Proc.devRef .tc main_arg1)) :=
  (val13_keep V0 main_v51 (by decide)).trans (val12_main_v51 V0)
theorem val13_main_v53 (V0 : Valuation τ sig (Elt F)) : val13 V0 (no_index (Proc.devRef .tc main_v53)) = Route.posc (V0 (Proc.devRef .tc main_arg1)) :=
  (val13_keep V0 main_v53 (by decide)).trans (val12_main_v53 V0)
theorem val13_main_v55 (V0 : Valuation τ sig (Elt F)) : val13 V0 (no_index (Proc.devRef .tc main_v55)) = Route.table (V0 (Proc.devRef .tc main_arg1)) :=
  (val13_keep V0 main_v55 (by decide)).trans (val12_main_v55 V0)
set_option maxRecDepth 8192 in
theorem val13_main_v56 (V0 : Valuation τ sig (Elt F)) : val13 V0 (no_index (Proc.devRef .tc main_v56)) = broadcastInDim S8x4352x1024 ![] bcast_S_S8x4352x1024 (constant S_ .bf16 0x0000#16) := by
  unfold val13
  simp only [k13]
  after_results_simp
  all_goals rfl

/-- The device's buffer contents after windows k1 … k14. -/
def val14 (V0 : Valuation τ sig (Elt F)) : Valuation τ sig (Elt F) := after k14 (val13 V0)
/-- The buffers that window k14 writes. -/
abbrev k14_W : List (Ref sig .tc) := [main_c_16, main_v57, main_v58, main_c_17, main_v59, main_v60, main_v61, main_v62, main_v63, main_v64]
theorem k14_writes : (k14 : List (HloOp τ sig (Elt F))).Forall fun op => op.writes ⊆ (k14_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k14 does not write keeps its contents through it. -/
theorem val14_keep (V0 : Valuation τ sig (Elt F)) (r : Ref sig .tc) (h : r ∉ k14_W) :
    val14 V0 (Proc.devRef .tc r) = val13 V0 (Proc.devRef .tc r) :=
  after_of_writes_sub k14 _ k14_writes h
theorem val14_main_arg0 (V0 : Valuation τ sig (Elt F)) : val14 V0 (no_index (Proc.devRef .tc main_arg0)) = (V0 (Proc.devRef .tc main_arg0)) :=
  (val14_keep V0 main_arg0 (by decide)).trans (val13_main_arg0 V0)
theorem val14_main_arg1 (V0 : Valuation τ sig (Elt F)) : val14 V0 (no_index (Proc.devRef .tc main_arg1)) = (V0 (Proc.devRef .tc main_arg1)) :=
  (val14_keep V0 main_arg1 (by decide)).trans (val13_main_arg1 V0)
theorem val14_main_arg2 (V0 : Valuation τ sig (Elt F)) : val14 V0 (no_index (Proc.devRef .tc main_arg2)) = (V0 (Proc.devRef .tc main_arg2)) :=
  (val14_keep V0 main_arg2 (by decide)).trans (val13_main_arg2 V0)
theorem val14_main_arg3 (V0 : Valuation τ sig (Elt F)) : val14 V0 (no_index (Proc.devRef .tc main_arg3)) = (V0 (Proc.devRef .tc main_arg3)) :=
  (val14_keep V0 main_arg3 (by decide)).trans (val13_main_arg3 V0)
theorem val14_main_arg4 (V0 : Valuation τ sig (Elt F)) : val14 V0 (no_index (Proc.devRef .tc main_arg4)) = (V0 (Proc.devRef .tc main_arg4)) :=
  (val14_keep V0 main_arg4 (by decide)).trans (val13_main_arg4 V0)
theorem val14_main_arg5 (V0 : Valuation τ sig (Elt F)) : val14 V0 (no_index (Proc.devRef .tc main_arg5)) = (V0 (Proc.devRef .tc main_arg5)) :=
  (val14_keep V0 main_arg5 (by decide)).trans (val13_main_arg5 V0)
theorem val14_main_v12 (V0 : Valuation τ sig (Elt F)) : val14 V0 (no_index (Proc.devRef .tc main_v12)) = Route.stok (V0 (Proc.devRef .tc main_arg1)) :=
  (val14_keep V0 main_v12 (by decide)).trans (val13_main_v12 V0)
theorem val14_main_v19 (V0 : Valuation τ sig (Elt F)) : val14 V0 (no_index (Proc.devRef .tc main_v19)) = Route.seid (V0 (Proc.devRef .tc main_arg1)) :=
  (val14_keep V0 main_v19 (by decide)).trans (val13_main_v19 V0)
theorem val14_main_v26 (V0 : Valuation τ sig (Elt F)) : val14 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val14_keep V0 main_v26 (by decide)).trans (val13_main_v26 V0)
theorem val14_main_v51 (V0 : Valuation τ sig (Elt F)) : val14 V0 (no_index (Proc.devRef .tc main_v51)) = Route.valid (V0 (Proc.devRef .tc main_arg1)) :=
  (val14_keep V0 main_v51 (by decide)).trans (val13_main_v51 V0)
theorem val14_main_v53 (V0 : Valuation τ sig (Elt F)) : val14 V0 (no_index (Proc.devRef .tc main_v53)) = Route.posc (V0 (Proc.devRef .tc main_arg1)) :=
  (val14_keep V0 main_v53 (by decide)).trans (val13_main_v53 V0)
theorem val14_main_v55 (V0 : Valuation τ sig (Elt F)) : val14 V0 (no_index (Proc.devRef .tc main_v55)) = Route.table (V0 (Proc.devRef .tc main_arg1)) :=
  (val14_keep V0 main_v55 (by decide)).trans (val13_main_v55 V0)
theorem val14_main_v56 (V0 : Valuation τ sig (Elt F)) : val14 V0 (no_index (Proc.devRef .tc main_v56)) = broadcastInDim S8x4352x1024 ![] bcast_S_S8x4352x1024 (constant S_ .bf16 0x0000#16) :=
  (val14_keep V0 main_v56 (by decide)).trans (val13_main_v56 V0)
set_option maxRecDepth 8192 in
theorem val14_main_v64 (V0 : Valuation τ sig (Elt F)) : val14 V0 (no_index (Proc.devRef .tc main_v64)) = truncf .bf16 (Host.gather gather_S8192x1024_S16384x1_S16384x1024_1_0_n_n_0_1_11024 ((V0 (Proc.devRef .tc main_arg0))) (broadcastInDim S16384x1 ![0] bcast_S16384_S16384x1_0 (select (cmpi .slt (Route.stok (V0 (Proc.devRef .tc main_arg1))) (broadcastInDim S16384 ![] bcast_S_S16384 (constantI S_ 32 0#32))) (addi (Route.stok (V0 (Proc.devRef .tc main_arg1))) (broadcastInDim S16384 ![] bcast_S_S16384 (constantI S_ 32 8192#32))) (Route.stok (V0 (Proc.devRef .tc main_arg1)))))) bitsLt_bf16_f32 := by
  unfold val14
  simp only [k14]
  after_results_simp
  simp only [val13_main_v12, val13_main_arg0] <;> rfl

/-- The device's buffer contents after windows k1 … k15. -/
def val15 (V0 : Valuation τ sig (Elt F)) : Valuation τ sig (Elt F) := after k15 (val14 V0)
/-- The buffers that window k15 writes. -/
abbrev k15_W : List (Ref sig .tc) := [main_c_18, main_v65, main_v66, main_c_19, main_v67, main_v68, main_v69, main_c_20, main_v70, main_v71, main_c_21, main_v72, main_v73, main_v74, main_v75, main_v76, main_v77, main_v78]
theorem k15_writes : (k15 : List (HloOp τ sig (Elt F))).Forall fun op => op.writes ⊆ (k15_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k15 does not write keeps its contents through it. -/
theorem val15_keep (V0 : Valuation τ sig (Elt F)) (r : Ref sig .tc) (h : r ∉ k15_W) :
    val15 V0 (Proc.devRef .tc r) = val14 V0 (Proc.devRef .tc r) :=
  after_of_writes_sub k15 _ k15_writes h
theorem val15_main_arg0 (V0 : Valuation τ sig (Elt F)) : val15 V0 (no_index (Proc.devRef .tc main_arg0)) = (V0 (Proc.devRef .tc main_arg0)) :=
  (val15_keep V0 main_arg0 (by decide)).trans (val14_main_arg0 V0)
theorem val15_main_arg1 (V0 : Valuation τ sig (Elt F)) : val15 V0 (no_index (Proc.devRef .tc main_arg1)) = (V0 (Proc.devRef .tc main_arg1)) :=
  (val15_keep V0 main_arg1 (by decide)).trans (val14_main_arg1 V0)
theorem val15_main_arg2 (V0 : Valuation τ sig (Elt F)) : val15 V0 (no_index (Proc.devRef .tc main_arg2)) = (V0 (Proc.devRef .tc main_arg2)) :=
  (val15_keep V0 main_arg2 (by decide)).trans (val14_main_arg2 V0)
theorem val15_main_arg3 (V0 : Valuation τ sig (Elt F)) : val15 V0 (no_index (Proc.devRef .tc main_arg3)) = (V0 (Proc.devRef .tc main_arg3)) :=
  (val15_keep V0 main_arg3 (by decide)).trans (val14_main_arg3 V0)
theorem val15_main_arg4 (V0 : Valuation τ sig (Elt F)) : val15 V0 (no_index (Proc.devRef .tc main_arg4)) = (V0 (Proc.devRef .tc main_arg4)) :=
  (val15_keep V0 main_arg4 (by decide)).trans (val14_main_arg4 V0)
theorem val15_main_arg5 (V0 : Valuation τ sig (Elt F)) : val15 V0 (no_index (Proc.devRef .tc main_arg5)) = (V0 (Proc.devRef .tc main_arg5)) :=
  (val15_keep V0 main_arg5 (by decide)).trans (val14_main_arg5 V0)
theorem val15_main_v12 (V0 : Valuation τ sig (Elt F)) : val15 V0 (no_index (Proc.devRef .tc main_v12)) = Route.stok (V0 (Proc.devRef .tc main_arg1)) :=
  (val15_keep V0 main_v12 (by decide)).trans (val14_main_v12 V0)
theorem val15_main_v19 (V0 : Valuation τ sig (Elt F)) : val15 V0 (no_index (Proc.devRef .tc main_v19)) = Route.seid (V0 (Proc.devRef .tc main_arg1)) :=
  (val15_keep V0 main_v19 (by decide)).trans (val14_main_v19 V0)
theorem val15_main_v26 (V0 : Valuation τ sig (Elt F)) : val15 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val15_keep V0 main_v26 (by decide)).trans (val14_main_v26 V0)
theorem val15_main_v51 (V0 : Valuation τ sig (Elt F)) : val15 V0 (no_index (Proc.devRef .tc main_v51)) = Route.valid (V0 (Proc.devRef .tc main_arg1)) :=
  (val15_keep V0 main_v51 (by decide)).trans (val14_main_v51 V0)
theorem val15_main_v53 (V0 : Valuation τ sig (Elt F)) : val15 V0 (no_index (Proc.devRef .tc main_v53)) = Route.posc (V0 (Proc.devRef .tc main_arg1)) :=
  (val15_keep V0 main_v53 (by decide)).trans (val14_main_v53 V0)
theorem val15_main_v55 (V0 : Valuation τ sig (Elt F)) : val15 V0 (no_index (Proc.devRef .tc main_v55)) = Route.table (V0 (Proc.devRef .tc main_arg1)) :=
  (val15_keep V0 main_v55 (by decide)).trans (val14_main_v55 V0)
set_option maxRecDepth 8192 in
theorem val15_main_v78 (V0 : Valuation τ sig (Elt F)) : val15 V0 (no_index (Proc.devRef .tc main_v78)) = Host.scatter scatter_S8x4352x1024_S16384x2_S16384x1024_1_01_01_1 (fun _ b => b) (broadcastInDim S8x4352x1024 ![] bcast_S_S8x4352x1024 (constant S_ .bf16 0x0000#16)) (concatenate S16384x2 1 [⟨S16384x1, (broadcastInDim S16384x1 ![0] bcast_S16384_S16384x1_0 (select (cmpi .slt (Route.seid (V0 (Proc.devRef .tc main_arg1))) (broadcastInDim S16384 ![] bcast_S_S16384 (constantI S_ 32 0#32))) (addi (Route.seid (V0 (Proc.devRef .tc main_arg1))) (broadcastInDim S16384 ![] bcast_S_S16384 (constantI S_ 32 8#32))) (Route.seid (V0 (Proc.devRef .tc main_arg1)))))⟩, ⟨S16384x1, (broadcastInDim S16384x1 ![0] bcast_S16384_S16384x1_0 (select (cmpi .slt (Route.posc (V0 (Proc.devRef .tc main_arg1))) (broadcastInDim S16384 ![] bcast_S_S16384 (constantI S_ 32 0#32))) (addi (Route.posc (V0 (Proc.devRef .tc main_arg1))) (broadcastInDim S16384 ![] bcast_S_S16384 (constantI S_ 32 4352#32))) (Route.posc (V0 (Proc.devRef .tc main_arg1)))))⟩] concatenates_S16384x1_S16384x1_S16384x2_d1) (truncf .bf16 (Host.gather gather_S8192x1024_S16384x1_S16384x1024_1_0_n_n_0_1_11024 ((V0 (Proc.devRef .tc main_arg0))) (broadcastInDim S16384x1 ![0] bcast_S16384_S16384x1_0 (select (cmpi .slt (Route.stok (V0 (Proc.devRef .tc main_arg1))) (broadcastInDim S16384 ![] bcast_S_S16384 (constantI S_ 32 0#32))) (addi (Route.stok (V0 (Proc.devRef .tc main_arg1))) (broadcastInDim S16384 ![] bcast_S_S16384 (constantI S_ 32 8192#32))) (Route.stok (V0 (Proc.devRef .tc main_arg1)))))) bitsLt_bf16_f32) := by
  unfold val15
  simp only [k15]
  after_results_simp
  simp only [val14_main_v64, val14_main_v53, val14_main_v19, val14_main_v56] <;> rfl

/-- The device's buffer contents after windows k1 … k16. -/
def val16 (V0 : Valuation τ sig (Elt F)) : Valuation τ sig (Elt F) := after k16 (val15 V0)
/-- The buffers that window k16 writes. -/
abbrev k16_W : List (Ref sig .tc) := [main_v79, main_v80, main_v81]
theorem k16_writes : (k16 : List (HloOp τ sig (Elt F))).Forall fun op => op.writes ⊆ (k16_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer that window k16 does not write keeps its contents through it. -/
theorem val16_keep (V0 : Valuation τ sig (Elt F)) (r : Ref sig .tc) (h : r ∉ k16_W) :
    val16 V0 (Proc.devRef .tc r) = val15 V0 (Proc.devRef .tc r) :=
  after_of_writes_sub k16 _ k16_writes h
theorem val16_main_arg0 (V0 : Valuation τ sig (Elt F)) : val16 V0 (no_index (Proc.devRef .tc main_arg0)) = (V0 (Proc.devRef .tc main_arg0)) :=
  (val16_keep V0 main_arg0 (by decide)).trans (val15_main_arg0 V0)
theorem val16_main_arg1 (V0 : Valuation τ sig (Elt F)) : val16 V0 (no_index (Proc.devRef .tc main_arg1)) = (V0 (Proc.devRef .tc main_arg1)) :=
  (val16_keep V0 main_arg1 (by decide)).trans (val15_main_arg1 V0)
theorem val16_main_arg2 (V0 : Valuation τ sig (Elt F)) : val16 V0 (no_index (Proc.devRef .tc main_arg2)) = (V0 (Proc.devRef .tc main_arg2)) :=
  (val16_keep V0 main_arg2 (by decide)).trans (val15_main_arg2 V0)
theorem val16_main_arg3 (V0 : Valuation τ sig (Elt F)) : val16 V0 (no_index (Proc.devRef .tc main_arg3)) = (V0 (Proc.devRef .tc main_arg3)) :=
  (val16_keep V0 main_arg3 (by decide)).trans (val15_main_arg3 V0)
theorem val16_main_arg4 (V0 : Valuation τ sig (Elt F)) : val16 V0 (no_index (Proc.devRef .tc main_arg4)) = (V0 (Proc.devRef .tc main_arg4)) :=
  (val16_keep V0 main_arg4 (by decide)).trans (val15_main_arg4 V0)
theorem val16_main_arg5 (V0 : Valuation τ sig (Elt F)) : val16 V0 (no_index (Proc.devRef .tc main_arg5)) = (V0 (Proc.devRef .tc main_arg5)) :=
  (val16_keep V0 main_arg5 (by decide)).trans (val15_main_arg5 V0)
theorem val16_main_v12 (V0 : Valuation τ sig (Elt F)) : val16 V0 (no_index (Proc.devRef .tc main_v12)) = Route.stok (V0 (Proc.devRef .tc main_arg1)) :=
  (val16_keep V0 main_v12 (by decide)).trans (val15_main_v12 V0)
theorem val16_main_v19 (V0 : Valuation τ sig (Elt F)) : val16 V0 (no_index (Proc.devRef .tc main_v19)) = Route.seid (V0 (Proc.devRef .tc main_arg1)) :=
  (val16_keep V0 main_v19 (by decide)).trans (val15_main_v19 V0)
theorem val16_main_v26 (V0 : Valuation τ sig (Elt F)) : val16 V0 (no_index (Proc.devRef .tc main_v26)) = Host.gather gather_S16384_S16384x1_S16384_n_0_n_n_0_1_1 (shapeCast S16384 ((V0 (Proc.devRef .tc main_arg2))) shapeCasts_S8192x2_S16384) (broadcastInDim S16384x1 ![0] bcast_S16384_S16384x1_0 (select (cmpi .slt (Route.order (V0 (Proc.devRef .tc main_arg1))) (broadcastInDim S16384 ![] bcast_S_S16384 (constantI S_ 32 0#32))) (addi (Route.order (V0 (Proc.devRef .tc main_arg1))) (broadcastInDim S16384 ![] bcast_S_S16384 (constantI S_ 32 16384#32))) (Route.order (V0 (Proc.devRef .tc main_arg1))))) :=
  (val16_keep V0 main_v26 (by decide)).trans (val15_main_v26 V0)
theorem val16_main_v51 (V0 : Valuation τ sig (Elt F)) : val16 V0 (no_index (Proc.devRef .tc main_v51)) = Route.valid (V0 (Proc.devRef .tc main_arg1)) :=
  (val16_keep V0 main_v51 (by decide)).trans (val15_main_v51 V0)
theorem val16_main_v53 (V0 : Valuation τ sig (Elt F)) : val16 V0 (no_index (Proc.devRef .tc main_v53)) = Route.posc (V0 (Proc.devRef .tc main_arg1)) :=
  (val16_keep V0 main_v53 (by decide)).trans (val15_main_v53 V0)
theorem val16_main_v55 (V0 : Valuation τ sig (Elt F)) : val16 V0 (no_index (Proc.devRef .tc main_v55)) = Route.table (V0 (Proc.devRef .tc main_arg1)) :=
  (val16_keep V0 main_v55 (by decide)).trans (val15_main_v55 V0)
theorem val16_main_v78 (V0 : Valuation τ sig (Elt F)) : val16 V0 (no_index (Proc.devRef .tc main_v78)) = Host.scatter scatter_S8x4352x1024_S16384x2_S16384x1024_1_01_01_1 (fun _ b => b) (broadcastInDim S8x4352x1024 ![] bcast_S_S8x4352x1024 (constant S_ .bf16 0x0000#16)) (concatenate S16384x2 1 [⟨S16384x1, (broadcastInDim S16384x1 ![0] bcast_S16384_S16384x1_0 (select (cmpi .slt (Route.seid (V0 (Proc.devRef .tc main_arg1))) (broadcastInDim S16384 ![] bcast_S_S16384 (constantI S_ 32 0#32))) (addi (Route.seid (V0 (Proc.devRef .tc main_arg1))) (broadcastInDim S16384 ![] bcast_S_S16384 (constantI S_ 32 8#32))) (Route.seid (V0 (Proc.devRef .tc main_arg1)))))⟩, ⟨S16384x1, (broadcastInDim S16384x1 ![0] bcast_S16384_S16384x1_0 (select (cmpi .slt (Route.posc (V0 (Proc.devRef .tc main_arg1))) (broadcastInDim S16384 ![] bcast_S_S16384 (constantI S_ 32 0#32))) (addi (Route.posc (V0 (Proc.devRef .tc main_arg1))) (broadcastInDim S16384 ![] bcast_S_S16384 (constantI S_ 32 4352#32))) (Route.posc (V0 (Proc.devRef .tc main_arg1)))))⟩] concatenates_S16384x1_S16384x1_S16384x2_d1) (truncf .bf16 (Host.gather gather_S8192x1024_S16384x1_S16384x1024_1_0_n_n_0_1_11024 ((V0 (Proc.devRef .tc main_arg0))) (broadcastInDim S16384x1 ![0] bcast_S16384_S16384x1_0 (select (cmpi .slt (Route.stok (V0 (Proc.devRef .tc main_arg1))) (broadcastInDim S16384 ![] bcast_S_S16384 (constantI S_ 32 0#32))) (addi (Route.stok (V0 (Proc.devRef .tc main_arg1))) (broadcastInDim S16384 ![] bcast_S_S16384 (constantI S_ 32 8192#32))) (Route.stok (V0 (Proc.devRef .tc main_arg1)))))) bitsLt_bf16_f32) :=
  (val16_keep V0 main_v78 (by decide)).trans (val15_main_v78 V0)
set_option maxRecDepth 8192 in
theorem val16_main_v79 (V0 : Valuation τ sig (Elt F)) : val16 V0 (no_index (Proc.devRef .tc main_v79)) = truncf .bf16 ((V0 (Proc.devRef .tc main_arg3))) bitsLt_bf16_f32 := by
  unfold val16
  simp only [k16]
  after_results_simp
  simp only [val15_main_arg3] <;> rfl
set_option maxRecDepth 8192 in
theorem val16_main_v80 (V0 : Valuation τ sig (Elt F)) : val16 V0 (no_index (Proc.devRef .tc main_v80)) = truncf .bf16 ((V0 (Proc.devRef .tc main_arg4))) bitsLt_bf16_f32 := by
  unfold val16
  simp only [k16]
  after_results_simp
  simp only [val15_main_arg4] <;> rfl
set_option maxRecDepth 8192 in
theorem val16_main_v81 (V0 : Valuation τ sig (Elt F)) : val16 V0 (no_index (Proc.devRef .tc main_v81)) = truncf .bf16 ((V0 (Proc.devRef .tc main_arg5))) bitsLt_bf16_f32 := by
  unfold val16
  simp only [k16]
  after_results_simp
  simp only [val15_main_arg5] <;> rfl

end Cert.KernelIdeal.Stages

end
-- ==== Proof.LibScatterLast.lean ====
/-
  An overwriting scatter read at one index, when several update positions may share a target.

  `Host.scatter d (fun _ b => b) x idx upd` visits the update positions in row-major order and lets each one that lands
  inside the operand overwrite the element at its target. Read at ONE operand index `i`, the visits that land elsewhere
  do nothing: the element at `i` is the fold, over the same positions in the same order, of "take this update if it
  lands on `i`, else keep what is there", started at the operand's element. Hence
    * if no position lands on `i`, the result holds the operand's element there;
    * two overwriting scatters over the same update shape (their operands may have different shapes) agree at a pair of
      indices `i`, `i'` as soon as their operands agree there, their updates agree, and every update position lands on
      `i` in the one exactly when it lands on `i'` in the other: the same updates arrive in the same order, so whatever
      the last one is, it is the same.
  No distinctness of the targets is asked.

  Second part: the scatter and the gather of whole rows of length `C` between an `[A, B, C]` array and `[E, C]` rows at
  index pairs laid out as an `[E, 2]` array (writing rows at, and reading rows from, the positions `(r n, c n)` that two
  index vectors `r`, `c` give): update `(n, c)` lands on `(idx[n,0], idx[n,1], c)` read signed, when that is inside; the
  gather reads the row at the pair, each component clamped into the array.
-/
import Idealize.ShloMosaic.PureOps.ShapeOps
import Idealize.ShloMosaic.Lib.ValueIdx

namespace Cert.LibScatterLast

open Idealize.ShloMosaic Idealize.ShloMosaic.ValueIdx

section General

variable {s si u : Shape} {α : Type} {w : Nat}

/-- One visit of the overwriting scatter, seen from the operand index `i` alone: the update at position `j` replaces the
    element when `j` lands on `i`. -/
def visit (d : ScatterDims s si u) (idx : IVec si w) (upd : u.Idx → α) (i : s.Idx) (acc : α) (j : u.Idx) : α :=
  if d.resultIdx? j idx = some i then upd j else acc

/-- The whole-array fold, read at `i`, is the one-element fold of `visit` started at the starting array's element. -/
theorem foldl_apply (d : ScatterDims s si u) (idx : IVec si w) (upd : u.Idx → α) (i : s.Idx) (l : List u.Idx) :
    ∀ x : s.Idx → α,
      l.foldl (fun r j => match d.resultIdx? j idx with
        | some i0 => fun i' => if i' = i0 then (fun _ b => b) (r i0) (upd j) else r i'
        | none => r) x i
      = l.foldl (visit d idx upd i) (x i) := by
  induction l with
  | nil => intro x; rfl
  | cons a l ih =>
    intro x
    rw [List.foldl_cons, List.foldl_cons, ih]
    congr 1
    unfold visit
    cases hres : d.resultIdx? a idx with
    | none => simp
    | some i0 =>
      by_cases hi : i = i0
      · subst hi; simp
      · have : ¬ (some i0 = some i) := fun h => hi (Option.some.inj h).symm
        simp [hi, this]

/-- **The overwriting scatter at an index**: the fold of `visit` over the update positions in row-major order. -/
theorem scatter_apply (d : ScatterDims s si u) (x : s.Idx → α) (idx : IVec si w) (upd : u.Idx → α) (i : s.Idx) :
    Host.scatter d (fun _ b => b) x idx upd i
      = ((List.finRange u.numel).map u.rowMajor.symm).foldl (visit d idx upd i) (x i) := by
  rw [← foldl_apply d idx upd i _ x, List.foldl_map]
  rfl

/-- Visits none of which lands on `i` leave the element alone. -/
theorem foldl_visit_of_none (d : ScatterDims s si u) (idx : IVec si w) (upd : u.Idx → α) (i : s.Idx) (l : List u.Idx)
    (h : ∀ j ∈ l, d.resultIdx? j idx ≠ some i) (a : α) : l.foldl (visit d idx upd i) a = a := by
  induction l generalizing a with
  | nil => rfl
  | cons b l ih =>
    rw [List.foldl_cons]
    have hb : visit d idx upd i a b = a := by
      unfold visit; rw [if_neg (h b (List.mem_cons_self ..))]
    rw [hb]
    exact ih (fun j hj => h j (List.mem_cons_of_mem _ hj)) a

/-- **No update lands on `i`**: the result holds the operand's element. -/
theorem scatter_apply_of_none (d : ScatterDims s si u) (x : s.Idx → α) (idx : IVec si w) (upd : u.Idx → α) (i : s.Idx)
    (h : ∀ j, d.resultIdx? j idx ≠ some i) : Host.scatter d (fun _ b => b) x idx upd i = x i := by
  rw [scatter_apply]
  exact foldl_visit_of_none d idx upd i _ (fun j _ => h j) _

/-- Two one-element folds over the same positions whose visits agree position by position are equal. -/
theorem foldl_visit_congr {s' si' : Shape} {w' : Nat} (d : ScatterDims s si u) (d' : ScatterDims s' si' u)
    (idx : IVec si w) (idx' : IVec si' w') (upd upd' : u.Idx → α) (i : s.Idx) (i' : s'.Idx) (l : List u.Idx)
    (hupd : ∀ j, upd j = upd' j)
    (hland : ∀ j, d.resultIdx? j idx = some i ↔ d'.resultIdx? j idx' = some i') (a : α) :
    l.foldl (visit d idx upd i) a = l.foldl (visit d' idx' upd' i') a := by
  induction l generalizing a with
  | nil => rfl
  | cons b l ih =>
    rw [List.foldl_cons, List.foldl_cons]
    have hb : visit d idx upd i a b = visit d' idx' upd' i' a b := by
      unfold visit
      by_cases hl : d.resultIdx? b idx = some i
      · rw [if_pos hl, if_pos ((hland b).1 hl)]; exact hupd b
      · rw [if_neg hl, if_neg (fun h' => hl ((hland b).2 h'))]
    rw [hb]
    exact ih _

/-- **Two overwriting scatters of the same updates agree at `i`, `i'`** when their operands agree there and every update
    position lands on `i` in the first exactly when it lands on `i'` in the second. -/
theorem scatter_agree {s' si' : Shape} {w' : Nat} (d : ScatterDims s si u) (d' : ScatterDims s' si' u)
    (x : s.Idx → α) (x' : s'.Idx → α) (idx : IVec si w) (idx' : IVec si' w') (upd upd' : u.Idx → α) (i : s.Idx) (i' : s'.Idx)
    (hx : x i = x' i') (hupd : ∀ j, upd j = upd' j)
    (hland : ∀ j, d.resultIdx? j idx = some i ↔ d'.resultIdx? j idx' = some i') :
    Host.scatter d (fun _ b => b) x idx upd i = Host.scatter d' (fun _ b => b) x' idx' upd' i' := by
  rw [scatter_apply, scatter_apply, hx]
  exact foldl_visit_congr d d' idx idx' upd upd' i i' _ hupd hland _

end General

/-! ## Rows of an `[A, B, C]` array at index pairs laid out as `[E, 2]` -/

section Pairs

variable {A B C E w : Nat}

/-- Dimension numbers of writing `[E, C]` update rows into an `[A, B, C]` array at `[E, 2]` index pairs: the update's
    axis 1 is the window axis, the operand's axes 0 and 1 are inserted and are the ones the pair's components go to. -/
abbrev pairScatter (wf : ScatterDims.WF ⟨3, ![A, B, C]⟩ ⟨2, ![E, 2]⟩ ⟨2, ![E, C]⟩ [1] [0, 1] [0, 1] 1) :
    ScatterDims ⟨3, ![A, B, C]⟩ ⟨2, ![E, 2]⟩ ⟨2, ![E, C]⟩ where
  updateWindowDims := [1]
  insertedWindowDims := [0, 1]
  scatterDimsToOperandDims := [0, 1]
  indexVectorDim := 1
  wf := wf

/-- Dimension numbers of taking rows of length `C` of an `[A, B, C]` array at `[E, 2]` index pairs. -/
abbrev pairGather (wf : GatherDims.WF ⟨3, ![A, B, C]⟩ ⟨2, ![E, 2]⟩ ⟨2, ![E, C]⟩ [1] [0, 1] [] [0, 1] [] 1 ![1, 1, C]) :
    GatherDims ⟨3, ![A, B, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

variable (wf : ScatterDims.WF ⟨3, ![A, B, C]⟩ ⟨2, ![E, 2]⟩ ⟨2, ![E, C]⟩ [1] [0, 1] [0, 1] 1)

/-- On axis 0 the window of update `(n, c)` starts at the pair's first component, read signed. -/
theorem pairScatter_start0 (idx : IVec ⟨2, ![E, 2]⟩ w) (j : (⟨2, ![E, C]⟩ : Shape).Idx) :
    (pairScatter wf).start j idx 0 = (idx (ix2 (j 0) (0 : Fin 2))).toInt := by
  unfold ScatterDims.start
  have hm : (0 : Fin 3) ∈ (pairScatter wf).scatterDimsToOperandDims := List.mem_cons_self ..
  rw [dif_pos hm]
  have hsi : (pairScatter wf).siIdx j ⟨List.idxOf (0 : Fin 3) (pairScatter wf).scatterDimsToOperandDims,
      List.idxOf_lt_length_iff.2 hm⟩ = ix2 (j 0) (0 : Fin 2) := by
    funext b; refine Fin.ext ?_
    match b with
    | ⟨0, _⟩ => rfl
    | ⟨1, _⟩ => rfl
  rw [hsi]
  rfl

/-- On axis 1 it starts at the pair's second component, read signed. -/
theorem pairScatter_start1 (idx : IVec ⟨2, ![E, 2]⟩ w) (j : (⟨2, ![E, C]⟩ : Shape).Idx) :
    (pairScatter wf).start j idx 1 = (idx (ix2 (j 0) (1 : Fin 2))).toInt := by
  unfold ScatterDims.start
  have hm : (1 : Fin 3) ∈ (pairScatter wf).scatterDimsToOperandDims :=
    List.mem_cons_of_mem _ (List.mem_cons_self ..)
  rw [dif_pos hm]
  have hsi : (pairScatter wf).siIdx j ⟨List.idxOf (1 : Fin 3) (pairScatter wf).scatterDimsToOperandDims,
      List.idxOf_lt_length_iff.2 hm⟩ = ix2 (j 0) (1 : Fin 2) := by
    funext b; refine Fin.ext ?_
    match b with
    | ⟨0, _⟩ => rfl
    | ⟨1, _⟩ => rfl
  rw [hsi]
  rfl

/-- On axis 2, which no component goes to, it starts at 0. -/
theorem pairScatter_start2 (idx : IVec ⟨2, ![E, 2]⟩ w) (j : (⟨2, ![E, C]⟩ : Shape).Idx) :
    (pairScatter wf).start j idx 2 = 0 := by
  unfold ScatterDims.start
  rw [dif_neg (show (2 : Fin 3) ∉ ([0, 1] : List (Fin 3)) by decide)]

theorem pairScatter_window0 (j : (⟨2, ![E, C]⟩ : Shape).Idx) : (pairScatter wf).window j 0 = 0 := rfl
theorem pairScatter_window1 (j : (⟨2, ![E, C]⟩ : Shape).Idx) : (pairScatter wf).window j 1 = 0 := rfl
theorem pairScatter_window2 (j : (⟨2, ![E, C]⟩ : Shape).Idx) : (pairScatter wf).window j 2 = (j 1).val := rfl

/-- **Where an update lands**: update `(n, c)` lands on `(a, b, c')` exactly when the pair at `n`, read signed, is
    `(a, b)` and `c = c'`. -/
theorem pairScatter_lands_iff (idx : IVec ⟨2, ![E, 2]⟩ w) (j : (⟨2, ![E, C]⟩ : Shape).Idx) (a : Fin A) (b : Fin B) (c : Fin C) :
    (pairScatter wf).resultIdx? j idx = some (ix3 a b c)
      ↔ (idx (ix2 (j 0) (0 : Fin 2))).toInt = (a.val : Int) ∧ (idx (ix2 (j 0) (1 : Fin 2))).toInt = (b.val : Int)
          ∧ (j 1).val = c.val := by
  have s0 := pairScatter_start0 wf idx j
  have s1 := pairScatter_start1 wf idx j
  have s2 := pairScatter_start2 wf idx j
  have w0 := pairScatter_window0 wf j
  have w1 := pairScatter_window1 wf j
  have w2 := pairScatter_window2 wf j
  have la := a.isLt
  have lb := b.isLt
  have lc := c.isLt
  unfold ScatterDims.resultIdx?
  constructor
  · intro h
    split at h
    · rename_i hb
      have e := Option.some.inj h
      have e0 : ((pairScatter wf).start j idx 0 + ((pairScatter wf).window j 0 : Int)).toNat = a.val :=
        congrArg (fun f : (⟨3, ![A, B, C]⟩ : Shape).Idx => (f 0).val) e
      have e1 : ((pairScatter wf).start j idx 1 + ((pairScatter wf).window j 1 : Int)).toNat = b.val :=
        congrArg (fun f : (⟨3, ![A, B, C]⟩ : Shape).Idx => (f 1).val) e
      have e2 : ((pairScatter wf).start j idx 2 + ((pairScatter wf).window j 2 : Int)).toNat = c.val :=
        congrArg (fun f : (⟨3, ![A, B, C]⟩ : Shape).Idx => (f 2).val) e
      have hb0 := (hb 0).1
      have hb1 := (hb 1).1
      rw [s0, w0] at e0 hb0
      rw [s1, w1] at e1 hb1
      rw [s2, w2] at e2
      refine ⟨by omega, by omega, by omega⟩
    · exact absurd h (by simp)
  · rintro ⟨h0, h1, h2⟩
    have hcond : ∀ a', 0 ≤ (pairScatter wf).start j idx a' + (pairScatter wf).window j a'
        ∧ (pairScatter wf).start j idx a' + (pairScatter wf).window j a' < (⟨3, ![A, B, C]⟩ : Shape).size a' := by
      intro a'
      match a' with
      | ⟨0, _⟩ =>
        show 0 ≤ (pairScatter wf).start j idx (0 : Fin 3) + ((pairScatter wf).window j (0 : Fin 3) : Int)
          ∧ (pairScatter wf).start j idx (0 : Fin 3) + ((pairScatter wf).window j (0 : Fin 3) : Int) < (A : Int)
        rw [s0, w0, h0]; omega
      | ⟨1, _⟩ =>
        show 0 ≤ (pairScatter wf).start j idx (1 : Fin 3) + ((pairScatter wf).window j (1 : Fin 3) : Int)
          ∧ (pairScatter wf).start j idx (1 : Fin 3) + ((pairScatter wf).window j (1 : Fin 3) : Int) < (B : Int)
        rw [s1, w1, h1]; omega
      | ⟨2, _⟩ =>
        show 0 ≤ (pairScatter wf).start j idx (2 : Fin 3) + ((pairScatter wf).window j (2 : Fin 3) : Int)
          ∧ (pairScatter wf).start j idx (2 : Fin 3) + ((pairScatter wf).window j (2 : Fin 3) : Int) < (C : Int)
        rw [s2, w2, h2]; omega
    rw [dif_pos hcond]
    refine congrArg some (funext fun a' => ?_)
    match a' with
    | ⟨0, _⟩ =>
      refine Fin.ext ?_
      show ((pairScatter wf).start j idx (0 : Fin 3) + ((pairScatter wf).window j (0 : Fin 3) : Int)).toNat = a.val
      rw [s0, w0, h0]; omega
    | ⟨1, _⟩ =>
      refine Fin.ext ?_
      show ((pairScatter wf).start j idx (1 : Fin 3) + ((pairScatter wf).window j (1 : Fin 3) : Int)).toNat = b.val
      rw [s1, w1, h1]; omega
    | ⟨2, _⟩ =>
      refine Fin.ext ?_
      show ((pairScatter wf).start j idx (2 : Fin 3) + ((pairScatter wf).window j (2 : Fin 3) : Int)).toNat = c.val
      rw [s2, w2, h2]; omega

variable (wg : GatherDims.WF ⟨3, ![A, B, C]⟩ ⟨2, ![E, 2]⟩ ⟨2, ![E, C]⟩ [1] [0, 1] [] [0, 1] [] 1 ![1, 1, C])

/-- The gather's operand index on axis 0: the pair's first component, read signed and clamped into the array. -/
theorem pairGather_idx0 (idx : IVec ⟨2, ![E, 2]⟩ w) (j : (⟨2, ![E, C]⟩ : Shape).Idx) :
    ((pairGather wg).operandIdx j idx 0).val = min (idx (ix2 (j 0) (0 : Fin 2))).toInt.toNat (A - 1) := by
  show (pairGather wg).start j idx 0 + (pairGather wg).batchCoord j 0 + (pairGather wg).offCoord j 0 = _
  rw [GatherDims.batchCoord_eq_zero _ _ _ List.not_mem_nil,
    GatherDims.offCoord_eq_zero _ _ _ (fun h => ((GatherDims.mem_sKept _ _).mp h).1 (List.mem_cons_self ..))]
  simp only [Nat.add_zero]
  unfold GatherDims.start
  have hm : (0 : Fin 3) ∈ (pairGather wg).startIndexMap := List.mem_cons_self ..
  rw [dif_pos hm]
  have hsi : (pairGather wg).siIdx j ⟨List.idxOf (0 : Fin 3) (pairGather wg).startIndexMap,
      List.idxOf_lt_length_iff.2 hm⟩ = ix2 (j 0) (0 : Fin 2) := by
    funext b; refine Fin.ext ?_
    match b with
    | ⟨0, _⟩ => rfl
    | ⟨1, _⟩ => rfl
  rw [hsi]
  rfl

/-- On axis 1: the pair's second component, read signed and clamped. -/
theorem pairGather_idx1 (idx : IVec ⟨2, ![E, 2]⟩ w) (j : (⟨2, ![E, C]⟩ : Shape).Idx) :
    ((pairGather wg).operandIdx j idx 1).val = min (idx (ix2 (j 0) (1 : Fin 2))).toInt.toNat (B - 1) := by
  show (pairGather wg).start j idx 1 + (pairGather wg).batchCoord j 1 + (pairGather wg).offCoord j 1 = _
  rw [GatherDims.batchCoord_eq_zero _ _ _ List.not_mem_nil,
    GatherDims.offCoord_eq_zero _ _ _ (fun h => ((GatherDims.mem_sKept _ _).mp h).1
      (List.mem_cons_of_mem _ (List.mem_cons_self ..)))]
  simp only [Nat.add_zero]
  unfold GatherDims.start
  have hm : (1 : Fin 3) ∈ (pairGather wg).startIndexMap := List.mem_cons_of_mem _ (List.mem_cons_self ..)
  rw [dif_pos hm]
  have hsi : (pairGather wg).siIdx j ⟨List.idxOf (1 : Fin 3) (pairGather wg).startIndexMap,
      List.idxOf_lt_length_iff.2 hm⟩ = ix2 (j 0) (1 : Fin 2) := by
    funext b; refine Fin.ext ?_
    match b with
    | ⟨0, _⟩ => rfl
    | ⟨1, _⟩ => rfl
  rw [hsi]
  rfl

/-- On axis 2, the row's own axis: the result's column. -/
theorem pairGather_idx2 (idx : IVec ⟨2, ![E, 2]⟩ w) (j : (⟨2, ![E, C]⟩ : Shape).Idx) :
    ((pairGather wg).operandIdx j idx 2).val = (j 1).val := by
  show (pairGather wg).start j idx 2 + (pairGather wg).batchCoord j 2 + (pairGather wg).offCoord j 2 = _
  rw [GatherDims.batchCoord_eq_zero _ _ _ List.not_mem_nil]
  have hs : (pairGather wg).start j idx 2 = 0 := by
    unfold GatherDims.start
    rw [dif_neg (show (2 : Fin 3) ∉ ([0, 1] : List (Fin 3)) by decide)]
  have ho : (pairGather wg).offCoord j 2 = (j 1).val := rfl
  rw [hs, ho]
  omega

/-- **The gather at `(n, c)`**: the operand's row at the pair at `n` — each component read signed and clamped into the
    array — at column `c`. -/
theorem pairGather_apply {α : Type} (hA : 0 < A) (hB : 0 < B) (x : (⟨3, ![A, B, C]⟩ : Shape).Idx → α)
    (idx : IVec ⟨2, ![E, 2]⟩ w) (j : (⟨2, ![E, C]⟩ : Shape).Idx) :
    Host.gather (pairGather wg) x idx j
      = x (ix3 ⟨min (idx (ix2 (j 0) (0 : Fin 2))).toInt.toNat (A - 1), by omega⟩
          ⟨min (idx (ix2 (j 0) (1 : Fin 2))).toInt.toNat (B - 1), by omega⟩ ⟨(j 1).val, idx2_lt1 j⟩) := by
  unfold Host.gather
  refine congrArg x (funext fun a => Fin.ext ?_)
  match a with
  | ⟨0, _⟩ => exact pairGather_idx0 wg idx j
  | ⟨1, _⟩ => exact pairGather_idx1 wg idx j
  | ⟨2, _⟩ => exact pairGather_idx2 wg idx j

end Pairs

end Cert.LibScatterLast
-- ==== Proof.Dispatch.lean ====
/-
  The dispatch buffer and the combine gather of the mixture-of-experts layer, read at an entry.

  Both programs place row `n` of the sorted token rows at slot `(E n, Q n)` of a zero buffer — `E n` the entry's expert,
  `Q n` its position in the expert's segment, clipped to the capacity 4096 — by an overwriting scatter at the index pairs
  `[E n, Q n]`, and later read the experts' output rows back at the same pairs. On overflow several entries share the slot
  `(e, 4096)`, so the targets are not distinct. The reference's buffer has extents [8, 4097, 1024], the kernel's
  [8, 4352, 1024] (17 tiles of 256 rows).

    * `padded_agree`: at every slot `(e, p)`, `p < 4097`, and column the two buffers hold the same element: an update lands
      on `(e, p, d)` in either program exactly when its entry's pair, read signed, is `(e, p)` and its column is `d`, so the
      same updates arrive in the same order.
    * `rows_beyond`, `paddedK_of_no_entry`, `paddedR_of_no_entry`: a slot no entry's pair names keeps the operand's
      element; in the kernel's buffer every row from 4097 on is such.
    * `gatherK_apply`, `gatherR_apply`: with `0 ≤ E n < 8` and `0 ≤ Q n ≤ 4096` the gather's clamps do nothing, and result
      row `n` is the operand's row at `(E n, Q n)`.
-/
import Idealize.ShloMosaic.Lib.ValueIdx
import Idealize.ShloMosaic.Lib.Pipeline.Value
import proofs.«167530_j18451179504175_2_alg».proof.KernelIdeal
import proofs.«167530_j18451179504175_2_alg».proof.ReferenceIdeal
import proofs.«167530_j18451179504175_2_alg».proof.Proof.Gen.KernelIdeal
import proofs.«167530_j18451179504175_2_alg».proof.Proof.Gen.ReferenceIdeal
import proofs.«167530_j18451179504175_2_alg».proof.Proof.LibScatterLast

namespace Cert.Dispatch

open Idealize.ShloMosaic Idealize.ShloMosaic.ValueIdx
open Cert.LibScatterLast

/-! ## Signed 32-bit words that are small naturals -/

/-- A word that is non-negative read signed is the same natural read either way. -/
theorem toInt_toNat_eq (x : BitVec 32) (h0 : 0 ≤ x.toInt) : x.toInt.toNat = x.toNat := by
  have hx := x.isLt
  rw [BitVec.toInt_eq_toNat_cond] at h0 ⊢
  by_cases hc : 2 * x.toNat < 2 ^ 32
  · rw [if_pos hc]; omega
  · rw [if_neg hc] at h0; omega

theorem toNat_lt_of_toInt {x : BitVec 32} {n : Nat} (h0 : 0 ≤ x.toInt) (h1 : x.toInt < (n : Int)) : x.toNat < n := by
  have := toInt_toNat_eq x h0
  omega

theorem toNat_le_of_toInt {x : BitVec 32} {n : Nat} (h0 : 0 ≤ x.toInt) (h1 : x.toInt ≤ (n : Int)) : x.toNat ≤ n := by
  have := toInt_toNat_eq x h0
  omega

/-! ## The index pairs, in each program's spelling -/

/-- The kernel's index array: column 0 the experts, column 1 the slots. -/
abbrev idxK (E Q : IVec KernelIdeal.S16384 32) : IVec KernelIdeal.S16384x2 32 :=
  concatenate KernelIdeal.S16384x2 1
    [⟨KernelIdeal.S16384x1, broadcastInDim KernelIdeal.S16384x1 ![0] KernelIdeal.Facts₀.bcast_S16384_S16384x1_0 E⟩,
     ⟨KernelIdeal.S16384x1, broadcastInDim KernelIdeal.S16384x1 ![0] KernelIdeal.Facts₀.bcast_S16384_S16384x1_0 Q⟩]
    KernelIdeal.Facts₀.concatenates_S16384x1_S16384x1_S16384x2_d1

/-- The reference's index array. -/
abbrev idxR (E Q : IVec ReferenceIdeal.S16384 32) : IVec ReferenceIdeal.S16384x2 32 :=
  concatenate ReferenceIdeal.S16384x2 1
    [⟨ReferenceIdeal.S16384x1, broadcastInDim ReferenceIdeal.S16384x1 ![0] ReferenceIdeal.Facts₀.bcast_S16384_S16384x1_0 E⟩,
     ⟨ReferenceIdeal.S16384x1, broadcastInDim ReferenceIdeal.S16384x1 ![0] ReferenceIdeal.Facts₀.bcast_S16384_S16384x1_0 Q⟩]
    ReferenceIdeal.Facts₀.concatenates_S16384x1_S16384x1_S16384x2_d1

/-- A column array `[16384, 1]` made of a vector, read at row `n`. -/
theorem column_apply (E : IVec ⟨1, ![16384]⟩ 32)
    (hb : (⟨1, ![16384]⟩ : Shape).BroadcastsInDim ⟨2, ![16384, 1]⟩ (![0] : Fin 1 → Fin 2)) (n : Fin 16384) :
    broadcastInDim (⟨2, ![16384, 1]⟩ : Shape) ![0] hb E (ix2 n (0 : Fin 1)) = E (ix1 n) := by
  refine broadcastInDim_apply _ hb E _ (ix1 n) (fun a => ?_)
  obtain rfl : a = 0 := Subsingleton.elim _ _
  rw [if_neg (by decide)]
  rfl

/-- The pair array at `(n, 0)` is the first vector at `n`. -/
theorem pairs_col0 (E Q : IVec ⟨1, ![16384]⟩ 32)
    (hb : (⟨1, ![16384]⟩ : Shape).BroadcastsInDim ⟨2, ![16384, 1]⟩ (![0] : Fin 1 → Fin 2))
    (hc : Shape.Concatenates [(⟨2, ![16384, 1]⟩ : Shape), ⟨2, ![16384, 1]⟩] ⟨2, ![16384, 2]⟩ 1) (n : Fin 16384) :
    concatenate (⟨2, ![16384, 2]⟩ : Shape) 1
      [⟨⟨2, ![16384, 1]⟩, broadcastInDim (⟨2, ![16384, 1]⟩ : Shape) ![0] hb E⟩,
       ⟨⟨2, ![16384, 1]⟩, broadcastInDim (⟨2, ![16384, 1]⟩ : Shape) ![0] hb Q⟩] hc (ix2 n (0 : Fin 2)) = E (ix1 n) := by
  refine (concatenate_pair_apply_left (t := ⟨2, ![16384, 2]⟩) (s₁ := ⟨2, ![16384, 1]⟩) (s₂ := ⟨2, ![16384, 1]⟩) (1 : Fin 2)
    (broadcastInDim (⟨2, ![16384, 1]⟩ : Shape) ![0] hb E) (broadcastInDim (⟨2, ![16384, 1]⟩ : Shape) ![0] hb Q) hc
    (ix2 n (0 : Fin 2)) rfl (ix2 n (0 : Fin 1)) ?_).trans ?_
  · intro b
    match b with
    | ⟨0, _⟩ => rfl
    | ⟨1, _⟩ => rfl
  · exact column_apply E hb n

/-- The pair array at `(n, 1)` is the second vector at `n`. -/
theorem pairs_col1 (E Q : IVec ⟨1, ![16384]⟩ 32)
    (hb : (⟨1, ![16384]⟩ : Shape).BroadcastsInDim ⟨2, ![16384, 1]⟩ (![0] : Fin 1 → Fin 2))
    (hc : Shape.Concatenates [(⟨2, ![16384, 1]⟩ : Shape), ⟨2, ![16384, 1]⟩] ⟨2, ![16384, 2]⟩ 1) (n : Fin 16384) :
    concatenate (⟨2, ![16384, 2]⟩ : Shape) 1
      [⟨⟨2, ![16384, 1]⟩, broadcastInDim (⟨2, ![16384, 1]⟩ : Shape) ![0] hb E⟩,
       ⟨⟨2, ![16384, 1]⟩, broadcastInDim (⟨2, ![16384, 1]⟩ : Shape) ![0] hb Q⟩] hc (ix2 n (1 : Fin 2)) = Q (ix1 n) := by
  refine (concatenate_pair_apply_right (t := ⟨2, ![16384, 2]⟩) (s₁ := ⟨2, ![16384, 1]⟩) (s₂ := ⟨2, ![16384, 1]⟩) (1 : Fin 2)
    (broadcastInDim (⟨2, ![16384, 1]⟩ : Shape) ![0] hb E) (broadcastInDim (⟨2, ![16384, 1]⟩ : Shape) ![0] hb Q) hc
    (ix2 n (1 : Fin 2)) rfl rfl (ix2 n (0 : Fin 1)) ?_ ?_).trans ?_
  · intro b hb'
    match b with
    | ⟨0, _⟩ => rfl
    | ⟨1, _⟩ => exact absurd rfl hb'
  · rfl
  · exact column_apply Q hb n

theorem idxK_col0 (E Q : IVec KernelIdeal.S16384 32) (n : Fin 16384) : idxK E Q (ix2 n (0 : Fin 2)) = E (ix1 n) :=
  pairs_col0 E Q _ _ n
theorem idxK_col1 (E Q : IVec KernelIdeal.S16384 32) (n : Fin 16384) : idxK E Q (ix2 n (1 : Fin 2)) = Q (ix1 n) :=
  pairs_col1 E Q _ _ n
theorem idxR_col0 (E Q : IVec ReferenceIdeal.S16384 32) (n : Fin 16384) : idxR E Q (ix2 n (0 : Fin 2)) = E (ix1 n) :=
  pairs_col0 E Q _ _ n
theorem idxR_col1 (E Q : IVec ReferenceIdeal.S16384 32) (n : Fin 16384) : idxR E Q (ix2 n (1 : Fin 2)) = Q (ix1 n) :=
  pairs_col1 E Q _ _ n

/-! ## Where an update lands, in each program -/

/-- The kernel's scatter dimension numbers are the pair scatter's, over `[8, 4352, 1024]`. -/
theorem scatterK_eq :
    KernelIdeal.scatter_S8x4352x1024_S16384x2_S16384x1024_1_01_01_1
      = pairScatter (A := 8) (B := 4352) (C := 1024) (E := 16384)
          KernelIdeal.Facts₀.scatter_S8x4352x1024_S16384x2_S16384x1024_1_01_01_1_wf := rfl

/-- The reference's, over `[8, 4097, 1024]`. -/
theorem scatterR_eq :
    ReferenceIdeal.scatter_S8x4097x1024_S16384x2_S16384x1024_1_01_01_1
      = pairScatter (A := 8) (B := 4097) (C := 1024) (E := 16384)
          ReferenceIdeal.Facts₀.scatter_S8x4097x1024_S16384x2_S16384x1024_1_01_01_1_wf := rfl

/-- In the kernel, update `(n, c)` lands on `(a, b, c')` exactly when entry `n`'s pair, read signed, is `(a, b)` and
    `c = c'`. -/
theorem landsK_iff (E Q : IVec KernelIdeal.S16384 32) (n : Fin 16384) (c : Fin 1024) (a : Fin 8) (b : Fin 4352)
    (c' : Fin 1024) :
    KernelIdeal.scatter_S8x4352x1024_S16384x2_S16384x1024_1_01_01_1.resultIdx? (ix2 n c) (idxK E Q) = some (ix3 a b c')
      ↔ (E (ix1 n)).toInt = (a.val : Int) ∧ (Q (ix1 n)).toInt = (b.val : Int) ∧ c.val = c'.val := by
  rw [scatterK_eq]
  refine (pairScatter_lands_iff _ (idxK E Q) (ix2 n c) a b c').trans ?_
  show (idxK E Q (ix2 n (0 : Fin 2))).toInt = _ ∧ (idxK E Q (ix2 n (1 : Fin 2))).toInt = _ ∧ _ ↔ _
  rw [idxK_col0, idxK_col1]

/-- In the reference, likewise. -/
theorem landsR_iff (E Q : IVec ReferenceIdeal.S16384 32) (n : Fin 16384) (c : Fin 1024) (a : Fin 8) (b : Fin 4097)
    (c' : Fin 1024) :
    ReferenceIdeal.scatter_S8x4097x1024_S16384x2_S16384x1024_1_01_01_1.resultIdx? (ix2 n c) (idxR E Q) = some (ix3 a b c')
      ↔ (E (ix1 n)).toInt = (a.val : Int) ∧ (Q (ix1 n)).toInt = (b.val : Int) ∧ c.val = c'.val := by
  rw [scatterR_eq]
  refine (pairScatter_lands_iff _ (idxR E Q) (ix2 n c) a b c').trans ?_
  show (idxR E Q (ix2 n (0 : Fin 2))).toInt = _ ∧ (idxR E Q (ix2 n (1 : Fin 2))).toInt = _ ∧ _ ↔ _
  rw [idxR_col0, idxR_col1]

/-! ## The dispatch buffer -/

/-- **The two dispatch buffers agree on the reference's rows.** For operands that agree at `(e, p, d)`, `p < 4097`, the
    kernel's overwriting scatter of the rows `U` (rounded to bf16: the identity on extended reals) into `[8, 4352, 1024]`
    and the reference's scatter of `U` into `[8, 4097, 1024]` hold the same element there, whatever the index pairs. -/
theorem padded_agree (E Q : IVec KernelIdeal.S16384 32) (ZK : FVec Ideal KernelIdeal.S8x4352x1024 .bf16)
    (ZR : FVec Ideal ReferenceIdeal.S8x4097x1024 .f32) (U : FVec Ideal KernelIdeal.S16384x1024 .f32)
    (e : Fin 8) (p : Fin 4097) (d : Fin 1024)
    (hZ : ZK (ix3 e ⟨p.val, Nat.lt_of_lt_of_le p.isLt (by decide)⟩ d) = ZR (ix3 e p d)) :
    Host.scatter KernelIdeal.scatter_S8x4352x1024_S16384x2_S16384x1024_1_01_01_1 (fun _ b => b) ZK (idxK E Q)
        (truncf .bf16 U KernelIdeal.Facts₀.bitsLt_bf16_f32) (ix3 e ⟨p.val, Nat.lt_of_lt_of_le p.isLt (by decide)⟩ d)
      = Host.scatter ReferenceIdeal.scatter_S8x4097x1024_S16384x2_S16384x1024_1_01_01_1 (fun _ b => b) ZR (idxR E Q) U
          (ix3 e p d) := by
  refine scatter_agree _ _ ZK ZR (idxK E Q) (idxR E Q) _ U _ _ hZ (fun _ => rfl) (fun j => ?_)
  obtain ⟨n, c, rfl⟩ : ∃ n c, j = ix2 n c := ⟨j 0, j 1, eq_ix2 j⟩
  exact (landsK_iff E Q n c e ⟨p.val, _⟩ d).trans (landsR_iff E Q n c e p d).symm

/-- A slot of the kernel's buffer that no entry's pair names keeps the operand's element. -/
theorem paddedK_of_no_entry {α : Type} (E Q : IVec KernelIdeal.S16384 32) (ZK : KernelIdeal.S8x4352x1024.Idx → α)
    (V : KernelIdeal.S16384x1024.Idx → α) (e : Fin 8) (p : Fin 4352) (d : Fin 1024)
    (h : ∀ n : Fin 16384, ¬((E (ix1 n)).toInt = (e.val : Int) ∧ (Q (ix1 n)).toInt = (p.val : Int))) :
    Host.scatter KernelIdeal.scatter_S8x4352x1024_S16384x2_S16384x1024_1_01_01_1 (fun _ b => b) ZK (idxK E Q) V
        (ix3 e p d) = ZK (ix3 e p d) := by
  refine scatter_apply_of_none _ ZK (idxK E Q) V _ (fun j hj => ?_)
  obtain ⟨n, c, rfl⟩ : ∃ n c, j = ix2 n c := ⟨j 0, j 1, eq_ix2 j⟩
  obtain ⟨h0, h1, _⟩ := (landsK_iff E Q n c e p d).1 hj
  exact h n ⟨h0, h1⟩

/-- A slot of the reference's buffer that no entry's pair names keeps the operand's element. -/
theorem paddedR_of_no_entry {α : Type} (E Q : IVec ReferenceIdeal.S16384 32) (ZR : ReferenceIdeal.S8x4097x1024.Idx → α)
    (V : ReferenceIdeal.S16384x1024.Idx → α) (e : Fin 8) (p : Fin 4097) (d : Fin 1024)
    (h : ∀ n : Fin 16384, ¬((E (ix1 n)).toInt = (e.val : Int) ∧ (Q (ix1 n)).toInt = (p.val : Int))) :
    Host.scatter ReferenceIdeal.scatter_S8x4097x1024_S16384x2_S16384x1024_1_01_01_1 (fun _ b => b) ZR (idxR E Q) V
        (ix3 e p d) = ZR (ix3 e p d) := by
  refine scatter_apply_of_none _ ZR (idxR E Q) V _ (fun j hj => ?_)
  obtain ⟨n, c, rfl⟩ : ∃ n c, j = ix2 n c := ⟨j 0, j 1, eq_ix2 j⟩
  obtain ⟨h0, h1, _⟩ := (landsR_iff E Q n c e p d).1 hj
  exact h n ⟨h0, h1⟩

/-- **The kernel's rows from 4097 on are untouched**: every slot is at most 4096. -/
theorem rows_beyond {α : Type} (E Q : IVec KernelIdeal.S16384 32) (hQ : ∀ i, 0 ≤ (Q i).toInt ∧ (Q i).toInt ≤ 4096)
    (ZK : KernelIdeal.S8x4352x1024.Idx → α) (V : KernelIdeal.S16384x1024.Idx → α) (e : Fin 8) (p : Fin 4352)
    (hp : 4097 ≤ p.val) (d : Fin 1024) :
    Host.scatter KernelIdeal.scatter_S8x4352x1024_S16384x2_S16384x1024_1_01_01_1 (fun _ b => b) ZK (idxK E Q) V
        (ix3 e p d) = ZK (ix3 e p d) :=
  paddedK_of_no_entry E Q ZK V e p d (fun n hn => by have := (hQ (ix1 n)).2; omega)

/-! ## The combine gather -/

/-- The kernel's gather dimension numbers are the pair gather's, over `[8, 4352, 1024]`. -/
theorem gatherK_eq :
    KernelIdeal.gather_S8x4352x1024_S16384x2_S16384x1024_1_01_n_n_01_1_111024
      = pairGather (A := 8) (B := 4352) (C := 1024) (E := 16384)
          KernelIdeal.Facts₀.gather_S8x4352x1024_S16384x2_S16384x1024_1_01_n_n_01_1_111024_wf := rfl

/-- The reference's, over `[8, 4097, 1024]`. -/
theorem gatherR_eq :
    ReferenceIdeal.gather_S8x4097x1024_S16384x2_S16384x1024_1_01_n_n_01_1_111024
      = pairGather (A := 8) (B := 4097) (C := 1024) (E := 16384)
          ReferenceIdeal.Facts₀.gather_S8x4097x1024_S16384x2_S16384x1024_1_01_n_n_01_1_111024_wf := rfl

/-- **The kernel's combine gather at `(n, d)`**: the operand at `(E n, Q n, d)`; with `E n < 8` and `Q n ≤ 4096` no clamp
    fires. -/
theorem gatherK_apply {α : Type} (E Q : IVec KernelIdeal.S16384 32)
    (hE : ∀ i, 0 ≤ (E i).toInt ∧ (E i).toInt < 8) (hQ : ∀ i, 0 ≤ (Q i).toInt ∧ (Q i).toInt ≤ 4096)
    (X : KernelIdeal.S8x4352x1024.Idx → α) (n : Fin 16384) (d : Fin 1024) :
    Host.gather KernelIdeal.gather_S8x4352x1024_S16384x2_S16384x1024_1_01_n_n_01_1_111024 X (idxK E Q) (ix2 n d)
      = X (ix3 ⟨(E (ix1 n)).toNat, toNat_lt_of_toInt (n := 8) (hE _).1 (hE _).2⟩
            ⟨(Q (ix1 n)).toNat, Nat.lt_of_le_of_lt (toNat_le_of_toInt (n := 4096) (hQ _).1 (hQ _).2) (by decide)⟩ d) := by
  rw [gatherK_eq]
  refine (pairGather_apply _ (by decide) (by decide) X (idxK E Q) (ix2 n d)).trans (congrArg X ?_)
  have h0 : idxK E Q (ix2 n (0 : Fin 2)) = E (ix1 n) := idxK_col0 E Q n
  have h1 : idxK E Q (ix2 n (1 : Fin 2)) = Q (ix1 n) := idxK_col1 E Q n
  have b0 := toNat_lt_of_toInt (n := 8) (hE (ix1 n)).1 (hE (ix1 n)).2
  have b1 := toNat_le_of_toInt (n := 4096) (hQ (ix1 n)).1 (hQ (ix1 n)).2
  funext a
  match a with
  | ⟨0, _⟩ =>
    refine Fin.ext ?_
    show min (idxK E Q (ix2 n (0 : Fin 2))).toInt.toNat (8 - 1) = (E (ix1 n)).toNat
    rw [h0, toInt_toNat_eq _ (hE _).1]
    omega
  | ⟨1, _⟩ =>
    refine Fin.ext ?_
    show min (idxK E Q (ix2 n (1 : Fin 2))).toInt.toNat (4352 - 1) = (Q (ix1 n)).toNat
    rw [h1, toInt_toNat_eq _ (hQ _).1]
    omega
  | ⟨2, _⟩ => rfl

/-- **The reference's combine gather at `(n, d)`**: the operand at `(E n, Q n, d)`. -/
theorem gatherR_apply {α : Type} (E Q : IVec ReferenceIdeal.S16384 32)
    (hE : ∀ i, 0 ≤ (E i).toInt ∧ (E i).toInt < 8) (hQ : ∀ i, 0 ≤ (Q i).toInt ∧ (Q i).toInt ≤ 4096)
    (X : ReferenceIdeal.S8x4097x1024.Idx → α) (n : Fin 16384) (d : Fin 1024) :
    Host.gather ReferenceIdeal.gather_S8x4097x1024_S16384x2_S16384x1024_1_01_n_n_01_1_111024 X (idxR E Q) (ix2 n d)
      = X (ix3 ⟨(E (ix1 n)).toNat, toNat_lt_of_toInt (n := 8) (hE _).1 (hE _).2⟩
            ⟨(Q (ix1 n)).toNat, Nat.lt_of_le_of_lt (toNat_le_of_toInt (n := 4096) (hQ _).1 (hQ _).2) (by decide)⟩ d) := by
  rw [gatherR_eq]
  refine (pairGather_apply _ (by decide) (by decide) X (idxR E Q) (ix2 n d)).trans (congrArg X ?_)
  have h0 : idxR E Q (ix2 n (0 : Fin 2)) = E (ix1 n) := idxR_col0 E Q n
  have h1 : idxR E Q (ix2 n (1 : Fin 2)) = Q (ix1 n) := idxR_col1 E Q n
  have b0 := toNat_lt_of_toInt (n := 8) (hE (ix1 n)).1 (hE (ix1 n)).2
  have b1 := toNat_le_of_toInt (n := 4096) (hQ (ix1 n)).1 (hQ (ix1 n)).2
  funext a
  match a with
  | ⟨0, _⟩ =>
    refine Fin.ext ?_
    show min (idxR E Q (ix2 n (0 : Fin 2))).toInt.toNat (8 - 1) = (E (ix1 n)).toNat
    rw [h0, toInt_toNat_eq _ (hE _).1]
    omega
  | ⟨1, _⟩ =>
    refine Fin.ext ?_
    show min (idxR E Q (ix2 n (1 : Fin 2))).toInt.toNat (4097 - 1) = (Q (ix1 n)).toNat
    rw [h1, toInt_toNat_eq _ (hQ _).1]
    omega
  | ⟨2, _⟩ => rfl

/-! ## The zero buffers -/

/-- The kernel's zero buffer, read anywhere, is 0. -/
theorem zerosK_apply (k : KernelIdeal.S8x4352x1024.Idx) :
    broadcastInDim KernelIdeal.S8x4352x1024 ![] KernelIdeal.Facts₀.bcast_S_S8x4352x1024
      (constant (F := Ideal) KernelIdeal.S_ .bf16 0x0000#16) k = 0 := by
  show Ideal.ofBits .bf16 0x0000#16 = 0
  simp [Ideal.ofBits, Ideal.ieee]

/-- The reference's zero buffer, read anywhere, is 0. -/
theorem zerosR_apply (k : ReferenceIdeal.S8x4097x1024.Idx) :
    broadcastInDim ReferenceIdeal.S8x4097x1024 ![] ReferenceIdeal.Facts₀.bcast_S_S8x4097x1024
      (constant (F := Ideal) ReferenceIdeal.S_ .f32 0x00000000#32) k = 0 := by
  show Ideal.ofBits .f32 0x00000000#32 = 0
  simp [Ideal.ofBits, Ideal.ieee]

/-- **The two dispatch buffers, scattered into the programs' zero buffers, agree on the reference's rows.** -/
theorem padded_agree_zeros (E Q : IVec KernelIdeal.S16384 32) (U : FVec Ideal KernelIdeal.S16384x1024 .f32)
    (e : Fin 8) (p : Fin 4097) (d : Fin 1024) :
    Host.scatter KernelIdeal.scatter_S8x4352x1024_S16384x2_S16384x1024_1_01_01_1 (fun _ b => b)
        (broadcastInDim KernelIdeal.S8x4352x1024 ![] KernelIdeal.Facts₀.bcast_S_S8x4352x1024
          (constant (F := Ideal) KernelIdeal.S_ .bf16 0x0000#16)) (idxK E Q)
        (truncf .bf16 U KernelIdeal.Facts₀.bitsLt_bf16_f32) (ix3 e ⟨p.val, Nat.lt_of_lt_of_le p.isLt (by decide)⟩ d)
      = Host.scatter ReferenceIdeal.scatter_S8x4097x1024_S16384x2_S16384x1024_1_01_01_1 (fun _ b => b)
          (broadcastInDim ReferenceIdeal.S8x4097x1024 ![] ReferenceIdeal.Facts₀.bcast_S_S8x4097x1024
            (constant (F := Ideal) ReferenceIdeal.S_ .f32 0x00000000#32)) (idxR E Q) U (ix3 e p d) :=
  padded_agree E Q _ _ U e p d ((zerosK_apply _).trans (zerosR_apply _).symm)

end Cert.Dispatch
-- ==== Proof.KStages.lean ====
/- The kernel program's buffer contents at the entry of the expert network's region. Each generated list of host
   operations before the region is the concatenation of its windows of KOps (the same operations, a typed reference's
   conversions the identity at a literal buffer, a named concatenate unfolded), so the fold over the seven lists from the
   launch memory is the sixteenth window's contents; read there: the table, the dispatch buffer, the three weight arrays
   in bf16, and the routing vectors the later stretches use, each at its composed term of the arguments. -/
import proofs.«167530_j18451179504175_2_alg».proof.Proof.KRunA
import proofs.«167530_j18451179504175_2_alg».proof.Proof.KWindows
import proofs.«167530_j18451179504175_2_alg».proof.Proof.Dispatch

noncomputable section

namespace Cert.KernelIdeal.Stages

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-! ## Each generated list is its windows -/

theorem hostOps0_cut : (hostOps0 : List (HloOp τ sig (Elt F))) = hostOps0_windows := rfl
theorem hostOps0_1_cut : (hostOps0_1 : List (HloOp τ sig (Elt F))) = hostOps0_1_windows := rfl
set_option maxRecDepth 8192 in
theorem hostOps0_2_cut : (hostOps0_2 : List (HloOp τ sig (Elt F))) = hostOps0_2_windows := rfl
theorem hostOps0_3_cut : (hostOps0_3 : List (HloOp τ sig (Elt F))) = hostOps0_3_windows := rfl
theorem hostOps0_4_cut : (hostOps0_4 : List (HloOp τ sig (Elt F))) = hostOps0_4_windows := rfl
set_option maxHeartbeats 4000000 in
set_option maxRecDepth 8192 in
theorem hostOps0_5_cut : (hostOps0_5 : List (HloOp τ sig (Elt F))) = hostOps0_5_windows := rfl
set_option maxRecDepth 8192 in
theorem hostOps0_6_cut : (hostOps0_6 : List (HloOp τ sig (Elt F))) = hostOps0_6_windows := rfl

variable (m : (ℓ : Loc nD τ sig) → Buf (Elt F) ℓ) (ρ : Dev nD → PrngReg)

/-- The contents at the region's entry are those after the sixteen windows, from the launch memory. -/
theorem W7_eq (c : Dev nD) : W7 m ρ c = val16 (W0 m ρ c) := by
  show after hostOps0_6 (after hostOps0_5 (after hostOps0_4 (after hostOps0_3 (after hostOps0_2 (after hostOps0_1
    (after hostOps0 (W0 m ρ c))))))) = _
  rw [hostOps0_cut, hostOps0_1_cut, hostOps0_2_cut, hostOps0_3_cut, hostOps0_4_cut, hostOps0_5_cut, hostOps0_6_cut]
  simp only [hostOps0_windows, hostOps0_1_windows, hostOps0_2_windows, hostOps0_3_windows, hostOps0_4_windows,
    hostOps0_5_windows, hostOps0_6_windows, after_app]
  rfl

/-- Read at one buffer. -/
theorem W7_at (c : Dev nD) (b : Ref sig .tc) : W7 m ρ c (Proc.devRef .tc b) = val16 (W0 m ρ c) (Proc.devRef .tc b) :=
  congrFun (W7_eq m ρ c) _

/-! ## The values at the region's entry -/

/-- The table of rows to compute per expert: the counts capped at 4097. -/
theorem v55_eq (c : Dev nD) : V7 m ρ c main_v55 = Route.table (m ((c : Thread nD τ).loc main_arg1)) :=
  (W7_at m ρ c main_v55).trans (val16_main_v55 (W0 m ρ c))

/-- The dispatch buffer: the sorted token rows in bf16, written over zeros at (expert, capped position). -/
theorem v78_eq (c : Dev nD) : V7 m ρ c main_v78
    = Host.scatter scatter_S8x4352x1024_S16384x2_S16384x1024_1_01_01_1 (fun _ b => b)
        (broadcastInDim S8x4352x1024 ![] bcast_S_S8x4352x1024 (constant S_ .bf16 0x0000#16))
        (Cert.Dispatch.idxK (Route.wrapS16384 (Route.seid (m ((c : Thread nD τ).loc main_arg1))) 8#32)
          (Route.wrapS16384 (Route.posc (m ((c : Thread nD τ).loc main_arg1))) 4352#32))
        (truncf .bf16 (Host.gather gather_S8192x1024_S16384x1_S16384x1024_1_0_n_n_0_1_11024
          (m ((c : Thread nD τ).loc main_arg0))
          (Route.col (Route.wrapS16384 (Route.stok (m ((c : Thread nD τ).loc main_arg1))) 8192#32))) bitsLt_bf16_f32) :=
  (W7_at m ρ c main_v78).trans ((val16_main_v78 (W0 m ρ c)).trans rfl)

/-- The three weight arrays, in bf16. -/
theorem v79_eq (c : Dev nD) : V7 m ρ c main_v79 = truncf .bf16 (m ((c : Thread nD τ).loc main_arg3)) bitsLt_bf16_f32 :=
  (W7_at m ρ c main_v79).trans (val16_main_v79 (W0 m ρ c))
theorem v80_eq (c : Dev nD) : V7 m ρ c main_v80 = truncf .bf16 (m ((c : Thread nD τ).loc main_arg4)) bitsLt_bf16_f32 :=
  (W7_at m ρ c main_v80).trans (val16_main_v80 (W0 m ρ c))
theorem v81_eq (c : Dev nD) : V7 m ρ c main_v81 = truncf .bf16 (m ((c : Thread nD τ).loc main_arg5)) bitsLt_bf16_f32 :=
  (W7_at m ρ c main_v81).trans (val16_main_v81 (W0 m ρ c))

/-- The routing vectors the operations after the region read. -/
theorem v12_eq (c : Dev nD) : W7 m ρ c (Proc.devRef .tc main_v12) = Route.stok (m ((c : Thread nD τ).loc main_arg1)) :=
  (W7_at m ρ c main_v12).trans (val16_main_v12 (W0 m ρ c))
theorem v19_eq (c : Dev nD) : W7 m ρ c (Proc.devRef .tc main_v19) = Route.seid (m ((c : Thread nD τ).loc main_arg1)) :=
  (W7_at m ρ c main_v19).trans (val16_main_v19 (W0 m ρ c))
theorem v53_eq (c : Dev nD) : W7 m ρ c (Proc.devRef .tc main_v53) = Route.posc (m ((c : Thread nD τ).loc main_arg1)) :=
  (W7_at m ρ c main_v53).trans (val16_main_v53 (W0 m ρ c))
theorem v51_eq (c : Dev nD) : W7 m ρ c (Proc.devRef .tc main_v51) = Route.valid (m ((c : Thread nD τ).loc main_arg1)) :=
  (W7_at m ρ c main_v51).trans (val16_main_v51 (W0 m ρ c))
theorem v26_eq (c : Dev nD) : W7 m ρ c (Proc.devRef .tc main_v26)
    = Host.gather gather_S16384_S16384x1_S16384_n_0_n_n_0_1_1
        (shapeCast S16384 (m ((c : Thread nD τ).loc main_arg2)) shapeCasts_S8192x2_S16384)
        (Route.col (Route.wrapS16384 (Route.order (m ((c : Thread nD τ).loc main_arg1))) 16384#32)) :=
  (W7_at m ρ c main_v26).trans ((val16_main_v26 (W0 m ρ c)).trans rfl)

end Cert.KernelIdeal.Stages

end
-- ==== Proof.KTail.lean ====
/-
  The kernel program's last operations, over arbitrary buffer contents.

  After the expert network's array is written, the program gathers each sorted position's output row at its
  (expert, capped slot) pair, widens it, multiplies it by the position's weight — kept where the slot is below the
  capacity, zero elsewhere — and adds the rows into a zero array at the positions' tokens. Run from ANY contents W of the
  buffers, the result buffer ends at that one composed term of six of W's buffers: the tokens, experts, weights, validity
  bits and capped slots of the sorted positions, and the network's output array.
-/
import proofs.«167530_j18451179504175_2_alg».proof.Proof.KRunA
import proofs.«167530_j18451179504175_2_alg».proof.Proof.Route
import proofs.«167530_j18451179504175_2_alg».proof.Proof.Dispatch
import Idealize.ShloMosaic.Lib.StableHlo.Run

set_option maxRecDepth 16384

noncomputable section

namespace Cert.KernelIdeal.Tail

open Cert.KernelIdeal Cert.KernelIdeal.Gen Cert.KernelIdeal.Hand Cert.KernelIdeal.Route
open Idealize.ShloMosaic Idealize.ShloMosaic.TcCoe Idealize.ShloMosaic.StableHlo
open Idealize.SL.Sem

variable {F : FTy → Type} [FloatOps F]

/-- The composed term of the program's last operations, of the six buffers it reads. -/
def tailTerm (V12 V19 V53 : IVec S16384 32) (V26 : FVec F S16384 .f32) (V51 : IVec S16384 1)
    (V82 : FVec F S8x4352x1024 .bf16) : FVec F S8192x1024 .f32 :=
  Host.scatterAdd scatter_S8192x1024_S16384x1_S16384x1024_1_0_0_1
    (broadcastInDim S8192x1024 ![] bcast_S_S8192x1024 (constant S_ .f32 0x00000000#32))
    (col (wrapS16384 V12 8192#32))
    (mulf
      (extf .f32 (Host.gather gather_S8x4352x1024_S16384x2_S16384x1024_1_01_n_n_01_1_111024 V82
        (Cert.Dispatch.idxK (wrapS16384 V19 8#32) (wrapS16384 V53 4352#32))) bitsLt_bf16_f32)
      (broadcastInDim S16384x1024 ![0, 1] bcast_S16384x1_S16384x1024_0_1
        (broadcastInDim S16384x1 ![0] bcast_S16384_S16384x1_0
          (select V51 V26 (broadcastInDim S16384 ![] bcast_S_S16384 (id (constant S_ .f32 0x00000000#32)))))))

set_option maxHeartbeats 1000000 in
/-- **The result buffer after the last operations, run from any contents.** -/
theorem tail_eq (W : Valuation τ sig (Elt F)) :
    StableHlo.after (hostOps1_2 (F := F)) (StableHlo.after (hostOps1_1 (F := F)) (StableHlo.after (hostOps1 (F := F)) W))
        (Proc.devRef .tc main_v109)
      = tailTerm (W (Proc.devRef .tc main_v12)) (W (Proc.devRef .tc main_v19)) (W (Proc.devRef .tc main_v53))
          (W (Proc.devRef .tc main_v26)) (W (Proc.devRef .tc main_v51)) (W (Proc.devRef .tc main_v82)) := by
  simp only [hostOps1, hostOps1_1, hostOps1_2, StableHlo.TRef.unary, StableHlo.TRef.ternary]
  after_results_simp
  rfl

/-- The same at the contents the pipeline leaves: the program's result buffer at the return. -/
theorem res_at_W8 (m : (ℓ : Loc nD τ sig) → Buf (Elt F) ℓ) (ρ : Dev nD → PrngReg) (c : Dev nD) :
    W11 m ρ c (Proc.devRef .tc main_v109)
      = tailTerm (W8 m ρ c (Proc.devRef .tc main_v12)) (W8 m ρ c (Proc.devRef .tc main_v19))
          (W8 m ρ c (Proc.devRef .tc main_v53)) (W8 m ρ c (Proc.devRef .tc main_v26)) (W8 m ρ c (Proc.devRef .tc main_v51))
          (W8 m ρ c (Proc.devRef .tc main_v82)) :=
  tail_eq _

end Cert.KernelIdeal.Tail
end
-- ==== Proof.KOut.lean ====
/-
  The expert network's output array after the pipeline, from its blocks.

  The pipeline visits the 8 × 17 grid in row-major order: point t = e·17 + r handles rows r·256 … r·256 + 255 of expert e.
  Its input blocks are the corresponding rows of the dispatch buffer and expert e's three weight matrices; its output
  block is written back at every point to the same rows of the output array. Hence the output array holds, at
  (e, r·256 + y, d), entry (0, y, d) of what the body leaves at point e·17 + r, and the input arrays are unchanged.
  The table's word the body reads at that point is the table's entry e, and the body applies the network exactly when
  r·256, as a signed word, is below it.
-/
import proofs.«167530_j18451179504175_2_alg».proof.Proof.KDat
import Idealize.ShloMosaic.Lib.ValueIdx
import Idealize.ShloMosaic.Lib.Pipeline.Value

set_option maxRecDepth 16384

noncomputable section

namespace Cert.KernelIdeal.HandOut

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable {F : FTy → Type} [FloatOps F]

/-! ## The index maps over the grid -/

/-- Point `t` of the grid has coordinates `(t / 17, t % 17)`; the dispatch rows' and the output's block index there is
    `(t / 17, t % 17, 0)`, each weight matrix's is `(t / 17, 0, 0)`, and the table is read at `t / 17`. -/
theorem idx_facts : ∀ t : Fin grid0.N,
    (grid0.coords t 0).val = t.val / 17 ∧ (grid0.coords t 1).val = t.val % 17
    ∧ cc0_transform_0 (grid0.coords t) 0 = t.val / 17 ∧ cc0_transform_0 (grid0.coords t) 1 = t.val % 17
    ∧ cc0_transform_0 (grid0.coords t) 2 = 0
    ∧ cc0_transform_1 (grid0.coords t) 0 = t.val / 17 ∧ cc0_transform_1 (grid0.coords t) 1 = 0
    ∧ cc0_transform_1 (grid0.coords t) 2 = 0
    ∧ cc0_transform_2 (grid0.coords t) 0 = t.val / 17 ∧ cc0_transform_2 (grid0.coords t) 1 = 0
    ∧ cc0_transform_2 (grid0.coords t) 2 = 0
    ∧ cc0_transform_3 (grid0.coords t) 0 = t.val / 17 ∧ cc0_transform_3 (grid0.coords t) 1 = 0
    ∧ cc0_transform_3 (grid0.coords t) 2 = 0
    ∧ cc0_transform_4 (grid0.coords t) 0 = t.val / 17 ∧ cc0_transform_4 (grid0.coords t) 1 = t.val % 17
    ∧ cc0_transform_4 (grid0.coords t) 2 = 0
    ∧ k0_off1 (grid0.coords t) 0 = t.val / 17 := by
  decide +kernel

/-- The output's block index changes from every point to the next. -/
theorem out_moves : ∀ t : Fin grid0.N, t.val + 1 = grid0.N
    ∨ ∃ h : t.val + 1 < grid0.N, cc0_transform_4 (grid0.coords ⟨t.val + 1, h⟩) ≠ cc0_transform_4 (grid0.coords t) := by
  decide +kernel

section Region

variable (V : (c : Dev nD) → (b : Ref sig .tc) → Buf (Elt F) ((c : Thread nD τ).loc b))
variable (a : (pcfg0 (F := F)).Adm)

/-- The output block is written back at every point. -/
theorem flush4 (t : Fin (cfg0 a).N) : ((cfg0 a).win 4).flush t = true := by
  unfold Window.flush
  have h := out_moves t
  simp only [Bool.and_eq_true, Bool.or_eq_true, decide_eq_true_eq]
  exact ⟨rfl, h⟩

/-- The weight and dispatch windows are inputs. -/
theorem isIn (w : Fin 5) (hw : w ≠ 4) : ((cfg0 a).win w).isOut = false := by
  match w with
  | 0 => rfl
  | 1 => rfl
  | 2 => rfl
  | 3 => rfl
  | 4 => exact absurd rfl hw

/-! ## The input blocks at a point -/

/-- The dispatch rows' block at point `e·17 + r`: rows `r·256 … r·256 + 255` of expert `e`. -/
theorem iblk0_apply (c : Dev nD) (t : Fin (cfg0 a).N) (e : Fin 8) (r : Fin 17) (ht : t.val = e.val * 17 + r.val)
    (y : Fin 256) (k : Fin 1024) :
    (iblk V a c 0 t : Vec F S1x256x1024 .bf16) (ix3 (0 : Fin 1) y k)
      = (V c main_v78 : S8x4352x1024.Idx → Elt F .bf16)
          (ix3 e ⟨r.val * 256 + y.val, by have := r.isLt; have := y.isLt; omega⟩ k) := by
  obtain ⟨g0, g1, a0, a1, a2, -⟩ := idx_facts t
  have := e.isLt; have := r.isLt
  unfold iblk
  refine (View.read_apply (v := (((cfg0 a).win 0).blk t).view) (V c (Pipeline.arrRef spec0 0)) _).trans ?_
  show (V c main_v78 : S8x4352x1024.Idx → Elt F .bf16) _ = _
  congr 1
  funext b
  apply Fin.ext
  match b with
  | ⟨0, _⟩ => show cc0_transform_0 (grid0.coords t) 0 * 1 + 1 * 0 = e.val; rw [a0]; omega
  | ⟨1, _⟩ => show cc0_transform_0 (grid0.coords t) 1 * 256 + 1 * y.val = r.val * 256 + y.val; rw [a1]; omega
  | ⟨2, _⟩ => show cc0_transform_0 (grid0.coords t) 2 * 1024 + 1 * k.val = k.val; rw [a2]; omega

/-- The first weight matrix's block at point `e·17 + r` is expert `e`'s matrix. -/
theorem iblk1_apply (c : Dev nD) (t : Fin (cfg0 a).N) (e : Fin 8) (r : Fin 17) (ht : t.val = e.val * 17 + r.val)
    (k : Fin 1024) (f : Fin 4096) :
    (iblk V a c 1 t : Vec F S1x1024x4096 .bf16) (ix3 (0 : Fin 1) k f)
      = (V c main_v79 : S8x1024x4096.Idx → Elt F .bf16) (ix3 e k f) := by
  obtain ⟨g0, g1, -, -, -, a0, a1, a2, -⟩ := idx_facts t
  have := e.isLt; have := r.isLt
  unfold iblk
  refine (View.read_apply (v := (((cfg0 a).win 1).blk t).view) (V c (Pipeline.arrRef spec0 1)) _).trans ?_
  show (V c main_v79 : S8x1024x4096.Idx → Elt F .bf16) _ = _
  congr 1
  funext b
  apply Fin.ext
  match b with
  | ⟨0, _⟩ => show cc0_transform_1 (grid0.coords t) 0 * 1 + 1 * 0 = e.val; rw [a0]; omega
  | ⟨1, _⟩ => show cc0_transform_1 (grid0.coords t) 1 * 1024 + 1 * k.val = k.val; rw [a1]; omega
  | ⟨2, _⟩ => show cc0_transform_1 (grid0.coords t) 2 * 4096 + 1 * f.val = f.val; rw [a2]; omega

/-- The second weight matrix's block at point `e·17 + r` is expert `e`'s matrix. -/
theorem iblk2_apply (c : Dev nD) (t : Fin (cfg0 a).N) (e : Fin 8) (r : Fin 17) (ht : t.val = e.val * 17 + r.val)
    (k : Fin 1024) (f : Fin 4096) :
    (iblk V a c 2 t : Vec F S1x1024x4096 .bf16) (ix3 (0 : Fin 1) k f)
      = (V c main_v80 : S8x1024x4096.Idx → Elt F .bf16) (ix3 e k f) := by
  obtain ⟨g0, g1, -, -, -, -, -, -, a0, a1, a2, -⟩ := idx_facts t
  have := e.isLt; have := r.isLt
  unfold iblk
  refine (View.read_apply (v := (((cfg0 a).win 2).blk t).view) (V c (Pipeline.arrRef spec0 2)) _).trans ?_
  show (V c main_v80 : S8x1024x4096.Idx → Elt F .bf16) _ = _
  congr 1
  funext b
  apply Fin.ext
  match b with
  | ⟨0, _⟩ => show cc0_transform_2 (grid0.coords t) 0 * 1 + 1 * 0 = e.val; rw [a0]; omega
  | ⟨1, _⟩ => show cc0_transform_2 (grid0.coords t) 1 * 1024 + 1 * k.val = k.val; rw [a1]; omega
  | ⟨2, _⟩ => show cc0_transform_2 (grid0.coords t) 2 * 4096 + 1 * f.val = f.val; rw [a2]; omega

/-- The third weight matrix's block at point `e·17 + r` is expert `e`'s matrix. -/
theorem iblk3_apply (c : Dev nD) (t : Fin (cfg0 a).N) (e : Fin 8) (r : Fin 17) (ht : t.val = e.val * 17 + r.val)
    (f : Fin 4096) (d : Fin 1024) :
    (iblk V a c 3 t : Vec F S1x4096x1024 .bf16) (ix3 (0 : Fin 1) f d)
      = (V c main_v81 : S8x4096x1024.Idx → Elt F .bf16) (ix3 e f d) := by
  obtain ⟨g0, g1, -, -, -, -, -, -, -, -, -, a0, a1, a2, -⟩ := idx_facts t
  have := e.isLt; have := r.isLt
  unfold iblk
  refine (View.read_apply (v := (((cfg0 a).win 3).blk t).view) (V c (Pipeline.arrRef spec0 3)) _).trans ?_
  show (V c main_v81 : S8x4096x1024.Idx → Elt F .bf16) _ = _
  congr 1
  funext b
  apply Fin.ext
  match b with
  | ⟨0, _⟩ => show cc0_transform_3 (grid0.coords t) 0 * 1 + 1 * 0 = e.val; rw [a0]; omega
  | ⟨1, _⟩ => show cc0_transform_3 (grid0.coords t) 1 * 4096 + 1 * f.val = f.val; rw [a1]; omega
  | ⟨2, _⟩ => show cc0_transform_3 (grid0.coords t) 2 * 1024 + 1 * d.val = d.val; rw [a2]; omega

/-! ## The table's word and the body's condition at a point -/

/-- The word the body reads at point `e·17 + r` is the table's entry `e`. -/
theorem tword_eq (t : Fin (cfg0 a).N) (e : Fin 8) (r : Fin 17) (ht : t.val = e.val * 17 + r.val) :
    tword a.1 ((cfg0 a).grid.coords t) = (a.1 0 : S8.Idx → BitVec 32) (ix1 e) := by
  obtain ⟨-, -, -, -, -, -, -, -, -, -, -, -, -, -, -, -, -, ho⟩ := idx_facts t
  have := e.isLt; have := r.isLt
  unfold tword Pipeline.Prefetch.Contents.atD
  rw [dif_pos (fun b => by fin_cases b; exact k0_off1_inb (grid0.coords t) 0)]
  refine congrArg (a.1 0 : S8.Idx → BitVec 32) ?_
  funext b
  apply Fin.ext
  match b with
  | ⟨0, _⟩ => show k0_off1 (grid0.coords t) 0 = e.val; rw [ho]; omega

/-- A one-bit word widened and compared with zero is set exactly when the bit is. -/
theorem ne_zero_extui : ∀ b : BitVec 1, Scalar.cmpi .ne (Scalar.extui b) 0#32 = 1#1 ↔ b = 1#1 := by decide

/-- The signed comparison word is set exactly when the signed values compare. -/
theorem slt_word (x v : BitVec 32) : Scalar.cmpi .slt x v = 1#1 ↔ x.toInt < v.toInt := by
  show BitVec.ofBool (x.slt v) = 1#1 ↔ _
  rw [BitVec.slt_eq_decide]
  by_cases h : x.toInt < v.toInt <;> simp [h]

/-- **The body's condition at point `e·17 + r`**: the network is applied exactly when `r·256`, as a signed word, is below
    the word `v`. -/
theorem cond1_iff (t : Fin (cfg0 a).N) (e : Fin 8) (r : Fin 17) (ht : t.val = e.val * 17 + r.val) (v : BitVec 32) :
    k0_cond1 ((cfg0 a).grid.coords t) v = 1#1 ↔ (BitVec.ofNat 32 (r.val * 256)).toInt < v.toInt := by
  obtain ⟨-, g1, -⟩ := idx_facts t
  have := e.isLt; have := r.isLt
  have hr : (grid0.coords t 1).val = r.val := by rw [g1]; omega
  have hm : Scalar.muli (BitVec.ofNat 32 (grid0.coords t 1).val) 256#32 = BitVec.ofNat 32 (r.val * 256) := by
    rw [hr]
    show BitVec.ofNat 32 r.val * BitVec.ofNat 32 256 = _
    rw [← BitVec.ofNat_mul]
  show Scalar.cmpi .ne (Scalar.extui (Scalar.cmpi .slt (Scalar.muli (BitVec.ofNat 32 (grid0.coords t 1).val) 256#32) v)) 0#32
    = 1#1 ↔ _
  rw [hm]
  exact (ne_zero_extui _).trans (slt_word _ v)

/-! ## From the blocks to the output array -/

/-- What the body leaves in the output window's buffer at point `t`. -/
def blkOut (c : Dev nD) (t : Fin (cfg0 a).N) : Vec F S1x256x1024 .bf16 :=
  outBlk ((cfg0 a).grid.coords t) (tword a.1 ((cfg0 a).grid.coords t)) (iblk V a c 0 t) (iblk V a c 1 t) (iblk V a c 2 t)
    (iblk V a c 3 t)

theorem after4_eq (c : Dev nD) (t : Fin (cfg0 a).N) : (dat0 V a c).after 4 t = blkOut V a c t := after_4 V a c t

/-- The point of expert `e` and row tile `r`. -/
abbrev pt (e : Fin 8) (r : Fin 17) : Fin (cfg0 a).N :=
  ⟨e.val * 17 + r.val, by have := e.isLt; have := r.isLt; show _ < 136; omega⟩

/-- The output array, index by index: entry `(e, p, d)` is entry `(0, p % 256, d)` of what the body leaves at point
    `e·17 + p / 256`. -/
def outArr (c : Dev nD) : S8x4352x1024.Idx → Elt F .bf16 := fun i =>
  blkOut V a c
    ⟨(i 0).val * 17 + (i 1).val / 256, by
      have h0 : (i 0).val < 8 := (i 0).isLt
      have h1 : (i 1).val < 4352 := (i 1).isLt
      show _ < 136; omega⟩
    (ix3 (0 : Fin 1) ⟨(i 1).val % 256, Nat.mod_lt _ (by decide)⟩ (i 2))

/-- The output array at an index whose coordinates are point `t`'s block offset plus `(0, y, d)`. -/
theorem outArr_at (c : Dev nD) (t : Fin (cfg0 a).N) (i : S8x4352x1024.Idx) (y : Fin 256) (d : Fin 1024)
    (h0 : (i 0).val = t.val / 17) (h1 : (i 1).val = t.val % 17 * 256 + y.val) (h2 : (i 2).val = d.val) :
    outArr V a c i = blkOut V a c t (ix3 (0 : Fin 1) y d) := by
  have hy := y.isLt
  have htN : t.val < 136 := t.isLt
  unfold outArr
  refine congrArg₂ (blkOut V a c) (Fin.ext ?_) (funext fun b => Fin.ext ?_)
  · show (i 0).val * 17 + (i 1).val / 256 = t.val
    rw [h0, h1]; omega
  · match b with
    | ⟨0, _⟩ => rfl
    | ⟨1, _⟩ => show (i 1).val % 256 = y.val; rw [h1]; omega
    | ⟨2, _⟩ => exact h2

/-- WHAT POINT `t` WRITES BACK is block `t` of `outArr`. -/
theorem flushed_eq (c : Dev nD) (t : Fin (cfg0 a).N) :
    (dat0 V a c).flushed 4 t = (((cfg0 a).win 4).blk t).view.read (Elt F) (outArr V a c) := by
  show ((cfg0 a).win 4).cut ((cfg0 a).grid.coords t) ((dat0 V a c).after 4 t) = _
  rw [after4_eq]
  obtain ⟨g0, g1, -, -, -, -, -, -, -, -, -, -, -, -, a0, a1, a2, -⟩ := idx_facts t
  refine funext fun (j : S1x256x1024.Idx) => ?_
  have hj0 : (j 0).val < 1 := (j 0).isLt
  have hj1 : (j 1).val < 256 := (j 1).isLt
  have hj2 : (j 2).val < 1024 := (j 2).isLt
  have hx : (((cfg0 a).win 4).xinj ((cfg0 a).grid.coords t) j : S1x256x1024.Idx)
      = ix3 (0 : Fin 1) ⟨(j 1).val, hj1⟩ ⟨(j 2).val, hj2⟩ := by
    funext b; apply Fin.ext
    match b with
    | ⟨0, _⟩ => show (j 0).val = 0; omega
    | ⟨1, _⟩ => rfl
    | ⟨2, _⟩ => rfl
  refine Eq.trans ?_ (View.read_apply (v := (((cfg0 a).win 4).blk t).view) (outArr V a c) j).symm
  show blkOut V a c t (((cfg0 a).win 4).xinj ((cfg0 a).grid.coords t) j)
    = outArr V a c ((((cfg0 a).win 4).blk t).view.emb j)
  refine (congrArg (blkOut V a c t) hx).trans (outArr_at V a c t _ ⟨(j 1).val, hj1⟩ ⟨(j 2).val, hj2⟩ ?_ ?_ ?_).symm
  · show cc0_transform_4 (grid0.coords t) 0 * 1 + 1 * (j 0).val = t.val / 17
    rw [a0]; omega
  · show cc0_transform_4 (grid0.coords t) 1 * 256 + 1 * (j 1).val = t.val % 17 * 256 + (j 1).val
    rw [a1]; omega
  · show cc0_transform_4 (grid0.coords t) 2 * 1024 + 1 * (j 2).val = (j 2).val
    rw [a2]; omega

/-- An index of the output array is in point `t`'s block iff each coordinate is in the block's range on its axis. -/
theorem mem_blk (t : Fin (cfg0 a).N) (i : S8x4352x1024.Idx) :
    i ∈ (((cfg0 a).win 4).blk t).view.set ↔ ∀ b : Fin 3,
      cc0_transform_4 (grid0.coords t) b * S1x256x1024.size b ≤ (i b).val
        ∧ (i b).val < cc0_transform_4 (grid0.coords t) b * S1x256x1024.size b + S1x256x1024.size b := by
  have h := View.set_slice_whole main_v82 (((cfg0 a).win 4).rect t)
  exact (Iff.of_eq (congrArg (fun S : Finset main_v82.ty.shape.Idx => (i : main_v82.ty.shape.Idx) ∈ S) h)).trans
    Rect.mem_set_unit

/-- Every index of the output array is in the block of the point of its expert and row tile. -/
theorem covered (i : S8x4352x1024.Idx) :
    ∃ t : Fin (cfg0 a).N, ((cfg0 a).win 4).flush t = true ∧ i ∈ (((cfg0 a).win 4).blk t).view.set := by
  have h0 : (i 0).val < 8 := (i 0).isLt
  have h1 : (i 1).val < 4352 := (i 1).isLt
  have h2 : (i 2).val < 1024 := (i 2).isLt
  have hlt : (i 0).val * 17 + (i 1).val / 256 < 136 := by omega
  obtain ⟨g0, g1, -, -, -, -, -, -, -, -, -, -, -, -, a0, a1, a2, -⟩ :=
    idx_facts ⟨(i 0).val * 17 + (i 1).val / 256, hlt⟩
  refine ⟨⟨(i 0).val * 17 + (i 1).val / 256, hlt⟩, flush4 a _, ?_⟩
  rw [mem_blk]
  intro b
  match b with
  | ⟨0, _⟩ =>
    show cc0_transform_4 (grid0.coords ⟨(i 0).val * 17 + (i 1).val / 256, hlt⟩) 0 * 1 ≤ (i 0).val
      ∧ (i 0).val < cc0_transform_4 (grid0.coords ⟨(i 0).val * 17 + (i 1).val / 256, hlt⟩) 0 * 1 + 1
    rw [a0]; show ((i 0).val * 17 + (i 1).val / 256) / 17 * 1 ≤ _ ∧ _ < ((i 0).val * 17 + (i 1).val / 256) / 17 * 1 + 1; omega
  | ⟨1, _⟩ =>
    show cc0_transform_4 (grid0.coords ⟨(i 0).val * 17 + (i 1).val / 256, hlt⟩) 1 * 256 ≤ (i 1).val
      ∧ (i 1).val < cc0_transform_4 (grid0.coords ⟨(i 0).val * 17 + (i 1).val / 256, hlt⟩) 1 * 256 + 256
    rw [a1]; show ((i 0).val * 17 + (i 1).val / 256) % 17 * 256 ≤ _ ∧ _ < ((i 0).val * 17 + (i 1).val / 256) % 17 * 256 + 256; omega
  | ⟨2, _⟩ =>
    show cc0_transform_4 (grid0.coords ⟨(i 0).val * 17 + (i 1).val / 256, hlt⟩) 2 * 1024 ≤ (i 2).val
      ∧ (i 2).val < cc0_transform_4 (grid0.coords ⟨(i 0).val * 17 + (i 1).val / 256, hlt⟩) 2 * 1024 + 1024
    rw [a2]; omega

/-- **THE OUTPUT ARRAY after the run** is `outArr`. -/
theorem out_final (c : Dev nD) : (dat0 V a c).arrAt 4 (cfg0 a).N = outArr V a c :=
  (dat0 V a c).arrAt_eq_of_cover 4 (outArr V a c) (fun t _ => flushed_eq V a c t) (covered a)

/-- **The output array at row `r·256 + y` of expert `e`**: entry `(0, y, d)` of what the body leaves at the point of
    `(e, r)`. -/
theorem out_apply (c : Dev nD) (t : Fin (cfg0 a).N) (e : Fin 8) (r : Fin 17) (ht : t.val = e.val * 17 + r.val)
    (y : Fin 256) (d : Fin 1024) :
    ((dat0 V a c).arrAt 4 (cfg0 a).N : S8x4352x1024.Idx → Elt F .bf16)
        (ix3 e ⟨r.val * 256 + y.val, by have := r.isLt; have := y.isLt; omega⟩ d)
      = outBlk ((cfg0 a).grid.coords t) (tword a.1 ((cfg0 a).grid.coords t)) (iblk V a c 0 t) (iblk V a c 1 t)
          (iblk V a c 2 t) (iblk V a c 3 t) (ix3 (0 : Fin 1) y d) := by
  have := e.isLt; have := r.isLt; have := y.isLt
  refine (congrFun (out_final V a c) _).trans (outArr_at V a c t _ y d ?_ ?_ rfl)
  · show e.val = t.val / 17; omega
  · show r.val * 256 + y.val = t.val % 17 * 256 + y.val; omega

/-- The same at a row `p` of the array: the point is that of `(e, p / 256)`, the block's row `p % 256`. -/
theorem out_apply_row (c : Dev nD) (e : Fin 8) (p : Fin 4352) (d : Fin 1024) :
    ((dat0 V a c).arrAt 4 (cfg0 a).N : S8x4352x1024.Idx → Elt F .bf16) (ix3 e p d)
      = outBlk ((cfg0 a).grid.coords (pt a e ⟨p.val / 256, by have := p.isLt; omega⟩))
          (tword a.1 ((cfg0 a).grid.coords (pt a e ⟨p.val / 256, by have := p.isLt; omega⟩)))
          (iblk V a c 0 (pt a e ⟨p.val / 256, by have := p.isLt; omega⟩))
          (iblk V a c 1 (pt a e ⟨p.val / 256, by have := p.isLt; omega⟩))
          (iblk V a c 2 (pt a e ⟨p.val / 256, by have := p.isLt; omega⟩))
          (iblk V a c 3 (pt a e ⟨p.val / 256, by have := p.isLt; omega⟩))
          (ix3 (0 : Fin 1) ⟨p.val % 256, Nat.mod_lt _ (by decide)⟩ d) := by
  have := e.isLt; have hp := p.isLt
  refine (congrFun (out_final V a c) _).trans (outArr_at V a c _ _ ⟨p.val % 256, Nat.mod_lt _ (by decide)⟩ d ?_ ?_ rfl)
  · show e.val = (e.val * 17 + p.val / 256) / 17; omega
  · show p.val = (e.val * 17 + p.val / 256) % 17 * 256 + p.val % 256; omega

/-- The input arrays are as the region found them. -/
theorem in_kept (c : Dev nD) (w : Fin 5) (hw : w ≠ 4) :
    (dat0 V a c).arrAt w (cfg0 a).N = V c (Pipeline.arrRef spec0 w) :=
  ((dat0 V a c).arrAt_in w (isIn a w hw) (cfg0 a).N).trans (A_eq V a c w)

end Region

end Cert.KernelIdeal.HandOut
end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.FfnKernel.lean ====
/-
  One expert's feed-forward block on the vector unit, read at one entry.

  The block's payload casts its operands to matrices, forms the two up-projections X·W₁ and X·W₂ (products
  into a zero accumulator), gates the first by its logistic, multiplies by the second, and projects down by
  W₃. At the ideal values the narrowing to bf16 is the identity and every product is an exact sum, so entry
  (y, d) of the result is

      Σ_f ((h₁ f · logistic (h₁ f)) · h₂ f) · W₃(f, d),   h₁ f = Σ_k X(y, k) · W₁(k, f),   h₂ f = Σ_k X(y, k) · W₂(k, f),

  with the association the operations give: the gate first, then the second projection. The other payload is a
  splat of the bf16 zero.
-/
import proofs.«167530_j18451179504175_2_alg».proof.Proof.Gen.KernelIdeal.Skeleton
import proofs.«167530_j18451179504175_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section
open scoped BigOperators

namespace Cert.Ffn.Kernel

open Idealize.ShloMosaic Idealize.ShloMosaic.ValueIdx Cert.KernelIdeal Cert.KernelIdeal.Gen

/-- The [256,1024] x [1024,4096] product into zeros, at (y, f). -/
theorem mmUp_apply (l : FVec Ideal S256x1024 .bf16) (r : FVec Ideal S1024x4096 .bf16) (y : Fin 256) (f : Fin 4096) :
    matmul dot_S256x1024_S1024x4096_S256x4096_1_0_0_1_n_n none l r (constant S256x4096 .f32 0x00000000#32) (ix2 y f)
      = ∑ k : Fin 1024, l (ix2 y k) * r (ix2 k f) := by
  refine (Ideal.matmul_constant_zero_apply dot_S256x1024_S1024x4096_S256x4096_1_0_0_1_n_n none l r (ix2 y f)).trans ?_
  exact Cert.Sage.LibDot.sum_plain dot_S256x1024_S1024x4096_S256x4096_1_0_0_1_n_n rfl rfl
    (fun _ _ => rfl) (fun _ _ => rfl) (fun _ _ => rfl) (fun _ _ => rfl) l r y f

/-- The [256,4096] x [4096,1024] product into zeros, at (y, d). -/
theorem mmDown_apply (l : FVec Ideal S256x4096 .bf16) (r : FVec Ideal S4096x1024 .bf16) (y : Fin 256) (d : Fin 1024) :
    matmul dot_S256x4096_S4096x1024_S256x1024_1_0_0_1_n_n none l r (constant S256x1024 .f32 0x00000000#32) (ix2 y d)
      = ∑ f : Fin 4096, l (ix2 y f) * r (ix2 f d) := by
  refine (Ideal.matmul_constant_zero_apply dot_S256x4096_S4096x1024_S256x1024_1_0_0_1_n_n none l r (ix2 y d)).trans ?_
  exact Cert.Sage.LibDot.sum_plain dot_S256x4096_S4096x1024_S256x1024_1_0_0_1_n_n rfl rfl
    (fun _ _ => rfl) (fun _ _ => rfl) (fun _ _ => rfl) (fun _ _ => rfl) l r y d

/-- A block's rows against one expert's up-projection, both read through their leading unit axis. -/
theorem up_apply (X : FVec Ideal S1x256x1024 .bf16) (W : FVec Ideal S1x1024x4096 .bf16) (y : Fin 256) (f : Fin 4096) :
    matmul (F := Ideal) dot_S256x1024_S1024x4096_S256x4096_1_0_0_1_n_n none
        (shapeCast S256x1024 X shapeCasts_S1x256x1024_S256x1024)
        (shapeCast S1024x4096 W shapeCasts_S1x1024x4096_S1024x4096)
        (constant S256x4096 .f32 0x00000000#32) (ix2 y f)
      = ∑ k : Fin 1024, X (ix3 0 y k) * W (ix3 0 k f) := by
  refine (mmUp_apply _ _ y f).trans ?_
  refine Finset.sum_congr rfl fun k _ => ?_
  rw [shapeCast_1ab_ab_apply, shapeCast_1ab_ab_apply]

theorem pay1_apply (v9 : Vec Ideal S1x256x1024 .bf16) (v11 v14 : Vec Ideal S1x1024x4096 .bf16)
    (v21 : Vec Ideal S1x4096x1024 .bf16) (y : Fin 256) (d : Fin 1024) :
    k0_pay1 (F := Ideal) v9 v11 v14 v21 (ix3 0 y d)
      = ∑ f : Fin 4096,
          (((∑ k : Fin 1024, v9 (ix3 0 y k) * v11 (ix3 0 k f))
              * Ideal.logistic (∑ k : Fin 1024, v9 (ix3 0 y k) * v11 (ix3 0 k f)))
            * (∑ k : Fin 1024, v9 (ix3 0 y k) * v14 (ix3 0 k f)))
          * v21 (ix3 0 f d) := by
  unfold k0_pay1
  refine (shapeCast_ab_1ab_apply _ _ 0 y d).trans ?_
  refine (mmDown_apply _ _ y d).trans ?_
  refine Finset.sum_congr rfl fun f _ => ?_
  refine congrArg₂ (· * ·) ?_ (shapeCast_1ab_ab_apply v21 _ f d)
  exact congrArg₂ (· * ·) (congrArg₂ (· * ·) (up_apply v9 v11 y f) (congrArg Ideal.logistic (up_apply v9 v11 y f))) (up_apply v9 v14 y f)

theorem pay2_apply (y : Fin 256) (d : Fin 1024) : k0_pay2 (F := Ideal) (ix3 0 y d) = 0 := by
  unfold k0_pay2
  refine (shapeCast_ab_1ab_apply _ _ 0 y d).trans ?_
  show Ideal.ofBits .bf16 0x0000#16 = 0
  simp [Ideal.ofBits, Ideal.ieee]

end Cert.Ffn.Kernel
end
-- ==== Proof.FfnRef.lean ====
/-
  The host's feed-forward block over all experts, read at one entry.

  The host forms, for every expert e at once, the two batched up-projections P·W₁ and P·W₂ (batch axis the expert,
  contracted axis the model width), gates the first by x · (1 / (1 + exp (−x))), multiplies by the second, and
  projects down by the batched product with W₃. A batched product read at (e, c, ·) sums over the contracted
  coordinate within expert e, and 1 / (1 + exp (−x)) is the logistic of x by its definition, so entry (e, c, d) is

      Σ_f ((g₁ f · logistic (g₁ f)) · g₂ f) · W₃(e, f, d),   g₁ f = Σ_k P(e, c, k) · W₁(e, k, f),   g₂ f = Σ_k P(e, c, k) · W₂(e, k, f).
-/
import proofs.«167530_j18451179504175_2_alg».proof.ReferenceIdeal
import proofs.«167530_j18451179504175_2_alg».proof.Proof.Gen.ReferenceIdeal
import Idealize.ShloMosaic.Lib.ValueIdx
import Idealize.ShloMosaic.Lib.StackMember
import Idealize.ShloMosaic.Lib.IdealHost
import Idealize.ShloMosaic.PureOps.Ideal.Laws

noncomputable section
open scoped BigOperators

namespace Cert.Ffn.Ref

open Idealize.ShloMosaic Idealize.ShloMosaic.ValueIdx Cert.ReferenceIdeal Cert.ReferenceIdeal.Gen

/-- The host's gated activation as its operations spell it: x · (1 / (1 + exp (−x))), the ones broadcast scalars. -/
def siluRef (x : FVec Ideal S8x4097x4096 .f32) : FVec Ideal S8x4097x4096 .f32 :=
  mulf x
    (Host.divf (broadcastInDim S8x4097x4096 ![] bcast_S_S8x4097x4096 (constant (F := Ideal) S_ .f32 0x3F800000#32))
      (addf (broadcastInDim S8x4097x4096 ![] bcast_S_S8x4097x4096 (constant (F := Ideal) S_ .f32 0x3F800000#32))
        (Host.exp (Host.negf x))))

/-- The host's feed-forward block over all experts: two batched up-projections, the gate, their product, and the
    batched down-projection. -/
def ffnRef (P : FVec Ideal S8x4097x1024 .f32) (a3 a4 : FVec Ideal S8x1024x4096 .f32)
    (a5 : FVec Ideal S8x4096x1024 .f32) : FVec Ideal S8x4097x1024 .f32 :=
  Host.dotGeneral dot_S8x4097x4096_S8x4096x1024_S8x4097x1024_2_1_1_2_0_0 none
    (mulf (siluRef (Host.dotGeneral dot_S8x4097x1024_S8x1024x4096_S8x4097x4096_2_1_1_2_0_0 none P a3))
      (Host.dotGeneral dot_S8x4097x1024_S8x1024x4096_S8x4097x4096_2_1_1_2_0_0 none P a4))
    a5

/-- x · (1 / (1 + exp (−x))) is x times the logistic of x, by the logistic's definition. -/
theorem siluRef_apply (x : FVec Ideal S8x4097x4096 .f32) (i : S8x4097x4096.Idx) :
    siluRef x i = x i * Ideal.logistic (x i) := by
  show x i * Ideal.div (broadcastInDim S8x4097x4096 ![] bcast_S_S8x4097x4096 (constant (F := Ideal) S_ .f32 0x3F800000#32) i)
      (broadcastInDim S8x4097x4096 ![] bcast_S_S8x4097x4096 (constant (F := Ideal) S_ .f32 0x3F800000#32) i + Ideal.exp (-(x i)))
    = x i * Ideal.logistic (x i)
  rw [broadcastInDim_scalar_apply]
  show x i * Ideal.div (Ideal.ofBits .f32 0x3F800000#32) (Ideal.ofBits .f32 0x3F800000#32 + Ideal.exp (-(x i))) = _
  rw [Ideal.ofBits_one_f32]
  rfl

theorem upRef_apply (P : FVec Ideal S8x4097x1024 .f32) (W : FVec Ideal S8x1024x4096 .f32)
    (e : Fin 8) (c : Fin 4097) (f : Fin 4096) :
    Host.dotGeneral dot_S8x4097x1024_S8x1024x4096_S8x4097x4096_2_1_1_2_0_0 none P W (ix3 e c f)
      = ∑ k : Fin 1024, P (ix3 e c k) * W (ix3 e k f) :=
  StackMember.dotGeneral_stack_apply dot_S8x4097x1024_S8x1024x4096_S8x4097x4096_2_1_1_2_0_0_wf none P W e c f

theorem downRef_apply (H : FVec Ideal S8x4097x4096 .f32) (W : FVec Ideal S8x4096x1024 .f32)
    (e : Fin 8) (c : Fin 4097) (d : Fin 1024) :
    Host.dotGeneral dot_S8x4097x4096_S8x4096x1024_S8x4097x1024_2_1_1_2_0_0 none H W (ix3 e c d)
      = ∑ f : Fin 4096, H (ix3 e c f) * W (ix3 e f d) :=
  StackMember.dotGeneral_stack_apply dot_S8x4097x4096_S8x4096x1024_S8x4097x1024_2_1_1_2_0_0_wf none H W e c d

theorem ffnRef_apply (P : FVec Ideal S8x4097x1024 .f32) (a3 a4 : FVec Ideal S8x1024x4096 .f32)
    (a5 : FVec Ideal S8x4096x1024 .f32) (e : Fin 8) (c : Fin 4097) (d : Fin 1024) :
    ffnRef P a3 a4 a5 (ix3 e c d)
      = ∑ f : Fin 4096,
          (((∑ k : Fin 1024, P (ix3 e c k) * a3 (ix3 e k f))
              * Ideal.logistic (∑ k : Fin 1024, P (ix3 e c k) * a3 (ix3 e k f)))
            * (∑ k : Fin 1024, P (ix3 e c k) * a4 (ix3 e k f)))
          * a5 (ix3 e f d) := by
  unfold ffnRef
  refine (downRef_apply _ a5 e c d).trans ?_
  refine Finset.sum_congr rfl fun f _ => ?_
  refine congrArg (· * a5 (ix3 e f d)) ?_
  refine congrArg₂ (· * ·) ((siluRef_apply _ _).trans ?_) (upRef_apply P a4 e c f)
  rw [upRef_apply P a3 e c f]

end Cert.Ffn.Ref
end
-- ==== Proof.FfnAgree.lean ====
/-
  The vector unit's feed-forward block and the host's are one formula.

  When a block's rows are rows of the host's padded table for expert e, and the block's three weight operands
  are expert e's weights, entry (y, d) of the block's result and entry (e, c, d) of the host's are the same sums
  of the same terms. No finiteness is needed.
-/
import proofs.«167530_j18451179504175_2_alg».proof.Proof.FfnKernel
import proofs.«167530_j18451179504175_2_alg».proof.Proof.FfnRef

noncomputable section
open scoped BigOperators

namespace Cert.Ffn

open Idealize.ShloMosaic Idealize.ShloMosaic.ValueIdx

theorem ffn_agree (v9 : Vec Ideal Cert.KernelIdeal.S1x256x1024 .bf16)
    (v11 v14 : Vec Ideal Cert.KernelIdeal.S1x1024x4096 .bf16) (v21 : Vec Ideal Cert.KernelIdeal.S1x4096x1024 .bf16)
    (P : FVec Ideal Cert.ReferenceIdeal.S8x4097x1024 .f32) (a3 a4 : FVec Ideal Cert.ReferenceIdeal.S8x1024x4096 .f32)
    (a5 : FVec Ideal Cert.ReferenceIdeal.S8x4096x1024 .f32)
    (y : Fin 256) (e : Fin 8) (c : Fin 4097)
    (hx : ∀ k : Fin 1024, v9 (ix3 0 y k) = P (ix3 e c k))
    (h1 : ∀ (k : Fin 1024) (f : Fin 4096), v11 (ix3 0 k f) = a3 (ix3 e k f))
    (h2 : ∀ (k : Fin 1024) (f : Fin 4096), v14 (ix3 0 k f) = a4 (ix3 e k f))
    (h3 : ∀ (f : Fin 4096) (d : Fin 1024), v21 (ix3 0 f d) = a5 (ix3 e f d))
    (d : Fin 1024) :
    Cert.KernelIdeal.Gen.k0_pay1 (F := Ideal) v9 v11 v14 v21 (ix3 0 y d) = Ref.ffnRef P a3 a4 a5 (ix3 e c d) := by
  refine (Kernel.pay1_apply v9 v11 v14 v21 y d).trans ((Ref.ffnRef_apply P a3 a4 a5 e c d).trans ?_).symm
  refine Finset.sum_congr rfl fun f _ => ?_
  have e1 : (∑ k : Fin 1024, P (ix3 e c k) * a3 (ix3 e k f)) = ∑ k : Fin 1024, v9 (ix3 0 y k) * v11 (ix3 0 k f) :=
    Finset.sum_congr rfl fun k _ => by rw [hx k, h1 k f]
  have e2 : (∑ k : Fin 1024, P (ix3 e c k) * a4 (ix3 e k f)) = ∑ k : Fin 1024, v9 (ix3 0 y k) * v14 (ix3 0 k f) :=
    Finset.sum_congr rfl fun k _ => by rw [hx k, h2 k f]
  rw [e1, e2, h3 f d]

end Cert.Ffn
end
-- ==== Proof.RefRoute.lean ====
/-
  The reference program's integer routing stages are the same functions as the kernel program's.

  Both programs flatten the expert indices, sort them stably, gather tokens, expert indices and weights at the order,
  count the entries per expert, take the exclusive prefix sums, and subtract to get each entry's slot inside its
  expert's block. The two programs name the same dimension records and the same shapes; so stage by stage the two
  composed functions are equal, and every fact about the kernel program's routing holds for the reference's.
-/
import proofs.«167530_j18451179504175_2_alg».proof.Proof.Route
import proofs.«167530_j18451179504175_2_alg».proof.Proof.RefStages

noncomputable section

namespace Cert.RefRoute

open Idealize.ShloMosaic Idealize.ShloMosaic.ValueIdx
open Cert.KernelIdeal (S8192x2 S16384 S8)

/-! ## The record constants of the two programs are the same records -/

theorem comparator_eq : Cert.ReferenceIdeal.comparator_i32_i32_d0 = Cert.KernelIdeal.comparator_i32_i32_d0 := rfl

theorem gather_S16384_eq :
    Cert.ReferenceIdeal.gather_S16384_S16384x1_S16384_n_0_n_n_0_1_1
      = Cert.KernelIdeal.gather_S16384_S16384x1_S16384_n_0_n_n_0_1_1 := rfl

theorem gather_S8_eq :
    Cert.ReferenceIdeal.gather_S8_S16384x1_S16384_n_0_n_n_0_1_1
      = Cert.KernelIdeal.gather_S8_S16384x1_S16384_n_0_n_n_0_1_1 := rfl

theorem scatter_S8_eq :
    Cert.ReferenceIdeal.scatter_S8_S16384x1_S16384_n_0_0_1 = Cert.KernelIdeal.scatter_S8_S16384x1_S16384_n_0_0_1 := rfl

/-! ## The integer stages of the two programs are the same functions -/

theorem flat_eq (a1 : IVec S8192x2 32) : Cert.ReferenceIdeal.Hand.flat a1 = Cert.KernelIdeal.Route.flat a1 := rfl

theorem order_eq (a1 : IVec S8192x2 32) : Cert.ReferenceIdeal.Hand.order a1 = Cert.KernelIdeal.Route.order a1 := by
  unfold Cert.ReferenceIdeal.Hand.order Cert.KernelIdeal.Route.order
  rw [comparator_eq, flat_eq]

/-- The wrapped order as a one-column array, in the reference's spelling. -/
theorem orderIdx_eq (a1 : IVec S8192x2 32) :
    (broadcastInDim Cert.ReferenceIdeal.S16384x1 ![0] Cert.ReferenceIdeal.Facts₀.bcast_S16384_S16384x1_0
      (select (cmpi .slt (Cert.ReferenceIdeal.Hand.order a1) (broadcastInDim Cert.ReferenceIdeal.S16384 ![] Cert.ReferenceIdeal.Facts₀.bcast_S_S16384
          (constantI Cert.ReferenceIdeal.S_ 32 0#32)))
        (addi (Cert.ReferenceIdeal.Hand.order a1) (broadcastInDim Cert.ReferenceIdeal.S16384 ![] Cert.ReferenceIdeal.Facts₀.bcast_S_S16384
          (constantI Cert.ReferenceIdeal.S_ 32 16384#32))) (Cert.ReferenceIdeal.Hand.order a1)))
      = Cert.KernelIdeal.Route.col (Cert.KernelIdeal.Route.wrapS16384 (Cert.KernelIdeal.Route.order a1) 16384#32) := by
  rw [order_eq]
  rfl

theorem stok_eq (a1 : IVec S8192x2 32) : Cert.ReferenceIdeal.Hand.stok a1 = Cert.KernelIdeal.Route.stok a1 := by
  unfold Cert.ReferenceIdeal.Hand.stok Cert.KernelIdeal.Route.stok
  rw [orderIdx_eq, gather_S16384_eq]
  rfl

theorem seid_eq (a1 : IVec S8192x2 32) : Cert.ReferenceIdeal.Hand.seid a1 = Cert.KernelIdeal.Route.seid a1 := by
  unfold Cert.ReferenceIdeal.Hand.seid Cert.KernelIdeal.Route.seid
  rw [orderIdx_eq, gather_S16384_eq, flat_eq]

theorem counts_eq (a1 : IVec S8192x2 32) : Cert.ReferenceIdeal.Hand.counts a1 = Cert.KernelIdeal.Route.counts a1 := by
  unfold Cert.ReferenceIdeal.Hand.counts Cert.KernelIdeal.Route.counts
  rw [scatter_S8_eq, flat_eq]
  rfl

theorem segst_eq (a1 : IVec S8192x2 32) : Cert.ReferenceIdeal.Hand.segst a1 = Cert.KernelIdeal.Route.segs a1 := by
  unfold Cert.ReferenceIdeal.Hand.segst Cert.KernelIdeal.Route.segs Cert.KernelIdeal.Route.cums
  rw [counts_eq]

theorem pos_eq (a1 : IVec S8192x2 32) : Cert.ReferenceIdeal.Hand.pos a1 = Cert.KernelIdeal.Route.pos a1 := by
  unfold Cert.ReferenceIdeal.Hand.pos Cert.KernelIdeal.Route.pos
  rw [gather_S8_eq, segst_eq, seid_eq]
  rfl

theorem valid_eq (a1 : IVec S8192x2 32) : Cert.ReferenceIdeal.Hand.valid a1 = Cert.KernelIdeal.Route.valid a1 := by
  unfold Cert.ReferenceIdeal.Hand.valid Cert.KernelIdeal.Route.valid
  rw [pos_eq]

theorem posc_eq (a1 : IVec S8192x2 32) : Cert.ReferenceIdeal.Hand.posc a1 = Cert.KernelIdeal.Route.posc a1 := by
  unfold Cert.ReferenceIdeal.Hand.posc Cert.KernelIdeal.Route.posc
  rw [pos_eq]

/-! ## The index wraps in the reference's spelling -/

/-- The wrap of negative entries in the reference's spelling is the same function. -/
theorem wrap_eq (v : IVec S16384 32) (n : BitVec 32) :
    select (cmpi .slt v (broadcastInDim Cert.ReferenceIdeal.S16384 ![] Cert.ReferenceIdeal.Facts₀.bcast_S_S16384
        (constantI Cert.ReferenceIdeal.S_ 32 0#32)))
      (addi v (broadcastInDim Cert.ReferenceIdeal.S16384 ![] Cert.ReferenceIdeal.Facts₀.bcast_S_S16384
        (constantI Cert.ReferenceIdeal.S_ 32 n))) v
      = Cert.KernelIdeal.Route.wrapS16384 v n := rfl

/-- The one-column layout in the reference's spelling is the same function. -/
theorem col_eq (v : IVec S16384 32) :
    broadcastInDim Cert.ReferenceIdeal.S16384x1 ![0] Cert.ReferenceIdeal.Facts₀.bcast_S16384_S16384x1_0 v = Cert.KernelIdeal.Route.col v := rfl

/-! ## The sorted weights, and the weights kept where the slot is valid -/

variable {F : FTy → Type} [FloatOps F]

/-- The weight at a sorted position is the weight of the entry put there. -/
theorem swts_apply (a1 : IVec S8192x2 32) (a2 : FVec F S8192x2 .f32) (i : Fin 16384) :
    Cert.ReferenceIdeal.Hand.swts a1 a2 (ix1 i)
      = shapeCast Cert.ReferenceIdeal.S16384 a2 Cert.ReferenceIdeal.Facts₀.shapeCasts_S8192x2_S16384 (ix1 (Cert.KernelIdeal.Route.σ a1 i)) := by
  unfold Cert.ReferenceIdeal.Hand.swts
  rw [orderIdx_eq, gather_S16384_eq]
  exact Cert.KernelIdeal.Route.sorted_gather _ a1 i

theorem wsel_apply (a1 : IVec S8192x2 32) (a2 : FVec F S8192x2 .f32) (j : S16384.Idx) :
    Cert.ReferenceIdeal.Hand.wsel a1 a2 j = Scalar.select (Cert.KernelIdeal.Route.valid a1 j) (Cert.ReferenceIdeal.Hand.swts a1 a2 j)
      ((broadcastInDim Cert.ReferenceIdeal.S16384 ![] Cert.ReferenceIdeal.Facts₀.bcast_S_S16384
        (id (constant Cert.ReferenceIdeal.S_ .f32 0x00000000#32)) : FVec F S16384 .f32) j) := by
  unfold Cert.ReferenceIdeal.Hand.wsel
  rw [valid_eq]
  rfl

/-- Where the slot is below the capacity, the kept weight is the weight of the entry put at that sorted position. -/
theorem wsel_of_lt (a1 : IVec S8192x2 32) (a2 : FVec F S8192x2 .f32) (i : Fin 16384)
    (h : (Cert.KernelIdeal.Route.pos a1 (ix1 i)).toInt < 4096) :
    Cert.ReferenceIdeal.Hand.wsel a1 a2 (ix1 i)
      = shapeCast Cert.ReferenceIdeal.S16384 a2 Cert.ReferenceIdeal.Facts₀.shapeCasts_S8192x2_S16384 (ix1 (Cert.KernelIdeal.Route.σ a1 i)) := by
  rw [wsel_apply, (Cert.KernelIdeal.Route.valid_eq_one_iff a1 (ix1 i)).mpr h, select_one, swts_apply]

/-- Where the slot is at or above the capacity, the kept weight is the zero constant. -/
theorem wsel_of_ge (a1 : IVec S8192x2 32) (a2 : FVec F S8192x2 .f32) (i : Fin 16384)
    (h : ¬ (Cert.KernelIdeal.Route.pos a1 (ix1 i)).toInt < 4096) :
    Cert.ReferenceIdeal.Hand.wsel a1 a2 (ix1 i)
      = (broadcastInDim Cert.ReferenceIdeal.S16384 ![] Cert.ReferenceIdeal.Facts₀.bcast_S_S16384
        (id (constant Cert.ReferenceIdeal.S_ .f32 0x00000000#32)) : FVec F S16384 .f32) (ix1 i) := by
  rw [wsel_apply, eq_zero_of_ne_one (fun hv => h ((Cert.KernelIdeal.Route.valid_eq_one_iff a1 (ix1 i)).mp hv)), select_zero]

end Cert.RefRoute

end
-- ==== Proof.KBridge.lean ====
/-
  The expert network's output array in the kernel program is the reference's feed-forward formula on the reference's
  dispatch buffer, at every row of a computed tile.

  Row p < 4097 of expert e lies in row tile p / 256. Where that tile starts below the table's entry for e, the body at
  the tile's point applies the network to its block of the dispatch buffer and expert e's weights. The kernel's
  dispatch buffer and the reference's hold the same rows there (the same updates arrive in the same order), the weights
  are the arguments narrowed to bf16 — the identity on extended reals — and the block's network and the reference's
  batched one are one formula. So the output array at (e, p, d) is the reference's formula at (e, p, d).
-/
import proofs.«167530_j18451179504175_2_alg».proof.Proof.KOut
import proofs.«167530_j18451179504175_2_alg».proof.Proof.Dispatch
import proofs.«167530_j18451179504175_2_alg».proof.Proof.FfnAgree
import proofs.«167530_j18451179504175_2_alg».proof.Proof.Route
import proofs.«167530_j18451179504175_2_alg».proof.Proof.RefStages
import proofs.«167530_j18451179504175_2_alg».proof.Proof.RefRoute

set_option maxRecDepth 16384

noncomputable section

namespace Cert.KBridge

open Cert.KernelIdeal Cert.KernelIdeal.Gen Cert.KernelIdeal.Hand Cert.KernelIdeal.HandOut
open Cert.KernelIdeal.Route
open Idealize.ShloMosaic Idealize.ShloMosaic.TcCoe Idealize.ShloMosaic.ValueIdx
open Idealize.SL.Sem

/-- Where the body's condition holds its output block is the network's. -/
theorem outBlk_pos {F : FTy → Type} [FloatOps F] (i : grid0.Coords) (v : BitVec 32) (x0 : Vec F S1x256x1024 .bf16)
    (x1 x2 : Vec F S1x1024x4096 .bf16) (x3 : Vec F S1x4096x1024 .bf16) (h : k0_cond1 i v = 1#1) :
    outBlk i v x0 x1 x2 x3 = k0_pay1 x0 x1 x2 x3 := by
  unfold outBlk
  exact if_pos h

/-- **The reference's dispatch buffer** is the overwriting scatter of the sorted token rows at the pairs (expert, capped
    slot): the wrap-around of negative indices changes none of the three index vectors. -/
theorem padded_eq (a0 : FVec Ideal S8192x1024 .f32) (a1 : IVec S8192x2 32)
    (hr : ∀ j, 0 ≤ (a1 j).toInt ∧ (a1 j).toInt < 8) :
    Cert.ReferenceIdeal.Hand.padded (F := Ideal) a0 a1
      = Host.scatter Cert.ReferenceIdeal.scatter_S8x4097x1024_S16384x2_S16384x1024_1_01_01_1 (fun _ b => b)
          (broadcastInDim Cert.ReferenceIdeal.S8x4097x1024 ![] Cert.ReferenceIdeal.Facts₀.bcast_S_S8x4097x1024
            (constant (F := Ideal) Cert.ReferenceIdeal.S_ .f32 0x00000000#32))
          (Cert.Dispatch.idxR (seid a1) (posc a1))
          (Host.gather gather_S8192x1024_S16384x1_S16384x1024_1_0_n_n_0_1_11024 a0 (col (stok a1))) := by
  unfold Cert.ReferenceIdeal.Hand.padded Cert.ReferenceIdeal.Hand.xg
  rw [Cert.RefRoute.seid_eq, Cert.RefRoute.posc_eq, Cert.RefRoute.stok_eq]
  show Host.scatter Cert.ReferenceIdeal.scatter_S8x4097x1024_S16384x2_S16384x1024_1_01_01_1 (fun _ b => b)
      (broadcastInDim Cert.ReferenceIdeal.S8x4097x1024 ![] Cert.ReferenceIdeal.Facts₀.bcast_S_S8x4097x1024
        (constant (F := Ideal) Cert.ReferenceIdeal.S_ .f32 0x00000000#32))
      (Cert.Dispatch.idxR (wrapS16384 (seid a1) 8#32) (wrapS16384 (posc a1) 4097#32))
      (Host.gather gather_S8192x1024_S16384x1_S16384x1024_1_0_n_n_0_1_11024 a0 (col (wrapS16384 (stok a1) 8192#32))) = _
  rw [wrap_seid a1 hr, wrap_posc a1 hr, wrap_stok a1]

/-- **The kernel's output array at a row of a computed tile is the reference's formula.** The boundary contents — the
    table, the dispatch buffer and the three weight arrays as the region finds them — enter as hypotheses. -/
theorem out_is_ffn (V : (c : Dev nD) → (b : Ref sig .tc) → Buf (Elt Ideal) ((c : Thread nD τ).loc b))
    (a : (pcfg0 (F := Ideal)).Adm) (c : Dev nD)
    (a0 : FVec Ideal S8192x1024 .f32) (a1 : IVec S8192x2 32) (a3 a4 : FVec Ideal S8x1024x4096 .f32)
    (a5 : FVec Ideal S8x4096x1024 .f32)
    (hr : ∀ j, 0 ≤ (a1 j).toInt ∧ (a1 j).toInt < 8)
    (h55 : (a.1 0 : S8.Idx → BitVec 32) = table a1)
    (h78 : (V c main_v78 : S8x4352x1024.Idx → Elt Ideal .bf16)
      = Host.scatter scatter_S8x4352x1024_S16384x2_S16384x1024_1_01_01_1 (fun _ b => b)
          (broadcastInDim S8x4352x1024 ![] bcast_S_S8x4352x1024 (constant (F := Ideal) S_ .bf16 0x0000#16))
          (Cert.Dispatch.idxK (wrapS16384 (seid a1) 8#32) (wrapS16384 (posc a1) 4352#32))
          (truncf .bf16 (Host.gather gather_S8192x1024_S16384x1_S16384x1024_1_0_n_n_0_1_11024 a0
            (col (wrapS16384 (stok a1) 8192#32))) bitsLt_bf16_f32))
    (h79 : (V c main_v79 : S8x1024x4096.Idx → Elt Ideal .bf16) = truncf .bf16 a3 bitsLt_bf16_f32)
    (h80 : (V c main_v80 : S8x1024x4096.Idx → Elt Ideal .bf16) = truncf .bf16 a4 bitsLt_bf16_f32)
    (h81 : (V c main_v81 : S8x4096x1024.Idx → Elt Ideal .bf16) = truncf .bf16 a5 bitsLt_bf16_f32) :
    ∀ (e : Fin 8) (p : Fin 4097) (d : Fin 1024),
      (BitVec.ofNat 32 (p.val / 256 * 256)).toInt < (table a1 (ix1 e)).toInt →
      ((dat0 V a c).arrAt 4 (cfg0 a).N : S8x4352x1024.Idx → Elt Ideal .bf16)
          (ix3 e ⟨p.val, Nat.lt_of_lt_of_le p.isLt (by decide)⟩ d)
        = Cert.Ffn.Ref.ffnRef (Cert.ReferenceIdeal.Hand.padded (F := Ideal) a0 a1) a3 a4 a5 (ix3 e p d) := by
  intro e p d hlt
  have hp := p.isLt
  have hrl : p.val / 256 < 17 := by omega
  have hyl : p.val % 256 < 256 := Nat.mod_lt _ (by decide)
  -- the point of (e, p / 256), and the row p % 256 inside its block
  have ht : (pt a e ⟨p.val / 256, hrl⟩).val = e.val * 17 + (⟨p.val / 256, hrl⟩ : Fin 17).val := rfl
  -- the body's condition holds there: the table's word is the table's entry e
  have hc : k0_cond1 ((cfg0 a).grid.coords (pt a e ⟨p.val / 256, hrl⟩))
      (tword a.1 ((cfg0 a).grid.coords (pt a e ⟨p.val / 256, hrl⟩))) = 1#1 := by
    refine (cond1_iff a (pt a e ⟨p.val / 256, hrl⟩) e ⟨p.val / 256, hrl⟩ ht _).2 ?_
    rw [tword_eq a (pt a e ⟨p.val / 256, hrl⟩) e ⟨p.val / 256, hrl⟩ ht, h55]
    exact hlt
  refine (out_apply_row V a c e ⟨p.val, Nat.lt_of_lt_of_le p.isLt (by decide)⟩ d).trans ?_
  refine (congrFun (outBlk_pos _ _ _ _ _ _ hc) _).trans ?_
  refine Cert.Ffn.ffn_agree _ _ _ _ (Cert.ReferenceIdeal.Hand.padded (F := Ideal) a0 a1) a3 a4 a5 ⟨p.val % 256, hyl⟩ e p
    (fun k => ?_) (fun k f => ?_) (fun k f => ?_) (fun f d' => ?_) d
  · -- the block's row is the reference's dispatch row
    refine (iblk0_apply V a c (pt a e ⟨p.val / 256, hrl⟩) e ⟨p.val / 256, hrl⟩ ht ⟨p.val % 256, hyl⟩ k).trans ?_
    have hrow : (⟨(⟨p.val / 256, hrl⟩ : Fin 17).val * 256 + (⟨p.val % 256, hyl⟩ : Fin 256).val,
        by show p.val / 256 * 256 + p.val % 256 < 4352; omega⟩ : Fin 4352)
        = ⟨p.val, Nat.lt_of_lt_of_le p.isLt (by decide)⟩ :=
      Fin.ext (by show p.val / 256 * 256 + p.val % 256 = p.val; omega)
    rw [hrow, h78, wrap_seid a1 hr, wrap_posc a1 hr, wrap_stok a1, padded_eq a0 a1 hr]
    exact Cert.Dispatch.padded_agree_zeros (seid a1) (posc a1) _ e p k
  · exact (iblk1_apply V a c (pt a e ⟨p.val / 256, hrl⟩) e ⟨p.val / 256, hrl⟩ ht k f).trans (congrFun h79 _)
  · exact (iblk2_apply V a c (pt a e ⟨p.val / 256, hrl⟩) e ⟨p.val / 256, hrl⟩ ht k f).trans (congrFun h80 _)
  · exact (iblk3_apply V a c (pt a e ⟨p.val / 256, hrl⟩) e ⟨p.val / 256, hrl⟩ ht f d').trans (congrFun h81 _)

end Cert.KBridge
end
-- ==== Proof.Bridge.lean ====
/-
  The two programs' combine steps read the same rows. For every sorted slot the kernel's gather of its output array at
  (expert, clamped position) is the reference's gather of the per-expert network's output there, given that the kernel's
  array holds the network's value on every row whose 256-row tile starts below min(count, 4097): the slot's row is such a
  row, because its position is below its expert's count and at most 4096. No wrap of a negative index fires: the expert
  ids, the clamped positions and the tokens are non-negative.
-/
import proofs.«167530_j18451179504175_2_alg».proof.Proof.Route
import proofs.«167530_j18451179504175_2_alg».proof.Proof.Dispatch
import proofs.«167530_j18451179504175_2_alg».proof.Proof.FfnRef
import proofs.«167530_j18451179504175_2_alg».proof.Proof.RefStages
import proofs.«167530_j18451179504175_2_alg».proof.Proof.RefRoute
import Idealize.ShloMosaic.Lib.ValueIdx

noncomputable section

namespace Cert.Bridge

open Idealize.ShloMosaic Idealize.ShloMosaic.ValueIdx
open Cert.KernelIdeal.Route

/-- The reference's network stage is the network of its dispatch buffer. -/
theorem eout_eq (a0 : FVec Ideal Cert.ReferenceIdeal.S8192x1024 .f32) (a1 : IVec Cert.ReferenceIdeal.S8192x2 32) (a3 a4 : FVec Ideal Cert.ReferenceIdeal.S8x1024x4096 .f32) (a5 : FVec Ideal Cert.ReferenceIdeal.S8x4096x1024 .f32) :
    Cert.ReferenceIdeal.Hand.eout a0 a1 a3 a4 a5 = Cert.Ffn.Ref.ffnRef (Cert.ReferenceIdeal.Hand.padded a0 a1) a3 a4 a5 := rfl

/-- The reference's index array of (expert, clamped position) pairs, in the kernel-side names. -/
theorem idxR_eq (a1 : IVec Cert.ReferenceIdeal.S8192x2 32) (hr : ∀ j, 0 ≤ (a1 j).toInt ∧ (a1 j).toInt < 8) :
    (concatenate Cert.ReferenceIdeal.S16384x2 1 [⟨Cert.ReferenceIdeal.S16384x1, (broadcastInDim Cert.ReferenceIdeal.S16384x1 ![0] Cert.ReferenceIdeal.Facts₀.bcast_S16384_S16384x1_0 (select (cmpi .slt (Cert.ReferenceIdeal.Hand.seid a1) (broadcastInDim Cert.ReferenceIdeal.S16384 ![] Cert.ReferenceIdeal.Facts₀.bcast_S_S16384 (constantI Cert.ReferenceIdeal.S_ 32 0#32))) (addi (Cert.ReferenceIdeal.Hand.seid a1) (broadcastInDim Cert.ReferenceIdeal.S16384 ![] Cert.ReferenceIdeal.Facts₀.bcast_S_S16384 (constantI Cert.ReferenceIdeal.S_ 32 8#32))) (Cert.ReferenceIdeal.Hand.seid a1)))⟩, ⟨Cert.ReferenceIdeal.S16384x1, (broadcastInDim Cert.ReferenceIdeal.S16384x1 ![0] Cert.ReferenceIdeal.Facts₀.bcast_S16384_S16384x1_0 (select (cmpi .slt (Cert.ReferenceIdeal.Hand.posc a1) (broadcastInDim Cert.ReferenceIdeal.S16384 ![] Cert.ReferenceIdeal.Facts₀.bcast_S_S16384 (constantI Cert.ReferenceIdeal.S_ 32 0#32))) (addi (Cert.ReferenceIdeal.Hand.posc a1) (broadcastInDim Cert.ReferenceIdeal.S16384 ![] Cert.ReferenceIdeal.Facts₀.bcast_S_S16384 (constantI Cert.ReferenceIdeal.S_ 32 4097#32))) (Cert.ReferenceIdeal.Hand.posc a1)))⟩] Cert.ReferenceIdeal.Facts₀.concatenates_S16384x1_S16384x1_S16384x2_d1)
      = Cert.Dispatch.idxR (seid a1) (posc a1) := by
  rw [Cert.RefRoute.seid_eq, Cert.RefRoute.posc_eq]
  show Cert.Dispatch.idxR (wrapS16384 (seid a1) 8#32) (wrapS16384 (posc a1) 4097#32) = _
  rw [wrap_seid a1 hr, wrap_posc a1 hr]

theorem gath_eq (a0 : FVec Ideal Cert.ReferenceIdeal.S8192x1024 .f32) (a1 : IVec Cert.ReferenceIdeal.S8192x2 32) (a3 a4 : FVec Ideal Cert.ReferenceIdeal.S8x1024x4096 .f32) (a5 : FVec Ideal Cert.ReferenceIdeal.S8x4096x1024 .f32)
    (hr : ∀ j, 0 ≤ (a1 j).toInt ∧ (a1 j).toInt < 8)
    (OUT : FVec Ideal Cert.KernelIdeal.S8x4352x1024 .bf16)
    (hOUT : ∀ (e : Fin 8) (p : Fin 4097) (d : Fin 1024),
      (BitVec.ofNat 32 (p.val / 256 * 256)).toInt < (table a1 (ix1 e)).toInt →
      OUT (ix3 e ⟨p.val, Nat.lt_of_lt_of_le p.isLt (by decide)⟩ d) = Cert.Ffn.Ref.ffnRef (Cert.ReferenceIdeal.Hand.padded a0 a1) a3 a4 a5 (ix3 e p d)) :
    extf .f32 (Host.gather Cert.KernelIdeal.gather_S8x4352x1024_S16384x2_S16384x1024_1_01_n_n_01_1_111024 OUT
        (Cert.Dispatch.idxK (wrapS16384 (seid a1) 8#32) (wrapS16384 (posc a1) 4352#32))) Cert.KernelIdeal.Facts₀.bitsLt_bf16_f32
      = Cert.ReferenceIdeal.Hand.gath a0 a1 a3 a4 a5 := by
  funext j
  obtain ⟨i, d, rfl⟩ : ∃ (i : Fin 16384) (d : Fin 1024), j = ix2 i d := ⟨j 0, j 1, eq_ix2 j⟩
  have hE : ∀ j : Cert.KernelIdeal.S16384.Idx, 0 ≤ (seid a1 j).toInt ∧ (seid a1 j).toInt < 8 := fun j => by
    rw [eq_ix1 j]; exact seid_range a1 hr _
  have hQ : ∀ j : Cert.KernelIdeal.S16384.Idx, 0 ≤ (posc a1 j).toInt ∧ (posc a1 j).toInt ≤ 4096 := fun j => by
    rw [eq_ix1 j]; exact posc_range a1 hr _
  rw [extf_apply, wrap_seid a1 hr, wrap_posc a1 hr, Cert.Dispatch.gatherK_apply (seid a1) (posc a1) hE hQ OUT i d]
  unfold Cert.ReferenceIdeal.Hand.gath
  rw [idxR_eq a1 hr, Cert.Dispatch.gatherR_apply (seid a1) (posc a1) hE hQ _ i d, eout_eq]
  obtain ⟨e, p, he, hp, hact, hen, hpn⟩ := tile_of_entry a1 hr i
  have key : ∀ (x : Fin 8) (y : Fin 4352) (y' : Fin 4097), x.val = e.val → y.val = p.val → y'.val = p.val →
      OUT (ix3 x y d) = Cert.Ffn.Ref.ffnRef (Cert.ReferenceIdeal.Hand.padded a0 a1) a3 a4 a5 (ix3 x y' d) := by
    intro x y y' hx hy hy'
    obtain rfl : x = e := Fin.ext hx
    obtain rfl : y = ⟨p.val, Nat.lt_of_lt_of_le p.isLt (by decide)⟩ := Fin.ext hy
    obtain rfl : y' = p := Fin.ext hy'
    exact hOUT x y' d hact
  exact key _ _ _ hen hpn hpn

end Cert.Bridge
end
-- ==== Proof.ResK.lean ====
/-
  The two results are one term: the scatter-add of the weighted gathered rows at the slots' tokens. The tokens, the
  validity mask and the sorted weights are the same stages in both programs; the gathered rows agree by the combine lemma.
-/
import proofs.«167530_j18451179504175_2_alg».proof.Proof.Bridge

noncomputable section

namespace Cert.Bridge

open Idealize.ShloMosaic Idealize.ShloMosaic.ValueIdx
open Cert.KernelIdeal.Route

/-- The kernel program's combine term, from its output array and the routing stages. -/
def resK (OUT : FVec Ideal Cert.KernelIdeal.S8x4352x1024 .bf16) (a1 : IVec Cert.KernelIdeal.S8192x2 32) (a2 : FVec Ideal Cert.KernelIdeal.S8192x2 .f32) : FVec Ideal Cert.KernelIdeal.S8192x1024 .f32 :=
  Host.scatterAdd Cert.KernelIdeal.scatter_S8192x1024_S16384x1_S16384x1024_1_0_0_1
    (broadcastInDim Cert.KernelIdeal.S8192x1024 ![] Cert.KernelIdeal.Facts₀.bcast_S_S8192x1024 (constant (F := Ideal) Cert.KernelIdeal.S_ .f32 0x00000000#32))
    (col (wrapS16384 (stok a1) 8192#32))
    (mulf (extf .f32 (Host.gather Cert.KernelIdeal.gather_S8x4352x1024_S16384x2_S16384x1024_1_01_n_n_01_1_111024 OUT
        (Cert.Dispatch.idxK (wrapS16384 (seid a1) 8#32) (wrapS16384 (posc a1) 4352#32))) Cert.KernelIdeal.Facts₀.bitsLt_bf16_f32)
      (broadcastInDim Cert.KernelIdeal.S16384x1024 ![0, 1] Cert.KernelIdeal.Facts₀.bcast_S16384x1_S16384x1024_0_1
        (broadcastInDim Cert.KernelIdeal.S16384x1 ![0] Cert.KernelIdeal.Facts₀.bcast_S16384_S16384x1_0
          (select (valid a1)
            (Host.gather Cert.KernelIdeal.gather_S16384_S16384x1_S16384_n_0_n_n_0_1_1 (shapeCast Cert.KernelIdeal.S16384 a2 Cert.KernelIdeal.Facts₀.shapeCasts_S8192x2_S16384) (col (wrapS16384 (order a1) 16384#32)))
            (broadcastInDim Cert.KernelIdeal.S16384 ![] Cert.KernelIdeal.Facts₀.bcast_S_S16384 (id (constant (F := Ideal) Cert.KernelIdeal.S_ .f32 0x00000000#32)))))))

theorem resK_eq (a0 : FVec Ideal Cert.ReferenceIdeal.S8192x1024 .f32) (a1 : IVec Cert.ReferenceIdeal.S8192x2 32) (a2 : FVec Ideal Cert.ReferenceIdeal.S8192x2 .f32) (a3 a4 : FVec Ideal Cert.ReferenceIdeal.S8x1024x4096 .f32) (a5 : FVec Ideal Cert.ReferenceIdeal.S8x4096x1024 .f32)
    (hr : ∀ j, 0 ≤ (a1 j).toInt ∧ (a1 j).toInt < 8)
    (OUT : FVec Ideal Cert.KernelIdeal.S8x4352x1024 .bf16)
    (hOUT : ∀ (e : Fin 8) (p : Fin 4097) (d : Fin 1024),
      (BitVec.ofNat 32 (p.val / 256 * 256)).toInt < (table a1 (ix1 e)).toInt →
      OUT (ix3 e ⟨p.val, Nat.lt_of_lt_of_le p.isLt (by decide)⟩ d) = Cert.Ffn.Ref.ffnRef (Cert.ReferenceIdeal.Hand.padded a0 a1) a3 a4 a5 (ix3 e p d)) :
    resK OUT a1 a2 = Cert.ReferenceIdeal.Hand.result a0 a1 a2 a3 a4 a5 := by
  unfold resK
  rw [gath_eq a0 a1 a3 a4 a5 hr OUT hOUT]
  unfold Cert.ReferenceIdeal.Hand.result Cert.ReferenceIdeal.Hand.wsel Cert.ReferenceIdeal.Hand.swts
  rw [Cert.RefRoute.stok_eq, Cert.RefRoute.valid_eq, Cert.RefRoute.order_eq]
  rfl

end Cert.Bridge
end
-- ==== Proof.FinalCore.lean ====
/-
  The combine term of the kernel's output array and the routing stages is the reference's result, where every expert id
  lies in 0..7 — for ANY region-entry contents and table that hold the routing's values: the output array holds the network
  of the reference's dispatch buffer on every computed tile, and the two combine terms then agree.
-/
import proofs.«167530_j18451179504175_2_alg».proof.Proof.KTail
import proofs.«167530_j18451179504175_2_alg».proof.Proof.KBridge
import proofs.«167530_j18451179504175_2_alg».proof.Proof.ResK

noncomputable section

namespace Cert.Final

open Idealize.ShloMosaic Idealize.ShloMosaic.TcCoe Idealize.ShloMosaic.ValueIdx Idealize.SL.Sem
open Cert.KernelIdeal Cert.KernelIdeal.Gen Cert.KernelIdeal.Hand Cert.KernelIdeal.Route

theorem core (V : (c : Dev nD) → (b : Ref sig .tc) → Buf (Elt Ideal) ((c : Thread nD τ).loc b)) (a : (pcfg0 (F := Ideal)).Adm) (c : Dev nD)
    (a0 : FVec Ideal S8192x1024 .f32) (a1 : IVec S8192x2 32) (a2 : FVec Ideal S8192x2 .f32) (a3 a4 : FVec Ideal S8x1024x4096 .f32) (a5 : FVec Ideal S8x4096x1024 .f32)
    (hr : ∀ j, 0 ≤ (a1 j).toInt ∧ (a1 j).toInt < 8)
    (h55 : (a.1 0 : S8.Idx → BitVec 32) = table a1)
    (h78 : (V c main_v78 : S8x4352x1024.Idx → Elt Ideal .bf16) = Host.scatter scatter_S8x4352x1024_S16384x2_S16384x1024_1_01_01_1 (fun _ b => b)
      (broadcastInDim S8x4352x1024 ![] bcast_S_S8x4352x1024 (constant (F := Ideal) S_ .bf16 0x0000#16))
      (Cert.Dispatch.idxK (wrapS16384 (seid a1) 8#32) (wrapS16384 (posc a1) 4352#32))
      (truncf .bf16 (Host.gather gather_S8192x1024_S16384x1_S16384x1024_1_0_n_n_0_1_11024 a0 (col (wrapS16384 (stok a1) 8192#32))) bitsLt_bf16_f32))
    (h79 : (V c main_v79 : S8x1024x4096.Idx → Elt Ideal .bf16) = truncf .bf16 a3 bitsLt_bf16_f32)
    (h80 : (V c main_v80 : S8x1024x4096.Idx → Elt Ideal .bf16) = truncf .bf16 a4 bitsLt_bf16_f32)
    (h81 : (V c main_v81 : S8x4096x1024.Idx → Elt Ideal .bf16) = truncf .bf16 a5 bitsLt_bf16_f32) :
    Cert.KernelIdeal.Tail.tailTerm (F := Ideal) (stok a1) (seid a1) (posc a1)
        (Host.gather gather_S16384_S16384x1_S16384_n_0_n_n_0_1_1 (shapeCast S16384 a2 shapeCasts_S8192x2_S16384) (col (wrapS16384 (order a1) 16384#32)))
        (valid a1) ((dat0 V a c).arrAt 4 (cfg0 a).N)
      = Cert.ReferenceIdeal.Hand.result (F := Ideal) a0 a1 a2 a3 a4 a5 :=
  Cert.Bridge.resK_eq a0 a1 a2 a3 a4 a5 hr _ (Cert.KBridge.out_is_ffn V a c a0 a1 a3 a4 a5 hr h55 h78 h79 h80 h81)

end Cert.Final
end
-- ==== Proof.Final.lean ====
/-
  The kernel program's result is the reference's result of the same arguments, where every expert id lies in 0..7: the
  fold at the result buffer is the tail's combine term of the region's exit contents; those are the routing stages and
  the pipeline's output array; and the combine term of these is the reference's result.
-/
import proofs.«167530_j18451179504175_2_alg».proof.Proof.KRun
import proofs.«167530_j18451179504175_2_alg».proof.Proof.KStages
import proofs.«167530_j18451179504175_2_alg».proof.Proof.FinalCore

noncomputable section

namespace Cert.Final

open Idealize.ShloMosaic Idealize.ShloMosaic.TcCoe Idealize.ShloMosaic.ValueIdx Idealize.SL.Sem
open Cert.KernelIdeal Cert.KernelIdeal.Gen Cert.KernelIdeal.Hand Cert.KernelIdeal.Route

theorem dep_congr {ι : Type} {β : ι → Type} (f : (i : ι) → β i) {i j : ι} (h : i = j) : HEq (f i) (f j) := by subst h; rfl

theorem ref0 : pre0.ref (0 : Fin 1) = main_v55 := rfl

/-- The table the pipeline runs at is the routing's count table: there is one device, and the table's buffer is the one the
    routing's last stretch wrote. -/
theorem v55_adm (m : (ℓ : Loc nD τ sig) → Buf (Elt Ideal) ℓ) (ρ : Dev nD → PrngReg) (c : Dev nD) :
    @Eq (S8.Idx → BitVec 32) ((adm (F := Ideal) m ρ).1 0) (table (m ((c : Thread nD τ).loc main_arg1) : IVec S8192x2 32)) := by
  obtain rfl : c = 0 := Subsingleton.elim _ _
  have e := Cert.KernelIdeal.Stages.v55_eq (F := Ideal) m ρ 0
  have h1 : HEq (V7 (F := Ideal) m ρ 0 (pre0.ref 0)) (V7 (F := Ideal) m ρ 0 main_v55) := dep_congr (V7 (F := Ideal) m ρ 0) ref0
  have h2 : (adm (F := Ideal) m ρ).1 0 = V7 (F := Ideal) m ρ 0 (pre0.ref 0) := congrFun (pre_eq (F := Ideal) m ρ 0).symm 0
  exact eq_of_heq ((heq_of_eq h2).trans (h1.trans (heq_of_eq e)))

theorem kernel_result (m : (ℓ : Loc nD τ sig) → Buf (Elt Ideal) ℓ) (ρ : Dev nD → PrngReg) (c : Dev nD)
    (hr : ∀ j, 0 ≤ ((m ((c : Thread nD τ).loc main_arg1) : IVec S8192x2 32) j).toInt ∧ ((m ((c : Thread nD τ).loc main_arg1) : IVec S8192x2 32) j).toInt < 8) :
    W11 (F := Ideal) m ρ c (Proc.devRef .tc main_v109)
      = Cert.ReferenceIdeal.Hand.result (F := Ideal) (m ((c : Thread nD τ).loc main_arg0) : FVec Ideal S8192x1024 .f32) (m ((c : Thread nD τ).loc main_arg1) : IVec S8192x2 32) (m ((c : Thread nD τ).loc main_arg2) : FVec Ideal S8192x2 .f32) (m ((c : Thread nD τ).loc main_arg3) : FVec Ideal S8x1024x4096 .f32) (m ((c : Thread nD τ).loc main_arg4) : FVec Ideal S8x1024x4096 .f32) (m ((c : Thread nD τ).loc main_arg5) : FVec Ideal S8x4096x1024 .f32) := by
  have h12 : @Eq (IVec S16384 32) (W7 (F := Ideal) m ρ c (Proc.devRef .tc main_v12)) (stok (m ((c : Thread nD τ).loc main_arg1) : IVec S8192x2 32)) := Cert.KernelIdeal.Stages.v12_eq (F := Ideal) m ρ c
  have h19 : @Eq (IVec S16384 32) (W7 (F := Ideal) m ρ c (Proc.devRef .tc main_v19)) (seid (m ((c : Thread nD τ).loc main_arg1) : IVec S8192x2 32)) := Cert.KernelIdeal.Stages.v19_eq (F := Ideal) m ρ c
  have h53 : @Eq (IVec S16384 32) (W7 (F := Ideal) m ρ c (Proc.devRef .tc main_v53)) (posc (m ((c : Thread nD τ).loc main_arg1) : IVec S8192x2 32)) := Cert.KernelIdeal.Stages.v53_eq (F := Ideal) m ρ c
  have h51 : @Eq (IVec S16384 1) (W7 (F := Ideal) m ρ c (Proc.devRef .tc main_v51)) (valid (m ((c : Thread nD τ).loc main_arg1) : IVec S8192x2 32)) := Cert.KernelIdeal.Stages.v51_eq (F := Ideal) m ρ c
  have h26 : @Eq (FVec Ideal S16384 .f32) (W7 (F := Ideal) m ρ c (Proc.devRef .tc main_v26)) (Host.gather gather_S16384_S16384x1_S16384_n_0_n_n_0_1_1 (shapeCast S16384 (m ((c : Thread nD τ).loc main_arg2) : FVec Ideal S8192x2 .f32) shapeCasts_S8192x2_S16384) (col (wrapS16384 (order (m ((c : Thread nD τ).loc main_arg1) : IVec S8192x2 32)) 16384#32))) := Cert.KernelIdeal.Stages.v26_eq (F := Ideal) m ρ c
  have h55 : @Eq (S8.Idx → BitVec 32) ((adm (F := Ideal) m ρ).1 0) (table (m ((c : Thread nD τ).loc main_arg1) : IVec S8192x2 32)) := v55_adm m ρ c
  have h78 : @Eq (S8x4352x1024.Idx → Elt Ideal .bf16) (V7 (F := Ideal) m ρ c main_v78) (Host.scatter scatter_S8x4352x1024_S16384x2_S16384x1024_1_01_01_1 (fun _ b => b) (broadcastInDim S8x4352x1024 ![] bcast_S_S8x4352x1024 (constant (F := Ideal) S_ .bf16 0x0000#16)) (Cert.Dispatch.idxK (wrapS16384 (seid (m ((c : Thread nD τ).loc main_arg1) : IVec S8192x2 32)) 8#32) (wrapS16384 (posc (m ((c : Thread nD τ).loc main_arg1) : IVec S8192x2 32)) 4352#32)) (truncf (F := Ideal) .bf16 (Host.gather gather_S8192x1024_S16384x1_S16384x1024_1_0_n_n_0_1_11024 (m ((c : Thread nD τ).loc main_arg0) : FVec Ideal S8192x1024 .f32) (col (wrapS16384 (stok (m ((c : Thread nD τ).loc main_arg1) : IVec S8192x2 32)) 8192#32))) bitsLt_bf16_f32)) := Cert.KernelIdeal.Stages.v78_eq (F := Ideal) m ρ c
  have h79 : @Eq (S8x1024x4096.Idx → Elt Ideal .bf16) (V7 (F := Ideal) m ρ c main_v79) (truncf (F := Ideal) .bf16 (m ((c : Thread nD τ).loc main_arg3) : FVec Ideal S8x1024x4096 .f32) bitsLt_bf16_f32) := Cert.KernelIdeal.Stages.v79_eq (F := Ideal) m ρ c
  have h80 : @Eq (S8x1024x4096.Idx → Elt Ideal .bf16) (V7 (F := Ideal) m ρ c main_v80) (truncf (F := Ideal) .bf16 (m ((c : Thread nD τ).loc main_arg4) : FVec Ideal S8x1024x4096 .f32) bitsLt_bf16_f32) := Cert.KernelIdeal.Stages.v80_eq (F := Ideal) m ρ c
  have h81 : @Eq (S8x4096x1024.Idx → Elt Ideal .bf16) (V7 (F := Ideal) m ρ c main_v81) (truncf (F := Ideal) .bf16 (m ((c : Thread nD τ).loc main_arg5) : FVec Ideal S8x4096x1024 .f32) bitsLt_bf16_f32) := Cert.KernelIdeal.Stages.v81_eq (F := Ideal) m ρ c
  rw [Cert.KernelIdeal.Tail.res_at_W8 m ρ c,
    W8_of_ne m ρ c main_v12 (by decide), W8_of_ne m ρ c main_v19 (by decide), W8_of_ne m ρ c main_v53 (by decide),
    W8_of_ne m ρ c main_v26 (by decide), W8_of_ne m ρ c main_v51 (by decide),
    show W8 (F := Ideal) m ρ c (Proc.devRef .tc main_v82) = (dat0 (V7 m ρ) (adm m ρ) c).arrAt 4 (cfg0 (adm m ρ)).N from W8_arr m ρ c 4,
    h12, h19, h53, h26, h51]
  exact core (V7 (F := Ideal) m ρ) (adm m ρ) c (m ((c : Thread nD τ).loc main_arg0) : FVec Ideal S8192x1024 .f32) (m ((c : Thread nD τ).loc main_arg1) : IVec S8192x2 32) (m ((c : Thread nD τ).loc main_arg2) : FVec Ideal S8192x2 .f32) (m ((c : Thread nD τ).loc main_arg3) : FVec Ideal S8x1024x4096 .f32) (m ((c : Thread nD τ).loc main_arg4) : FVec Ideal S8x1024x4096 .f32) (m ((c : Thread nD τ).loc main_arg5) : FVec Ideal S8x4096x1024 .f32) hr h55 h78 h79 h80 h81

end Cert.Final
end
-- ==== Proof.lean ====
/-
  The certificate of a mixture-of-experts feed-forward kernel against its plain reference, over the extended reals.

  Both programs route every (token, choice) slot to its expert by one stable sort of the expert ids, count the slots
  per expert, take running sums of the counts as the experts' segment starts, and give each sorted slot its position
  inside its expert's segment, clamped to the capacity 4096 (row 4096 is the shared overflow row). They scatter the
  tokens' rows into a per-expert dispatch buffer at (expert, clamped position), apply per expert the gated network
  (silu(p·w1) * (p·w2))·w3 to every row, gather the rows back at the same (expert, clamped position), weigh them (weight
  zero beyond the capacity) and scatter-add them into the result at the slots' tokens.

  The kernel differs in two ways. Its dispatch buffer has 4352 rows per expert, not 4097; and its grid computes the
  network only on the 256-row tiles that start below min(count, 4097), writing zeros on the others. Where every expert
  id lies in 0..7 neither difference is visible in the result: a sorted slot's position is non-negative and below its
  expert's count, so its clamped position is below min(count, 4097) and the tile holding that row is computed; rows
  0..4096 of the two dispatch buffers receive the same updates in the same order; and the rows the gather reads are
  exactly such rows. The change of float format around the kernel's matrix products is the identity over the
  extended reals, and the kernel's logistic is the reference's 1 / (1 + exp(-x)).

  The three frames: each kernel program's run is composed segment by segment (routing stretches, the network's region
  with the count table held by the body's invariant, combine stretches); the reference's run is its operations in order.
-/
import proofs.«167530_j18451179504175_2_alg».proof.Defs
import proofs.«167530_j18451179504175_2_alg».proof.Proof.Gen.Kernel
import proofs.«167530_j18451179504175_2_alg».proof.Proof.Gen.KernelIdeal
import proofs.«167530_j18451179504175_2_alg».proof.Proof.Gen.ReferenceIdeal
import proofs.«167530_j18451179504175_2_alg».proof.Proof.Gen.Pre_finite_inputs
import proofs.«167530_j18451179504175_2_alg».proof.Proof.KRun
import proofs.«167530_j18451179504175_2_alg».proof.Proof.BRun
import proofs.«167530_j18451179504175_2_alg».proof.Proof.RefFrame
import proofs.«167530_j18451179504175_2_alg».proof.Proof.PreRange
import proofs.«167530_j18451179504175_2_alg».proof.Proof.RefRun
import proofs.«167530_j18451179504175_2_alg».proof.Proof.Final
import Idealize.ShloMosaic.Adequacy
import Idealize.ShloMosaic.Init

noncomputable section

namespace Cert.Proof

open Idealize.ShloMosaic Idealize.ShloMosaic.TcCoe Idealize.SL.Sem

/-- The kernel program as printed runs to the end, faults nowhere, and leaves its arguments as launched: its run with
    the result dropped. -/
theorem frame_p : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Hand.run (F := Bits) m ρ)

/-- The same program read over the extended reals. -/
theorem frame_pi : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Hand.run (F := Ideal) m ρ)

/-- The reference runs to the end, faults nowhere, and leaves its arguments as launched. -/
theorem frame_ri : Cert.frame_ReferenceIdeal (hReferenceIdeal := Cert.ReferenceIdeal.Gen.facts) (hPre_finite_inputs := Cert.Pre_finite_inputs.Gen.facts) :=
  Cert.ReferenceIdeal.Hand.frame

/-- From memories agreeing on the arguments both programs run to the end with the arguments unchanged, and the kernel's
    result is the reference's: the expert ids lie in 0..7 by the precondition, so the kernel's result is the reference's
    result of its own arguments, which are the reference's. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.W11 (F := Ideal) m ρ c (Proc.devRef .tc Cert.KernelIdeal.main_v109), Cert.KernelIdeal.Hand.run (F := Ideal) m ρ, ?_⟩
  refine (θ_run (Cert.ReferenceIdeal.defs (F := Ideal)) _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2]
  exact (Cert.Final.kernel_result m ρ c (Cert.PreRange.idx_range _ _ _ _ _ _ (hpre c))).symm

theorem claim : Cert.Claim := ⟨Cert.Kernel.Gen.facts, Cert.KernelIdeal.Gen.facts, Cert.ReferenceIdeal.Gen.facts, Cert.Pre_finite_inputs.Gen.facts, by
  -- the idealized kernel is the kernel's own text read over the extended reals (no operation was rewritten), so the fourth conjunct is `True`
  exact ⟨frame_p, frame_pi, frame_ri, trivial, algebraic⟩⟩

end Cert.Proof

end
